-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x64 : Shape := ⟨2, ![16384, 64]⟩
abbrev S16384 : Shape := ⟨1, ![16384]⟩
abbrev S1000x64 : Shape := ⟨2, ![1000, 64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S1000x64 : S_.BroadcastsInDim S1000x64 (![] : Fin 0 → Fin S1000x64.rank)
  reducesTo_S1000x64_S_d0_1 : S1000x64.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg1 : IVec S16384 32) (main_v13 : IVec S_ 1) (main_v15 : IVec S16384 1) (main_c_5 : IVec S_ 32) : IVec S_ 1 :=
  let main_v16 : IVec S16384 32 := broadcastInDim S16384 ![] bcast_S_S16384 main_c_5
  let main_v17 : IVec S16384 1 := cmpi .sle main_arg1 main_v16
  let main_v18 : IVec S16384 1 := andi main_v15 main_v17
  let main_c_6 : IVec S_ 1 := constantI S_ 1 1#1
  let main_v19 : IVec S_ 1 := (fun x v => Host.reduce IntOp.andi x v reducesTo_S16384_S_d0 h_S_) main_v18 main_c_6
  let main_v20 : IVec S_ 1 := andi main_v13 main_v19
  main_v20

def fn {F : FTy → Type} [FloatOps F] (main_arg0 : FVec F S16384x64 .f32) (main_arg1 : IVec S16384 32) (main_arg2 : FVec F S16384x64 .f32) (main_arg3 : FVec F S1000x64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S16384x64 .f32 := Host.absf main_arg2
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  let main_v9 : FVec F S1000x64 .f32 := Host.absf main_arg3
  let main_cst_2 : FVec F S_ .f32 := constant S_ .f32 0x7F800000#32
  let main_v10 : FVec F S1000x64 .f32 := broadcastInDim S1000x64 ![] bcast_S_S1000x64 main_cst_2
  let main_v11 : IVec S1000x64 1 := cmpf .olt main_v9 main_v10
  let main_c_3 : IVec S_ 1 := constantI S_ 1 1#1
  let main_v12 : IVec S_ 1 := (fun x v => Host.reduce IntOp.andi x v reducesTo_S1000x64_S_d0_1 h_S_) main_v11 main_c_3
  let main_v13 : IVec S_ 1 := andi main_v8 main_v12
  let main_c_4 : IVec S_ 32 := constantI S_ 32 0#32
  let main_v14 : IVec S16384 32 := broadcastInDim S16384 ![] bcast_S_S16384 main_c_4
  let main_v15 : IVec S16384 1 := cmpi .sge main_arg1 main_v14
  let main_c_5 : IVec S_ 32 := constantI S_ 32 999#32
  fn_part1 (F := F) main_arg1 main_v13 main_v15 main_c_5
-- ==== Kernel.lean ====
abbrev S16384x64 : Shape := ⟨2, ![16384, 64]⟩
abbrev S16384 : Shape := ⟨1, ![16384]⟩
abbrev S1000x64 : Shape := ⟨2, ![1000, 64]⟩
abbrev S64x16384 : Shape := ⟨2, ![64, 16384]⟩
abbrev S64000 : Shape := ⟨1, ![64000]⟩
abbrev S512 : Shape := ⟨1, ![512]⟩
abbrev S64x128 : Shape := ⟨2, ![64, 128]⟩
abbrev S_ : Shape := ⟨0, ![]⟩
abbrev S16 : Shape := ⟨1, ![16]⟩
abbrev S1x16384 : Shape := ⟨2, ![1, 16384]⟩

abbrev nBuf : Table → Nat
  | .hbm => 9
  | .local .scVector .vmem => 7
  | _ => 0

abbrev bufTy : (tb : Table) → Fin (nBuf tb) → BufTy
  | .hbm, ⟨0, _⟩ => ⟨S16384x64, .f32⟩
  | .hbm, ⟨1, _⟩ => ⟨S16384, .i32⟩
  | .hbm, ⟨2, _⟩ => ⟨S16384x64, .f32⟩
  | .hbm, ⟨3, _⟩ => ⟨S1000x64, .f32⟩
  | .hbm, ⟨4, _⟩ => ⟨S64x16384, .f32⟩
  | .hbm, ⟨5, _⟩ => ⟨S64x16384, .f32⟩
  | .hbm, ⟨6, _⟩ => ⟨S64000, .f32⟩
  | .hbm, ⟨7, _⟩ => ⟨S16384, .f32⟩
  | .hbm, ⟨8, _⟩ => ⟨S1x16384, .f32⟩
  | .local .scVector .vmem, ⟨0, _⟩ => ⟨S64000, .f32⟩
  | .local .scVector .vmem, ⟨1, _⟩ => ⟨S512, .i32⟩
  | .local .scVector .vmem, ⟨2, _⟩ => ⟨S512, .f32⟩
  | .local .scVector .vmem, ⟨3, _⟩ => ⟨S64x128, .f32⟩
  | .local .scVector .vmem, ⟨4, _⟩ => ⟨S64x128, .f32⟩
  | .local .scVector .vmem, ⟨5, _⟩ => ⟨S64x128, .f32⟩
  | .local .scVector .vmem, ⟨6, _⟩ => ⟨S64x128, .f32⟩
  | _, _ => ⟨S16384x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v0_scv : Ref sig .scVector := ⟨.hbm, 4, rfl⟩
abbrev main_arg1_scv : Ref sig .scVector := ⟨.hbm, 1, rfl⟩
abbrev main_v1_scv : Ref sig .scVector := ⟨.hbm, 5, rfl⟩
abbrev main_v2_scv : Ref sig .scVector := ⟨.hbm, 6, rfl⟩
abbrev main_v3_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) (c0_i32 : BitVec 32) : Fin 2 → Nat :=
  let c0_i32_0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v4 : BitVec 32 := Scalar.addi v2 c0_i32
  ![0, v4.toNat]
@[reducible] def k0_t1_loop : Scf.Loop 32 :=
  let c0_i32_13 : BitVec 32 := 0#32
  let c8_i32 : BitVec 32 := 8#32
  let v18 : BitVec 32 := Scalar.addi c0_i32_13 c8_i32
  let c1_i32 : BitVec 32 := 1#32
  ⟨c0_i32_13, v18, c1_i32⟩
def k0_off3 (k0_t1 : Fin k0_t1_loop.trips) : Fin 1 → Nat :=
  let c0_i32_51 : BitVec 32 := 0#32
  let c0_i32_13 : BitVec 32 := 0#32
  let c1_i32 : BitVec 32 := 1#32
  let arg17 : BitVec 32 := Scf.iv c0_i32_13 c1_i32 k0_t1
  let c16_i32_50 : BitVec 32 := 16#32
  let v51 : BitVec 32 := Scalar.muli arg17 c16_i32_50
  let v52 : BitVec 32 := Scalar.addi c0_i32_51 v51
  let v53 : Index := Scalar.indexCast v52
  ![v53.toNat]
@[reducible] def k0_t2_loop : Scf.Loop 32 :=
  let c0_i32_52 : BitVec 32 := 0#32
  let c16_i32_53 : BitVec 32 := 16#32
  let v58 : BitVec 32 := Scalar.addi c0_i32_52 c16_i32_53
  let c1_i32_54 : BitVec 32 := 1#32
  ⟨c0_i32_52, v58, c1_i32_54⟩

def k0_chk1 (v50 : IVec S16 32) (v79 : IVec S16 32) : Prop :=
  (∀ a x, ((![v79, v50] : Fin 2 → IVec S16 32) a x).toNat < S64x128.size a) ∧
  (∀ a x, ((![v79, v50] : Fin 2 → IVec S16 32) a x).toNat < S64x128.size a)
instance k0_chk1.dec : ∀ (v50 : IVec S16 32) (v79 : IVec S16 32), Decidable (k0_chk1 v50 v79) := fun v50 v79 => decidable_of_iff' _ (Iff.of_eq (k0_chk1.eq_1 v50 v79))
theorem k0_idx1_inb : ∀ (v50 : IVec S16 32) (v79 : IVec S16 32) (k0_hw1 : k0_chk1 v50 v79), ∀ a x, ((![v79, v50] : Fin 2 → IVec S16 32) a x).toNat < S64x128.size a := fun v50 v79 k0_hw1 => k0_hw1.1
theorem k0_idx2_inb : ∀ (v50 : IVec S16 32) (v79 : IVec S16 32) (k0_hw1 : k0_chk1 v50 v79), ∀ a x, ((![v79, v50] : Fin 2 → IVec S16 32) a x).toNat < S64x128.size a := fun v50 v79 k0_hw1 => k0_hw1.2

def k0_chk2 (v82 : IVec S16 32) : Prop :=
  (∀ a x, ((![v82] : Fin 1 → IVec S16 32) a x).toNat < S64000.size a)
instance k0_chk2.dec : ∀ (v82 : IVec S16 32), Decidable (k0_chk2 v82) := fun v82 => decidable_of_iff' _ (Iff.of_eq (k0_chk2.eq_1 v82))
theorem k0_idx3_inb : ∀ (v82 : IVec S16 32) (k0_hw2 : k0_chk2 v82), ∀ a x, ((![v82] : Fin 1 → IVec S16 32) a x).toNat < S64000.size a := fun v82 k0_hw2 => k0_hw2

def k0_chk3 (v50 : IVec S16 32) (v92 : IVec S16 32) : Prop :=
  (∀ a x, ((![v92, v50] : Fin 2 → IVec S16 32) a x).toNat < S64x128.size a) ∧
  (∀ a x, ((![v92, v50] : Fin 2 → IVec S16 32) a x).toNat < S64x128.size a)
instance k0_chk3.dec : ∀ (v50 : IVec S16 32) (v92 : IVec S16 32), Decidable (k0_chk3 v50 v92) := fun v50 v92 => decidable_of_iff' _ (Iff.of_eq (k0_chk3.eq_1 v50 v92))
theorem k0_idx4_inb : ∀ (v50 : IVec S16 32) (v92 : IVec S16 32) (k0_hw3 : k0_chk3 v50 v92), ∀ a x, ((![v92, v50] : Fin 2 → IVec S16 32) a x).toNat < S64x128.size a := fun v50 v92 k0_hw3 => k0_hw3.1
theorem k0_idx5_inb : ∀ (v50 : IVec S16 32) (v92 : IVec S16 32) (k0_hw3 : k0_chk3 v50 v92), ∀ a x, ((![v92, v50] : Fin 2 → IVec S16 32) a x).toNat < S64x128.size a := fun v50 v92 k0_hw3 => k0_hw3.2

def k0_chk4 (v95 : IVec S16 32) : Prop :=
  (∀ a x, ((![v95] : Fin 1 → IVec S16 32) a x).toNat < S64000.size a)
instance k0_chk4.dec : ∀ (v95 : IVec S16 32), Decidable (k0_chk4 v95) := fun v95 => decidable_of_iff' _ (Iff.of_eq (k0_chk4.eq_1 v95))
theorem k0_idx6_inb : ∀ (v95 : IVec S16 32) (k0_hw4 : k0_chk4 v95), ∀ a x, ((![v95] : Fin 1 → IVec S16 32) a x).toNat < S64000.size a := fun v95 k0_hw4 => k0_hw4

def k0_chk5 (v50 : IVec S16 32) (v105 : IVec S16 32) : Prop :=
  (∀ a x, ((![v105, v50] : Fin 2 → IVec S16 32) a x).toNat < S64x128.size a) ∧
  (∀ a x, ((![v105, v50] : Fin 2 → IVec S16 32) a x).toNat < S64x128.size a)
instance k0_chk5.dec : ∀ (v50 : IVec S16 32) (v105 : IVec S16 32), Decidable (k0_chk5 v50 v105) := fun v50 v105 => decidable_of_iff' _ (Iff.of_eq (k0_chk5.eq_1 v50 v105))
theorem k0_idx7_inb : ∀ (v50 : IVec S16 32) (v105 : IVec S16 32) (k0_hw5 : k0_chk5 v50 v105), ∀ a x, ((![v105, v50] : Fin 2 → IVec S16 32) a x).toNat < S64x128.size a := fun v50 v105 k0_hw5 => k0_hw5.1
theorem k0_idx8_inb : ∀ (v50 : IVec S16 32) (v105 : IVec S16 32) (k0_hw5 : k0_chk5 v50 v105), ∀ a x, ((![v105, v50] : Fin 2 → IVec S16 32) a x).toNat < S64x128.size a := fun v50 v105 k0_hw5 => k0_hw5.2

def k0_chk6 (v108 : IVec S16 32) : Prop :=
  (∀ a x, ((![v108] : Fin 1 → IVec S16 32) a x).toNat < S64000.size a)
instance k0_chk6.dec : ∀ (v108 : IVec S16 32), Decidable (k0_chk6 v108) := fun v108 => decidable_of_iff' _ (Iff.of_eq (k0_chk6.eq_1 v108))
theorem k0_idx9_inb : ∀ (v108 : IVec S16 32) (k0_hw6 : k0_chk6 v108), ∀ a x, ((![v108] : Fin 1 → IVec S16 32) a x).toNat < S64000.size a := fun v108 k0_hw6 => k0_hw6

def k0_chk7 (v50 : IVec S16 32) (v118 : IVec S16 32) : Prop :=
  (∀ a x, ((![v118, v50] : Fin 2 → IVec S16 32) a x).toNat < S64x128.size a) ∧
  (∀ a x, ((![v118, v50] : Fin 2 → IVec S16 32) a x).toNat < S64x128.size a)
instance k0_chk7.dec : ∀ (v50 : IVec S16 32) (v118 : IVec S16 32), Decidable (k0_chk7 v50 v118) := fun v50 v118 => decidable_of_iff' _ (Iff.of_eq (k0_chk7.eq_1 v50 v118))
theorem k0_idx10_inb : ∀ (v50 : IVec S16 32) (v118 : IVec S16 32) (k0_hw7 : k0_chk7 v50 v118), ∀ a x, ((![v118, v50] : Fin 2 → IVec S16 32) a x).toNat < S64x128.size a := fun v50 v118 k0_hw7 => k0_hw7.1
theorem k0_idx11_inb : ∀ (v50 : IVec S16 32) (v118 : IVec S16 32) (k0_hw7 : k0_chk7 v50 v118), ∀ a x, ((![v118, v50] : Fin 2 → IVec S16 32) a x).toNat < S64x128.size a := fun v50 v118 k0_hw7 => k0_hw7.2

def k0_chk8 (v121 : IVec S16 32) : Prop :=
  (∀ a x, ((![v121] : Fin 1 → IVec S16 32) a x).toNat < S64000.size a)
instance k0_chk8.dec : ∀ (v121 : IVec S16 32), Decidable (k0_chk8 v121) := fun v121 => decidable_of_iff' _ (Iff.of_eq (k0_chk8.eq_1 v121))
theorem k0_idx12_inb : ∀ (v121 : IVec S16 32) (k0_hw8 : k0_chk8 v121), ∀ a x, ((![v121] : Fin 1 → IVec S16 32) a x).toNat < S64000.size a := fun v121 k0_hw8 => k0_hw8
def k0_off4 (k0_t1 : Fin k0_t1_loop.trips) : Fin 1 → Nat :=
  let c0_i32_60 : BitVec 32 := 0#32
  let c0_i32_13 : BitVec 32 := 0#32
  let c1_i32 : BitVec 32 := 1#32
  let arg17 : BitVec 32 := Scf.iv c0_i32_13 c1_i32 k0_t1
  let c16_i32_59 : BitVec 32 := 16#32
  let v70 : BitVec 32 := Scalar.muli arg17 c16_i32_59
  let v71 : BitVec 32 := Scalar.addi c0_i32_60 v70
  let v72 : Index := Scalar.indexCast v71
  ![v72.toNat]
@[reducible] def k0_t3_loop : Scf.Loop 32 :=
  let c0_i32_24 : BitVec 32 := 0#32
  let c8_i32_25 : BitVec 32 := 8#32
  let v29 : BitVec 32 := Scalar.addi c0_i32_24 c8_i32_25
  let c1_i32_26 : BitVec 32 := 1#32
  ⟨c0_i32_24, v29, c1_i32_26⟩
def k0_off5 (k0_t3 : Fin k0_t3_loop.trips) : Fin 1 → Nat :=
  let c128_i32_51 : BitVec 32 := 128#32
  let c0_i32_24 : BitVec 32 := 0#32
  let c1_i32_26 : BitVec 32 := 1#32
  let arg17 : BitVec 32 := Scf.iv c0_i32_24 c1_i32_26 k0_t3
  let c16_i32_50 : BitVec 32 := 16#32
  let v51 : BitVec 32 := Scalar.muli arg17 c16_i32_50
  let v52 : BitVec 32 := Scalar.addi c128_i32_51 v51
  let v53 : Index := Scalar.indexCast v52
  ![v53.toNat]
@[reducible] def k0_t4_loop : Scf.Loop 32 :=
  let c0_i32_52 : BitVec 32 := 0#32
  let c16_i32_53 : BitVec 32 := 16#32
  let v58 : BitVec 32 := Scalar.addi c0_i32_52 c16_i32_53
  let c1_i32_54 : BitVec 32 := 1#32
  ⟨c0_i32_52, v58, c1_i32_54⟩

def k0_chk9 (v50 : IVec S16 32) (v79 : IVec S16 32) : Prop :=
  (∀ a x, ((![v79, v50] : Fin 2 → IVec S16 32) a x).toNat < S64x128.size a) ∧
  (∀ a x, ((![v79, v50] : Fin 2 → IVec S16 32) a x).toNat < S64x128.size a)
instance k0_chk9.dec : ∀ (v50 : IVec S16 32) (v79 : IVec S16 32), Decidable (k0_chk9 v50 v79) := fun v50 v79 => decidable_of_iff' _ (Iff.of_eq (k0_chk9.eq_1 v50 v79))
theorem k0_idx13_inb : ∀ (v50 : IVec S16 32) (v79 : IVec S16 32) (k0_hw9 : k0_chk9 v50 v79), ∀ a x, ((![v79, v50] : Fin 2 → IVec S16 32) a x).toNat < S64x128.size a := fun v50 v79 k0_hw9 => k0_hw9.1
theorem k0_idx14_inb : ∀ (v50 : IVec S16 32) (v79 : IVec S16 32) (k0_hw9 : k0_chk9 v50 v79), ∀ a x, ((![v79, v50] : Fin 2 → IVec S16 32) a x).toNat < S64x128.size a := fun v50 v79 k0_hw9 => k0_hw9.2

def k0_chk10 (v82 : IVec S16 32) : Prop :=
  (∀ a x, ((![v82] : Fin 1 → IVec S16 32) a x).toNat < S64000.size a)
instance k0_chk10.dec : ∀ (v82 : IVec S16 32), Decidable (k0_chk10 v82) := fun v82 => decidable_of_iff' _ (Iff.of_eq (k0_chk10.eq_1 v82))
theorem k0_idx15_inb : ∀ (v82 : IVec S16 32) (k0_hw10 : k0_chk10 v82), ∀ a x, ((![v82] : Fin 1 → IVec S16 32) a x).toNat < S64000.size a := fun v82 k0_hw10 => k0_hw10

def k0_chk11 (v50 : IVec S16 32) (v92 : IVec S16 32) : Prop :=
  (∀ a x, ((![v92, v50] : Fin 2 → IVec S16 32) a x).toNat < S64x128.size a) ∧
  (∀ a x, ((![v92, v50] : Fin 2 → IVec S16 32) a x).toNat < S64x128.size a)
instance k0_chk11.dec : ∀ (v50 : IVec S16 32) (v92 : IVec S16 32), Decidable (k0_chk11 v50 v92) := fun v50 v92 => decidable_of_iff' _ (Iff.of_eq (k0_chk11.eq_1 v50 v92))
theorem k0_idx16_inb : ∀ (v50 : IVec S16 32) (v92 : IVec S16 32) (k0_hw11 : k0_chk11 v50 v92), ∀ a x, ((![v92, v50] : Fin 2 → IVec S16 32) a x).toNat < S64x128.size a := fun v50 v92 k0_hw11 => k0_hw11.1
theorem k0_idx17_inb : ∀ (v50 : IVec S16 32) (v92 : IVec S16 32) (k0_hw11 : k0_chk11 v50 v92), ∀ a x, ((![v92, v50] : Fin 2 → IVec S16 32) a x).toNat < S64x128.size a := fun v50 v92 k0_hw11 => k0_hw11.2

def k0_chk12 (v95 : IVec S16 32) : Prop :=
  (∀ a x, ((![v95] : Fin 1 → IVec S16 32) a x).toNat < S64000.size a)
instance k0_chk12.dec : ∀ (v95 : IVec S16 32), Decidable (k0_chk12 v95) := fun v95 => decidable_of_iff' _ (Iff.of_eq (k0_chk12.eq_1 v95))
theorem k0_idx18_inb : ∀ (v95 : IVec S16 32) (k0_hw12 : k0_chk12 v95), ∀ a x, ((![v95] : Fin 1 → IVec S16 32) a x).toNat < S64000.size a := fun v95 k0_hw12 => k0_hw12

def k0_chk13 (v50 : IVec S16 32) (v105 : IVec S16 32) : Prop :=
  (∀ a x, ((![v105, v50] : Fin 2 → IVec S16 32) a x).toNat < S64x128.size a) ∧
  (∀ a x, ((![v105, v50] : Fin 2 → IVec S16 32) a x).toNat < S64x128.size a)
instance k0_chk13.dec : ∀ (v50 : IVec S16 32) (v105 : IVec S16 32), Decidable (k0_chk13 v50 v105) := fun v50 v105 => decidable_of_iff' _ (Iff.of_eq (k0_chk13.eq_1 v50 v105))
theorem k0_idx19_inb : ∀ (v50 : IVec S16 32) (v105 : IVec S16 32) (k0_hw13 : k0_chk13 v50 v105), ∀ a x, ((![v105, v50] : Fin 2 → IVec S16 32) a x).toNat < S64x128.size a := fun v50 v105 k0_hw13 => k0_hw13.1
theorem k0_idx20_inb : ∀ (v50 : IVec S16 32) (v105 : IVec S16 32) (k0_hw13 : k0_chk13 v50 v105), ∀ a x, ((![v105, v50] : Fin 2 → IVec S16 32) a x).toNat < S64x128.size a := fun v50 v105 k0_hw13 => k0_hw13.2

def k0_chk14 (v108 : IVec S16 32) : Prop :=
  (∀ a x, ((![v108] : Fin 1 → IVec S16 32) a x).toNat < S64000.size a)
instance k0_chk14.dec : ∀ (v108 : IVec S16 32), Decidable (k0_chk14 v108) := fun v108 => decidable_of_iff' _ (Iff.of_eq (k0_chk14.eq_1 v108))
theorem k0_idx21_inb : ∀ (v108 : IVec S16 32) (k0_hw14 : k0_chk14 v108), ∀ a x, ((![v108] : Fin 1 → IVec S16 32) a x).toNat < S64000.size a := fun v108 k0_hw14 => k0_hw14

def k0_chk15 (v50 : IVec S16 32) (v118 : IVec S16 32) : Prop :=
  (∀ a x, ((![v118, v50] : Fin 2 → IVec S16 32) a x).toNat < S64x128.size a) ∧
  (∀ a x, ((![v118, v50] : Fin 2 → IVec S16 32) a x).toNat < S64x128.size a)
instance k0_chk15.dec : ∀ (v50 : IVec S16 32) (v118 : IVec S16 32), Decidable (k0_chk15 v50 v118) := fun v50 v118 => decidable_of_iff' _ (Iff.of_eq (k0_chk15.eq_1 v50 v118))
theorem k0_idx22_inb : ∀ (v50 : IVec S16 32) (v118 : IVec S16 32) (k0_hw15 : k0_chk15 v50 v118), ∀ a x, ((![v118, v50] : Fin 2 → IVec S16 32) a x).toNat < S64x128.size a := fun v50 v118 k0_hw15 => k0_hw15.1
theorem k0_idx23_inb : ∀ (v50 : IVec S16 32) (v118 : IVec S16 32) (k0_hw15 : k0_chk15 v50 v118), ∀ a x, ((![v118, v50] : Fin 2 → IVec S16 32) a x).toNat < S64x128.size a := fun v50 v118 k0_hw15 => k0_hw15.2

def k0_chk16 (v121 : IVec S16 32) : Prop :=
  (∀ a x, ((![v121] : Fin 1 → IVec S16 32) a x).toNat < S64000.size a)
instance k0_chk16.dec : ∀ (v121 : IVec S16 32), Decidable (k0_chk16 v121) := fun v121 => decidable_of_iff' _ (Iff.of_eq (k0_chk16.eq_1 v121))
theorem k0_idx24_inb : ∀ (v121 : IVec S16 32) (k0_hw16 : k0_chk16 v121), ∀ a x, ((![v121] : Fin 1 → IVec S16 32) a x).toNat < S64000.size a := fun v121 k0_hw16 => k0_hw16
def k0_off6 (k0_t3 : Fin k0_t3_loop.trips) : Fin 1 → Nat :=
  let c128_i32_60 : BitVec 32 := 128#32
  let c0_i32_24 : BitVec 32 := 0#32
  let c1_i32_26 : BitVec 32 := 1#32
  let arg17 : BitVec 32 := Scf.iv c0_i32_24 c1_i32_26 k0_t3
  let c16_i32_59 : BitVec 32 := 16#32
  let v70 : BitVec 32 := Scalar.muli arg17 c16_i32_59
  let v71 : BitVec 32 := Scalar.addi c128_i32_60 v70
  let v72 : Index := Scalar.indexCast v71
  ![v72.toNat]
@[reducible] def k0_t5_loop : Scf.Loop 32 :=
  let c0_i32_37 : BitVec 32 := 0#32
  let c8_i32_38 : BitVec 32 := 8#32
  let v40 : BitVec 32 := Scalar.addi c0_i32_37 c8_i32_38
  let c1_i32_39 : BitVec 32 := 1#32
  ⟨c0_i32_37, v40, c1_i32_39⟩
def k0_off7 (k0_t5 : Fin k0_t5_loop.trips) : Fin 1 → Nat :=
  let c256_i32_51 : BitVec 32 := 256#32
  let c0_i32_37 : BitVec 32 := 0#32
  let c1_i32_39 : BitVec 32 := 1#32
  let arg17 : BitVec 32 := Scf.iv c0_i32_37 c1_i32_39 k0_t5
  let c16_i32_50 : BitVec 32 := 16#32
  let v51 : BitVec 32 := Scalar.muli arg17 c16_i32_50
  let v52 : BitVec 32 := Scalar.addi c256_i32_51 v51
  let v53 : Index := Scalar.indexCast v52
  ![v53.toNat]
@[reducible] def k0_t6_loop : Scf.Loop 32 :=
  let c0_i32_52 : BitVec 32 := 0#32
  let c16_i32_53 : BitVec 32 := 16#32
  let v58 : BitVec 32 := Scalar.addi c0_i32_52 c16_i32_53
  let c1_i32_54 : BitVec 32 := 1#32
  ⟨c0_i32_52, v58, c1_i32_54⟩

def k0_chk17 (v50 : IVec S16 32) (v79 : IVec S16 32) : Prop :=
  (∀ a x, ((![v79, v50] : Fin 2 → IVec S16 32) a x).toNat < S64x128.size a) ∧
  (∀ a x, ((![v79, v50] : Fin 2 → IVec S16 32) a x).toNat < S64x128.size a)
instance k0_chk17.dec : ∀ (v50 : IVec S16 32) (v79 : IVec S16 32), Decidable (k0_chk17 v50 v79) := fun v50 v79 => decidable_of_iff' _ (Iff.of_eq (k0_chk17.eq_1 v50 v79))
theorem k0_idx25_inb : ∀ (v50 : IVec S16 32) (v79 : IVec S16 32) (k0_hw17 : k0_chk17 v50 v79), ∀ a x, ((![v79, v50] : Fin 2 → IVec S16 32) a x).toNat < S64x128.size a := fun v50 v79 k0_hw17 => k0_hw17.1
theorem k0_idx26_inb : ∀ (v50 : IVec S16 32) (v79 : IVec S16 32) (k0_hw17 : k0_chk17 v50 v79), ∀ a x, ((![v79, v50] : Fin 2 → IVec S16 32) a x).toNat < S64x128.size a := fun v50 v79 k0_hw17 => k0_hw17.2

def k0_chk18 (v82 : IVec S16 32) : Prop :=
  (∀ a x, ((![v82] : Fin 1 → IVec S16 32) a x).toNat < S64000.size a)
instance k0_chk18.dec : ∀ (v82 : IVec S16 32), Decidable (k0_chk18 v82) := fun v82 => decidable_of_iff' _ (Iff.of_eq (k0_chk18.eq_1 v82))
theorem k0_idx27_inb : ∀ (v82 : IVec S16 32) (k0_hw18 : k0_chk18 v82), ∀ a x, ((![v82] : Fin 1 → IVec S16 32) a x).toNat < S64000.size a := fun v82 k0_hw18 => k0_hw18

def k0_chk19 (v50 : IVec S16 32) (v92 : IVec S16 32) : Prop :=
  (∀ a x, ((![v92, v50] : Fin 2 → IVec S16 32) a x).toNat < S64x128.size a) ∧
  (∀ a x, ((![v92, v50] : Fin 2 → IVec S16 32) a x).toNat < S64x128.size a)
instance k0_chk19.dec : ∀ (v50 : IVec S16 32) (v92 : IVec S16 32), Decidable (k0_chk19 v50 v92) := fun v50 v92 => decidable_of_iff' _ (Iff.of_eq (k0_chk19.eq_1 v50 v92))
theorem k0_idx28_inb : ∀ (v50 : IVec S16 32) (v92 : IVec S16 32) (k0_hw19 : k0_chk19 v50 v92), ∀ a x, ((![v92, v50] : Fin 2 → IVec S16 32) a x).toNat < S64x128.size a := fun v50 v92 k0_hw19 => k0_hw19.1
theorem k0_idx29_inb : ∀ (v50 : IVec S16 32) (v92 : IVec S16 32) (k0_hw19 : k0_chk19 v50 v92), ∀ a x, ((![v92, v50] : Fin 2 → IVec S16 32) a x).toNat < S64x128.size a := fun v50 v92 k0_hw19 => k0_hw19.2

def k0_chk20 (v95 : IVec S16 32) : Prop :=
  (∀ a x, ((![v95] : Fin 1 → IVec S16 32) a x).toNat < S64000.size a)
instance k0_chk20.dec : ∀ (v95 : IVec S16 32), Decidable (k0_chk20 v95) := fun v95 => decidable_of_iff' _ (Iff.of_eq (k0_chk20.eq_1 v95))
theorem k0_idx30_inb : ∀ (v95 : IVec S16 32) (k0_hw20 : k0_chk20 v95), ∀ a x, ((![v95] : Fin 1 → IVec S16 32) a x).toNat < S64000.size a := fun v95 k0_hw20 => k0_hw20

def k0_chk21 (v50 : IVec S16 32) (v105 : IVec S16 32) : Prop :=
  (∀ a x, ((![v105, v50] : Fin 2 → IVec S16 32) a x).toNat < S64x128.size a) ∧
  (∀ a x, ((![v105, v50] : Fin 2 → IVec S16 32) a x).toNat < S64x128.size a)
instance k0_chk21.dec : ∀ (v50 : IVec S16 32) (v105 : IVec S16 32), Decidable (k0_chk21 v50 v105) := fun v50 v105 => decidable_of_iff' _ (Iff.of_eq (k0_chk21.eq_1 v50 v105))
theorem k0_idx31_inb : ∀ (v50 : IVec S16 32) (v105 : IVec S16 32) (k0_hw21 : k0_chk21 v50 v105), ∀ a x, ((![v105, v50] : Fin 2 → IVec S16 32) a x).toNat < S64x128.size a := fun v50 v105 k0_hw21 => k0_hw21.1
theorem k0_idx32_inb : ∀ (v50 : IVec S16 32) (v105 : IVec S16 32) (k0_hw21 : k0_chk21 v50 v105), ∀ a x, ((![v105, v50] : Fin 2 → IVec S16 32) a x).toNat < S64x128.size a := fun v50 v105 k0_hw21 => k0_hw21.2

def k0_chk22 (v108 : IVec S16 32) : Prop :=
  (∀ a x, ((![v108] : Fin 1 → IVec S16 32) a x).toNat < S64000.size a)
instance k0_chk22.dec : ∀ (v108 : IVec S16 32), Decidable (k0_chk22 v108) := fun v108 => decidable_of_iff' _ (Iff.of_eq (k0_chk22.eq_1 v108))
theorem k0_idx33_inb : ∀ (v108 : IVec S16 32) (k0_hw22 : k0_chk22 v108), ∀ a x, ((![v108] : Fin 1 → IVec S16 32) a x).toNat < S64000.size a := fun v108 k0_hw22 => k0_hw22

def k0_chk23 (v50 : IVec S16 32) (v118 : IVec S16 32) : Prop :=
  (∀ a x, ((![v118, v50] : Fin 2 → IVec S16 32) a x).toNat < S64x128.size a) ∧
  (∀ a x, ((![v118, v50] : Fin 2 → IVec S16 32) a x).toNat < S64x128.size a)
instance k0_chk23.dec : ∀ (v50 : IVec S16 32) (v118 : IVec S16 32), Decidable (k0_chk23 v50 v118) := fun v50 v118 => decidable_of_iff' _ (Iff.of_eq (k0_chk23.eq_1 v50 v118))
theorem k0_idx34_inb : ∀ (v50 : IVec S16 32) (v118 : IVec S16 32) (k0_hw23 : k0_chk23 v50 v118), ∀ a x, ((![v118, v50] : Fin 2 → IVec S16 32) a x).toNat < S64x128.size a := fun v50 v118 k0_hw23 => k0_hw23.1
theorem k0_idx35_inb : ∀ (v50 : IVec S16 32) (v118 : IVec S16 32) (k0_hw23 : k0_chk23 v50 v118), ∀ a x, ((![v118, v50] : Fin 2 → IVec S16 32) a x).toNat < S64x128.size a := fun v50 v118 k0_hw23 => k0_hw23.2

def k0_chk24 (v121 : IVec S16 32) : Prop :=
  (∀ a x, ((![v121] : Fin 1 → IVec S16 32) a x).toNat < S64000.size a)
instance k0_chk24.dec : ∀ (v121 : IVec S16 32), Decidable (k0_chk24 v121) := fun v121 => decidable_of_iff' _ (Iff.of_eq (k0_chk24.eq_1 v121))
theorem k0_idx36_inb : ∀ (v121 : IVec S16 32) (k0_hw24 : k0_chk24 v121), ∀ a x, ((![v121] : Fin 1 → IVec S16 32) a x).toNat < S64000.size a := fun v121 k0_hw24 => k0_hw24
def k0_off8 (k0_t5 : Fin k0_t5_loop.trips) : Fin 1 → Nat :=
  let c256_i32_60 : BitVec 32 := 256#32
  let c0_i32_37 : BitVec 32 := 0#32
  let c1_i32_39 : BitVec 32 := 1#32
  let arg17 : BitVec 32 := Scf.iv c0_i32_37 c1_i32_39 k0_t5
  let c16_i32_59 : BitVec 32 := 16#32
  let v70 : BitVec 32 := Scalar.muli arg17 c16_i32_59
  let v71 : BitVec 32 := Scalar.addi c256_i32_60 v70
  let v72 : Index := Scalar.indexCast v71
  ![v72.toNat]
@[reducible] def k0_t7_loop : Scf.Loop 32 :=
  let c0_i32_46 : BitVec 32 := 0#32
  let c8_i32_47 : BitVec 32 := 8#32
  let v46 : BitVec 32 := Scalar.addi c0_i32_46 c8_i32_47
  let c1_i32_48 : BitVec 32 := 1#32
  ⟨c0_i32_46, v46, c1_i32_48⟩
def k0_off9 (k0_t7 : Fin k0_t7_loop.trips) : Fin 1 → Nat :=
  let c384_i32_51 : BitVec 32 := 384#32
  let c0_i32_46 : BitVec 32 := 0#32
  let c1_i32_48 : BitVec 32 := 1#32
  let arg17 : BitVec 32 := Scf.iv c0_i32_46 c1_i32_48 k0_t7
  let c16_i32_50 : BitVec 32 := 16#32
  let v51 : BitVec 32 := Scalar.muli arg17 c16_i32_50
  let v52 : BitVec 32 := Scalar.addi c384_i32_51 v51
  let v53 : Index := Scalar.indexCast v52
  ![v53.toNat]
@[reducible] def k0_t8_loop : Scf.Loop 32 :=
  let c0_i32_52 : BitVec 32 := 0#32
  let c16_i32_53 : BitVec 32 := 16#32
  let v58 : BitVec 32 := Scalar.addi c0_i32_52 c16_i32_53
  let c1_i32_54 : BitVec 32 := 1#32
  ⟨c0_i32_52, v58, c1_i32_54⟩

def k0_chk25 (v50 : IVec S16 32) (v79 : IVec S16 32) : Prop :=
  (∀ a x, ((![v79, v50] : Fin 2 → IVec S16 32) a x).toNat < S64x128.size a) ∧
  (∀ a x, ((![v79, v50] : Fin 2 → IVec S16 32) a x).toNat < S64x128.size a)
instance k0_chk25.dec : ∀ (v50 : IVec S16 32) (v79 : IVec S16 32), Decidable (k0_chk25 v50 v79) := fun v50 v79 => decidable_of_iff' _ (Iff.of_eq (k0_chk25.eq_1 v50 v79))
theorem k0_idx37_inb : ∀ (v50 : IVec S16 32) (v79 : IVec S16 32) (k0_hw25 : k0_chk25 v50 v79), ∀ a x, ((![v79, v50] : Fin 2 → IVec S16 32) a x).toNat < S64x128.size a := fun v50 v79 k0_hw25 => k0_hw25.1
theorem k0_idx38_inb : ∀ (v50 : IVec S16 32) (v79 : IVec S16 32) (k0_hw25 : k0_chk25 v50 v79), ∀ a x, ((![v79, v50] : Fin 2 → IVec S16 32) a x).toNat < S64x128.size a := fun v50 v79 k0_hw25 => k0_hw25.2

def k0_chk26 (v82 : IVec S16 32) : Prop :=
  (∀ a x, ((![v82] : Fin 1 → IVec S16 32) a x).toNat < S64000.size a)
instance k0_chk26.dec : ∀ (v82 : IVec S16 32), Decidable (k0_chk26 v82) := fun v82 => decidable_of_iff' _ (Iff.of_eq (k0_chk26.eq_1 v82))
theorem k0_idx39_inb : ∀ (v82 : IVec S16 32) (k0_hw26 : k0_chk26 v82), ∀ a x, ((![v82] : Fin 1 → IVec S16 32) a x).toNat < S64000.size a := fun v82 k0_hw26 => k0_hw26

def k0_chk27 (v50 : IVec S16 32) (v92 : IVec S16 32) : Prop :=
  (∀ a x, ((![v92, v50] : Fin 2 → IVec S16 32) a x).toNat < S64x128.size a) ∧
  (∀ a x, ((![v92, v50] : Fin 2 → IVec S16 32) a x).toNat < S64x128.size a)
instance k0_chk27.dec : ∀ (v50 : IVec S16 32) (v92 : IVec S16 32), Decidable (k0_chk27 v50 v92) := fun v50 v92 => decidable_of_iff' _ (Iff.of_eq (k0_chk27.eq_1 v50 v92))
theorem k0_idx40_inb : ∀ (v50 : IVec S16 32) (v92 : IVec S16 32) (k0_hw27 : k0_chk27 v50 v92), ∀ a x, ((![v92, v50] : Fin 2 → IVec S16 32) a x).toNat < S64x128.size a := fun v50 v92 k0_hw27 => k0_hw27.1
theorem k0_idx41_inb : ∀ (v50 : IVec S16 32) (v92 : IVec S16 32) (k0_hw27 : k0_chk27 v50 v92), ∀ a x, ((![v92, v50] : Fin 2 → IVec S16 32) a x).toNat < S64x128.size a := fun v50 v92 k0_hw27 => k0_hw27.2

def k0_chk28 (v95 : IVec S16 32) : Prop :=
  (∀ a x, ((![v95] : Fin 1 → IVec S16 32) a x).toNat < S64000.size a)
instance k0_chk28.dec : ∀ (v95 : IVec S16 32), Decidable (k0_chk28 v95) := fun v95 => decidable_of_iff' _ (Iff.of_eq (k0_chk28.eq_1 v95))
theorem k0_idx42_inb : ∀ (v95 : IVec S16 32) (k0_hw28 : k0_chk28 v95), ∀ a x, ((![v95] : Fin 1 → IVec S16 32) a x).toNat < S64000.size a := fun v95 k0_hw28 => k0_hw28

def k0_chk29 (v50 : IVec S16 32) (v105 : IVec S16 32) : Prop :=
  (∀ a x, ((![v105, v50] : Fin 2 → IVec S16 32) a x).toNat < S64x128.size a) ∧
  (∀ a x, ((![v105, v50] : Fin 2 → IVec S16 32) a x).toNat < S64x128.size a)
instance k0_chk29.dec : ∀ (v50 : IVec S16 32) (v105 : IVec S16 32), Decidable (k0_chk29 v50 v105) := fun v50 v105 => decidable_of_iff' _ (Iff.of_eq (k0_chk29.eq_1 v50 v105))
theorem k0_idx43_inb : ∀ (v50 : IVec S16 32) (v105 : IVec S16 32) (k0_hw29 : k0_chk29 v50 v105), ∀ a x, ((![v105, v50] : Fin 2 → IVec S16 32) a x).toNat < S64x128.size a := fun v50 v105 k0_hw29 => k0_hw29.1
theorem k0_idx44_inb : ∀ (v50 : IVec S16 32) (v105 : IVec S16 32) (k0_hw29 : k0_chk29 v50 v105), ∀ a x, ((![v105, v50] : Fin 2 → IVec S16 32) a x).toNat < S64x128.size a := fun v50 v105 k0_hw29 => k0_hw29.2

def k0_chk30 (v108 : IVec S16 32) : Prop :=
  (∀ a x, ((![v108] : Fin 1 → IVec S16 32) a x).toNat < S64000.size a)
instance k0_chk30.dec : ∀ (v108 : IVec S16 32), Decidable (k0_chk30 v108) := fun v108 => decidable_of_iff' _ (Iff.of_eq (k0_chk30.eq_1 v108))
theorem k0_idx45_inb : ∀ (v108 : IVec S16 32) (k0_hw30 : k0_chk30 v108), ∀ a x, ((![v108] : Fin 1 → IVec S16 32) a x).toNat < S64000.size a := fun v108 k0_hw30 => k0_hw30

def k0_chk31 (v50 : IVec S16 32) (v118 : IVec S16 32) : Prop :=
  (∀ a x, ((![v118, v50] : Fin 2 → IVec S16 32) a x).toNat < S64x128.size a) ∧
  (∀ a x, ((![v118, v50] : Fin 2 → IVec S16 32) a x).toNat < S64x128.size a)
instance k0_chk31.dec : ∀ (v50 : IVec S16 32) (v118 : IVec S16 32), Decidable (k0_chk31 v50 v118) := fun v50 v118 => decidable_of_iff' _ (Iff.of_eq (k0_chk31.eq_1 v50 v118))
theorem k0_idx46_inb : ∀ (v50 : IVec S16 32) (v118 : IVec S16 32) (k0_hw31 : k0_chk31 v50 v118), ∀ a x, ((![v118, v50] : Fin 2 → IVec S16 32) a x).toNat < S64x128.size a := fun v50 v118 k0_hw31 => k0_hw31.1
theorem k0_idx47_inb : ∀ (v50 : IVec S16 32) (v118 : IVec S16 32) (k0_hw31 : k0_chk31 v50 v118), ∀ a x, ((![v118, v50] : Fin 2 → IVec S16 32) a x).toNat < S64x128.size a := fun v50 v118 k0_hw31 => k0_hw31.2

def k0_chk32 (v121 : IVec S16 32) : Prop :=
  (∀ a x, ((![v121] : Fin 1 → IVec S16 32) a x).toNat < S64000.size a)
instance k0_chk32.dec : ∀ (v121 : IVec S16 32), Decidable (k0_chk32 v121) := fun v121 => decidable_of_iff' _ (Iff.of_eq (k0_chk32.eq_1 v121))
theorem k0_idx48_inb : ∀ (v121 : IVec S16 32) (k0_hw32 : k0_chk32 v121), ∀ a x, ((![v121] : Fin 1 → IVec S16 32) a x).toNat < S64000.size a := fun v121 k0_hw32 => k0_hw32
def k0_off10 (k0_t7 : Fin k0_t7_loop.trips) : Fin 1 → Nat :=
  let c384_i32_60 : BitVec 32 := 384#32
  let c0_i32_46 : BitVec 32 := 0#32
  let c1_i32_48 : BitVec 32 := 1#32
  let arg17 : BitVec 32 := Scf.iv c0_i32_46 c1_i32_48 k0_t7
  let c16_i32_59 : BitVec 32 := 16#32
  let v70 : BitVec 32 := Scalar.muli arg17 c16_i32_59
  let v71 : BitVec 32 := Scalar.addi c384_i32_60 v70
  let v72 : Index := Scalar.indexCast v71
  ![v72.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S16384x64_S64x16384_1_0 : S16384x64.Transposes [1, 0] S64x16384
  shapeCasts_S1000x64_S64000 : S1000x64.ShapeCasts S64000
  iota_S16_d0_w32_scVector : S16.Iotas .scVector 32 [0]
  h_S16 : 0 < S16.numel
  h_S64x128 : 0 < S64x128.numel
  h_S64000 : 0 < S64000.numel
  shapeCasts_S16384_S1x16384 : S16384.ShapeCasts S1x16384
  hcc0_scratch7 : 0 + S_.numel ≤ 5
  hcc0_scratch8 : 1 + S_.numel ≤ 5
  hcc0_scratch9 : 2 + S_.numel ≤ 5
  hcc0_scoped0 : 3 + S_.numel ≤ 5
  hcc0_scoped1 : 4 + S_.numel ≤ 5
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  k0_off2_inb : ∀ i : grid0.Coords, ∀ (r : Fin 4), ∀ a, (k0_off2 i (BitVec.ofNat 32 (128 * r.val))) a + S64x128.size a ≤ S64x16384.size a
  k0_t1_ok : k0_t1_loop.OK
  k0_off3_inb : ∀ k0_t1 : Fin k0_t1_loop.trips, ∀ a, (k0_off3 k0_t1) a + S16.size a ≤ S512.size a
  k0_t2_ok : k0_t2_loop.OK
  k0_off4_inb : ∀ k0_t1 : Fin k0_t1_loop.trips, ∀ a, (k0_off4 k0_t1) a + S16.size a ≤ S512.size a
  k0_t3_ok : k0_t3_loop.OK
  k0_off5_inb : ∀ k0_t3 : Fin k0_t3_loop.trips, ∀ a, (k0_off5 k0_t3) a + S16.size a ≤ S512.size a
  k0_t4_ok : k0_t4_loop.OK
  k0_off6_inb : ∀ k0_t3 : Fin k0_t3_loop.trips, ∀ a, (k0_off6 k0_t3) a + S16.size a ≤ S512.size a
  k0_t5_ok : k0_t5_loop.OK
  k0_off7_inb : ∀ k0_t5 : Fin k0_t5_loop.trips, ∀ a, (k0_off7 k0_t5) a + S16.size a ≤ S512.size a
  k0_t6_ok : k0_t6_loop.OK
  k0_off8_inb : ∀ k0_t5 : Fin k0_t5_loop.trips, ∀ a, (k0_off8 k0_t5) a + S16.size a ≤ S512.size a
  k0_t7_ok : k0_t7_loop.OK
  k0_off9_inb : ∀ k0_t7 : Fin k0_t7_loop.trips, ∀ a, (k0_off9 k0_t7) a + S16.size a ≤ S512.size a
  k0_t8_ok : k0_t8_loop.OK
  k0_off10_inb : ∀ k0_t7 : Fin k0_t7_loop.trips, ∀ a, (k0_off10 k0_t7) a + S16.size a ≤ S512.size a

variable [Facts₀]

abbrev cc0_scratch7 : DmaSems sig S_ := SemArray.consecutive 0 S_ hcc0_scratch7
abbrev cc0_scratch8 : DmaSems sig S_ := SemArray.consecutive 1 S_ hcc0_scratch8
abbrev cc0_scratch9 : DmaSems sig S_ := SemArray.consecutive 2 S_ hcc0_scratch9
abbrev cc0_scoped0 : DmaSems sig S_ := SemArray.consecutive 3 S_ hcc0_scoped0
abbrev cc0_scoped1 : DmaSems sig S_ := SemArray.consecutive 4 S_ hcc0_scoped1

class Facts : Prop extends Facts₀ where

variable [Facts]
-- ==== ReferenceIdeal.lean ====
abbrev S16384x64 : Shape := ⟨2, ![16384, 64]⟩
abbrev S16384 : Shape := ⟨1, ![16384]⟩
abbrev S1000x64 : Shape := ⟨2, ![1000, 64]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S1x16384 : Shape := ⟨2, ![1, 16384]⟩

abbrev nBuf : Space → Nat
  | .hbm => 40
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384, .i32⟩
  | .hbm, ⟨2, _⟩ => ⟨S16384x64, .f32⟩
  | .hbm, ⟨3, _⟩ => ⟨S1000x64, .f32⟩
  | .hbm, ⟨4, _⟩ => ⟨S_, .i32⟩
  | .hbm, ⟨5, _⟩ => ⟨S16384, .i32⟩
  | .hbm, ⟨6, _⟩ => ⟨S16384, .i1⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S16384x1, .i32⟩
  | .hbm, ⟨12, _⟩ => ⟨S1, .i32⟩
  | .hbm, ⟨13, _⟩ => ⟨S_, .i32⟩
  | .hbm, ⟨14, _⟩ => ⟨S16384x1, .i32⟩
  | .hbm, ⟨15, _⟩ => ⟨S16384x1, .i1⟩
  | .hbm, ⟨16, _⟩ => ⟨S1x1, .i32⟩
  | .hbm, ⟨17, _⟩ => ⟨S16384x1, .i32⟩
  | .hbm, ⟨18, _⟩ => ⟨S16384x1, .i1⟩
  | .hbm, ⟨19, _⟩ => ⟨S16384x1, .i1⟩
  | .hbm, ⟨20, _⟩ => ⟨S_, .i1⟩
  | .hbm, ⟨21, _⟩ => ⟨S16384, .i1⟩
  | .hbm, ⟨22, _⟩ => ⟨S16384x64, .f32⟩
  | .hbm, ⟨23, _⟩ => ⟨S16384x64, .i1⟩
  | .hbm, ⟨24, _⟩ => ⟨S_, .f32⟩
  | .hbm, ⟨25, _⟩ => ⟨S16384x64, .f32⟩
  | .hbm, ⟨26, _⟩ => ⟨S16384x64, .f32⟩
  | .hbm, ⟨27, _⟩ => ⟨S16384x64, .f32⟩
  | .hbm, ⟨28, _⟩ => ⟨S16384x64, .f32⟩
  | .hbm, ⟨29, _⟩ => ⟨S_, .f32⟩
  | .hbm, ⟨30, _⟩ => ⟨S16384, .f32⟩
  | .hbm, ⟨31, _⟩ => ⟨S16384, .f32⟩
  | .hbm, ⟨32, _⟩ => ⟨S16384, .f32⟩
  | .hbm, ⟨33, _⟩ => ⟨S_, .f32⟩
  | .hbm, ⟨34, _⟩ => ⟨S16384, .f32⟩
  | .hbm, ⟨35, _⟩ => ⟨S16384, .f32⟩
  | .hbm, ⟨36, _⟩ => ⟨S_, .f32⟩
  | .hbm, ⟨37, _⟩ => ⟨S16384, .f32⟩
  | .hbm, ⟨38, _⟩ => ⟨S16384, .f32⟩
  | .hbm, ⟨39, _⟩ => ⟨S1x16384, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_cst : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_cst_0 : Ref sig .tc := ⟨.hbm, 33, rfl⟩
abbrev main_v6 : Ref sig .tc := ⟨.hbm, 34, rfl⟩
abbrev main_v7 : Ref sig .tc := ⟨.hbm, 35, rfl⟩
abbrev main_cst_1 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x64_0 : S16384.BroadcastsInDim S16384x64 (![0] : Fin 1 → Fin S16384x64.rank)
  bcast_S_S16384x64 : S_.BroadcastsInDim S16384x64 (![] : Fin 0 → Fin S16384x64.rank)
  reducesTo_S16384x64_S16384_d1 : S16384x64.ReducesTo [1] S16384
  bcast_S16384_S1x16384_1 : S16384.BroadcastsInDim S1x16384 (![1] : Fin 1 → Fin S1x16384.rank)
  gather_S1000x64_S16384x1_S16384x64_1_0_n_n_0_1_164_wf : GatherDims.WF S1000x64 S16384x1 S16384x64 [1] [0] [] [0] [] 1 ![1, 64]

variable [Facts₀]

def gather_S1000x64_S16384x1_S16384x64_1_0_n_n_0_1_164 : GatherDims S1000x64 S16384x1 S16384x64 where
  offsetDims := [1]
  collapsedSliceDims := [0]
  operandBatchingDims := []
  startIndicesBatchingDims := []
  startIndexMap := [0]
  indexVectorDim := 1
  sliceSizes := ![1, 64]
  wf := gather_S1000x64_S16384x1_S16384x64_1_0_n_n_0_1_164_wf

class Facts : Prop extends Facts₀ where

variable [Facts]
-- ==== Proof.Shared.lean ====
/-
  Shared vocabulary of the kernel's proof: the thread a grid point names, the blocks of the HBM arrays it
  works on, and what its task is handed and hands back. Vector subcore (c, s) owns the 512 batch columns
  starting at 1024 s + 512 c: four [64,128] column blocks of the two transposed embeddings, the 512 relation
  words, a read share of the flattened table, and the 512 scores it writes.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic
import proofs.«205645_g18588618457683_cont_8to1_1834_20_alg».proof.Proof.Gen.KernelIdeal
import proofs.«205645_g18588618457683_cont_8to1_1834_20_alg».proof.Proof.Gen.KernelIdeal.Skeleton

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

scoped notation "hT" => (Memref.whole Cert.KernelIdeal.main_v0_scv : Memref Cert.KernelIdeal.sig Kind.scVector Space.hbm Cert.KernelIdeal.S64x16384 EltTy.f32)
scoped notation "iX" => (Memref.whole Cert.KernelIdeal.main_arg1_scv : Memref Cert.KernelIdeal.sig Kind.scVector Space.hbm Cert.KernelIdeal.S16384 EltTy.i32)
scoped notation "tT" => (Memref.whole Cert.KernelIdeal.main_v1_scv : Memref Cert.KernelIdeal.sig Kind.scVector Space.hbm Cert.KernelIdeal.S64x16384 EltTy.f32)
scoped notation "tB" => (Memref.whole Cert.KernelIdeal.main_v2_scv : Memref Cert.KernelIdeal.sig Kind.scVector Space.hbm Cert.KernelIdeal.S64000 EltTy.f32)
scoped notation "oU" => (Memref.whole Cert.KernelIdeal.main_v3_scv : Memref Cert.KernelIdeal.sig Kind.scVector Space.hbm Cert.KernelIdeal.S16384 EltTy.f32)
scoped notation "s0" => (Memref.whole Cert.KernelIdeal.cc0_scratch0 : Memref Cert.KernelIdeal.sig Kind.scVector Space.vmem Cert.KernelIdeal.S64000 EltTy.f32)
scoped notation "s1" => (Memref.whole Cert.KernelIdeal.cc0_scratch1 : Memref Cert.KernelIdeal.sig Kind.scVector Space.vmem Cert.KernelIdeal.S512 EltTy.i32)
scoped notation "s2" => (Memref.whole Cert.KernelIdeal.cc0_scratch2 : Memref Cert.KernelIdeal.sig Kind.scVector Space.vmem Cert.KernelIdeal.S512 EltTy.f32)
scoped notation "s3" => (Memref.whole Cert.KernelIdeal.cc0_scratch3 : Memref Cert.KernelIdeal.sig Kind.scVector Space.vmem Cert.KernelIdeal.S64x128 EltTy.f32)
scoped notation "s4" => (Memref.whole Cert.KernelIdeal.cc0_scratch4 : Memref Cert.KernelIdeal.sig Kind.scVector Space.vmem Cert.KernelIdeal.S64x128 EltTy.f32)
scoped notation "s5" => (Memref.whole Cert.KernelIdeal.cc0_scratch5 : Memref Cert.KernelIdeal.sig Kind.scVector Space.vmem Cert.KernelIdeal.S64x128 EltTy.f32)
scoped notation "s6" => (Memref.whole Cert.KernelIdeal.cc0_scratch6 : Memref Cert.KernelIdeal.sig Kind.scVector Space.vmem Cert.KernelIdeal.S64x128 EltTy.f32)

/-- The grid point of SparseCore `c`, vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0
/-- The thread that runs grid point `L`'s task on device `d`. -/
abbrev thr (d : Dev nD) (L : grid0.Coords) : Thread nD τ := V d (cV L) (jV L)

/-- Column block `r` (of four) of grid point `L` in the transposed head and tail embeddings; its 512 relation words; its 512 scores. -/
abbrev hSl (L : grid0.Coords) (r : Fin 4) : Memref sig .scVector .hbm S64x128 .f32 := (hT).slice (Rect.unit (s := S64x16384) (k0_off2 L (BitVec.ofNat 32 (128 * r.val))) S64x128.size (k0_off2_inb L r)) (fun _ => rfl)
abbrev tSl (L : grid0.Coords) (r : Fin 4) : Memref sig .scVector .hbm S64x128 .f32 := (tT).slice (Rect.unit (s := S64x16384) (k0_off2 L (BitVec.ofNat 32 (128 * r.val))) S64x128.size (k0_off2_inb L r)) (fun _ => rfl)
abbrev iSl (L : grid0.Coords) : Memref sig .scVector .hbm S512 .i32 := (iX).slice (Rect.unit (s := S16384) (k0_off1 L) S512.size (k0_off1_inb L)) (fun _ => rfl)
abbrev oSl (L : grid0.Coords) : Memref sig .scVector .hbm S512 .f32 := (oU).slice (Rect.unit (s := S16384) (k0_off1 L) S512.size (k0_off1_inb L)) (fun _ => rfl)

/-- The five HBM arrays of the call, as locations of device `d`. -/
abbrev hLoc (d : Dev nD) : Loc nD τ sig := (SparseCore.T d).loc main_v0
abbrev tLoc (d : Dev nD) : Loc nD τ sig := (SparseCore.T d).loc main_v1
abbrev iLoc (d : Dev nD) : Loc nD τ sig := (SparseCore.T d).loc main_arg1
abbrev bLoc (d : Dev nD) : Loc nD τ sig := (SparseCore.T d).loc main_v2
abbrev oLoc (d : Dev nD) : Loc nD τ sig := (SparseCore.T d).loc main_v3

/-- The number of grid point `L` among the 32 vector subcores: the index of its read share of the table. -/
def tileIx (L : grid0.Coords) : Fin 32 := ⟨2 * (L 1).val + (L 0).val, by
  have h0 : (L 0).val < 2 := (L 0).isLt
  have h1 : (L 1).val < 16 := (L 1).isLt
  omega⟩

/-- What grid point `L`'s task is handed: its column blocks of the two embeddings (contents `H`, `T`), its relation
    words (`I`), a read share of the table (`B`), its block of the result (`O₀`). -/
def goRes (d : Dev nD) (L : grid0.Coords) (H : Buf (Elt F) (hLoc d)) (I : Buf (Elt F) (iLoc d)) (T : Buf (Elt F) (tLoc d))
    (B : Buf (Elt F) (bLoc d)) (O₀ : Buf (Elt F) (oLoc d)) : sProp 𝕄 :=
  iprop(((hSl L 0).view.loc (thr d L) ↦[(hSl L 0).view.set]{fullShare} H) ∗ ((hSl L 1).view.loc (thr d L) ↦[(hSl L 1).view.set]{fullShare} H)
    ∗ ((hSl L 2).view.loc (thr d L) ↦[(hSl L 2).view.set]{fullShare} H) ∗ ((hSl L 3).view.loc (thr d L) ↦[(hSl L 3).view.set]{fullShare} H)
    ∗ ((iSl L).view.loc (thr d L) ↦[(iSl L).view.set]{fullShare} I)
    ∗ ((tSl L 0).view.loc (thr d L) ↦[(tSl L 0).view.set]{fullShare} T) ∗ ((tSl L 1).view.loc (thr d L) ↦[(tSl L 1).view.set]{fullShare} T)
    ∗ ((tSl L 2).view.loc (thr d L) ↦[(tSl L 2).view.set]{fullShare} T) ∗ ((tSl L 3).view.loc (thr d L) ↦[(tSl L 3).view.set]{fullShare} T)
    ∗ ((tB).view.loc (thr d L) ↦{Transfers.shareTok fullShare 32 (tileIx L)} B)
    ∗ ((oSl L).view.loc (thr d L) ↦[(oSl L).view.set]{fullShare} O₀))

/-- What it hands back: the same, its block of the result at contents of which `TileV` holds. -/
def tdRes (TileV : (d : Dev nD) → grid0.Coords → Buf (Elt F) (hLoc d) → Buf (Elt F) (iLoc d) → Buf (Elt F) (tLoc d) → Buf (Elt F) (bLoc d) → Buf (Elt F) (oLoc d) → Prop)
    (d : Dev nD) (L : grid0.Coords) (H : Buf (Elt F) (hLoc d)) (I : Buf (Elt F) (iLoc d)) (T : Buf (Elt F) (tLoc d))
    (B : Buf (Elt F) (bLoc d)) : sProp 𝕄 :=
  iprop(((hSl L 0).view.loc (thr d L) ↦[(hSl L 0).view.set]{fullShare} H) ∗ ((hSl L 1).view.loc (thr d L) ↦[(hSl L 1).view.set]{fullShare} H)
    ∗ ((hSl L 2).view.loc (thr d L) ↦[(hSl L 2).view.set]{fullShare} H) ∗ ((hSl L 3).view.loc (thr d L) ↦[(hSl L 3).view.set]{fullShare} H)
    ∗ ((iSl L).view.loc (thr d L) ↦[(iSl L).view.set]{fullShare} I)
    ∗ ((tSl L 0).view.loc (thr d L) ↦[(tSl L 0).view.set]{fullShare} T) ∗ ((tSl L 1).view.loc (thr d L) ↦[(tSl L 1).view.set]{fullShare} T)
    ∗ ((tSl L 2).view.loc (thr d L) ↦[(tSl L 2).view.set]{fullShare} T) ∗ ((tSl L 3).view.loc (thr d L) ↦[(tSl L 3).view.set]{fullShare} T)
    ∗ ((tB).view.loc (thr d L) ↦{Transfers.shareTok fullShare 32 (tileIx L)} B)
    ∗ ∃ f : Buf (Elt F) (oLoc d), ⌜TileV d L H I T B f⌝ ∗ ((oSl L).view.loc (thr d L) ↦[(oSl L).view.set]{fullShare} f))

/-- The statement of one task's run, as the launch consumes it: from what the task is handed, its scoped buffers and
    semaphores and what it owes, to what it hands back. -/
def TileRun [FloatOps F] (TileV : (d : Dev nD) → grid0.Coords → Buf (Elt F) (hLoc d) → Buf (Elt F) (iLoc d) → Buf (Elt F) (tLoc d) → Buf (Elt F) (bLoc d) → Buf (Elt F) (oLoc d) → Prop)
    (Hc : (d : Dev nD) → Buf (Elt F) (hLoc d)) (Ic : (d : Dev nD) → Buf (Elt F) (iLoc d)) (Tc : (d : Dev nD) → Buf (Elt F) (tLoc d))
    (Bc : (d : Dev nD) → Buf (Elt F) (bLoc d)) (Oc : (d : Dev nD) → Buf (Elt F) (oLoc d)) : Prop :=
  ∀ (d : Dev nD) (L : grid0.Coords) (O : CellTallies nD τ sig (HIx 1)) (W : Waits sig (HIx 1)), (∀ g, O g none = 0) →
    iprop(levAts (K (F := F)).L (K (F := F)).lev ∗ emp ∗ goRes d L (Hc d) (Ic d) (Tc d) (Bc d) (Oc d)
        ∗ scopedBufs (thr d L) ∗ scopedSems0 (thr d L) ∗ owes (thr d L) O W)
      ⊢ wp frame (wpE (defs₀ (F := F)) 𝒱₀ (thr d L) none) Set.univ
          (cc0__sc_body L hT (Memref.isWhole_whole _) iX (Memref.isWhole_whole _) tT (Memref.isWhole_whole _) tB (Memref.isWhole_whole _) oU (Memref.isWhole_whole _)
            s0 (Memref.isWhole_whole _) s1 (Memref.isWhole_whole _) s2 (Memref.isWhole_whole _) s3 (Memref.isWhole_whole _) s4 (Memref.isWhole_whole _)
            s5 (Memref.isWhole_whole _) s6 (Memref.isWhole_whole _) cc0_scratch7 cc0_scratch8 cc0_scratch9 cc0_scoped0 cc0_scoped1)
          fun _ => iprop(tdRes TileV d L (Hc d) (Ic d) (Tc d) (Bc d) ∗ scopedBufs (thr d L) ∗ scopedSems0 (thr d L)
            ∗ ∃ W', ⌜∀ p ∈ W', p ∈ W ∨ p.2 = none⌝ ∗ owes (thr d L) O W')

end Cert.KernelIdeal.Hand

end
-- ==== Proof.LaunchPay.lean ====
/-
  The launch of the vector-subcore call: the call's payloads (each task is handed its column blocks, its
  relation words, a read share of the table and its block of the result, and hands them back with the
  block written), the tasks' obligation from one task's run, the launch element of the ghost state, and
  @main on the TensorCore: two transposes and a reshape, the call, a reshape.
-/
import proofs.«205645_g18588618457683_cont_8to1_1834_20_alg».proof.Proof.Shared

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type}

local notation "𝕄" => MT nD τ sig (HIx 1) (Elt F) ℕ UU ℕ

theorem nCore_zero : (K (F := F)).nCore 0 = grid0.bound 0 := rfl
theorem nSub_zero : (K (F := F)).nSub 0 = grid0.bound 1 := rfl

theorem kFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The call's payloads -/

section Payloads

variable (TileV : (d : Dev nD) → grid0.Coords → Buf (Elt F) (hLoc d) → Buf (Elt F) (iLoc d) → Buf (Elt F) (tLoc d) → Buf (Elt F) (bLoc d) → Buf (Elt F) (oLoc d) → Prop)
  (Hc : (d : Dev nD) → Buf (Elt F) (hLoc d)) (Ic : (d : Dev nD) → Buf (Elt F) (iLoc d)) (Tc : (d : Dev nD) → Buf (Elt F) (tLoc d))
  (Bc : (d : Dev nD) → Buf (Elt F) (bLoc d)) (Oc : (d : Dev nD) → Buf (Elt F) (oLoc d))

/-- What task (c, i) of device d is handed, and what it hands back. -/
abbrev goAt (d : Dev nD) (c : Fin (grid0.bound 0)) (i : Fin (grid0.bound 1)) : sProp 𝕄 :=
  goRes d (coordsV c i) (Hc d) (Ic d) (Tc d) (Bc d) (Oc d)
abbrev tdAt (d : Dev nD) (c : Fin (grid0.bound 0)) (i : Fin (grid0.bound 1)) : sProp 𝕄 :=
  tdRes TileV d (coordsV c i) (Hc d) (Ic d) (Tc d) (Bc d)

instance goRes_storable (d : Dev nD) (L : grid0.Coords) (H : Buf (Elt F) (hLoc d)) (I : Buf (Elt F) (iLoc d)) (T' : Buf (Elt F) (tLoc d))
    (B : Buf (Elt F) (bLoc d)) (O₀ : Buf (Elt F) (oLoc d)) : BI.Storable (upEmb : UEmb _ 𝕄) (goRes d L H I T' B O₀) := by
  unfold goRes; infer_instance
instance tdRes_storable (d : Dev nD) (L : grid0.Coords) (H : Buf (Elt F) (hLoc d)) (I : Buf (Elt F) (iLoc d)) (T' : Buf (Elt F) (tLoc d))
    (B : Buf (Elt F) (bLoc d)) : BI.Storable (upEmb : UEmb _ 𝕄) (tdRes TileV d L H I T' B) := by
  unfold tdRes; infer_instance

attribute [local irreducible] goRes tdRes

/-- The one call: each SparseCore takes its sixteen tasks' shares and brings them back, each task its own. -/
def P : (K (F := F)).Pay (nD := nD) (Val := Elt F) (Name := ℕ) (U := UU) where
  st := fun q d c => match q with
    | 0 => bigSep Finset.univ fun i : Fin ((K (F := F)).nSub 0) => goAt Hc Ic Tc Bc Oc d (Fin.cast nCore_zero c) (Fin.cast nSub_zero i)
  dn := fun q d c => match q with
    | 0 => bigSep Finset.univ fun i : Fin ((K (F := F)).nSub 0) => tdAt TileV Hc Ic Tc Bc d (Fin.cast nCore_zero c) (Fin.cast nSub_zero i)
  go := fun q d c i => match q with
    | 0 => goAt Hc Ic Tc Bc Oc d (Fin.cast nCore_zero c) (Fin.cast nSub_zero i)
  td := fun q d c i => match q with
    | 0 => tdAt TileV Hc Ic Tc Bc d (Fin.cast nCore_zero c) (Fin.cast nSub_zero i)
  x := fun _ _ => iprop(emp)

instance P_storable : (P (F := F) TileV Hc Ic Tc Bc Oc).IsStorable where
  st q d c := match q with
    | 0 => BI.Storable.bigSep (upEmb : UEmb _ 𝕄) Finset.univ
        (fun i : Fin ((K (F := F)).nSub 0) => goAt Hc Ic Tc Bc Oc d (Fin.cast nCore_zero c) (Fin.cast nSub_zero i))
  dn q d c := match q with
    | 0 => BI.Storable.bigSep (upEmb : UEmb _ 𝕄) Finset.univ
        (fun i : Fin ((K (F := F)).nSub 0) => tdAt TileV Hc Ic Tc Bc d (Fin.cast nCore_zero c) (Fin.cast nSub_zero i))
  go q d c i := match q with
    | 0 => (inferInstance : BI.Storable (upEmb : UEmb _ 𝕄) (goAt Hc Ic Tc Bc Oc d (Fin.cast nCore_zero c) (Fin.cast nSub_zero i)))
  td q d c i := match q with
    | 0 => (inferInstance : BI.Storable (upEmb : UEmb _ 𝕄) (tdAt TileV Hc Ic Tc Bc d (Fin.cast nCore_zero c) (Fin.cast nSub_zero i)))

theorem st_eq (d : Dev nD) (c : Fin ((K (F := F)).nCore 0)) :
    (P TileV Hc Ic Tc Bc Oc).st 0 d c
      = bigSep Finset.univ fun i : Fin ((K (F := F)).nSub 0) => goAt Hc Ic Tc Bc Oc d (Fin.cast nCore_zero c) (Fin.cast nSub_zero i) := rfl
theorem dn_eq (d : Dev nD) (c : Fin ((K (F := F)).nCore 0)) :
    (P TileV Hc Ic Tc Bc Oc).dn 0 d c
      = bigSep Finset.univ fun i : Fin ((K (F := F)).nSub 0) => tdAt TileV Hc Ic Tc Bc d (Fin.cast nCore_zero c) (Fin.cast nSub_zero i) := rfl
theorem go_eq (d : Dev nD) (c : Fin ((K (F := F)).nCore 0)) (i : Fin ((K (F := F)).nSub 0)) :
    (P TileV Hc Ic Tc Bc Oc).go 0 d c i = goAt Hc Ic Tc Bc Oc d (Fin.cast nCore_zero c) (Fin.cast nSub_zero i) := rfl
theorem td_eq (d : Dev nD) (c : Fin ((K (F := F)).nCore 0)) (i : Fin ((K (F := F)).nSub 0)) :
    (P TileV Hc Ic Tc Bc Oc).td 0 d c i = tdAt TileV Hc Ic Tc Bc d (Fin.cast nCore_zero c) (Fin.cast nSub_zero i) := rfl

/-! ## The tasks' obligation, from one task's run -/

variable [FloatOps F]

theorem defs₀_vector (c : Fin τ.nSC) (s : Fin τ.nSub) :
    defs₀ (F := F) (.scVector c s) 0 ()
      = SparseCore.onTile hcore0 hsub0 (fun c s => cc0__sc_body (coordsV c s)
          hT (Memref.isWhole_whole _) iX (Memref.isWhole_whole _) tT (Memref.isWhole_whole _) tB (Memref.isWhole_whole _) oU (Memref.isWhole_whole _)
          s0 (Memref.isWhole_whole _) s1 (Memref.isWhole_whole _) s2 (Memref.isWhole_whole _) s3 (Memref.isWhole_whole _) s4 (Memref.isWhole_whole _)
          s5 (Memref.isWhole_whole _) s6 (Memref.isWhole_whole _) cc0_scratch7 cc0_scratch8 cc0_scratch9 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hbody : TileRun TileV Hc Ic Tc Bc Oc) :
    (K (F := F)).TileObl (D (F := F)) 𝒱 (P TileV Hc Ic Tc Bc Oc) v₀ 0 := by
  intro d c i O W hO _ _
  simp only [show (P TileV Hc Ic Tc Bc Oc).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hbody d (coordsV ⟨_, hc.1⟩ ⟨_, hc.2⟩) O W hO).trans (wp_mono frame _ _ fun _ => obl_post)

omit [FloatOps F] in
theorem vecSplit : (K (F := F)).VecSplit' (P TileV Hc Ic Tc Bc Oc) 0 := by
  intro d c
  rw [st_eq, dn_eq]
  simp only [go_eq, td_eq]
  iintro H; imodintro
  isplitl [H]; · iexact H
  iintro H; iexact H

/-! ## The launch element: the handshakes' rounds beside the counters; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

omit [FloatOps F] in
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P TileV Hc Ic Tc Bc Oc).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Payloads

end Cert.KernelIdeal.Hand

end
-- ==== Proof.Parts.lean ====
/-
  How the arrays of the kernel in HBM split among the 32 vector subcores. Subcore i of SparseCore c
  (grid point (c, i)) owns the 512 batch columns from 1024 i + 512 c = 512 (2 i + c) and handles
  them in four chunks of 128. So the 32 blocks of 512 columns tile the 16384 columns of the relation
  words and of the result, and the 128 chunks of 128 columns, all 64 rows, tile the two transposed
  [64, 16384] inputs. The flattened table is read whole by every subcore: each gets one read token.
-/
import proofs.«205645_g18588618457683_cont_8to1_1834_20_alg».proof.Proof.Shared

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

/-! ## The subcores' blocks as sets of indices -/

/-- The 512 columns of a subcore, as a rectangle of the [16384] arrays. -/
abbrev vecRect (L : grid0.Coords) : Rect S16384 := Rect.unit (s := S16384) (k0_off1 L) S512.size (k0_off1_inb L)
/-- Chunk r of a subcore's columns, all 64 rows, as a rectangle of the [64, 16384] arrays. -/
abbrev colRect (L : grid0.Coords) (r : Fin 4) : Rect S64x16384 :=
  Rect.unit (s := S64x16384) (k0_off2 L (BitVec.ofNat 32 (128 * r.val))) S64x128.size (k0_off2_inb L r)

def vecSet (p : Fin 2 × Fin 16) : Finset S16384.Idx := (vecRect (coordsV p.1 p.2)).set
def colSet (p : Fin 2 × Fin 16 × Fin 4) : Finset S64x16384.Idx := (colRect (coordsV p.1 p.2.1) p.2.2).set

omit [FloatOps F] in
theorem mem_vecSet (p : Fin 2 × Fin 16) (j : S16384.Idx) :
    j ∈ vecSet p ↔ 1024 * p.2.val + 512 * p.1.val ≤ (j 0).val ∧ (j 0).val < 1024 * p.2.val + 512 * p.1.val + 512 := by
  unfold vecSet
  rw [Rect.mem_set_unit, k0_off1_eq]
  constructor
  · intro h; exact h 0
  · intro h a
    match a with
    | ⟨0, _⟩ => exact h

omit [FloatOps F] in
theorem mem_colSet (p : Fin 2 × Fin 16 × Fin 4) (j : S64x16384.Idx) :
    j ∈ colSet p ↔ 1024 * p.2.1.val + 512 * p.1.val + 128 * p.2.2.val ≤ (j 1).val
      ∧ (j 1).val < 1024 * p.2.1.val + 512 * p.1.val + 128 * p.2.2.val + 128 := by
  unfold colSet
  rw [Rect.mem_set_unit, k0_off2_eq]
  constructor
  · intro h; exact h 1
  · intro h a
    match a with
    | ⟨0, _⟩ => exact ⟨Nat.zero_le _, by have h0 : (j 0).val < 64 := (j 0).isLt; show (j 0).val < 0 + 64; omega⟩
    | ⟨1, _⟩ => exact h

omit [FloatOps F] in
theorem vec_disjoint : ∀ p ∈ (Finset.univ : Finset (Fin 2 × Fin 16)), ∀ p' ∈ (Finset.univ : Finset (Fin 2 × Fin 16)), p ≠ p' →
    Disjoint (vecSet p) (vecSet p') := by
  intro p _ p' _ hne
  rw [Finset.disjoint_left]
  intro j hj hj'
  rw [mem_vecSet] at hj hj'
  apply hne
  have h1 := p.1.isLt; have h2 := p'.1.isLt
  exact Prod.ext (Fin.ext (by omega)) (Fin.ext (by omega))

omit [FloatOps F] in
theorem vec_cover : (Finset.univ : Finset (Fin 2 × Fin 16)).biUnion vecSet = Finset.univ := by
  ext j
  simp only [Finset.mem_biUnion, Finset.mem_univ, true_and, iff_true]
  have hj : (j 0).val < 16384 := (j 0).isLt
  refine ⟨(⟨(j 0).val / 512 % 2, by omega⟩, ⟨(j 0).val / 1024, by omega⟩), (mem_vecSet _ _).2 ?_⟩
  constructor <;> dsimp only <;> omega

omit [FloatOps F] in
theorem col_disjoint : ∀ p ∈ (Finset.univ : Finset (Fin 2 × Fin 16 × Fin 4)), ∀ p' ∈ (Finset.univ : Finset (Fin 2 × Fin 16 × Fin 4)), p ≠ p' →
    Disjoint (colSet p) (colSet p') := by
  intro p _ p' _ hne
  rw [Finset.disjoint_left]
  intro j hj hj'
  rw [mem_colSet] at hj hj'
  apply hne
  have h1 := p.1.isLt; have h2 := p'.1.isLt
  have h3 := p.2.2.isLt; have h4 := p'.2.2.isLt
  exact Prod.ext (Fin.ext (by omega)) (Prod.ext (Fin.ext (by omega)) (Fin.ext (by omega)))

omit [FloatOps F] in
theorem col_cover : (Finset.univ : Finset (Fin 2 × Fin 16 × Fin 4)).biUnion colSet = Finset.univ := by
  ext j
  simp only [Finset.mem_biUnion, Finset.mem_univ, true_and, iff_true]
  have hj : (j 1).val < 16384 := (j 1).isLt
  refine ⟨(⟨(j 1).val / 512 % 2, by omega⟩, ⟨(j 1).val / 1024, by omega⟩, ⟨(j 1).val / 128 % 4, by omega⟩), (mem_colSet _ _).2 ?_⟩
  constructor <;> dsimp only <;> omega

omit [FloatOps F] in
theorem set_iSl (L : grid0.Coords) : (iSl L).view.set = (vecRect L).set := View.set_slice_whole _ _
omit [FloatOps F] in
theorem set_oSl (L : grid0.Coords) : (oSl L).view.set = (vecRect L).set := View.set_slice_whole _ _
omit [FloatOps F] in
theorem set_hSl (L : grid0.Coords) (r : Fin 4) : (hSl L r).view.set = (colRect L r).set := View.set_slice_whole _ _
omit [FloatOps F] in
theorem set_tSl (L : grid0.Coords) (r : Fin 4) : (tSl L r).view.set = (colRect L r).set := View.set_slice_whole _ _

/-! ## The arrays split among the subcores -/

omit [FloatOps F] in
theorem pts_iSl (d : Dev nD) (c : Fin 2) (i : Fin 16) (f : Buf (Elt F) (iLoc d)) :
    ((iSl (coordsV c i)).view.loc (thr d (coordsV c i)) ↦[(iSl (coordsV c i)).view.set]{fullShare} f : sProp 𝕄)
      = iLoc d ↦[vecSet (c, i)]{fullShare} f := by
  rw [set_iSl]; rfl
omit [FloatOps F] in
theorem pts_oSl (d : Dev nD) (c : Fin 2) (i : Fin 16) (f : Buf (Elt F) (oLoc d)) :
    ((oSl (coordsV c i)).view.loc (thr d (coordsV c i)) ↦[(oSl (coordsV c i)).view.set]{fullShare} f : sProp 𝕄)
      = oLoc d ↦[vecSet (c, i)]{fullShare} f := by
  rw [set_oSl]; rfl
omit [FloatOps F] in
theorem pts_hSl (d : Dev nD) (c : Fin 2) (i : Fin 16) (r : Fin 4) (f : Buf (Elt F) (hLoc d)) :
    ((hSl (coordsV c i) r).view.loc (thr d (coordsV c i)) ↦[(hSl (coordsV c i) r).view.set]{fullShare} f : sProp 𝕄)
      = hLoc d ↦[colSet (c, i, r)]{fullShare} f := by
  rw [set_hSl]; rfl
omit [FloatOps F] in
theorem pts_tSl (d : Dev nD) (c : Fin 2) (i : Fin 16) (r : Fin 4) (f : Buf (Elt F) (tLoc d)) :
    ((tSl (coordsV c i) r).view.loc (thr d (coordsV c i)) ↦[(tSl (coordsV c i) r).view.set]{fullShare} f : sProp 𝕄)
      = tLoc d ↦[colSet (c, i, r)]{fullShare} f := by
  rw [set_tSl]; rfl

omit [FloatOps F] in
theorem i_split (d : Dev nD) (f : Buf (Elt F) (iLoc d)) :
    (iLoc d ↦{fullShare} f : sProp 𝕄) = bigSep Finset.univ fun c : Fin 2 => bigSep Finset.univ fun i : Fin 16 =>
      (iSl (coordsV c i)).view.loc (thr d (coordsV c i)) ↦[(iSl (coordsV c i)).view.set]{fullShare} f := by
  have e : (bigSep Finset.univ fun c : Fin 2 => bigSep Finset.univ fun i : Fin 16 =>
      ((iSl (coordsV c i)).view.loc (thr d (coordsV c i)) ↦[(iSl (coordsV c i)).view.set]{fullShare} f : sProp 𝕄))
      = bigSep Finset.univ fun p : Fin 2 × Fin 16 => (iLoc d ↦[vecSet p]{fullShare} f : sProp 𝕄) := by
    rw [bigSep_univ_prod]
    exact bigSep_congr fun c _ => bigSep_congr fun i _ => pts_iSl d c i f
  rw [e, ← pointsTo_biUnion Finset.univ (ℓ := iLoc d) vecSet vec_disjoint, vec_cover]

omit [FloatOps F] in
theorem o_split (d : Dev nD) (f : Buf (Elt F) (oLoc d)) :
    (oLoc d ↦{fullShare} f : sProp 𝕄) = bigSep Finset.univ fun c : Fin 2 => bigSep Finset.univ fun i : Fin 16 =>
      (oSl (coordsV c i)).view.loc (thr d (coordsV c i)) ↦[(oSl (coordsV c i)).view.set]{fullShare} f := by
  have e : (bigSep Finset.univ fun c : Fin 2 => bigSep Finset.univ fun i : Fin 16 =>
      ((oSl (coordsV c i)).view.loc (thr d (coordsV c i)) ↦[(oSl (coordsV c i)).view.set]{fullShare} f : sProp 𝕄))
      = bigSep Finset.univ fun p : Fin 2 × Fin 16 => (oLoc d ↦[vecSet p]{fullShare} f : sProp 𝕄) := by
    rw [bigSep_univ_prod]
    exact bigSep_congr fun c _ => bigSep_congr fun i _ => pts_oSl d c i f
  rw [e, ← pointsTo_biUnion Finset.univ (ℓ := oLoc d) vecSet vec_disjoint, vec_cover]

omit [FloatOps F] in
theorem h_split (d : Dev nD) (f : Buf (Elt F) (hLoc d)) :
    (hLoc d ↦{fullShare} f : sProp 𝕄) = bigSep Finset.univ fun c : Fin 2 => bigSep Finset.univ fun i : Fin 16 =>
      bigSep Finset.univ fun r : Fin 4 =>
        (hSl (coordsV c i) r).view.loc (thr d (coordsV c i)) ↦[(hSl (coordsV c i) r).view.set]{fullShare} f := by
  have e : (bigSep Finset.univ fun c : Fin 2 => bigSep Finset.univ fun i : Fin 16 => bigSep Finset.univ fun r : Fin 4 =>
      ((hSl (coordsV c i) r).view.loc (thr d (coordsV c i)) ↦[(hSl (coordsV c i) r).view.set]{fullShare} f : sProp 𝕄))
      = bigSep Finset.univ fun p : Fin 2 × Fin 16 × Fin 4 => (hLoc d ↦[colSet p]{fullShare} f : sProp 𝕄) := by
    rw [bigSep_univ_prod]
    refine bigSep_congr fun c _ => ?_
    rw [bigSep_univ_prod]
    exact bigSep_congr fun i _ => bigSep_congr fun r _ => pts_hSl d c i r f
  rw [e, ← pointsTo_biUnion Finset.univ (ℓ := hLoc d) colSet col_disjoint, col_cover]

omit [FloatOps F] in
theorem t_split (d : Dev nD) (f : Buf (Elt F) (tLoc d)) :
    (tLoc d ↦{fullShare} f : sProp 𝕄) = bigSep Finset.univ fun c : Fin 2 => bigSep Finset.univ fun i : Fin 16 =>
      bigSep Finset.univ fun r : Fin 4 =>
        (tSl (coordsV c i) r).view.loc (thr d (coordsV c i)) ↦[(tSl (coordsV c i) r).view.set]{fullShare} f := by
  have e : (bigSep Finset.univ fun c : Fin 2 => bigSep Finset.univ fun i : Fin 16 => bigSep Finset.univ fun r : Fin 4 =>
      ((tSl (coordsV c i) r).view.loc (thr d (coordsV c i)) ↦[(tSl (coordsV c i) r).view.set]{fullShare} f : sProp 𝕄))
      = bigSep Finset.univ fun p : Fin 2 × Fin 16 × Fin 4 => (tLoc d ↦[colSet p]{fullShare} f : sProp 𝕄) := by
    rw [bigSep_univ_prod]
    refine bigSep_congr fun c _ => ?_
    rw [bigSep_univ_prod]
    exact bigSep_congr fun i _ => bigSep_congr fun r _ => pts_tSl d c i r f
  rw [e, ← pointsTo_biUnion Finset.univ (ℓ := tLoc d) colSet col_disjoint, col_cover]

/-- The subcores' blocks of the result, each at whatever it holds, are the whole result at some contents. -/
theorem o_join (d : Dev nD) :
    (bigSep Finset.univ fun c : Fin 2 => bigSep Finset.univ fun i : Fin 16 =>
      iprop(∃ f, (oSl (coordsV c i)).view.loc (thr d (coordsV c i)) ↦[(oSl (coordsV c i)).view.set]{fullShare} f))
      ⊢ (iprop(∃ f, oLoc d ↦{fullShare} f) : sProp 𝕄) := by
  have e : (bigSep Finset.univ fun c : Fin 2 => bigSep Finset.univ fun i : Fin 16 =>
      (iprop(∃ f, (oSl (coordsV c i)).view.loc (thr d (coordsV c i)) ↦[(oSl (coordsV c i)).view.set]{fullShare} f) : sProp 𝕄))
      = bigSep Finset.univ fun p : Fin 2 × Fin 16 => (iprop(∃ f : Buf (Elt F) (oLoc d), oLoc d ↦[vecSet p]{fullShare} f) : sProp 𝕄) := by
    rw [bigSep_univ_prod]
    refine bigSep_congr fun c _ => bigSep_congr fun i _ => ?_
    exact congrArg (fun P : Buf (Elt F) (oLoc d) → sProp 𝕄 => (iprop(∃ f, P f) : sProp 𝕄)) (funext fun f => pts_oSl d c i f)
  rw [e]
  refine (bigSep_exists_pi Finset.univ (fun p (f : Buf (Elt F) (oLoc d)) => (oLoc d ↦[vecSet p]{fullShare} f : sProp 𝕄))).trans ?_
  iintro ⟨%fs, H⟩
  ihave H' := (pointsTo_biUnion_join Finset.univ vecSet fs (fs (0, 0)) vec_disjoint) $$ H
  icases H' with ⟨%g, -, Hg⟩
  rw [vec_cover]
  iexists g; iexact Hg

/-! ## The table, read whole by all 32 subcores: one read token each -/

omit [FloatOps F] in
theorem b_split (d : Dev nD) (f : Buf (Elt F) (bLoc d)) :
    (bLoc d ↦{fullShare} f : sProp 𝕄) ⊣⊢ iprop((bLoc d ↦{Transfers.shareDrop fullShare 32} f)
      ∗ bigSep Finset.univ fun w : Fin 32 => bLoc d ↦{Transfers.shareTok fullShare 32 w} f) :=
  Transfers.pointsTo_toks fullShare 32

/-- Numbering the 32 subcores: grid point (c, i) is number 2 i + c. -/
def tileEquiv : Fin (grid0.bound 0) × Fin (grid0.bound 1) ≃ Fin 32 where
  toFun p := tileIx (coordsV p.1 p.2)
  invFun w := (⟨w.val % 2, Nat.mod_lt _ (by decide)⟩, ⟨w.val / 2, by have := w.isLt; show w.val / 2 < 16; omega⟩)
  left_inv p := by
    have h1 : p.1.val < 2 := p.1.isLt
    exact Prod.ext (Fin.ext (by show (2 * p.2.val + p.1.val) % 2 = p.1.val; omega))
      (Fin.ext (by show (2 * p.2.val + p.1.val) / 2 = p.2.val; omega))
  right_inv w := Fin.ext (by show 2 * (w.val / 2) + w.val % 2 = w.val; omega)

omit [FloatOps F] in
/-- A product over the 32 subcores by number is the product over the grid points. -/
theorem bigSep_tileIx (Φ : Fin 32 → sProp 𝕄) :
    bigSep Finset.univ (fun w : Fin 32 => Φ w)
      = bigSep Finset.univ fun c : Fin (grid0.bound 0) => bigSep Finset.univ fun i : Fin (grid0.bound 1) => Φ (tileIx (coordsV c i)) := by
  rw [← bigSep_univ_prod (fun p : Fin (grid0.bound 0) × Fin (grid0.bound 1) => Φ (tileIx (coordsV p.1 p.2))),
    ← Finset.map_univ_equiv tileEquiv, bigSep_map]
  rfl

omit [FloatOps F] in
/-- The same with the grid's bounds written as the numbers they are. -/
theorem bigSep_tileIx' (Φ : Fin 32 → sProp 𝕄) :
    bigSep Finset.univ (fun w : Fin 32 => Φ w)
      = bigSep Finset.univ fun c : Fin 2 => bigSep Finset.univ fun i : Fin 16 => Φ (tileIx (coordsV c i)) :=
  bigSep_tileIx Φ

end Cert.KernelIdeal.Hand

end
-- ==== Proof.Launch.lean ====
/-
  @main on the TensorCore around the vector-subcore call: two transposes and a reshape make the call's
  operands, the call hands every task its blocks and takes them back with the result's blocks written,
  a reshape makes the program's result. The launch theorem then gives the program's run.
-/
import proofs.«205645_g18588618457683_cont_8to1_1834_20_alg».proof.Proof.LaunchPay
import proofs.«205645_g18588618457683_cont_8to1_1834_20_alg».proof.Proof.Parts

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type}

local notation "𝕄" => MT nD τ sig (HIx 1) (Elt F) ℕ UU ℕ

/-! ## A task's share, grouped by array -/

theorem bigSep_univ_four (Φ : Fin 4 → sProp 𝕄) : bigSep Finset.univ Φ = iprop(Φ 0 ∗ Φ 1 ∗ Φ 2 ∗ Φ 3) := by
  rw [show (Finset.univ : Finset (Fin 4)) = {0, 1, 2, 3} from by decide, SparseCore.bigSep_insert' (by decide),
    SparseCore.bigSep_insert' (by decide), SparseCore.bigSep_insert' (by decide), bigSep_singleton]

theorem goRes_eq (d : Dev nD) (L : grid0.Coords) (H : Buf (Elt F) (hLoc d)) (I : Buf (Elt F) (iLoc d)) (T' : Buf (Elt F) (tLoc d))
    (B : Buf (Elt F) (bLoc d)) (O₀ : Buf (Elt F) (oLoc d)) :
    (goRes d L H I T' B O₀ : sProp 𝕄)
      = iprop((bigSep Finset.univ fun r : Fin 4 => (hSl L r).view.loc (thr d L) ↦[(hSl L r).view.set]{fullShare} H)
        ∗ ((iSl L).view.loc (thr d L) ↦[(iSl L).view.set]{fullShare} I)
        ∗ (bigSep Finset.univ fun r : Fin 4 => (tSl L r).view.loc (thr d L) ↦[(tSl L r).view.set]{fullShare} T')
        ∗ ((tB).view.loc (thr d L) ↦{Transfers.shareTok fullShare 32 (tileIx L)} B)
        ∗ ((oSl L).view.loc (thr d L) ↦[(oSl L).view.set]{fullShare} O₀)) := by
  rw [bigSep_univ_four, bigSep_univ_four]
  unfold goRes
  refine BI.equiv_iff.mp ⟨show (_ : sProp 𝕄) ⊢ _ from ?_, show (_ : sProp 𝕄) ⊢ _ from ?_⟩
  · iintro ⟨H0, H1, H2, H3, Hi, T0, T1, T2, T3, Hb, Ho⟩
    isplitl [H0 H1 H2 H3]
    · isplitl [H0]; · iexact H0
      isplitl [H1]; · iexact H1
      isplitl [H2]; · iexact H2
      iexact H3
    isplitl [Hi]; · iexact Hi
    isplitl [T0 T1 T2 T3]
    · isplitl [T0]; · iexact T0
      isplitl [T1]; · iexact T1
      isplitl [T2]; · iexact T2
      iexact T3
    isplitl [Hb]; · iexact Hb
    iexact Ho
  · iintro ⟨⟨H0, H1, H2, H3⟩, Hi, ⟨T0, T1, T2, T3⟩, Hb, Ho⟩
    isplitl [H0]; · iexact H0
    isplitl [H1]; · iexact H1
    isplitl [H2]; · iexact H2
    isplitl [H3]; · iexact H3
    isplitl [Hi]; · iexact Hi
    isplitl [T0]; · iexact T0
    isplitl [T1]; · iexact T1
    isplitl [T2]; · iexact T2
    isplitl [T3]; · iexact T3
    isplitl [Hb]; · iexact Hb
    iexact Ho

theorem tdRes_eq (TileV : (d : Dev nD) → grid0.Coords → Buf (Elt F) (hLoc d) → Buf (Elt F) (iLoc d) → Buf (Elt F) (tLoc d) → Buf (Elt F) (bLoc d) → Buf (Elt F) (oLoc d) → Prop)
    (d : Dev nD) (L : grid0.Coords) (H : Buf (Elt F) (hLoc d)) (I : Buf (Elt F) (iLoc d)) (T' : Buf (Elt F) (tLoc d))
    (B : Buf (Elt F) (bLoc d)) :
    (tdRes TileV d L H I T' B : sProp 𝕄)
      = iprop((bigSep Finset.univ fun r : Fin 4 => (hSl L r).view.loc (thr d L) ↦[(hSl L r).view.set]{fullShare} H)
        ∗ ((iSl L).view.loc (thr d L) ↦[(iSl L).view.set]{fullShare} I)
        ∗ (bigSep Finset.univ fun r : Fin 4 => (tSl L r).view.loc (thr d L) ↦[(tSl L r).view.set]{fullShare} T')
        ∗ ((tB).view.loc (thr d L) ↦{Transfers.shareTok fullShare 32 (tileIx L)} B)
        ∗ (∃ f : Buf (Elt F) (oLoc d), ⌜TileV d L H I T' B f⌝ ∗ ((oSl L).view.loc (thr d L) ↦[(oSl L).view.set]{fullShare} f))) := by
  rw [bigSep_univ_four, bigSep_univ_four]
  unfold tdRes
  refine BI.equiv_iff.mp ⟨show (_ : sProp 𝕄) ⊢ _ from ?_, show (_ : sProp 𝕄) ⊢ _ from ?_⟩
  · iintro ⟨H0, H1, H2, H3, Hi, T0, T1, T2, T3, Hb, Ho⟩
    isplitl [H0 H1 H2 H3]
    · isplitl [H0]; · iexact H0
      isplitl [H1]; · iexact H1
      isplitl [H2]; · iexact H2
      iexact H3
    isplitl [Hi]; · iexact Hi
    isplitl [T0 T1 T2 T3]
    · isplitl [T0]; · iexact T0
      isplitl [T1]; · iexact T1
      isplitl [T2]; · iexact T2
      iexact T3
    isplitl [Hb]; · iexact Hb
    iexact Ho
  · iintro ⟨⟨H0, H1, H2, H3⟩, Hi, ⟨T0, T1, T2, T3⟩, Hb, Ho⟩
    isplitl [H0]; · iexact H0
    isplitl [H1]; · iexact H1
    isplitl [H2]; · iexact H2
    isplitl [H3]; · iexact H3
    isplitl [Hi]; · iexact Hi
    isplitl [T0]; · iexact T0
    isplitl [T1]; · iexact T1
    isplitl [T2]; · iexact T2
    isplitl [T3]; · iexact T3
    isplitl [Hb]; · iexact Hb
    iexact Ho

attribute [local irreducible] goRes tdRes

/-! ## The call's operands split among the tasks, and its results joined -/

section Split

variable (TileV : (d : Dev nD) → grid0.Coords → Buf (Elt F) (hLoc d) → Buf (Elt F) (iLoc d) → Buf (Elt F) (tLoc d) → Buf (Elt F) (bLoc d) → Buf (Elt F) (oLoc d) → Prop)
  (Hc : (d : Dev nD) → Buf (Elt F) (hLoc d)) (Ic : (d : Dev nD) → Buf (Elt F) (iLoc d)) (Tc : (d : Dev nD) → Buf (Elt F) (tLoc d))
  (Bc : (d : Dev nD) → Buf (Elt F) (bLoc d)) (Oc : (d : Dev nD) → Buf (Elt F) (oLoc d))

variable [FloatOps F]

/-- What the tasks leave of the result: contents g that agree, on each task's block, with contents of which the
    task's value fact holds. -/
def Agree (d : Dev nD) (g : Buf (Elt F) (oLoc d)) : Prop :=
  ∀ (c : Fin (grid0.bound 0)) (i : Fin (grid0.bound 1)), ∃ f : Buf (Elt F) (oLoc d),
    TileV d (coordsV c i) (Hc d) (Ic d) (Tc d) (Bc d) f ∧ ∀ j ∈ (oSl (coordsV c i)).view.set, g j = f j

theorem st0_eq (d : Dev nD) :
    (bigSep Finset.univ fun c : Fin ((K (F := F)).nCore 0) => (P TileV Hc Ic Tc Bc Oc).st 0 d c)
      = iprop((hLoc d ↦{fullShare} Hc d) ∗ (iLoc d ↦{fullShare} Ic d) ∗ (tLoc d ↦{fullShare} Tc d)
        ∗ (bigSep Finset.univ fun w : Fin 32 => bLoc d ↦{Transfers.shareTok fullShare 32 w} Bc d) ∗ (oLoc d ↦{fullShare} Oc d)) := by
  rw [h_split, i_split, t_split, o_split, bigSep_tileIx' (fun w => (bLoc d ↦{Transfers.shareTok fullShare 32 w} Bc d : sProp 𝕄))]
  simp only [st_eq]
  show (bigSep Finset.univ fun c : Fin 2 => bigSep Finset.univ fun i : Fin 16 => (goRes d (coordsV c i) (Hc d) (Ic d) (Tc d) (Bc d) (Oc d) : sProp 𝕄)) = _
  simp only [goRes_eq, bigSep_sep']

theorem o_joinV (d : Dev nD) :
    (bigSep Finset.univ fun c : Fin 2 => bigSep Finset.univ fun i : Fin 16 =>
      iprop(∃ f : Buf (Elt F) (oLoc d), ⌜TileV d (coordsV c i) (Hc d) (Ic d) (Tc d) (Bc d) f⌝
        ∗ ((oSl (coordsV c i)).view.loc (thr d (coordsV c i)) ↦[(oSl (coordsV c i)).view.set]{fullShare} f)))
      ⊢ (iprop(∃ g, ⌜Agree TileV Hc Ic Tc Bc d g⌝ ∗ oLoc d ↦{fullShare} g) : sProp 𝕄) := by
  have e : (bigSep Finset.univ fun c : Fin 2 => bigSep Finset.univ fun i : Fin 16 =>
      (iprop(∃ f : Buf (Elt F) (oLoc d), ⌜TileV d (coordsV c i) (Hc d) (Ic d) (Tc d) (Bc d) f⌝
        ∗ ((oSl (coordsV c i)).view.loc (thr d (coordsV c i)) ↦[(oSl (coordsV c i)).view.set]{fullShare} f)) : sProp 𝕄))
      = bigSep Finset.univ fun p : Fin 2 × Fin 16 => (iprop(∃ f : Buf (Elt F) (oLoc d),
          ⌜TileV d (coordsV p.1 p.2) (Hc d) (Ic d) (Tc d) (Bc d) f⌝ ∗ (oLoc d ↦[vecSet p]{fullShare} f)) : sProp 𝕄) := by
    rw [bigSep_univ_prod]
    refine bigSep_congr fun c _ => bigSep_congr fun i _ => ?_
    exact congrArg (fun Pf : Buf (Elt F) (oLoc d) → sProp 𝕄 => (iprop(∃ f, Pf f) : sProp 𝕄)) (funext fun f => by rw [pts_oSl])
  rw [e]
  refine (bigSep_exists_pi Finset.univ (fun p (f : Buf (Elt F) (oLoc d)) =>
    (iprop(⌜TileV d (coordsV p.1 p.2) (Hc d) (Ic d) (Tc d) (Bc d) f⌝ ∗ (oLoc d ↦[vecSet p]{fullShare} f)) : sProp 𝕄))).trans ?_
  iintro ⟨%fs, H⟩
  ihave H1 := (bigSep_pure_sep Finset.univ (fun p : Fin 2 × Fin 16 => TileV d (coordsV p.1 p.2) (Hc d) (Ic d) (Tc d) (Bc d) (fs p))
    (fun p => (oLoc d ↦[vecSet p]{fullShare} fs p : sProp 𝕄))) $$ H
  icases H1 with ⟨%hV, H⟩
  ihave H' := (pointsTo_biUnion_join Finset.univ vecSet fs (fs (0, 0)) vec_disjoint) $$ H
  icases H' with ⟨%g, %hg, Hg⟩
  rw [vec_cover]
  iexists g; isplitr
  · ipureintro; intro c i
    exact ⟨fs (c, i), hV (c, i) (Finset.mem_univ _), fun j hj => hg (c, i) (Finset.mem_univ _) j (by rw [set_oSl] at hj; exact hj)⟩
  · iexact Hg

theorem dn0_split (d : Dev nD) :
    (bigSep Finset.univ fun c : Fin ((K (F := F)).nCore 0) => (P TileV Hc Ic Tc Bc Oc).dn 0 d c)
      ⊢ iprop((hLoc d ↦{fullShare} Hc d) ∗ (iLoc d ↦{fullShare} Ic d) ∗ (tLoc d ↦{fullShare} Tc d)
        ∗ (bigSep Finset.univ fun w : Fin 32 => bLoc d ↦{Transfers.shareTok fullShare 32 w} Bc d)
        ∗ ∃ g, ⌜Agree TileV Hc Ic Tc Bc d g⌝ ∗ oLoc d ↦{fullShare} g) := by
  simp only [dn_eq]
  show (bigSep Finset.univ fun c : Fin 2 => bigSep Finset.univ fun i : Fin 16 => (tdRes TileV d (coordsV c i) (Hc d) (Ic d) (Tc d) (Bc d) : sProp 𝕄)) ⊢ _
  simp only [tdRes_eq, bigSep_sep']
  iintro ⟨Hh, Hi, Ht, Hb, Ho⟩
  ihave Hh' := (Entails.of_eq (h_split (F := F) d (Hc d)).symm) $$ Hh
  ihave Hi' := (Entails.of_eq (i_split (F := F) d (Ic d)).symm) $$ Hi
  ihave Ht' := (Entails.of_eq (t_split (F := F) d (Tc d)).symm) $$ Ht
  ihave Hb' := (Entails.of_eq (bigSep_tileIx' (F := F) (fun w => (bLoc d ↦{Transfers.shareTok fullShare 32 w} Bc d : sProp 𝕄))).symm) $$ Hb
  isplitl [Hh']; · iexact Hh'
  isplitl [Hi']; · iexact Hi'
  isplitl [Ht']; · iexact Ht'
  isplitl [Hb']; · iexact Hb'
  iapply (o_joinV TileV Hc Ic Tc Bc d); iexact Ho

end Split

/-! ## The TensorCore's arrays and @main's four host operations -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)

abbrev a0Loc (d : Dev nD) : Loc nD τ sig := (SparseCore.T d).loc main_arg0
abbrev a2Loc (d : Dev nD) : Loc nD τ sig := (SparseCore.T d).loc main_arg2
abbrev a3Loc (d : Dev nD) : Loc nD τ sig := (SparseCore.T d).loc main_arg3
abbrev rLoc (d : Dev nD) : Loc nD τ sig := (SparseCore.T d).loc main_v4

/-- The nine arrays of @main, all unscoped. -/
abbrev S9 : Finset (DevRef τ sig) := {a0', a1', a2', a3', v0', v1', v2', v3', v4'}

theorem held_S9 (d : Dev nD) (W : Valuation τ sig (Elt F)) :
    (held (T d) S9 W : sProp 𝕄) = iprop((a0Loc d ↦{fullShare} W a0') ∗ (iLoc d ↦{fullShare} W a1') ∗ (a2Loc d ↦{fullShare} W a2')
      ∗ (a3Loc d ↦{fullShare} W a3') ∗ (hLoc d ↦{fullShare} W v0') ∗ (tLoc d ↦{fullShare} W v1') ∗ (bLoc d ↦{fullShare} W v2')
      ∗ (oLoc d ↦{fullShare} W v3') ∗ (rLoc d ↦{fullShare} W v4')) := by
  unfold held S9
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop((a0Loc d ↦{fullShare} W main_arg0) ∗ (iLoc d ↦{fullShare} W main_arg1) ∗ (a2Loc d ↦{fullShare} W main_arg2)
      ∗ (a3Loc d ↦{fullShare} W main_arg3) ∗ (hLoc d ↦{fullShare} W main_v0) ∗ (tLoc d ↦{fullShare} W main_v1) ∗ (bLoc d ↦{fullShare} W main_v2)
      ∗ (oLoc d ↦{fullShare} W main_v3) ∗ (rLoc d ↦{fullShare} W main_v4)) := by
  unfold unscopedBufs
  rw [show (Finset.univ.filter fun b : Ref sig .tc => ¬ b.isScoped) = {main_arg0, main_arg1, main_arg2, main_arg3, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

section Host

variable [FloatOps F]

abbrev opH : HloOp τ sig (Elt F) :=
  StableHlo.unary main_arg0 main_v0 ((transpose S64x16384 [1, 0] · Facts₀.transposes_S16384x64_S64x16384_1_0) : (⟨S16384x64, .f32⟩ : BufTy).Contents (Elt F) → (⟨S64x16384, .f32⟩ : BufTy).Contents (Elt F))
abbrev opT : HloOp τ sig (Elt F) :=
  StableHlo.unary main_arg2 main_v1 ((transpose S64x16384 [1, 0] · Facts₀.transposes_S16384x64_S64x16384_1_0) : (⟨S16384x64, .f32⟩ : BufTy).Contents (Elt F) → (⟨S64x16384, .f32⟩ : BufTy).Contents (Elt F))
abbrev opB : HloOp τ sig (Elt F) := StableHlo.reshape main_arg3 main_v2 rfl Facts₀.shapeCasts_S1000x64_S64000
abbrev opR : HloOp τ sig (Elt F) := StableHlo.reshape main_v3 main_v4 rfl Facts₀.shapeCasts_S16384_S1x16384

theorem subH : (opH (F := F)).bufs ⊆ S9 := show ({a0', v0'} : Finset (DevRef τ sig)) ⊆ S9 by decide
theorem subT : (opT (F := F)).bufs ⊆ S9 := show ({a2', v1'} : Finset (DevRef τ sig)) ⊆ S9 by decide
theorem subB : (opB (F := F)).bufs ⊆ S9 := show ({a3', v2'} : Finset (DevRef τ sig)) ⊆ S9 by decide
theorem subR : (opR (F := F)).bufs ⊆ S9 := show ({v3', v4'} : Finset (DevRef τ sig)) ⊆ S9 by decide

variable (m : (ℓ : Loc nD τ sig) → Buf (Elt F) ℓ)

/-- The launch valuation, and the valuations after each of the three operations before the call. -/
def V0 (d : Dev nD) : Valuation τ sig (Elt F) := fun b => m (d, b)
abbrev V1 (d : Dev nD) : Valuation τ sig (Elt F) := (opH (F := F)).result (V0 m d)
abbrev V2 (d : Dev nD) : Valuation τ sig (Elt F) := (opT (F := F)).result (V1 m d)
abbrev V3 (d : Dev nD) : Valuation τ sig (Elt F) := (opB (F := F)).result (V2 m d)

theorem unscoped_held (d : Dev nD) : (unscopedBufs d (fun b => m ((SparseCore.T d).loc b)) : sProp 𝕄) = held (T d) S9 (V0 m d) := by
  rw [unscopedBufs_eq, held_S9]; rfl

/-- What the call's operands hold when the call starts. -/
abbrev Hc (d : Dev nD) : Buf (Elt F) (hLoc d) := V3 m d v0'
abbrev Ic (d : Dev nD) : Buf (Elt F) (iLoc d) := V3 m d a1'
abbrev Tc (d : Dev nD) : Buf (Elt F) (tLoc d) := V3 m d v1'
abbrev Bc (d : Dev nD) : Buf (Elt F) (bLoc d) := V3 m d v2'
abbrev Oc (d : Dev nD) : Buf (Elt F) (oLoc d) := V3 m d v3'

theorem V3_ne {r : Ref sig .tc} (h0 : r ≠ main_v0) (h1 : r ≠ main_v1) (h2 : r ≠ main_v2) (d : Dev nD) :
    V3 m d (Proc.devRef .tc r) = m (d, Proc.devRef .tc r) := by
  unfold V3 V2 V1
  rw [StableHlo.reshape_result_ne _ _ _ _ _ _ _ h2, StableHlo.unary_result_ne _ _ _ _ _ _ h1, StableHlo.unary_result_ne _ _ _ _ _ _ h0]
  rfl

theorem V3_a0 (d : Dev nD) : V3 m d a0' = m (a0Loc d) := V3_ne m (by decide) (by decide) (by decide) d
theorem V3_a1 (d : Dev nD) : V3 m d a1' = m (iLoc d) := V3_ne m (by decide) (by decide) (by decide) d
theorem V3_a2 (d : Dev nD) : V3 m d a2' = m (a2Loc d) := V3_ne m (by decide) (by decide) (by decide) d
theorem V3_a3 (d : Dev nD) : V3 m d a3' = m (a3Loc d) := V3_ne m (by decide) (by decide) (by decide) d

/-- The operands as functions of the arguments: the two transposes, the relation words, the flattened table. -/
theorem Hc_eq (d : Dev nD) : Hc m d = transpose S64x16384 [1, 0] (m (a0Loc d)) Facts₀.transposes_S16384x64_S64x16384_1_0 := by
  show V3 m d v0' = _
  unfold V3 V2
  rw [StableHlo.reshape_result_ne _ _ _ _ _ _ _ (show main_v0 ≠ main_v2 by decide), StableHlo.unary_result_ne _ _ _ _ _ _ (show main_v0 ≠ main_v1 by decide)]
  unfold V1
  rw [StableHlo.unary_result]; rfl
theorem Tc_eq (d : Dev nD) : Tc m d = transpose S64x16384 [1, 0] (m (a2Loc d)) Facts₀.transposes_S16384x64_S64x16384_1_0 := by
  show V3 m d v1' = _
  unfold V3 V2
  rw [StableHlo.reshape_result_ne _ _ _ _ _ _ _ (show main_v1 ≠ main_v2 by decide), StableHlo.unary_result]
  unfold V1
  rw [StableHlo.unary_result_ne _ _ _ _ _ _ (show main_arg2 ≠ main_v0 by decide)]; rfl
theorem Bc_eq (d : Dev nD) : Bc m d = fun i => shapeCast S64000 (m (a3Loc d)) Facts₀.shapeCasts_S1000x64_S64000 i := by
  show V3 m d v2' = _
  unfold V3
  rw [StableHlo.reshape_result]
  unfold V2 V1
  rw [StableHlo.unary_result_ne _ _ _ _ _ _ (show main_arg3 ≠ main_v1 by decide), StableHlo.unary_result_ne _ _ _ _ _ _ (show main_arg3 ≠ main_v0 by decide)]
  rfl

/-- The valuation after the call: the result array at what the tasks left. -/
def V4 (d : Dev nD) (g : Buf (Elt F) (oLoc d)) : Valuation τ sig (Elt F) := Function.update (V3 m d) v3' g

theorem V4_v3 (d : Dev nD) (g : Buf (Elt F) (oLoc d)) : V4 m d g v3' = g := Function.update_self _ _ _
theorem V4_ne (d : Dev nD) (g : Buf (Elt F) (oLoc d)) {b : DevRef τ sig} (h : b ≠ v3') : V4 m d g b = V3 m d b := Function.update_of_ne h _ _

/-- The program's result: the reshape of what the tasks left. -/
theorem res_eq (d : Dev nD) (g : Buf (Elt F) (oLoc d)) :
    (opR (F := F)).result (V4 m d g) v4' = fun i => shapeCast S1x16384 g Facts₀.shapeCasts_S16384_S1x16384 i := by
  rw [StableHlo.reshape_result, V4_v3]; rfl

theorem resR_ne (d : Dev nD) (g : Buf (Elt F) (oLoc d)) {r : Ref sig .tc} (h : r ≠ main_v4) (h3 : r ≠ main_v3) :
    (opR (F := F)).result (V4 m d g) (Proc.devRef .tc r) = V3 m d (Proc.devRef .tc r) := by
  rw [StableHlo.reshape_result_ne _ _ _ _ _ _ _ h, V4_ne m d g (fun e => h3 (Proc.devRef_injective _ e))]

end Host

/-! ## @main on the TensorCore -/

section Main

variable [FloatOps F]
variable (TileV : (d : Dev nD) → grid0.Coords → Buf (Elt F) (hLoc d) → Buf (Elt F) (iLoc d) → Buf (Elt F) (tLoc d) → Buf (Elt F) (bLoc d) → Buf (Elt F) (oLoc d) → Prop)
  (ResV : (d : Dev nD) → Buf (Elt F) (a0Loc d) → Buf (Elt F) (iLoc d) → Buf (Elt F) (a2Loc d) → Buf (Elt F) (a3Loc d) → Buf (Elt F) (rLoc d) → Prop)
  (m : (ℓ : Loc nD τ sig) → Buf (Elt F) ℓ) (ρ : Dev nD → PrngReg)

/-- The call's payloads at the operands' contents when the call starts. -/
abbrev PP : (K (F := F)).Pay (nD := nD) (Val := Elt F) (Name := ℕ) (U := UU) := P TileV (Hc m) (Ic m) (Tc m) (Bc m) (Oc m)

/-- What the launch asks of the value facts: if the tasks' blocks of the result hold contents of which the tasks'
    facts hold, the reshaped result has the program's fact. -/
def ResOK : Prop :=
  ∀ (d : Dev nD) (g : Buf (Elt F) (oLoc d)), Agree TileV (Hc m) (Ic m) (Tc m) (Bc m) d g →
    ResV d (m (a0Loc d)) (m (iLoc d)) (m (a2Loc d)) (m (a3Loc d)) ((opR (F := F)).result (V4 m d g) v4')

/-- What @main leaves the claim: the four arguments at their launch contents, the result at contents of which the
    program's fact holds. -/
def FIN (d : Dev nD) : sProp 𝕄 :=
  iprop((a0Loc d ↦{fullShare} m (a0Loc d)) ∗ (iLoc d ↦{fullShare} m (iLoc d)) ∗ (a2Loc d ↦{fullShare} m (a2Loc d))
    ∗ (a3Loc d ↦{fullShare} m (a3Loc d))
    ∗ ∃ r : Buf (Elt F) (rLoc d), ⌜ResV d (m (a0Loc d)) (m (iLoc d)) (m (a2Loc d)) (m (a3Loc d)) r⌝ ∗ rLoc d ↦{fullShare} r)

theorem fin_a0 (d : Dev nD) (g : Buf (Elt F) (oLoc d)) : (opR (F := F)).result (V4 m d g) a0' = m (a0Loc d) :=
  (resR_ne m d g (show main_arg0 ≠ main_v4 by decide) (by decide)).trans (V3_a0 m d)
theorem fin_a1 (d : Dev nD) (g : Buf (Elt F) (oLoc d)) : (opR (F := F)).result (V4 m d g) a1' = m (iLoc d) :=
  (resR_ne m d g (show main_arg1 ≠ main_v4 by decide) (by decide)).trans (V3_a1 m d)
theorem fin_a2 (d : Dev nD) (g : Buf (Elt F) (oLoc d)) : (opR (F := F)).result (V4 m d g) a2' = m (a2Loc d) :=
  (resR_ne m d g (show main_arg2 ≠ main_v4 by decide) (by decide)).trans (V3_a2 m d)
theorem fin_a3 (d : Dev nD) (g : Buf (Elt F) (oLoc d)) : (opR (F := F)).result (V4 m d g) a3' = m (a3Loc d) :=
  (resR_ne m d g (show main_arg3 ≠ main_v4 by decide) (by decide)).trans (V3_a3 m d)

theorem held_V4 (d : Dev nD) (g : Buf (Elt F) (oLoc d)) :
    (held (T d) S9 (V4 m d g) : sProp 𝕄) = iprop((a0Loc d ↦{fullShare} V3 m d a0') ∗ (iLoc d ↦{fullShare} V3 m d a1') ∗ (a2Loc d ↦{fullShare} V3 m d a2')
      ∗ (a3Loc d ↦{fullShare} V3 m d a3') ∗ (hLoc d ↦{fullShare} V3 m d v0') ∗ (tLoc d ↦{fullShare} V3 m d v1') ∗ (bLoc d ↦{fullShare} V3 m d v2')
      ∗ (oLoc d ↦{fullShare} g) ∗ (rLoc d ↦{fullShare} V3 m d v4')) := by
  rw [held_S9, V4_v3, V4_ne m d g (show a0' ≠ v3' by decide), V4_ne m d g (show a1' ≠ v3' by decide), V4_ne m d g (show a2' ≠ v3' by decide),
    V4_ne m d g (show a3' ≠ v3' by decide), V4_ne m d g (show v0' ≠ v3' by decide), V4_ne m d g (show v1' ≠ v3' by decide),
    V4_ne m d g (show v2' ≠ v3' by decide), V4_ne m d g (show v4' ≠ v3' by decide)]

theorem held_fin (d : Dev nD) (g : Buf (Elt F) (oLoc d)) :
    (held (T d) S9 ((opR (F := F)).result (V4 m d g)) : sProp 𝕄)
      ⊢ iprop((a0Loc d ↦{fullShare} m (a0Loc d)) ∗ (iLoc d ↦{fullShare} m (iLoc d)) ∗ (a2Loc d ↦{fullShare} m (a2Loc d))
        ∗ (a3Loc d ↦{fullShare} m (a3Loc d)) ∗ (rLoc d ↦{fullShare} (opR (F := F)).result (V4 m d g) v4')) := by
  rw [held_S9, fin_a0, fin_a1, fin_a2, fin_a3]
  iintro ⟨Ha0, Ha1, Ha2, Ha3, -, -, -, -, Hv4⟩
  isplitl [Ha0]; · iexact Ha0
  isplitl [Ha1]; · iexact Ha1
  isplitl [Ha2]; · iexact Ha2
  isplitl [Ha3]; · iexact Ha3
  iexact Hv4

/-- @main on device d's TensorCore: the two transposes and the reshape, the call (the operands split among the 32 tasks,
    a read share of the table each; the pieces back, the result's blocks joined), the final reshape. -/
theorem hmain (hres : ResOK TileV ResV m) (κ : GSem nD τ sig → ℕ) (d : Dev nD) :
    iprop((K (F := F)).ctx EH (PP TileV m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN ResV m d) := by
  unfold SparseCore.Cfg.tcRes
  rw [unscoped_held]
  simp only [main, wp_bind, wp_pure]
  iintro ⟨#Hctx, Hst, ⟨Hb, Hheld, -, -⟩, -⟩
  -- the two transposes and the reshape
  iapply (wp_hlo_within 𝒱 (SparseCore.T d) none Set.univ (op := opH) (S := S9) subH (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opT) (S := S9) subT (V := V1 m d)) $$ [Hb Hheld]
  · isplitl [Hb]; · iexact Hb
    iexact Hheld
  iintro ⟨Hb, Hheld⟩
  rw [wp_ret]; imodintro
  iapply (wp_hlo_within 𝒱 (SparseCore.T d) none Set.univ (op := opB) (S := S9) subB (V := V2 m d)) $$ [Hb Hheld]
  · isplitl [Hb]; · iexact Hb
    iexact Hheld
  iintro ⟨Hb, Hheld⟩
  rw [wp_ret]; imodintro
  ihave Hh := (Entails.of_eq (held_S9 (F := F) d (V3 m d))) $$ Hheld
  icases Hh with ⟨Ha0, Ha1, Ha2, Ha3, Hv0, Hv1, Hv2, Hv3, Hv4⟩
  ihave Hbs := (b_split (F := F) d (V3 m d v2')).1 $$ Hv2
  icases Hbs with ⟨Hdrop, Htoks⟩
  -- the call
  iapply ((K (F := F)).wp_run (D (F := F)) 𝒱 (EH := EH) (P := PP TileV m) κ d 0) $$ [Hst Ha1 Hv0 Hv1 Htoks Hv3 Hb Ha0 Ha2 Ha3 Hv4 Hdrop]
  isplitr; · iexact Hctx
  isplitl [Hst]; · iexact Hst
  isplitl [Ha1 Hv0 Hv1 Htoks Hv3]
  · rw [st0_eq]
    isplitl [Hv0]; · iexact Hv0
    isplitl [Ha1]; · iexact Ha1
    isplitl [Hv1]; · iexact Hv1
    isplitl [Htoks]; · iexact Htoks
    iexact Hv3
  iintro ⟨Hst, Hdn⟩
  ihave Hdn' := (dn0_split TileV (Hc m) (Ic m) (Tc m) (Bc m) (Oc m) d) $$ Hdn
  icases Hdn' with ⟨Hv0, Ha1, Hv1, Htoks, %g, %hg, Hv3⟩
  ihave Hv2 := (b_split (F := F) d (V3 m d v2')).2 $$ [Hdrop Htoks]
  · isplitl [Hdrop]; · iexact Hdrop
    iexact Htoks
  -- the final reshape
  iapply (wp_hlo_within 𝒱 (SparseCore.T d) none Set.univ (op := opR) (S := S9) subR (V := V4 m d g)) $$ [Hb Ha0 Ha1 Ha2 Ha3 Hv0 Hv1 Hv2 Hv3 Hv4]
  · isplitl [Hb]; · iexact Hb
    rw [held_V4]
    isplitl [Ha0]; · iexact Ha0
    isplitl [Ha1]; · iexact Ha1
    isplitl [Ha2]; · iexact Ha2
    isplitl [Ha3]; · iexact Ha3
    isplitl [Hv0]; · iexact Hv0
    isplitl [Hv1]; · iexact Hv1
    isplitl [Hv2]; · iexact Hv2
    isplitl [Hv3]; · iexact Hv3
    iexact Hv4
  iintro ⟨Hb, Hheld⟩
  ihave Hf := (held_fin m d g) $$ Hheld
  icases Hf with ⟨Ha0, Ha1, Ha2, Ha3, Hv4⟩
  rw [wp_ret]; imodintro; imodintro
  isplitl [Hst]; · iexact Hst
  unfold FIN
  isplitl [Ha0]; · iexact Ha0
  isplitl [Ha1]; · iexact Ha1
  isplitl [Ha2]; · iexact Ha2
  isplitl [Ha3]; · iexact Ha3
  iexists _; isplitr
  · ipureintro; exact hres d g hg
  · iexact Hv4

def fq (d : Dev nD) (s' : Phys nD τ sig (Elt F)) : Prop :=
  ResV d (m (a0Loc d)) (m (iLoc d)) (m (a2Loc d)) (m (a3Loc d)) (s'.mem.mem (rLoc d))
    ∧ s'.mem.mem (a0Loc d) = m (a0Loc d) ∧ s'.mem.mem (iLoc d) = m (iLoc d)
    ∧ s'.mem.mem (a2Loc d) = m (a2Loc d) ∧ s'.mem.mem (a3Loc d) = m (a3Loc d)

theorem hfin (d : Dev nD) (s' : Phys nD τ sig (Elt F)) : iprop(FIN ResV m d ∗ SI s') ⊢ (⌜fq ResV m d s'⌝ : sProp 𝕄) := by
  unfold FIN
  iintro ⟨⟨Ha0, Ha1, Ha2, Ha3, %r, %hr, Hr⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h0, HSI, -⟩
  ihave H := (persistent_entails_right (SI_pointsTo_agree (st := s') (ℓ := iLoc d) (I := Finset.univ) (q := fullShare) (f := m (iLoc d)))) $$ [HSI Ha1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI Ha2]
  · isplitl [HSI] <;> iassumption
  icases H with ⟨%h2, HSI, -⟩
  ihave H := (persistent_entails_right (SI_pointsTo_agree (st := s') (ℓ := a3Loc d) (I := Finset.univ) (q := fullShare) (f := m (a3Loc d)))) $$ [HSI Ha3]
  · isplitl [HSI] <;> iassumption
  icases H with ⟨%h3, HSI, -⟩
  ihave H := (SI_pointsTo_agree (st := s') (ℓ := rLoc d) (I := Finset.univ) (q := fullShare) (f := r)) $$ [HSI Hr]
  · isplitl [HSI] <;> iassumption
  icases H with %h4
  ipureintro
  have e4 : s'.mem.mem (rLoc d) = r := funext fun i => h4 i (Finset.mem_univ i)
  exact ⟨e4 ▸ hr, funext fun i => h0 i (Finset.mem_univ i), funext fun i => h1 i (Finset.mem_univ i),
    funext fun i => h2 i (Finset.mem_univ i), funext fun i => h3 i (Finset.mem_univ i)⟩

/-! ## The program's run -/

def QC : PUnit × MemSt nD τ sig (Elt F) → Prop := fun r => ∀ c : Dev nD,
  ResV c (m (a0Loc c)) (m (iLoc c)) (m (a2Loc c)) (m (a3Loc c)) (r.2.mem (rLoc c))
    ∧ r.2.mem (a0Loc c) = m (a0Loc c) ∧ r.2.mem (iLoc c) = m (iLoc c)
    ∧ r.2.mem (a2Loc c) = m (a2Loc c) ∧ r.2.mem (a3Loc c) = m (a3Loc c)

/-- From one task's run and the passage from the tasks' facts to the program's: every weakly fair execution of the
    device's threads terminates, the result has the program's fact, the arguments are unchanged. -/
theorem run_main [∀ e, Nonempty (Elt F e)] (hbody : TileRun TileV (Hc m) (Ic m) (Tc m) (Bc m) (Oc m)) (hres : ResOK TileV ResV m) :
    θ_run (Cert.KernelIdeal.defs (F := F)) (Cert.KernelIdeal.threads (F := F)) ⟨m, fun _ => 0, ρ⟩ (QC ResV m) :=
  SparseCore.Cfg.θ_run_sc (K := K (F := F)) (D := D (F := F)) (𝒱 := 𝒱) (EH := EH) (P := PP TileV m) kFacts v₀
    (fun q hq => match q with | 0 => nomatch hq)
    (fun q _ => match q with | 0 => tileObl TileV (Hc m) (Ic m) (Tc m) (Bc m) (Oc m) hbody)
    (fun q _ => match q with | 0 => SparseCore.Cfg.VecSplit.of_plain (vecSplit TileV (Hc m) (Ic m) (Tc m) (Bc m) (Oc m)))
    m ρ main (fun _ => iprop(emp)) (FIN ResV m) (u₀ (F := F)) (sep_elim_left.trans (hu₀ TileV (Hc m) (Ic m) (Tc m) (Bc m) (Oc m)))
    (hmain TileV ResV m ρ hres) (fq ResV m) (hfin ResV m) (QC ResV m) (fun _ h => h)

/-- The same with the claim's post written out over each device's TensorCore locations. -/
theorem run_main' [∀ e, Nonempty (Elt F e)] (hbody : TileRun TileV (Hc m) (Ic m) (Tc m) (Bc m) (Oc m)) (hres : ResOK TileV ResV m) :
    θ_run (Cert.KernelIdeal.defs (F := F)) (Cert.KernelIdeal.threads (F := F)) ⟨m, fun _ => 0, ρ⟩ (fun r => ∀ c : Dev nD,
      ResV c (m ((c.tc : Thread nD τ).loc main_arg0)) (m ((c.tc : Thread nD τ).loc main_arg1)) (m ((c.tc : Thread nD τ).loc main_arg2))
          (m ((c.tc : Thread nD τ).loc main_arg3)) (r.2.mem ((c.tc : Thread nD τ).loc main_v4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (Cert.KernelIdeal.defs (F := F)) _ _).mono (fun _ h c => h c) (run_main TileV ResV m ρ hbody hres)

end Main

end Cert.KernelIdeal.Hand

end
-- ==== Proof.Contents.lean ====
/-
  What a task's scratch buffers hold once its copies have landed: the whole flattened table, the task's 512 relation
  words, and column block r of the two transposed embeddings — each the source array read through the copy's source view.
-/
import proofs.«205645_g18588618457683_cont_8to1_1834_20_alg».proof.Proof.Shared

noncomputable section

namespace Cert.KernelIdeal.Hand

open Cert.KernelIdeal Cert.KernelIdeal.Gen
open Idealize.ShloMosaic
open Idealize.ShloMosaic.SparseCore (S V T)

variable {F : FTy → Type}

def cTab (d : Dev nD) (L : grid0.Coords) (B : Buf (Elt F) (bLoc d)) : Buf (Elt F) ((s0).view.loc (thr d L)) := ReadAs.same.apply ((tB).view.read (Elt F) B)
def cIdx (d : Dev nD) (L : grid0.Coords) (I : Buf (Elt F) (iLoc d)) : Buf (Elt F) ((s1).view.loc (thr d L)) := ReadAs.same.apply ((iSl L).view.read (Elt F) I)
def cH (d : Dev nD) (L : grid0.Coords) (H : Buf (Elt F) (hLoc d)) (r : Fin 4) : S64x128.Idx → Elt F .f32 := ReadAs.same.apply ((hSl L r).view.read (Elt F) H)
def cT (d : Dev nD) (L : grid0.Coords) (T : Buf (Elt F) (tLoc d)) (r : Fin 4) : S64x128.Idx → Elt F .f32 := ReadAs.same.apply ((tSl L r).view.read (Elt F) T)

end Cert.KernelIdeal.Hand

end
-- ==== Proof.IdxFacts.lean ====
/-
  Index arithmetic of the kernel's gathers: a lane's embedding coordinate (l + 4k + q) mod 64 is below 64, its
  batch column 16 g + l is below 128, and the flattened table position 64 · rel + coordinate is below 64000 when the
  relation word is below 1000. These are the side conditions the body assumes before each indexed load.
-/
import proofs.«205645_g18588618457683_cont_8to1_1834_20_alg».proof.Proof.Gen.KernelIdeal
import proofs.«205645_g18588618457683_cont_8to1_1834_20_alg».proof.Proof.Gen.KernelIdeal.Skeleton
noncomputable section
namespace Cert.KernelIdeal.Hand
open Cert.KernelIdeal Cert.KernelIdeal.Gen Idealize.ShloMosaic
variable {F : FTy → Type} [FloatOps F]

theorem and63_lt (a : BitVec 32) : (IntOp.andi a 63#32).toNat < 64 := by
  show (a &&& 63#32).toNat < 64
  rw [BitVec.toNat_and]
  exact Nat.lt_succ_of_le Nat.and_le_right

theorem rela_lt (w a : BitVec 32) (hw : w.toNat < 1000) (ha : a.toNat < 64) : (IntOp.addi (IntOp.muli w 64#32) a).toNat < 64000 := by
  show (w * 64#32 + a).toNat < 64000
  rw [BitVec.toNat_add, BitVec.toNat_mul]
  have : (64#32 : BitVec 32).toNat = 64 := rfl
  rw [this]
  omega

/-- The lane number is below 16. -/
theorem iota_lt (x : S16.Idx) : ((iota .scVector S16 32 [0] iota_S16_d0_w32_scVector : IVec S16 32) x).toNat < 16 := by
  show (BitVec.ofNat 32 (0 * 16 + (x 0).val)).toNat < 16
  rw [Nat.zero_mul, Nat.zero_add, BitVec.toNat_ofNat]
  have := (x 0).isLt
  exact lt_of_le_of_lt (Nat.mod_le _ _) this

theorem blane_lt (k : Nat) (hk : k < 8) (a : BitVec 32) (ha : a.toNat < 16) : (IntOp.addi (Scalar.muli (Scf.iv 0#32 1#32 k) 16#32) a).toNat < 128 := by
  have h16 : (Scalar.muli (Scf.iv 0#32 1#32 k) 16#32).toNat = 16 * k := by
    have h : ∀ k : Fin 8, (Scalar.muli (Scf.iv 0#32 1#32 k.val) 16#32).toNat = 16 * k.val := by decide +kernel
    exact h ⟨k, hk⟩
  show (Scalar.muli (Scf.iv 0#32 1#32 k) 16#32 + a).toNat < 128
  rw [BitVec.toNat_add, h16]
  omega

/-! ### Column block 0 -/
theorem trips_k0_t1 : k0_t1_loop.trips = 8 := by decide
theorem trips_k0_t2 : k0_t2_loop.trips = 16 := by decide

theorem v50_lt_0 (k : Fin k0_t1_loop.trips) (x : S16.Idx) : ((k0_pay35 k) x).toNat < 128 :=
  blane_lt k.val (Nat.lt_of_lt_of_le k.isLt (Nat.le_of_eq trips_k0_t1)) _ (iota_lt x)
theorem dv0_lt_0 (v3 : IVec S16 32) (c0 c1 : BitVec 32) (j : Fin k0_t2_loop.trips) (x : S16.Idx) : (k0_pay7 v3 c0 c1 j x).toNat < 64 := and63_lt _
theorem dv1_lt_0 (v3 : IVec S16 32) (c0 c1 : BitVec 32) (j : Fin k0_t2_loop.trips) (x : S16.Idx) : (k0_pay9 v3 c0 c1 j x).toNat < 64 := and63_lt _
theorem dv2_lt_0 (v3 : IVec S16 32) (c0 c1 : BitVec 32) (j : Fin k0_t2_loop.trips) (x : S16.Idx) : (k0_pay11 v3 c0 c1 j x).toNat < 64 := and63_lt _
theorem dv3_lt_0 (v115 : IVec S16 32) (x : S16.Idx) : ((k0_pay38 v115) x).toNat < 64 := and63_lt _
theorem chk1_ok (k : Fin k0_t1_loop.trips) (v3' : IVec S16 32) (c0 c1 : BitVec 32) (j : Fin k0_t2_loop.trips) : k0_chk1 (k0_pay35 k) (k0_pay7 v3' c0 c1 j) := by
  have h : ∀ a x, ((![k0_pay7 v3' c0 c1 j, k0_pay35 k] : Fin 2 → IVec S16 32) a x).toNat < S64x128.size a := by
    intro a x
    match a with
    | ⟨0, _⟩ => exact dv0_lt_0 v3' c0 c1 j x
    | ⟨1, _⟩ => exact v50_lt_0 k x
  exact ⟨h, h⟩
theorem chk2_ok (v54 : Vec F S16 .i32) (h54 : ∀ x, (v54 x).toNat < 1000) (v3' : IVec S16 32) (c0 c1 : BitVec 32) (j : Fin k0_t2_loop.trips) : k0_chk2 (addi (k0_pay36 v54) (k0_pay7 v3' c0 c1 j)) := by
  intro a x
  match a with
  | ⟨0, _⟩ => exact rela_lt _ _ (h54 x) (dv0_lt_0 v3' c0 c1 j x)
theorem chk3_ok (k : Fin k0_t1_loop.trips) (v3' : IVec S16 32) (c0 c1 : BitVec 32) (j : Fin k0_t2_loop.trips) : k0_chk3 (k0_pay35 k) (k0_pay9 v3' c0 c1 j) := by
  have h : ∀ a x, ((![k0_pay9 v3' c0 c1 j, k0_pay35 k] : Fin 2 → IVec S16 32) a x).toNat < S64x128.size a := by
    intro a x
    match a with
    | ⟨0, _⟩ => exact dv1_lt_0 v3' c0 c1 j x
    | ⟨1, _⟩ => exact v50_lt_0 k x
  exact ⟨h, h⟩
theorem chk4_ok (v54 : Vec F S16 .i32) (h54 : ∀ x, (v54 x).toNat < 1000) (v3' : IVec S16 32) (c0 c1 : BitVec 32) (j : Fin k0_t2_loop.trips) : k0_chk4 (addi (k0_pay36 v54) (k0_pay9 v3' c0 c1 j)) := by
  intro a x
  match a with
  | ⟨0, _⟩ => exact rela_lt _ _ (h54 x) (dv1_lt_0 v3' c0 c1 j x)
theorem chk5_ok (k : Fin k0_t1_loop.trips) (v3' : IVec S16 32) (c0 c1 : BitVec 32) (j : Fin k0_t2_loop.trips) : k0_chk5 (k0_pay35 k) (k0_pay11 v3' c0 c1 j) := by
  have h : ∀ a x, ((![k0_pay11 v3' c0 c1 j, k0_pay35 k] : Fin 2 → IVec S16 32) a x).toNat < S64x128.size a := by
    intro a x
    match a with
    | ⟨0, _⟩ => exact dv2_lt_0 v3' c0 c1 j x
    | ⟨1, _⟩ => exact v50_lt_0 k x
  exact ⟨h, h⟩
theorem chk6_ok (v54 : Vec F S16 .i32) (h54 : ∀ x, (v54 x).toNat < 1000) (v3' : IVec S16 32) (c0 c1 : BitVec 32) (j : Fin k0_t2_loop.trips) : k0_chk6 (addi (k0_pay36 v54) (k0_pay11 v3' c0 c1 j)) := by
  intro a x
  match a with
  | ⟨0, _⟩ => exact rela_lt _ _ (h54 x) (dv2_lt_0 v3' c0 c1 j x)
theorem chk7_ok (k : Fin k0_t1_loop.trips) (v115 : IVec S16 32) : k0_chk7 (k0_pay35 k) (k0_pay38 v115) := by
  have h : ∀ a x, ((![k0_pay38 v115, k0_pay35 k] : Fin 2 → IVec S16 32) a x).toNat < S64x128.size a := by
    intro a x
    match a with
    | ⟨0, _⟩ => exact dv3_lt_0 v115 x
    | ⟨1, _⟩ => exact v50_lt_0 k x
  exact ⟨h, h⟩
theorem chk8_ok (v54 : Vec F S16 .i32) (h54 : ∀ x, (v54 x).toNat < 1000) (v115 : IVec S16 32) : k0_chk8 (addi (k0_pay36 v54) (k0_pay38 v115)) := by
  intro a x
  match a with
  | ⟨0, _⟩ => exact rela_lt _ _ (h54 x) (dv3_lt_0 v115 x)

/-! ### Column block 1 -/
theorem trips_k0_t3 : k0_t3_loop.trips = 8 := by decide
theorem trips_k0_t4 : k0_t4_loop.trips = 16 := by decide

theorem v50_lt_1 (v3 : IVec S16 32) (hv3 : ∀ x, (v3 x).toNat < 16) (k : Fin k0_t3_loop.trips) (x : S16.Idx) : ((k0_pay41 v3 k) x).toNat < 128 :=
  blane_lt k.val (Nat.lt_of_lt_of_le k.isLt (Nat.le_of_eq trips_k0_t3)) _ (hv3 x)
theorem dv0_lt_1 (v3 : IVec S16 32) (c0 c1 : BitVec 32) (j : Fin k0_t4_loop.trips) (x : S16.Idx) : (k0_pay14 v3 c0 c1 j x).toNat < 64 := and63_lt _
theorem dv1_lt_1 (v3 : IVec S16 32) (c0 c1 : BitVec 32) (j : Fin k0_t4_loop.trips) (x : S16.Idx) : (k0_pay16 v3 c0 c1 j x).toNat < 64 := and63_lt _
theorem dv2_lt_1 (v3 : IVec S16 32) (c0 c1 : BitVec 32) (j : Fin k0_t4_loop.trips) (x : S16.Idx) : (k0_pay18 v3 c0 c1 j x).toNat < 64 := and63_lt _
theorem dv3_lt_1 (v3 : IVec S16 32) (v115 : IVec S16 32) (x : S16.Idx) : ((k0_pay44 v3 v115) x).toNat < 64 := and63_lt _
theorem chk9_ok (v3 : IVec S16 32) (hv3 : ∀ x, (v3 x).toNat < 16) (k : Fin k0_t3_loop.trips) (v3' : IVec S16 32) (c0 c1 : BitVec 32) (j : Fin k0_t4_loop.trips) : k0_chk9 (k0_pay41 v3 k) (k0_pay14 v3' c0 c1 j) := by
  have h : ∀ a x, ((![k0_pay14 v3' c0 c1 j, k0_pay41 v3 k] : Fin 2 → IVec S16 32) a x).toNat < S64x128.size a := by
    intro a x
    match a with
    | ⟨0, _⟩ => exact dv0_lt_1 v3' c0 c1 j x
    | ⟨1, _⟩ => exact v50_lt_1 v3 hv3 k x
  exact ⟨h, h⟩
theorem chk10_ok (v54 : Vec F S16 .i32) (h54 : ∀ x, (v54 x).toNat < 1000) (v3' : IVec S16 32) (c0 c1 : BitVec 32) (j : Fin k0_t4_loop.trips) : k0_chk10 (addi (k0_pay42 v54) (k0_pay14 v3' c0 c1 j)) := by
  intro a x
  match a with
  | ⟨0, _⟩ => exact rela_lt _ _ (h54 x) (dv0_lt_1 v3' c0 c1 j x)
theorem chk11_ok (v3 : IVec S16 32) (hv3 : ∀ x, (v3 x).toNat < 16) (k : Fin k0_t3_loop.trips) (v3' : IVec S16 32) (c0 c1 : BitVec 32) (j : Fin k0_t4_loop.trips) : k0_chk11 (k0_pay41 v3 k) (k0_pay16 v3' c0 c1 j) := by
  have h : ∀ a x, ((![k0_pay16 v3' c0 c1 j, k0_pay41 v3 k] : Fin 2 → IVec S16 32) a x).toNat < S64x128.size a := by
    intro a x
    match a with
    | ⟨0, _⟩ => exact dv1_lt_1 v3' c0 c1 j x
    | ⟨1, _⟩ => exact v50_lt_1 v3 hv3 k x
  exact ⟨h, h⟩
theorem chk12_ok (v54 : Vec F S16 .i32) (h54 : ∀ x, (v54 x).toNat < 1000) (v3' : IVec S16 32) (c0 c1 : BitVec 32) (j : Fin k0_t4_loop.trips) : k0_chk12 (addi (k0_pay42 v54) (k0_pay16 v3' c0 c1 j)) := by
  intro a x
  match a with
  | ⟨0, _⟩ => exact rela_lt _ _ (h54 x) (dv1_lt_1 v3' c0 c1 j x)
theorem chk13_ok (v3 : IVec S16 32) (hv3 : ∀ x, (v3 x).toNat < 16) (k : Fin k0_t3_loop.trips) (v3' : IVec S16 32) (c0 c1 : BitVec 32) (j : Fin k0_t4_loop.trips) : k0_chk13 (k0_pay41 v3 k) (k0_pay18 v3' c0 c1 j) := by
  have h : ∀ a x, ((![k0_pay18 v3' c0 c1 j, k0_pay41 v3 k] : Fin 2 → IVec S16 32) a x).toNat < S64x128.size a := by
    intro a x
    match a with
    | ⟨0, _⟩ => exact dv2_lt_1 v3' c0 c1 j x
    | ⟨1, _⟩ => exact v50_lt_1 v3 hv3 k x
  exact ⟨h, h⟩
theorem chk14_ok (v54 : Vec F S16 .i32) (h54 : ∀ x, (v54 x).toNat < 1000) (v3' : IVec S16 32) (c0 c1 : BitVec 32) (j : Fin k0_t4_loop.trips) : k0_chk14 (addi (k0_pay42 v54) (k0_pay18 v3' c0 c1 j)) := by
  intro a x
  match a with
  | ⟨0, _⟩ => exact rela_lt _ _ (h54 x) (dv2_lt_1 v3' c0 c1 j x)
theorem chk15_ok (v3 : IVec S16 32) (hv3 : ∀ x, (v3 x).toNat < 16) (k : Fin k0_t3_loop.trips) (v115 : IVec S16 32) : k0_chk15 (k0_pay41 v3 k) (k0_pay44 v3 v115) := by
  have h : ∀ a x, ((![k0_pay44 v3 v115, k0_pay41 v3 k] : Fin 2 → IVec S16 32) a x).toNat < S64x128.size a := by
    intro a x
    match a with
    | ⟨0, _⟩ => exact dv3_lt_1 v3 v115 x
    | ⟨1, _⟩ => exact v50_lt_1 v3 hv3 k x
  exact ⟨h, h⟩
theorem chk16_ok (v54 : Vec F S16 .i32) (h54 : ∀ x, (v54 x).toNat < 1000) (v3 : IVec S16 32) (v115 : IVec S16 32) : k0_chk16 (addi (k0_pay42 v54) (k0_pay44 v3 v115)) := by
  intro a x
  match a with
  | ⟨0, _⟩ => exact rela_lt _ _ (h54 x) (dv3_lt_1 v3 v115 x)

/-! ### Column block 2 -/
theorem trips_k0_t5 : k0_t5_loop.trips = 8 := by decide
theorem trips_k0_t6 : k0_t6_loop.trips = 16 := by decide

theorem v50_lt_2 (v3 : IVec S16 32) (hv3 : ∀ x, (v3 x).toNat < 16) (k : Fin k0_t5_loop.trips) (x : S16.Idx) : ((k0_pay47 v3 k) x).toNat < 128 :=
  blane_lt k.val (Nat.lt_of_lt_of_le k.isLt (Nat.le_of_eq trips_k0_t5)) _ (hv3 x)
theorem dv0_lt_2 (v3 : IVec S16 32) (c0 c1 : BitVec 32) (j : Fin k0_t6_loop.trips) (x : S16.Idx) : (k0_pay21 v3 c0 c1 j x).toNat < 64 := and63_lt _
theorem dv1_lt_2 (v3 : IVec S16 32) (c0 c1 : BitVec 32) (j : Fin k0_t6_loop.trips) (x : S16.Idx) : (k0_pay23 v3 c0 c1 j x).toNat < 64 := and63_lt _
theorem dv2_lt_2 (v3 : IVec S16 32) (c0 c1 : BitVec 32) (j : Fin k0_t6_loop.trips) (x : S16.Idx) : (k0_pay25 v3 c0 c1 j x).toNat < 64 := and63_lt _
theorem dv3_lt_2 (v3 : IVec S16 32) (v115 : IVec S16 32) (x : S16.Idx) : ((k0_pay50 v3 v115) x).toNat < 64 := and63_lt _
theorem chk17_ok (v3 : IVec S16 32) (hv3 : ∀ x, (v3 x).toNat < 16) (k : Fin k0_t5_loop.trips) (v3' : IVec S16 32) (c0 c1 : BitVec 32) (j : Fin k0_t6_loop.trips) : k0_chk17 (k0_pay47 v3 k) (k0_pay21 v3' c0 c1 j) := by
  have h : ∀ a x, ((![k0_pay21 v3' c0 c1 j, k0_pay47 v3 k] : Fin 2 → IVec S16 32) a x).toNat < S64x128.size a := by
    intro a x
    match a with
    | ⟨0, _⟩ => exact dv0_lt_2 v3' c0 c1 j x
    | ⟨1, _⟩ => exact v50_lt_2 v3 hv3 k x
  exact ⟨h, h⟩
theorem chk18_ok (v54 : Vec F S16 .i32) (h54 : ∀ x, (v54 x).toNat < 1000) (v3' : IVec S16 32) (c0 c1 : BitVec 32) (j : Fin k0_t6_loop.trips) : k0_chk18 (addi (k0_pay48 v54) (k0_pay21 v3' c0 c1 j)) := by
  intro a x
  match a with
  | ⟨0, _⟩ => exact rela_lt _ _ (h54 x) (dv0_lt_2 v3' c0 c1 j x)
theorem chk19_ok (v3 : IVec S16 32) (hv3 : ∀ x, (v3 x).toNat < 16) (k : Fin k0_t5_loop.trips) (v3' : IVec S16 32) (c0 c1 : BitVec 32) (j : Fin k0_t6_loop.trips) : k0_chk19 (k0_pay47 v3 k) (k0_pay23 v3' c0 c1 j) := by
  have h : ∀ a x, ((![k0_pay23 v3' c0 c1 j, k0_pay47 v3 k] : Fin 2 → IVec S16 32) a x).toNat < S64x128.size a := by
    intro a x
    match a with
    | ⟨0, _⟩ => exact dv1_lt_2 v3' c0 c1 j x
    | ⟨1, _⟩ => exact v50_lt_2 v3 hv3 k x
  exact ⟨h, h⟩
theorem chk20_ok (v54 : Vec F S16 .i32) (h54 : ∀ x, (v54 x).toNat < 1000) (v3' : IVec S16 32) (c0 c1 : BitVec 32) (j : Fin k0_t6_loop.trips) : k0_chk20 (addi (k0_pay48 v54) (k0_pay23 v3' c0 c1 j)) := by
  intro a x
  match a with
  | ⟨0, _⟩ => exact rela_lt _ _ (h54 x) (dv1_lt_2 v3' c0 c1 j x)
theorem chk21_ok (v3 : IVec S16 32) (hv3 : ∀ x, (v3 x).toNat < 16) (k : Fin k0_t5_loop.trips) (v3' : IVec S16 32) (c0 c1 : BitVec 32) (j : Fin k0_t6_loop.trips) : k0_chk21 (k0_pay47 v3 k) (k0_pay25 v3' c0 c1 j) := by
  have h : ∀ a x, ((![k0_pay25 v3' c0 c1 j, k0_pay47 v3 k] : Fin 2 → IVec S16 32) a x).toNat < S64x128.size a := by
    intro a x
    match a with
    | ⟨0, _⟩ => exact dv2_lt_2 v3' c0 c1 j x
    | ⟨1, _⟩ => exact v50_lt_2 v3 hv3 k x
  exact ⟨h, h⟩
theorem chk22_ok (v54 : Vec F S16 .i32) (h54 : ∀ x, (v54 x).toNat < 1000) (v3' : IVec S16 32) (c0 c1 : BitVec 32) (j : Fin k0_t6_loop.trips) : k0_chk22 (addi (k0_pay48 v54) (k0_pay25 v3' c0 c1 j)) := by
  intro a x
  match a with
  | ⟨0, _⟩ => exact rela_lt _ _ (h54 x) (dv2_lt_2 v3' c0 c1 j x)
theorem chk23_ok (v3 : IVec S16 32) (hv3 : ∀ x, (v3 x).toNat < 16) (k : Fin k0_t5_loop.trips) (v115 : IVec S16 32) : k0_chk23 (k0_pay47 v3 k) (k0_pay50 v3 v115) := by
  have h : ∀ a x, ((![k0_pay50 v3 v115, k0_pay47 v3 k] : Fin 2 → IVec S16 32) a x).toNat < S64x128.size a := by
    intro a x
    match a with
    | ⟨0, _⟩ => exact dv3_lt_2 v3 v115 x
    | ⟨1, _⟩ => exact v50_lt_2 v3 hv3 k x
  exact ⟨h, h⟩
theorem chk24_ok (v54 : Vec F S16 .i32) (h54 : ∀ x, (v54 x).toNat < 1000) (v3 : IVec S16 32) (v115 : IVec S16 32) : k0_chk24 (addi (k0_pay48 v54) (k0_pay50 v3 v115)) := by
  intro a x
  match a with
  | ⟨0, _⟩ => exact rela_lt _ _ (h54 x) (dv3_lt_2 v3 v115 x)

/-! ### Column block 3 -/
theorem trips_k0_t7 : k0_t7_loop.trips = 8 := by decide
theorem trips_k0_t8 : k0_t8_loop.trips = 16 := by decide

theorem v50_lt_3 (v3 : IVec S16 32) (hv3 : ∀ x, (v3 x).toNat < 16) (k : Fin k0_t7_loop.trips) (x : S16.Idx) : ((k0_pay1 v3 k) x).toNat < 128 :=
  blane_lt k.val (Nat.lt_of_lt_of_le k.isLt (Nat.le_of_eq trips_k0_t7)) _ (hv3 x)
theorem dv0_lt_3 (v3 : IVec S16 32) (c0 c1 : BitVec 32) (j : Fin k0_t8_loop.trips) (x : S16.Idx) : (k0_pay28 v3 c0 c1 j x).toNat < 64 := and63_lt _
theorem dv1_lt_3 (v3 : IVec S16 32) (c0 c1 : BitVec 32) (j : Fin k0_t8_loop.trips) (x : S16.Idx) : (k0_pay30 v3 c0 c1 j x).toNat < 64 := and63_lt _
theorem dv2_lt_3 (v3 : IVec S16 32) (c0 c1 : BitVec 32) (j : Fin k0_t8_loop.trips) (x : S16.Idx) : (k0_pay32 v3 c0 c1 j x).toNat < 64 := and63_lt _
theorem dv3_lt_3 (v3 : IVec S16 32) (v115 : IVec S16 32) (x : S16.Idx) : ((k0_pay4 v3 v115) x).toNat < 64 := and63_lt _
theorem chk25_ok (v3 : IVec S16 32) (hv3 : ∀ x, (v3 x).toNat < 16) (k : Fin k0_t7_loop.trips) (v3' : IVec S16 32) (c0 c1 : BitVec 32) (j : Fin k0_t8_loop.trips) : k0_chk25 (k0_pay1 v3 k) (k0_pay28 v3' c0 c1 j) := by
  have h : ∀ a x, ((![k0_pay28 v3' c0 c1 j, k0_pay1 v3 k] : Fin 2 → IVec S16 32) a x).toNat < S64x128.size a := by
    intro a x
    match a with
    | ⟨0, _⟩ => exact dv0_lt_3 v3' c0 c1 j x
    | ⟨1, _⟩ => exact v50_lt_3 v3 hv3 k x
  exact ⟨h, h⟩
theorem chk26_ok (v54 : Vec F S16 .i32) (h54 : ∀ x, (v54 x).toNat < 1000) (v3' : IVec S16 32) (c0 c1 : BitVec 32) (j : Fin k0_t8_loop.trips) : k0_chk26 (addi (k0_pay2 v54) (k0_pay28 v3' c0 c1 j)) := by
  intro a x
  match a with
  | ⟨0, _⟩ => exact rela_lt _ _ (h54 x) (dv0_lt_3 v3' c0 c1 j x)
theorem chk27_ok (v3 : IVec S16 32) (hv3 : ∀ x, (v3 x).toNat < 16) (k : Fin k0_t7_loop.trips) (v3' : IVec S16 32) (c0 c1 : BitVec 32) (j : Fin k0_t8_loop.trips) : k0_chk27 (k0_pay1 v3 k) (k0_pay30 v3' c0 c1 j) := by
  have h : ∀ a x, ((![k0_pay30 v3' c0 c1 j, k0_pay1 v3 k] : Fin 2 → IVec S16 32) a x).toNat < S64x128.size a := by
    intro a x
    match a with
    | ⟨0, _⟩ => exact dv1_lt_3 v3' c0 c1 j x
    | ⟨1, _⟩ => exact v50_lt_3 v3 hv3 k x
  exact ⟨h, h⟩
theorem chk28_ok (v54 : Vec F S16 .i32) (h54 : ∀ x, (v54 x).toNat < 1000) (v3' : IVec S16 32) (c0 c1 : BitVec 32) (j : Fin k0_t8_loop.trips) : k0_chk28 (addi (k0_pay2 v54) (k0_pay30 v3' c0 c1 j)) := by
  intro a x
  match a with
  | ⟨0, _⟩ => exact rela_lt _ _ (h54 x) (dv1_lt_3 v3' c0 c1 j x)
theorem chk29_ok (v3 : IVec S16 32) (hv3 : ∀ x, (v3 x).toNat < 16) (k : Fin k0_t7_loop.trips) (v3' : IVec S16 32) (c0 c1 : BitVec 32) (j : Fin k0_t8_loop.trips) : k0_chk29 (k0_pay1 v3 k) (k0_pay32 v3' c0 c1 j) := by
  have h : ∀ a x, ((![k0_pay32 v3' c0 c1 j, k0_pay1 v3 k] : Fin 2 → IVec S16 32) a x).toNat < S64x128.size a := by
    intro a x
    match a with
    | ⟨0, _⟩ => exact dv2_lt_3 v3' c0 c1 j x
    | ⟨1, _⟩ => exact v50_lt_3 v3 hv3 k x
  exact ⟨h, h⟩
theorem chk30_ok (v54 : Vec F S16 .i32) (h54 : ∀ x, (v54 x).toNat < 1000) (v3' : IVec S16 32) (c0 c1 : BitVec 32) (j : Fin k0_t8_loop.trips) : k0_chk30 (addi (k0_pay2 v54) (k0_pay32 v3' c0 c1 j)) := by
  intro a x
  match a with
  | ⟨0, _⟩ => exact rela_lt _ _ (h54 x) (dv2_lt_3 v3' c0 c1 j x)
theorem chk31_ok (v3 : IVec S16 32) (hv3 : ∀ x, (v3 x).toNat < 16) (k : Fin k0_t7_loop.trips) (v115 : IVec S16 32) : k0_chk31 (k0_pay1 v3 k) (k0_pay4 v3 v115) := by
  have h : ∀ a x, ((![k0_pay4 v3 v115, k0_pay1 v3 k] : Fin 2 → IVec S16 32) a x).toNat < S64x128.size a := by
    intro a x
    match a with
    | ⟨0, _⟩ => exact dv3_lt_3 v3 v115 x
    | ⟨1, _⟩ => exact v50_lt_3 v3 hv3 k x
  exact ⟨h, h⟩
theorem chk32_ok (v54 : Vec F S16 .i32) (h54 : ∀ x, (v54 x).toNat < 1000) (v3 : IVec S16 32) (v115 : IVec S16 32) : k0_chk32 (addi (k0_pay2 v54) (k0_pay4 v3 v115)) := by
  intro a x
  match a with
  | ⟨0, _⟩ => exact rela_lt _ _ (h54 x) (dv3_lt_3 v3 v115 x)

end Cert.KernelIdeal.Hand
end
-- ==== Proof.Scoped.lean ====
/-
  A vector subcore's own buffers and semaphores, split into the ones the kernel names and the rest:
  the seven scratch buffers, each whole at some contents, and the five DMA semaphores, each at zero.
-/
import proofs.«205645_g18588618457683_cont_8to1_1834_20_alg».proof.Proof.Shared

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The subcore's own buffers other than the seven scratch buffers, each whole at some contents. -/
def restBufs (d : Dev nD) (L : grid0.Coords) : sProp 𝕄 :=
  bigSep ((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6))
    fun b => iprop(∃ f, ((d, b) : Loc nD τ sig) ↦{fullShare} f)

/-- The subcore's own semaphores other than the five DMA semaphores, each at zero. -/
def restSems (d : Dev nD) (L : grid0.Coords) : sProp 𝕄 :=
  bigSep ((((((ownCells (thr d L)).erase ((thr d L, SemLoc.dma cc0_scratch7.sem) : GSem nD τ sig)).erase ((thr d L, SemLoc.dma cc0_scratch8.sem) : GSem nD τ sig)).erase ((thr d L, SemLoc.dma cc0_scratch9.sem) : GSem nD τ sig)).erase ((thr d L, SemLoc.dma cc0_scoped0.sem) : GSem nD τ sig)).erase ((thr d L, SemLoc.dma cc0_scoped1.sem) : GSem nD τ sig))
    fun g => semVal g 0

theorem ownSems0_V (d : Dev nD) (L : grid0.Coords) :
    (ownSems0 (thr d L) : sProp 𝕄)
      = iprop(semVal (thr d L, SemLoc.dma cc0_scratch7.sem) 0
          ∗ semVal (thr d L, SemLoc.dma cc0_scratch8.sem) 0
          ∗ semVal (thr d L, SemLoc.dma cc0_scratch9.sem) 0
          ∗ semVal (thr d L, SemLoc.dma cc0_scoped0.sem) 0
          ∗ semVal (thr d L, SemLoc.dma cc0_scoped1.sem) 0
          ∗ restSems d L) := by
  unfold SparseCore.Cfg.ownSems0 restSems
  rw [SparseCore.bigSep_erase' ((mem_ownCells (g := ((thr d L, SemLoc.dma cc0_scratch7.sem) : GSem nD τ sig))).mpr ⟨rfl, by show (SemLoc.dma cc0_scratch7.sem : SemLoc sig).isScoped .scVector = true; decide⟩),
    SparseCore.bigSep_erase' (Finset.mem_erase.mpr ⟨fun e => absurd (congrArg Prod.snd e) (show (SemLoc.dma cc0_scratch8.sem : SemLoc sig) ≠ SemLoc.dma cc0_scratch7.sem by decide), (mem_ownCells (g := ((thr d L, SemLoc.dma cc0_scratch8.sem) : GSem nD τ sig))).mpr ⟨rfl, by show (SemLoc.dma cc0_scratch8.sem : SemLoc sig).isScoped .scVector = true; decide⟩⟩),
    SparseCore.bigSep_erase' (Finset.mem_erase.mpr ⟨fun e => absurd (congrArg Prod.snd e) (show (SemLoc.dma cc0_scratch9.sem : SemLoc sig) ≠ SemLoc.dma cc0_scratch8.sem by decide), Finset.mem_erase.mpr ⟨fun e => absurd (congrArg Prod.snd e) (show (SemLoc.dma cc0_scratch9.sem : SemLoc sig) ≠ SemLoc.dma cc0_scratch7.sem by decide), (mem_ownCells (g := ((thr d L, SemLoc.dma cc0_scratch9.sem) : GSem nD τ sig))).mpr ⟨rfl, by show (SemLoc.dma cc0_scratch9.sem : SemLoc sig).isScoped .scVector = true; decide⟩⟩⟩),
    SparseCore.bigSep_erase' (Finset.mem_erase.mpr ⟨fun e => absurd (congrArg Prod.snd e) (show (SemLoc.dma cc0_scoped0.sem : SemLoc sig) ≠ SemLoc.dma cc0_scratch9.sem by decide), Finset.mem_erase.mpr ⟨fun e => absurd (congrArg Prod.snd e) (show (SemLoc.dma cc0_scoped0.sem : SemLoc sig) ≠ SemLoc.dma cc0_scratch8.sem by decide), Finset.mem_erase.mpr ⟨fun e => absurd (congrArg Prod.snd e) (show (SemLoc.dma cc0_scoped0.sem : SemLoc sig) ≠ SemLoc.dma cc0_scratch7.sem by decide), (mem_ownCells (g := ((thr d L, SemLoc.dma cc0_scoped0.sem) : GSem nD τ sig))).mpr ⟨rfl, by show (SemLoc.dma cc0_scoped0.sem : SemLoc sig).isScoped .scVector = true; decide⟩⟩⟩⟩),
    SparseCore.bigSep_erase' (Finset.mem_erase.mpr ⟨fun e => absurd (congrArg Prod.snd e) (show (SemLoc.dma cc0_scoped1.sem : SemLoc sig) ≠ SemLoc.dma cc0_scoped0.sem by decide), Finset.mem_erase.mpr ⟨fun e => absurd (congrArg Prod.snd e) (show (SemLoc.dma cc0_scoped1.sem : SemLoc sig) ≠ SemLoc.dma cc0_scratch9.sem by decide), Finset.mem_erase.mpr ⟨fun e => absurd (congrArg Prod.snd e) (show (SemLoc.dma cc0_scoped1.sem : SemLoc sig) ≠ SemLoc.dma cc0_scratch8.sem by decide), Finset.mem_erase.mpr ⟨fun e => absurd (congrArg Prod.snd e) (show (SemLoc.dma cc0_scoped1.sem : SemLoc sig) ≠ SemLoc.dma cc0_scratch7.sem by decide), (mem_ownCells (g := ((thr d L, SemLoc.dma cc0_scoped1.sem) : GSem nD τ sig))).mpr ⟨rfl, by show (SemLoc.dma cc0_scoped1.sem : SemLoc sig).isScoped .scVector = true; decide⟩⟩⟩⟩⟩)]

theorem ownBufs_V (d : Dev nD) (L : grid0.Coords) :
    (ownBufs (thr d L) : sProp 𝕄)
      = iprop((∃ f, (thr d L).loc cc0_scratch0 ↦{fullShare} f)
          ∗ (∃ f, (thr d L).loc cc0_scratch1 ↦{fullShare} f)
          ∗ (∃ f, (thr d L).loc cc0_scratch2 ↦{fullShare} f)
          ∗ (∃ f, (thr d L).loc cc0_scratch3 ↦{fullShare} f)
          ∗ (∃ f, (thr d L).loc cc0_scratch4 ↦{fullShare} f)
          ∗ (∃ f, (thr d L).loc cc0_scratch5 ↦{fullShare} f)
          ∗ (∃ f, (thr d L).loc cc0_scratch6 ↦{fullShare} f)
          ∗ restBufs d L) := by
  unfold SparseCore.Cfg.ownBufs restBufs
  refine (SparseCore.bigSep_erase' (SparseCore.Cfg.mem_ownRefs_of_owner (p := (Proc.scVector (cV L) (jV L))) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := (Proc.scVector (cV L) (jV L))) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := (Proc.scVector (cV L) (jV L))) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := (Proc.scVector (cV L) (jV L))) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := (Proc.scVector (cV L) (jV L))) (b := ((Proc.scVector (cV L) (jV L)).devRef cc0_scratch4)) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := (Proc.scVector (cV L) (jV L))) (b := ((Proc.scVector (cV L) (jV L)).devRef cc0_scratch5)) rfl⟩⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch1 by decide), Finset.mem_erase.mpr ⟨fun e => absurd (Proc.devRef_injective _ e) (show (cc0_scratch6 : Ref sig .scVector) ≠ cc0_scratch0 by decide), SparseCore.Cfg.mem_ownRefs_of_owner (p := (Proc.scVector (cV L) (jV L))) (b := ((Proc.scVector (cV L) (jV L)).devRef cc0_scratch6)) rfl⟩⟩⟩⟩⟩⟩)]

/-! A scratch buffer named through the whole-buffer view, as the program reads it, is the buffer. -/

theorem pts_s0 (d : Dev nD) (L : grid0.Coords) (f : Buf (Elt F) ((thr d L).loc cc0_scratch0)) :
    (((Memref.whole cc0_scratch0 : Memref sig .scVector .vmem S64000 .f32)).view.loc (thr d L) ↦{fullShare} f : sProp 𝕄)
      = ((thr d L).loc cc0_scratch0 ↦{fullShare} f) := rfl
theorem pts_s1 (d : Dev nD) (L : grid0.Coords) (f : Buf (Elt F) ((thr d L).loc cc0_scratch1)) :
    (((Memref.whole cc0_scratch1 : Memref sig .scVector .vmem S512 .i32)).view.loc (thr d L) ↦{fullShare} f : sProp 𝕄)
      = ((thr d L).loc cc0_scratch1 ↦{fullShare} f) := rfl
theorem pts_s2 (d : Dev nD) (L : grid0.Coords) (f : Buf (Elt F) ((thr d L).loc cc0_scratch2)) :
    (((Memref.whole cc0_scratch2 : Memref sig .scVector .vmem S512 .f32)).view.loc (thr d L) ↦{fullShare} f : sProp 𝕄)
      = ((thr d L).loc cc0_scratch2 ↦{fullShare} f) := rfl
theorem pts_s3 (d : Dev nD) (L : grid0.Coords) (f : Buf (Elt F) ((thr d L).loc cc0_scratch3)) :
    (((Memref.whole cc0_scratch3 : Memref sig .scVector .vmem S64x128 .f32)).view.loc (thr d L) ↦{fullShare} f : sProp 𝕄)
      = ((thr d L).loc cc0_scratch3 ↦{fullShare} f) := rfl
theorem pts_s4 (d : Dev nD) (L : grid0.Coords) (f : Buf (Elt F) ((thr d L).loc cc0_scratch4)) :
    (((Memref.whole cc0_scratch4 : Memref sig .scVector .vmem S64x128 .f32)).view.loc (thr d L) ↦{fullShare} f : sProp 𝕄)
      = ((thr d L).loc cc0_scratch4 ↦{fullShare} f) := rfl
theorem pts_s5 (d : Dev nD) (L : grid0.Coords) (f : Buf (Elt F) ((thr d L).loc cc0_scratch5)) :
    (((Memref.whole cc0_scratch5 : Memref sig .scVector .vmem S64x128 .f32)).view.loc (thr d L) ↦{fullShare} f : sProp 𝕄)
      = ((thr d L).loc cc0_scratch5 ↦{fullShare} f) := rfl
theorem pts_s6 (d : Dev nD) (L : grid0.Coords) (f : Buf (Elt F) ((thr d L).loc cc0_scratch6)) :
    (((Memref.whole cc0_scratch6 : Memref sig .scVector .vmem S64x128 .f32)).view.loc (thr d L) ↦{fullShare} f : sProp 𝕄)
      = ((thr d L).loc cc0_scratch6 ↦{fullShare} f) := rfl

end Cert.KernelIdeal.Hand

end
-- ==== Proof.Closure.lean ====
/-
  The value facts the body's loops need, stated once for both float instances: how one trip of a group's coordinate
  loop changes the four running sums of a group (the three gathers of each slot: the head block and the tail block at
  (coordinate, column), the table at 64 · relation + coordinate), and how a finished group's scores enter the score
  buffer. A run of the body carries a predicate on the running sums and one on the score buffer through its loops;
  these propositions say the predicates are kept.
-/
import proofs.«205645_g18588618457683_cont_8to1_1834_20_alg».proof.Proof.Shared
import proofs.«205645_g18588618457683_cont_8to1_1834_20_alg».proof.Proof.Contents

noncomputable section

namespace Cert.KernelIdeal.Hand

open Cert.KernelIdeal Cert.KernelIdeal.Gen
open Idealize.ShloMosaic
open Idealize.ShloMosaic.SparseCore (S V T)

variable {F : FTy → Type} [FloatOps F]

abbrev Acc4 (F : FTy → Type) : Type := FVec F S16 .f32 × FVec F S16 .f32 × FVec F S16 .f32 × FVec F S16 .f32

section
variable (d : Dev nD) (L : grid0.Coords)
variable (H : Buf (Elt F) (hLoc d)) (I : Buf (Elt F) (iLoc d)) (T : Buf (Elt F) (tLoc d)) (B : Buf (Elt F) (bLoc d))
variable (AccP : Fin 4 → Nat → Nat → Acc4 F → Prop) (OutP : Nat → Buf (Elt F) ((s2).view.loc (thr d L)) → Prop)

/-- Column block 0: the running sums start at zero; -/
def AccInit0 : Prop := ∀ k : Nat, AccP 0 k 0 (k0_pay37 (F := F), k0_pay37 (F := F), k0_pay37 (F := F), k0_pay37 (F := F))
/-- one trip adds to each of the four sums its slot's term; -/
def AccStep0 : Prop := ∀ (k : Fin k0_t1_loop.trips) (j : Fin k0_t2_loop.trips) (a0 a1 a2 a3 : FVec F S16 .f32) (hA0 : ∀ a x, ((![k0_pay7 (iota .scVector S16 32 [0] iota_S16_d0_w32_scVector) 0#32 1#32 j, k0_pay35 k] : Fin 2 → IVec S16 32) a x).toNat < S64x128.size a) (hT0 : ∀ a x, ((![addi (k0_pay36 ((s1).view.readAt (Elt F) (Rect.unit (s := S512) (k0_off3 k) S16.size (k0_off3_inb k)).toLoadRect (cIdx d L I))) (k0_pay7 (iota .scVector S16 32 [0] iota_S16_d0_w32_scVector) 0#32 1#32 j)] : Fin 1 → IVec S16 32) a x).toNat < S64000.size a) (hA1 : ∀ a x, ((![k0_pay9 (iota .scVector S16 32 [0] iota_S16_d0_w32_scVector) 0#32 1#32 j, k0_pay35 k] : Fin 2 → IVec S16 32) a x).toNat < S64x128.size a) (hT1 : ∀ a x, ((![addi (k0_pay36 ((s1).view.readAt (Elt F) (Rect.unit (s := S512) (k0_off3 k) S16.size (k0_off3_inb k)).toLoadRect (cIdx d L I))) (k0_pay9 (iota .scVector S16 32 [0] iota_S16_d0_w32_scVector) 0#32 1#32 j)] : Fin 1 → IVec S16 32) a x).toNat < S64000.size a) (hA2 : ∀ a x, ((![k0_pay11 (iota .scVector S16 32 [0] iota_S16_d0_w32_scVector) 0#32 1#32 j, k0_pay35 k] : Fin 2 → IVec S16 32) a x).toNat < S64x128.size a) (hT2 : ∀ a x, ((![addi (k0_pay36 ((s1).view.readAt (Elt F) (Rect.unit (s := S512) (k0_off3 k) S16.size (k0_off3_inb k)).toLoadRect (cIdx d L I))) (k0_pay11 (iota .scVector S16 32 [0] iota_S16_d0_w32_scVector) 0#32 1#32 j)] : Fin 1 → IVec S16 32) a x).toNat < S64000.size a) (hA3 : ∀ a x, ((![k0_pay38 (k0_pay13 0#32 1#32 j), k0_pay35 k] : Fin 2 → IVec S16 32) a x).toNat < S64x128.size a) (hT3 : ∀ a x, ((![addi (k0_pay36 ((s1).view.readAt (Elt F) (Rect.unit (s := S512) (k0_off3 k) S16.size (k0_off3_inb k)).toLoadRect (cIdx d L I))) (k0_pay38 (k0_pay13 0#32 1#32 j))] : Fin 1 → IVec S16 32) a x).toNat < S64000.size a),
    AccP 0 k.val j.val (a0, a1, a2, a3) → AccP 0 k.val (j.val + 1) (k0_pay8 a0 (loadIdx ((s3).view.readAt (Elt F) (LoadRect.whole S64x128) (cH d L H 0)) ![k0_pay7 (iota .scVector S16 32 [0] iota_S16_d0_w32_scVector) 0#32 1#32 j, k0_pay35 k] hA0) (loadIdx ((s5).view.readAt (Elt F) (LoadRect.whole S64x128) (cT d L T 0)) ![k0_pay7 (iota .scVector S16 32 [0] iota_S16_d0_w32_scVector) 0#32 1#32 j, k0_pay35 k] hA0) (loadIdx ((s0).view.readAt (Elt F) (LoadRect.whole S64000) (cTab d L B)) ![addi (k0_pay36 ((s1).view.readAt (Elt F) (Rect.unit (s := S512) (k0_off3 k) S16.size (k0_off3_inb k)).toLoadRect (cIdx d L I))) (k0_pay7 (iota .scVector S16 32 [0] iota_S16_d0_w32_scVector) 0#32 1#32 j)] hT0),
      k0_pay10 a1 (loadIdx ((s3).view.readAt (Elt F) (LoadRect.whole S64x128) (cH d L H 0)) ![k0_pay9 (iota .scVector S16 32 [0] iota_S16_d0_w32_scVector) 0#32 1#32 j, k0_pay35 k] hA1) (loadIdx ((s5).view.readAt (Elt F) (LoadRect.whole S64x128) (cT d L T 0)) ![k0_pay9 (iota .scVector S16 32 [0] iota_S16_d0_w32_scVector) 0#32 1#32 j, k0_pay35 k] hA1) (loadIdx ((s0).view.readAt (Elt F) (LoadRect.whole S64000) (cTab d L B)) ![addi (k0_pay36 ((s1).view.readAt (Elt F) (Rect.unit (s := S512) (k0_off3 k) S16.size (k0_off3_inb k)).toLoadRect (cIdx d L I))) (k0_pay9 (iota .scVector S16 32 [0] iota_S16_d0_w32_scVector) 0#32 1#32 j)] hT1),
      k0_pay12 a2 (loadIdx ((s3).view.readAt (Elt F) (LoadRect.whole S64x128) (cH d L H 0)) ![k0_pay11 (iota .scVector S16 32 [0] iota_S16_d0_w32_scVector) 0#32 1#32 j, k0_pay35 k] hA2) (loadIdx ((s5).view.readAt (Elt F) (LoadRect.whole S64x128) (cT d L T 0)) ![k0_pay11 (iota .scVector S16 32 [0] iota_S16_d0_w32_scVector) 0#32 1#32 j, k0_pay35 k] hA2) (loadIdx ((s0).view.readAt (Elt F) (LoadRect.whole S64000) (cTab d L B)) ![addi (k0_pay36 ((s1).view.readAt (Elt F) (Rect.unit (s := S512) (k0_off3 k) S16.size (k0_off3_inb k)).toLoadRect (cIdx d L I))) (k0_pay11 (iota .scVector S16 32 [0] iota_S16_d0_w32_scVector) 0#32 1#32 j)] hT2),
      k0_pay39 a3 (loadIdx ((s3).view.readAt (Elt F) (LoadRect.whole S64x128) (cH d L H 0)) ![k0_pay38 (k0_pay13 0#32 1#32 j), k0_pay35 k] hA3) (loadIdx ((s5).view.readAt (Elt F) (LoadRect.whole S64x128) (cT d L T 0)) ![k0_pay38 (k0_pay13 0#32 1#32 j), k0_pay35 k] hA3) (loadIdx ((s0).view.readAt (Elt F) (LoadRect.whole S64000) (cTab d L B)) ![addi (k0_pay36 ((s1).view.readAt (Elt F) (Rect.unit (s := S512) (k0_off3 k) S16.size (k0_off3_inb k)).toLoadRect (cIdx d L I))) (k0_pay38 (k0_pay13 0#32 1#32 j))] hT3))
/-- and a finished group's sixteen scores are stored at the group's place in the score buffer. -/
def OutStep0 : Prop := ∀ (k : Fin k0_t1_loop.trips) (f2 : Buf (Elt F) ((s2).view.loc (thr d L))) (w0 w1 w2 w3 : FVec F S16 .f32),
    OutP (0 + k.val) f2 → AccP 0 k.val 16 (w0, w1, w2, w3) →
    OutP (0 + k.val + 1) ((s2).view.writes (Elt F) f2 [⟨Rect.unit (s := S512) (k0_off4 k) S16.size (k0_off4_inb k), k0_pay40 w0 w1 w2 w3⟩])

/-- Column block 1: the running sums start at zero; -/
def AccInit1 : Prop := ∀ k : Nat, AccP 1 k 0 (k0_pay43 (F := F), k0_pay43 (F := F), k0_pay43 (F := F), k0_pay43 (F := F))
/-- one trip adds to each of the four sums its slot's term; -/
def AccStep1 : Prop := ∀ (k : Fin k0_t3_loop.trips) (j : Fin k0_t4_loop.trips) (a0 a1 a2 a3 : FVec F S16 .f32) (hA0 : ∀ a x, ((![k0_pay14 (iota .scVector S16 32 [0] iota_S16_d0_w32_scVector) 0#32 1#32 j, k0_pay41 (iota .scVector S16 32 [0] iota_S16_d0_w32_scVector) k] : Fin 2 → IVec S16 32) a x).toNat < S64x128.size a) (hT0 : ∀ a x, ((![addi (k0_pay42 ((s1).view.readAt (Elt F) (Rect.unit (s := S512) (k0_off5 k) S16.size (k0_off5_inb k)).toLoadRect (cIdx d L I))) (k0_pay14 (iota .scVector S16 32 [0] iota_S16_d0_w32_scVector) 0#32 1#32 j)] : Fin 1 → IVec S16 32) a x).toNat < S64000.size a) (hA1 : ∀ a x, ((![k0_pay16 (iota .scVector S16 32 [0] iota_S16_d0_w32_scVector) 0#32 1#32 j, k0_pay41 (iota .scVector S16 32 [0] iota_S16_d0_w32_scVector) k] : Fin 2 → IVec S16 32) a x).toNat < S64x128.size a) (hT1 : ∀ a x, ((![addi (k0_pay42 ((s1).view.readAt (Elt F) (Rect.unit (s := S512) (k0_off5 k) S16.size (k0_off5_inb k)).toLoadRect (cIdx d L I))) (k0_pay16 (iota .scVector S16 32 [0] iota_S16_d0_w32_scVector) 0#32 1#32 j)] : Fin 1 → IVec S16 32) a x).toNat < S64000.size a) (hA2 : ∀ a x, ((![k0_pay18 (iota .scVector S16 32 [0] iota_S16_d0_w32_scVector) 0#32 1#32 j, k0_pay41 (iota .scVector S16 32 [0] iota_S16_d0_w32_scVector) k] : Fin 2 → IVec S16 32) a x).toNat < S64x128.size a) (hT2 : ∀ a x, ((![addi (k0_pay42 ((s1).view.readAt (Elt F) (Rect.unit (s := S512) (k0_off5 k) S16.size (k0_off5_inb k)).toLoadRect (cIdx d L I))) (k0_pay18 (iota .scVector S16 32 [0] iota_S16_d0_w32_scVector) 0#32 1#32 j)] : Fin 1 → IVec S16 32) a x).toNat < S64000.size a) (hA3 : ∀ a x, ((![k0_pay44 (iota .scVector S16 32 [0] iota_S16_d0_w32_scVector) (k0_pay20 0#32 1#32 j), k0_pay41 (iota .scVector S16 32 [0] iota_S16_d0_w32_scVector) k] : Fin 2 → IVec S16 32) a x).toNat < S64x128.size a) (hT3 : ∀ a x, ((![addi (k0_pay42 ((s1).view.readAt (Elt F) (Rect.unit (s := S512) (k0_off5 k) S16.size (k0_off5_inb k)).toLoadRect (cIdx d L I))) (k0_pay44 (iota .scVector S16 32 [0] iota_S16_d0_w32_scVector) (k0_pay20 0#32 1#32 j))] : Fin 1 → IVec S16 32) a x).toNat < S64000.size a),
    AccP 1 k.val j.val (a0, a1, a2, a3) → AccP 1 k.val (j.val + 1) (k0_pay15 a0 (loadIdx ((s4).view.readAt (Elt F) (LoadRect.whole S64x128) (cH d L H 1)) ![k0_pay14 (iota .scVector S16 32 [0] iota_S16_d0_w32_scVector) 0#32 1#32 j, k0_pay41 (iota .scVector S16 32 [0] iota_S16_d0_w32_scVector) k] hA0) (loadIdx ((s6).view.readAt (Elt F) (LoadRect.whole S64x128) (cT d L T 1)) ![k0_pay14 (iota .scVector S16 32 [0] iota_S16_d0_w32_scVector) 0#32 1#32 j, k0_pay41 (iota .scVector S16 32 [0] iota_S16_d0_w32_scVector) k] hA0) (loadIdx ((s0).view.readAt (Elt F) (LoadRect.whole S64000) (cTab d L B)) ![addi (k0_pay42 ((s1).view.readAt (Elt F) (Rect.unit (s := S512) (k0_off5 k) S16.size (k0_off5_inb k)).toLoadRect (cIdx d L I))) (k0_pay14 (iota .scVector S16 32 [0] iota_S16_d0_w32_scVector) 0#32 1#32 j)] hT0),
      k0_pay17 a1 (loadIdx ((s4).view.readAt (Elt F) (LoadRect.whole S64x128) (cH d L H 1)) ![k0_pay16 (iota .scVector S16 32 [0] iota_S16_d0_w32_scVector) 0#32 1#32 j, k0_pay41 (iota .scVector S16 32 [0] iota_S16_d0_w32_scVector) k] hA1) (loadIdx ((s6).view.readAt (Elt F) (LoadRect.whole S64x128) (cT d L T 1)) ![k0_pay16 (iota .scVector S16 32 [0] iota_S16_d0_w32_scVector) 0#32 1#32 j, k0_pay41 (iota .scVector S16 32 [0] iota_S16_d0_w32_scVector) k] hA1) (loadIdx ((s0).view.readAt (Elt F) (LoadRect.whole S64000) (cTab d L B)) ![addi (k0_pay42 ((s1).view.readAt (Elt F) (Rect.unit (s := S512) (k0_off5 k) S16.size (k0_off5_inb k)).toLoadRect (cIdx d L I))) (k0_pay16 (iota .scVector S16 32 [0] iota_S16_d0_w32_scVector) 0#32 1#32 j)] hT1),
      k0_pay19 a2 (loadIdx ((s4).view.readAt (Elt F) (LoadRect.whole S64x128) (cH d L H 1)) ![k0_pay18 (iota .scVector S16 32 [0] iota_S16_d0_w32_scVector) 0#32 1#32 j, k0_pay41 (iota .scVector S16 32 [0] iota_S16_d0_w32_scVector) k] hA2) (loadIdx ((s6).view.readAt (Elt F) (LoadRect.whole S64x128) (cT d L T 1)) ![k0_pay18 (iota .scVector S16 32 [0] iota_S16_d0_w32_scVector) 0#32 1#32 j, k0_pay41 (iota .scVector S16 32 [0] iota_S16_d0_w32_scVector) k] hA2) (loadIdx ((s0).view.readAt (Elt F) (LoadRect.whole S64000) (cTab d L B)) ![addi (k0_pay42 ((s1).view.readAt (Elt F) (Rect.unit (s := S512) (k0_off5 k) S16.size (k0_off5_inb k)).toLoadRect (cIdx d L I))) (k0_pay18 (iota .scVector S16 32 [0] iota_S16_d0_w32_scVector) 0#32 1#32 j)] hT2),
      k0_pay45 a3 (loadIdx ((s4).view.readAt (Elt F) (LoadRect.whole S64x128) (cH d L H 1)) ![k0_pay44 (iota .scVector S16 32 [0] iota_S16_d0_w32_scVector) (k0_pay20 0#32 1#32 j), k0_pay41 (iota .scVector S16 32 [0] iota_S16_d0_w32_scVector) k] hA3) (loadIdx ((s6).view.readAt (Elt F) (LoadRect.whole S64x128) (cT d L T 1)) ![k0_pay44 (iota .scVector S16 32 [0] iota_S16_d0_w32_scVector) (k0_pay20 0#32 1#32 j), k0_pay41 (iota .scVector S16 32 [0] iota_S16_d0_w32_scVector) k] hA3) (loadIdx ((s0).view.readAt (Elt F) (LoadRect.whole S64000) (cTab d L B)) ![addi (k0_pay42 ((s1).view.readAt (Elt F) (Rect.unit (s := S512) (k0_off5 k) S16.size (k0_off5_inb k)).toLoadRect (cIdx d L I))) (k0_pay44 (iota .scVector S16 32 [0] iota_S16_d0_w32_scVector) (k0_pay20 0#32 1#32 j))] hT3))
/-- and a finished group's sixteen scores are stored at the group's place in the score buffer. -/
def OutStep1 : Prop := ∀ (k : Fin k0_t3_loop.trips) (f2 : Buf (Elt F) ((s2).view.loc (thr d L))) (w0 w1 w2 w3 : FVec F S16 .f32),
    OutP (8 + k.val) f2 → AccP 1 k.val 16 (w0, w1, w2, w3) →
    OutP (8 + k.val + 1) ((s2).view.writes (Elt F) f2 [⟨Rect.unit (s := S512) (k0_off6 k) S16.size (k0_off6_inb k), k0_pay46 w0 w1 w2 w3⟩])

/-- Column block 2: the running sums start at zero; -/
def AccInit2 : Prop := ∀ k : Nat, AccP 2 k 0 (k0_pay49 (F := F), k0_pay49 (F := F), k0_pay49 (F := F), k0_pay49 (F := F))
/-- one trip adds to each of the four sums its slot's term; -/
def AccStep2 : Prop := ∀ (k : Fin k0_t5_loop.trips) (j : Fin k0_t6_loop.trips) (a0 a1 a2 a3 : FVec F S16 .f32) (hA0 : ∀ a x, ((![k0_pay21 (iota .scVector S16 32 [0] iota_S16_d0_w32_scVector) 0#32 1#32 j, k0_pay47 (iota .scVector S16 32 [0] iota_S16_d0_w32_scVector) k] : Fin 2 → IVec S16 32) a x).toNat < S64x128.size a) (hT0 : ∀ a x, ((![addi (k0_pay48 ((s1).view.readAt (Elt F) (Rect.unit (s := S512) (k0_off7 k) S16.size (k0_off7_inb k)).toLoadRect (cIdx d L I))) (k0_pay21 (iota .scVector S16 32 [0] iota_S16_d0_w32_scVector) 0#32 1#32 j)] : Fin 1 → IVec S16 32) a x).toNat < S64000.size a) (hA1 : ∀ a x, ((![k0_pay23 (iota .scVector S16 32 [0] iota_S16_d0_w32_scVector) 0#32 1#32 j, k0_pay47 (iota .scVector S16 32 [0] iota_S16_d0_w32_scVector) k] : Fin 2 → IVec S16 32) a x).toNat < S64x128.size a) (hT1 : ∀ a x, ((![addi (k0_pay48 ((s1).view.readAt (Elt F) (Rect.unit (s := S512) (k0_off7 k) S16.size (k0_off7_inb k)).toLoadRect (cIdx d L I))) (k0_pay23 (iota .scVector S16 32 [0] iota_S16_d0_w32_scVector) 0#32 1#32 j)] : Fin 1 → IVec S16 32) a x).toNat < S64000.size a) (hA2 : ∀ a x, ((![k0_pay25 (iota .scVector S16 32 [0] iota_S16_d0_w32_scVector) 0#32 1#32 j, k0_pay47 (iota .scVector S16 32 [0] iota_S16_d0_w32_scVector) k] : Fin 2 → IVec S16 32) a x).toNat < S64x128.size a) (hT2 : ∀ a x, ((![addi (k0_pay48 ((s1).view.readAt (Elt F) (Rect.unit (s := S512) (k0_off7 k) S16.size (k0_off7_inb k)).toLoadRect (cIdx d L I))) (k0_pay25 (iota .scVector S16 32 [0] iota_S16_d0_w32_scVector) 0#32 1#32 j)] : Fin 1 → IVec S16 32) a x).toNat < S64000.size a) (hA3 : ∀ a x, ((![k0_pay50 (iota .scVector S16 32 [0] iota_S16_d0_w32_scVector) (k0_pay27 0#32 1#32 j), k0_pay47 (iota .scVector S16 32 [0] iota_S16_d0_w32_scVector) k] : Fin 2 → IVec S16 32) a x).toNat < S64x128.size a) (hT3 : ∀ a x, ((![addi (k0_pay48 ((s1).view.readAt (Elt F) (Rect.unit (s := S512) (k0_off7 k) S16.size (k0_off7_inb k)).toLoadRect (cIdx d L I))) (k0_pay50 (iota .scVector S16 32 [0] iota_S16_d0_w32_scVector) (k0_pay27 0#32 1#32 j))] : Fin 1 → IVec S16 32) a x).toNat < S64000.size a),
    AccP 2 k.val j.val (a0, a1, a2, a3) → AccP 2 k.val (j.val + 1) (k0_pay22 a0 (loadIdx ((s3).view.readAt (Elt F) (LoadRect.whole S64x128) (cH d L H 2)) ![k0_pay21 (iota .scVector S16 32 [0] iota_S16_d0_w32_scVector) 0#32 1#32 j, k0_pay47 (iota .scVector S16 32 [0] iota_S16_d0_w32_scVector) k] hA0) (loadIdx ((s5).view.readAt (Elt F) (LoadRect.whole S64x128) (cT d L T 2)) ![k0_pay21 (iota .scVector S16 32 [0] iota_S16_d0_w32_scVector) 0#32 1#32 j, k0_pay47 (iota .scVector S16 32 [0] iota_S16_d0_w32_scVector) k] hA0) (loadIdx ((s0).view.readAt (Elt F) (LoadRect.whole S64000) (cTab d L B)) ![addi (k0_pay48 ((s1).view.readAt (Elt F) (Rect.unit (s := S512) (k0_off7 k) S16.size (k0_off7_inb k)).toLoadRect (cIdx d L I))) (k0_pay21 (iota .scVector S16 32 [0] iota_S16_d0_w32_scVector) 0#32 1#32 j)] hT0),
      k0_pay24 a1 (loadIdx ((s3).view.readAt (Elt F) (LoadRect.whole S64x128) (cH d L H 2)) ![k0_pay23 (iota .scVector S16 32 [0] iota_S16_d0_w32_scVector) 0#32 1#32 j, k0_pay47 (iota .scVector S16 32 [0] iota_S16_d0_w32_scVector) k] hA1) (loadIdx ((s5).view.readAt (Elt F) (LoadRect.whole S64x128) (cT d L T 2)) ![k0_pay23 (iota .scVector S16 32 [0] iota_S16_d0_w32_scVector) 0#32 1#32 j, k0_pay47 (iota .scVector S16 32 [0] iota_S16_d0_w32_scVector) k] hA1) (loadIdx ((s0).view.readAt (Elt F) (LoadRect.whole S64000) (cTab d L B)) ![addi (k0_pay48 ((s1).view.readAt (Elt F) (Rect.unit (s := S512) (k0_off7 k) S16.size (k0_off7_inb k)).toLoadRect (cIdx d L I))) (k0_pay23 (iota .scVector S16 32 [0] iota_S16_d0_w32_scVector) 0#32 1#32 j)] hT1),
      k0_pay26 a2 (loadIdx ((s3).view.readAt (Elt F) (LoadRect.whole S64x128) (cH d L H 2)) ![k0_pay25 (iota .scVector S16 32 [0] iota_S16_d0_w32_scVector) 0#32 1#32 j, k0_pay47 (iota .scVector S16 32 [0] iota_S16_d0_w32_scVector) k] hA2) (loadIdx ((s5).view.readAt (Elt F) (LoadRect.whole S64x128) (cT d L T 2)) ![k0_pay25 (iota .scVector S16 32 [0] iota_S16_d0_w32_scVector) 0#32 1#32 j, k0_pay47 (iota .scVector S16 32 [0] iota_S16_d0_w32_scVector) k] hA2) (loadIdx ((s0).view.readAt (Elt F) (LoadRect.whole S64000) (cTab d L B)) ![addi (k0_pay48 ((s1).view.readAt (Elt F) (Rect.unit (s := S512) (k0_off7 k) S16.size (k0_off7_inb k)).toLoadRect (cIdx d L I))) (k0_pay25 (iota .scVector S16 32 [0] iota_S16_d0_w32_scVector) 0#32 1#32 j)] hT2),
      k0_pay51 a3 (loadIdx ((s3).view.readAt (Elt F) (LoadRect.whole S64x128) (cH d L H 2)) ![k0_pay50 (iota .scVector S16 32 [0] iota_S16_d0_w32_scVector) (k0_pay27 0#32 1#32 j), k0_pay47 (iota .scVector S16 32 [0] iota_S16_d0_w32_scVector) k] hA3) (loadIdx ((s5).view.readAt (Elt F) (LoadRect.whole S64x128) (cT d L T 2)) ![k0_pay50 (iota .scVector S16 32 [0] iota_S16_d0_w32_scVector) (k0_pay27 0#32 1#32 j), k0_pay47 (iota .scVector S16 32 [0] iota_S16_d0_w32_scVector) k] hA3) (loadIdx ((s0).view.readAt (Elt F) (LoadRect.whole S64000) (cTab d L B)) ![addi (k0_pay48 ((s1).view.readAt (Elt F) (Rect.unit (s := S512) (k0_off7 k) S16.size (k0_off7_inb k)).toLoadRect (cIdx d L I))) (k0_pay50 (iota .scVector S16 32 [0] iota_S16_d0_w32_scVector) (k0_pay27 0#32 1#32 j))] hT3))
/-- and a finished group's sixteen scores are stored at the group's place in the score buffer. -/
def OutStep2 : Prop := ∀ (k : Fin k0_t5_loop.trips) (f2 : Buf (Elt F) ((s2).view.loc (thr d L))) (w0 w1 w2 w3 : FVec F S16 .f32),
    OutP (16 + k.val) f2 → AccP 2 k.val 16 (w0, w1, w2, w3) →
    OutP (16 + k.val + 1) ((s2).view.writes (Elt F) f2 [⟨Rect.unit (s := S512) (k0_off8 k) S16.size (k0_off8_inb k), k0_pay52 w0 w1 w2 w3⟩])

/-- Column block 3: the running sums start at zero; -/
def AccInit3 : Prop := ∀ k : Nat, AccP 3 k 0 (k0_pay3 (F := F), k0_pay3 (F := F), k0_pay3 (F := F), k0_pay3 (F := F))
/-- one trip adds to each of the four sums its slot's term; -/
def AccStep3 : Prop := ∀ (k : Fin k0_t7_loop.trips) (j : Fin k0_t8_loop.trips) (a0 a1 a2 a3 : FVec F S16 .f32) (hA0 : ∀ a x, ((![k0_pay28 (iota .scVector S16 32 [0] iota_S16_d0_w32_scVector) 0#32 1#32 j, k0_pay1 (iota .scVector S16 32 [0] iota_S16_d0_w32_scVector) k] : Fin 2 → IVec S16 32) a x).toNat < S64x128.size a) (hT0 : ∀ a x, ((![addi (k0_pay2 ((s1).view.readAt (Elt F) (Rect.unit (s := S512) (k0_off9 k) S16.size (k0_off9_inb k)).toLoadRect (cIdx d L I))) (k0_pay28 (iota .scVector S16 32 [0] iota_S16_d0_w32_scVector) 0#32 1#32 j)] : Fin 1 → IVec S16 32) a x).toNat < S64000.size a) (hA1 : ∀ a x, ((![k0_pay30 (iota .scVector S16 32 [0] iota_S16_d0_w32_scVector) 0#32 1#32 j, k0_pay1 (iota .scVector S16 32 [0] iota_S16_d0_w32_scVector) k] : Fin 2 → IVec S16 32) a x).toNat < S64x128.size a) (hT1 : ∀ a x, ((![addi (k0_pay2 ((s1).view.readAt (Elt F) (Rect.unit (s := S512) (k0_off9 k) S16.size (k0_off9_inb k)).toLoadRect (cIdx d L I))) (k0_pay30 (iota .scVector S16 32 [0] iota_S16_d0_w32_scVector) 0#32 1#32 j)] : Fin 1 → IVec S16 32) a x).toNat < S64000.size a) (hA2 : ∀ a x, ((![k0_pay32 (iota .scVector S16 32 [0] iota_S16_d0_w32_scVector) 0#32 1#32 j, k0_pay1 (iota .scVector S16 32 [0] iota_S16_d0_w32_scVector) k] : Fin 2 → IVec S16 32) a x).toNat < S64x128.size a) (hT2 : ∀ a x, ((![addi (k0_pay2 ((s1).view.readAt (Elt F) (Rect.unit (s := S512) (k0_off9 k) S16.size (k0_off9_inb k)).toLoadRect (cIdx d L I))) (k0_pay32 (iota .scVector S16 32 [0] iota_S16_d0_w32_scVector) 0#32 1#32 j)] : Fin 1 → IVec S16 32) a x).toNat < S64000.size a) (hA3 : ∀ a x, ((![k0_pay4 (iota .scVector S16 32 [0] iota_S16_d0_w32_scVector) (k0_pay34 0#32 1#32 j), k0_pay1 (iota .scVector S16 32 [0] iota_S16_d0_w32_scVector) k] : Fin 2 → IVec S16 32) a x).toNat < S64x128.size a) (hT3 : ∀ a x, ((![addi (k0_pay2 ((s1).view.readAt (Elt F) (Rect.unit (s := S512) (k0_off9 k) S16.size (k0_off9_inb k)).toLoadRect (cIdx d L I))) (k0_pay4 (iota .scVector S16 32 [0] iota_S16_d0_w32_scVector) (k0_pay34 0#32 1#32 j))] : Fin 1 → IVec S16 32) a x).toNat < S64000.size a),
    AccP 3 k.val j.val (a0, a1, a2, a3) → AccP 3 k.val (j.val + 1) (k0_pay29 a0 (loadIdx ((s4).view.readAt (Elt F) (LoadRect.whole S64x128) (cH d L H 3)) ![k0_pay28 (iota .scVector S16 32 [0] iota_S16_d0_w32_scVector) 0#32 1#32 j, k0_pay1 (iota .scVector S16 32 [0] iota_S16_d0_w32_scVector) k] hA0) (loadIdx ((s6).view.readAt (Elt F) (LoadRect.whole S64x128) (cT d L T 3)) ![k0_pay28 (iota .scVector S16 32 [0] iota_S16_d0_w32_scVector) 0#32 1#32 j, k0_pay1 (iota .scVector S16 32 [0] iota_S16_d0_w32_scVector) k] hA0) (loadIdx ((s0).view.readAt (Elt F) (LoadRect.whole S64000) (cTab d L B)) ![addi (k0_pay2 ((s1).view.readAt (Elt F) (Rect.unit (s := S512) (k0_off9 k) S16.size (k0_off9_inb k)).toLoadRect (cIdx d L I))) (k0_pay28 (iota .scVector S16 32 [0] iota_S16_d0_w32_scVector) 0#32 1#32 j)] hT0),
      k0_pay31 a1 (loadIdx ((s4).view.readAt (Elt F) (LoadRect.whole S64x128) (cH d L H 3)) ![k0_pay30 (iota .scVector S16 32 [0] iota_S16_d0_w32_scVector) 0#32 1#32 j, k0_pay1 (iota .scVector S16 32 [0] iota_S16_d0_w32_scVector) k] hA1) (loadIdx ((s6).view.readAt (Elt F) (LoadRect.whole S64x128) (cT d L T 3)) ![k0_pay30 (iota .scVector S16 32 [0] iota_S16_d0_w32_scVector) 0#32 1#32 j, k0_pay1 (iota .scVector S16 32 [0] iota_S16_d0_w32_scVector) k] hA1) (loadIdx ((s0).view.readAt (Elt F) (LoadRect.whole S64000) (cTab d L B)) ![addi (k0_pay2 ((s1).view.readAt (Elt F) (Rect.unit (s := S512) (k0_off9 k) S16.size (k0_off9_inb k)).toLoadRect (cIdx d L I))) (k0_pay30 (iota .scVector S16 32 [0] iota_S16_d0_w32_scVector) 0#32 1#32 j)] hT1),
      k0_pay33 a2 (loadIdx ((s4).view.readAt (Elt F) (LoadRect.whole S64x128) (cH d L H 3)) ![k0_pay32 (iota .scVector S16 32 [0] iota_S16_d0_w32_scVector) 0#32 1#32 j, k0_pay1 (iota .scVector S16 32 [0] iota_S16_d0_w32_scVector) k] hA2) (loadIdx ((s6).view.readAt (Elt F) (LoadRect.whole S64x128) (cT d L T 3)) ![k0_pay32 (iota .scVector S16 32 [0] iota_S16_d0_w32_scVector) 0#32 1#32 j, k0_pay1 (iota .scVector S16 32 [0] iota_S16_d0_w32_scVector) k] hA2) (loadIdx ((s0).view.readAt (Elt F) (LoadRect.whole S64000) (cTab d L B)) ![addi (k0_pay2 ((s1).view.readAt (Elt F) (Rect.unit (s := S512) (k0_off9 k) S16.size (k0_off9_inb k)).toLoadRect (cIdx d L I))) (k0_pay32 (iota .scVector S16 32 [0] iota_S16_d0_w32_scVector) 0#32 1#32 j)] hT2),
      k0_pay5 a3 (loadIdx ((s4).view.readAt (Elt F) (LoadRect.whole S64x128) (cH d L H 3)) ![k0_pay4 (iota .scVector S16 32 [0] iota_S16_d0_w32_scVector) (k0_pay34 0#32 1#32 j), k0_pay1 (iota .scVector S16 32 [0] iota_S16_d0_w32_scVector) k] hA3) (loadIdx ((s6).view.readAt (Elt F) (LoadRect.whole S64x128) (cT d L T 3)) ![k0_pay4 (iota .scVector S16 32 [0] iota_S16_d0_w32_scVector) (k0_pay34 0#32 1#32 j), k0_pay1 (iota .scVector S16 32 [0] iota_S16_d0_w32_scVector) k] hA3) (loadIdx ((s0).view.readAt (Elt F) (LoadRect.whole S64000) (cTab d L B)) ![addi (k0_pay2 ((s1).view.readAt (Elt F) (Rect.unit (s := S512) (k0_off9 k) S16.size (k0_off9_inb k)).toLoadRect (cIdx d L I))) (k0_pay4 (iota .scVector S16 32 [0] iota_S16_d0_w32_scVector) (k0_pay34 0#32 1#32 j))] hT3))
/-- and a finished group's sixteen scores are stored at the group's place in the score buffer. -/
def OutStep3 : Prop := ∀ (k : Fin k0_t7_loop.trips) (f2 : Buf (Elt F) ((s2).view.loc (thr d L))) (w0 w1 w2 w3 : FVec F S16 .f32),
    OutP (24 + k.val) f2 → AccP 3 k.val 16 (w0, w1, w2, w3) →
    OutP (24 + k.val + 1) ((s2).view.writes (Elt F) f2 [⟨Rect.unit (s := S512) (k0_off10 k) S16.size (k0_off10_inb k), k0_pay6 w0 w1 w2 w3⟩])

/-- The finished score buffer, copied out whole over the task's block of the result, is what the task promises. -/
def OutFinal (O₀ : Buf (Elt F) (oLoc d))
    (TileV : (d : Dev nD) → grid0.Coords → Buf (Elt F) (hLoc d) → Buf (Elt F) (iLoc d) → Buf (Elt F) (tLoc d) → Buf (Elt F) (bLoc d) → Buf (Elt F) (oLoc d) → Prop) : Prop :=
  ∀ f2 : Buf (Elt F) ((s2).view.loc (thr d L)), OutP 32 f2 →
    TileV d L H I T B ((oSl L).view.writes (Elt F) O₀ [⟨Rect.whole S512, ReadAs.same.apply ((s2).view.read (Elt F) f2)⟩])

/-- Everything the body's run asks of the two predicates. -/
def Closed (O₀ : Buf (Elt F) (oLoc d))
    (TileV : (d : Dev nD) → grid0.Coords → Buf (Elt F) (hLoc d) → Buf (Elt F) (iLoc d) → Buf (Elt F) (tLoc d) → Buf (Elt F) (bLoc d) → Buf (Elt F) (oLoc d) → Prop) : Prop :=
  (AccInit0 AccP ∧ AccStep0 d L H I T B AccP ∧ OutStep0 d L AccP OutP)
  ∧ (AccInit1 AccP ∧ AccStep1 d L H I T B AccP ∧ OutStep1 d L AccP OutP)
  ∧ (AccInit2 AccP ∧ AccStep2 d L H I T B AccP ∧ OutStep2 d L AccP OutP)
  ∧ (AccInit3 AccP ∧ AccStep3 d L H I T B AccP ∧ OutStep3 d L AccP OutP)
  ∧ (∀ g, OutP 0 g) ∧ OutFinal d L H I T B OutP O₀ TileV

end

end Cert.KernelIdeal.Hand

end
-- ==== Proof.Body.lean ====
/-
  The body of one vector subcore's task, run once at a symbolic grid point: the table and the relation words copied
  in, then for each of the four 128-column blocks the two embedding blocks copied in (the next block's copies started
  before the current block is read, on the other pair of buffers and the other semaphore), eight groups of sixteen
  lanes, each group a loop of sixteen trips that gathers four coordinates per trip from the three buffers into four
  running sums, the group's scores stored; at the end the 512 scores copied out.
-/
import proofs.«205645_g18588618457683_cont_8to1_1834_20_alg».proof.Proof.Shared
import proofs.«205645_g18588618457683_cont_8to1_1834_20_alg».proof.Proof.Contents
import proofs.«205645_g18588618457683_cont_8to1_1834_20_alg».proof.Proof.IdxFacts
import proofs.«205645_g18588618457683_cont_8to1_1834_20_alg».proof.Proof.Scoped
import proofs.«205645_g18588618457683_cont_8to1_1834_20_alg».proof.Proof.Closure

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile
variable (d : Dev nD) (L : grid0.Coords)
variable (H : Buf (Elt F) (hLoc d)) (I : Buf (Elt F) (iLoc d)) (T : Buf (Elt F) (tLoc d)) (B : Buf (Elt F) (bLoc d))

/-- Every relation word the task copied is below 1000 when every word of the array is. -/
theorem cIdx_lt (hI : ∀ y : S16384.Idx, (I y).toNat < 1000) (y : S512.Idx) : ((cIdx d L I) y).toNat < 1000 := by
  show ((iSl L).view.read (Elt F) I y).toNat < 1000
  rw [View.read_apply]
  exact hI _

theorem v54_lt (hI : ∀ y : S16384.Idx, (I y).toNat < 1000) (r : LoadRect S512) (x : r.shape.Idx) :
    ((s1).view.readAt (Elt F) r (cIdx d L I) x).toNat < 1000 := by
  simp only [View.readAt_apply, Memref.view_whole, View.read_whole]
  exact cIdx_lt d L I hI _

omit [FloatOps F] in
/-- A wait recorded at no call's index keeps the recorded waits within what the launch allows. -/
theorem ins_ok {W W' : Waits sig (HIx 1)} (a : SemLoc sig) (h : ∀ p ∈ W', p ∈ W ∨ p.2 = none) :
    ∀ p ∈ insert (a, (default : HIx 1)) W', p ∈ W ∨ p.2 = none := by
  intro p hp
  rcases Finset.mem_insert.mp hp with rfl | hp
  · exact .inr rfl
  · exact h p hp

/-- Between two trips of a group's coordinate loop (buffer pair 0): the table and the two column blocks as landed, the running sums as `AccP` says. -/
def invD0 (AccP : Nat → Acc4 F → Prop) (r : Fin 4) (j : Nat) (acc : Acc4 F) : sProp 𝕄 :=
  iprop(((s0).view.loc (thr d L) ↦{fullShare} cTab d L B) ∗ ((s3).view.loc (thr d L) ↦{fullShare} cH d L H r) ∗ ((s5).view.loc (thr d L) ↦{fullShare} cT d L T r) ∗ ⌜AccP j acc⌝)

/-- Between two groups of a column block (buffer pair 0): the table, the relation words and the two column blocks as landed, the scores written so far as `OutP` says. -/
def invG0 (OutP : Nat → Buf (Elt F) ((s2).view.loc (thr d L)) → Prop) (r : Fin 4) (k : Nat) (_ : BitVec 32) : sProp 𝕄 :=
  iprop(((s0).view.loc (thr d L) ↦{fullShare} cTab d L B) ∗ ((s1).view.loc (thr d L) ↦{fullShare} cIdx d L I)
    ∗ ((s3).view.loc (thr d L) ↦{fullShare} cH d L H r) ∗ ((s5).view.loc (thr d L) ↦{fullShare} cT d L T r) ∗ ∃ f, ⌜OutP k f⌝ ∗ (s2).view.loc (thr d L) ↦{fullShare} f)

/-- Between two trips of a group's coordinate loop (buffer pair 1): the table and the two column blocks as landed, the running sums as `AccP` says. -/
def invD1 (AccP : Nat → Acc4 F → Prop) (r : Fin 4) (j : Nat) (acc : Acc4 F) : sProp 𝕄 :=
  iprop(((s0).view.loc (thr d L) ↦{fullShare} cTab d L B) ∗ ((s4).view.loc (thr d L) ↦{fullShare} cH d L H r) ∗ ((s6).view.loc (thr d L) ↦{fullShare} cT d L T r) ∗ ⌜AccP j acc⌝)

/-- Between two groups of a column block (buffer pair 1): the table, the relation words and the two column blocks as landed, the scores written so far as `OutP` says. -/
def invG1 (OutP : Nat → Buf (Elt F) ((s2).view.loc (thr d L)) → Prop) (r : Fin 4) (k : Nat) (_ : BitVec 32) : sProp 𝕄 :=
  iprop(((s0).view.loc (thr d L) ↦{fullShare} cTab d L B) ∗ ((s1).view.loc (thr d L) ↦{fullShare} cIdx d L I)
    ∗ ((s4).view.loc (thr d L) ↦{fullShare} cH d L H r) ∗ ((s6).view.loc (thr d L) ↦{fullShare} cT d L T r) ∗ ∃ f, ⌜OutP k f⌝ ∗ (s2).view.loc (thr d L) ↦{fullShare} f)

set_option maxHeartbeats 8000000 in
/-- One task's run: the copies in, the four column blocks' groups with their coordinate loops, the copy out. The index
    side conditions hold because every relation word is below 1000; the values are carried by the two predicates. -/
theorem tile_run [∀ e, Nonempty (Elt F e)] (hF : (K (F := F)).Facts)
    (TileV : (d : Dev nD) → grid0.Coords → Buf (Elt F) (hLoc d) → Buf (Elt F) (iLoc d) → Buf (Elt F) (tLoc d) → Buf (Elt F) (bLoc d) → Buf (Elt F) (oLoc d) → Prop)
    (Hc : (d : Dev nD) → Buf (Elt F) (hLoc d)) (Ic : (d : Dev nD) → Buf (Elt F) (iLoc d)) (Tc : (d : Dev nD) → Buf (Elt F) (tLoc d))
    (Bc : (d : Dev nD) → Buf (Elt F) (bLoc d)) (Oc : (d : Dev nD) → Buf (Elt F) (oLoc d))
    (hIc : ∀ (d : Dev nD) (y : S16384.Idx), (Ic d y).toNat < 1000)
    (AccPc : (d : Dev nD) → (L : grid0.Coords) → Fin 4 → Nat → Nat → Acc4 F → Prop)
    (OutPc : (d : Dev nD) → (L : grid0.Coords) → Nat → Buf (Elt F) ((s2).view.loc (thr d L)) → Prop)
    (hcl : ∀ (d : Dev nD) (L : grid0.Coords), Closed d L (Hc d) (Ic d) (Tc d) (Bc d) (AccPc d L) (OutPc d L) (Oc d) TileV) :
    TileRun TileV Hc Ic Tc Bc Oc := by
  intro d L O W hO
  obtain ⟨⟨hAI0, hAS0, hOS0⟩, ⟨hAI1, hAS1, hOS1⟩, ⟨hAI2, hAS2, hOS2⟩, ⟨hAI3, hAS3, hOS3⟩, hO0, hFin⟩ := hcl d L
  have hI := hIc d
  generalize Hc d = H at *
  generalize Ic d = I at *
  generalize Tc d = T at *
  generalize Bc d = B at *
  generalize Oc d = O₀ at *
  generalize AccPc d L = AccP at *
  generalize OutPc d L = OutP at *
  rw [(K (F := F)).scopedBufs_V hF d (cV L) (jV L), SparseCore.Cfg.scopedSems0_V (Val := Elt F) d (cV L) (jV L), ownSems0_V, ownBufs_V]
  unfold goRes
  iintro ⟨#Hlv, -, ⟨Hh0, Hh1, Hh2, Hh3, Hi, Ht0, Ht1, Ht2, Ht3, Hb, Ho⟩, ⟨⟨%g0, H0⟩, ⟨%g1, H1⟩, ⟨%g2, H2⟩, ⟨%g3, H3⟩, ⟨%g4, H4⟩, ⟨%g5, H5⟩, ⟨%g6, H6⟩, Hrb⟩, ⟨S7, S8, S9, Sa, Sb, Hrs⟩, HO⟩
  ihave Hmw := ((K (F := F)).mayWaits_none (thr := thr d L) hO) $$ Hlv
  ihave H0 := (Entails.of_eq (pts_s0 (F := F) d L g0).symm) $$ H0
  ihave H1 := (Entails.of_eq (pts_s1 (F := F) d L g1).symm) $$ H1
  ihave H2 := (Entails.of_eq (pts_s2 (F := F) d L g2).symm) $$ H2
  ihave H3 := (Entails.of_eq (pts_s3 (F := F) d L g3).symm) $$ H3
  ihave H4 := (Entails.of_eq (pts_s4 (F := F) d L g4).symm) $$ H4
  ihave H5 := (Entails.of_eq (pts_s5 (F := F) d L g5).symm) $$ H5
  ihave H6 := (Entails.of_eq (pts_s6 (F := F) d L g6).symm) $$ H6
  rw [cc0__sc_body_eq_skeleton]; unfold cc0__sc_body_skel
  rw [k0_part5_eq_skeleton]; unfold k0_part5_skel
  rw [k0_part6_eq_skeleton]; unfold k0_part6_skel
  have _p7 : Transfers.BatchOf (thr d L) (SemLoc.dma cc0_scratch7.sem) 2 := trivial
  have _p8 : Transfers.BatchOf (thr d L) (SemLoc.dma cc0_scratch8.sem) 2 := trivial
  sl_exec
  have hv3 : ∀ x, ((tile_run.sl.v3 : IVec S16 32) x).toNat < 16 := iota_lt
  ihave H0 := (Entails.of_eq (congrArg (fun f => ((s0).view.loc (thr d L) ↦{fullShare} f : sProp 𝕄)) (View.write_whole_univ _ _ _))) $$ H0
  ihave H1 := (Entails.of_eq (congrArg (fun f => ((s1).view.loc (thr d L) ↦{fullShare} f : sProp 𝕄)) (View.write_whole_univ _ _ _))) $$ H1
  have hout : OutP (0 + 0) g2 := hO0 g2
  have f2 := g2
  -- column block 0
  ihave H3 := (Entails.of_eq (congrArg (fun f => ((s3).view.loc (thr d L) ↦{fullShare} f : sProp 𝕄)) (View.write_whole_univ _ _ _))) $$ H3
  ihave H5 := (Entails.of_eq (congrArg (fun f => ((s5).view.loc (thr d L) ↦{fullShare} f : sProp 𝕄)) (View.write_whole_univ _ _ _))) $$ H5
  try sl_rw [Prog.bind_assoc]
  try sl_rw [Prog.bind_assoc]
  sl_for (invG0 d L H I T B (fun n f => OutP (0 + n) f) 0) $$ [H0 H1 H3 H5 H2]
  rotate_left
  · unfold invG0
    isplitl [H0]; · iexact H0
    isplitl [H1]; · iexact H1
    isplitl [H3]; · iexact H3
    isplitl [H5]; · iexact H5
    iexists g2; isplitr
    · ipureintro; exact hout
    · iexact H2
  rotate_left
  case region =>
    intro k acc
    unfold invG0
    iintro ⟨H0, H1, H3, H5, %f2, %hout, H2⟩
    have h54 := v54_lt d L I hI (Rect.unit (s := S512) (k0_off3 k) S16.size (k0_off3_inb k)).toLoadRect
    sl_exec
    sl_for (invD0 d L H T B (AccP 0 k.val) 0) $$ [H0 H3 H5]
    rotate_left
    · unfold invD0
      isplitl [H0]; · iexact H0
      isplitl [H3]; · iexact H3
      isplitl [H5]; · iexact H5
      ipureintro; exact hAI0 k.val
    rotate_left
    case region =>
      intro j acc
      obtain ⟨a0, a1, a2, a3⟩ := acc
      unfold invD0
      iintro ⟨H0, H3, H5, %hacc⟩
      sl_exec (disch := first | sl_exact chk1_ok k _ _ _ _ | sl_exact chk2_ok _ h54 _ _ _ _ | sl_exact chk3_ok k _ _ _ _ | sl_exact chk4_ok _ h54 _ _ _ _ | sl_exact chk5_ok k _ _ _ _ | sl_exact chk6_ok _ h54 _ _ _ _ | sl_exact chk7_ok k _ | sl_exact chk8_ok _ h54 _ | exact chk1_ok k _ _ _ _ | exact chk2_ok _ h54 _ _ _ _ | exact chk3_ok k _ _ _ _ | exact chk4_ok _ h54 _ _ _ _ | exact chk5_ok k _ _ _ _ | exact chk6_ok _ h54 _ _ _ _ | exact chk7_ok k _ | exact chk8_ok _ h54 _ | fail "no")
      conv => { arg 2; pattern (Idealize.SL.Sem.wp _ _ _ _); arg 4; simp only [SparseCore.vectorLoadIdx_bind (c := thr d L)] }
      sl_exec (disch := first | sl_exact chk1_ok k _ _ _ _ | sl_exact chk2_ok _ h54 _ _ _ _ | sl_exact chk3_ok k _ _ _ _ | sl_exact chk4_ok _ h54 _ _ _ _ | sl_exact chk5_ok k _ _ _ _ | sl_exact chk6_ok _ h54 _ _ _ _ | sl_exact chk7_ok k _ | sl_exact chk8_ok _ h54 _ | exact chk1_ok k _ _ _ _ | exact chk2_ok _ h54 _ _ _ _ | exact chk3_ok k _ _ _ _ | exact chk4_ok _ h54 _ _ _ _ | exact chk5_ok k _ _ _ _ | exact chk6_ok _ h54 _ _ _ _ | exact chk7_ok k _ | exact chk8_ok _ h54 _ | fail "no")
      conv => { arg 2; pattern (Idealize.SL.Sem.wp _ _ _ _); arg 4; simp only [SparseCore.vectorLoadIdx_bind (c := thr d L)] }
      sl_exec (disch := first | sl_exact chk1_ok k _ _ _ _ | sl_exact chk2_ok _ h54 _ _ _ _ | sl_exact chk3_ok k _ _ _ _ | sl_exact chk4_ok _ h54 _ _ _ _ | sl_exact chk5_ok k _ _ _ _ | sl_exact chk6_ok _ h54 _ _ _ _ | sl_exact chk7_ok k _ | sl_exact chk8_ok _ h54 _ | exact chk1_ok k _ _ _ _ | exact chk2_ok _ h54 _ _ _ _ | exact chk3_ok k _ _ _ _ | exact chk4_ok _ h54 _ _ _ _ | exact chk5_ok k _ _ _ _ | exact chk6_ok _ h54 _ _ _ _ | exact chk7_ok k _ | exact chk8_ok _ h54 _ | fail "no")
      sl_step
      isplitl [H0]; · iexact H0
      isplitl [H3]; · iexact H3
      isplitl [H5]; · iexact H5
      ipureintro
      sl_unfold_run_names
      exact hAS0 k j a0 a1 a2 a3 _ _ _ _ _ _ _ _ hacc
    iintro %acc HI
    obtain ⟨w0, w1, w2, w3⟩ := acc
    unfold invD0
    icases HI with ⟨H0, H3, H5, %hacc⟩
    have e16 : Scf.trips k0_t2_loop.lb k0_t2_loop.ub k0_t2_loop.st = 16 := by decide
    rw [e16] at hacc
    sl_exec
    sl_step
    isplitl [H0]; · iexact H0
    isplitl [H1]; · iexact H1
    isplitl [H3]; · iexact H3
    isplitl [H5]; · iexact H5
    iexists _; isplitr
    · ipureintro; exact hOS0 k f2 w0 w1 w2 w3 hout hacc
    · iexact H2
  iintro %acc HI
  unfold invG0
  icases HI with ⟨H0, H1, H3, H5, %f2, %hout, H2⟩
  have e8 : Scf.trips k0_t1_loop.lb k0_t1_loop.ub k0_t1_loop.st = 8 := by decide
  rw [e8] at hout
  clear e8
  sl_exec

  -- column block 1
  ihave H4 := (Entails.of_eq (congrArg (fun f => ((s4).view.loc (thr d L) ↦{fullShare} f : sProp 𝕄)) (View.write_whole_univ _ _ _))) $$ H4
  ihave H6 := (Entails.of_eq (congrArg (fun f => ((s6).view.loc (thr d L) ↦{fullShare} f : sProp 𝕄)) (View.write_whole_univ _ _ _))) $$ H6
  try sl_rw [Prog.bind_assoc]
  try sl_rw [Prog.bind_assoc]
  sl_for (invG1 d L H I T B (fun n f => OutP (8 + n) f) 1) $$ [H0 H1 H4 H6 H2]
  rotate_left
  · unfold invG1
    isplitl [H0]; · iexact H0
    isplitl [H1]; · iexact H1
    isplitl [H4]; · iexact H4
    isplitl [H6]; · iexact H6
    iexists _; isplitr
    · ipureintro; exact hout
    · iexact H2
  rotate_left
  case region =>
    intro k acc
    unfold invG1
    iintro ⟨H0, H1, H4, H6, %f2, %hout, H2⟩
    have h54 := v54_lt d L I hI (Rect.unit (s := S512) (k0_off5 k) S16.size (k0_off5_inb k)).toLoadRect
    sl_exec
    sl_for (invD1 d L H T B (AccP 1 k.val) 1) $$ [H0 H4 H6]
    rotate_left
    · unfold invD1
      isplitl [H0]; · iexact H0
      isplitl [H4]; · iexact H4
      isplitl [H6]; · iexact H6
      ipureintro; exact hAI1 k.val
    rotate_left
    case region =>
      intro j acc
      obtain ⟨a0, a1, a2, a3⟩ := acc
      unfold invD1
      iintro ⟨H0, H4, H6, %hacc⟩
      sl_exec (disch := first | sl_exact chk9_ok _ hv3 k _ _ _ _ | sl_exact chk10_ok _ h54 _ _ _ _ | sl_exact chk11_ok _ hv3 k _ _ _ _ | sl_exact chk12_ok _ h54 _ _ _ _ | sl_exact chk13_ok _ hv3 k _ _ _ _ | sl_exact chk14_ok _ h54 _ _ _ _ | sl_exact chk15_ok _ hv3 k _ | sl_exact chk16_ok _ h54 _ _ | exact chk9_ok _ hv3 k _ _ _ _ | exact chk10_ok _ h54 _ _ _ _ | exact chk11_ok _ hv3 k _ _ _ _ | exact chk12_ok _ h54 _ _ _ _ | exact chk13_ok _ hv3 k _ _ _ _ | exact chk14_ok _ h54 _ _ _ _ | exact chk15_ok _ hv3 k _ | exact chk16_ok _ h54 _ _ | fail "no")
      conv => { arg 2; pattern (Idealize.SL.Sem.wp _ _ _ _); arg 4; simp only [SparseCore.vectorLoadIdx_bind (c := thr d L)] }
      sl_exec (disch := first | sl_exact chk9_ok _ hv3 k _ _ _ _ | sl_exact chk10_ok _ h54 _ _ _ _ | sl_exact chk11_ok _ hv3 k _ _ _ _ | sl_exact chk12_ok _ h54 _ _ _ _ | sl_exact chk13_ok _ hv3 k _ _ _ _ | sl_exact chk14_ok _ h54 _ _ _ _ | sl_exact chk15_ok _ hv3 k _ | sl_exact chk16_ok _ h54 _ _ | exact chk9_ok _ hv3 k _ _ _ _ | exact chk10_ok _ h54 _ _ _ _ | exact chk11_ok _ hv3 k _ _ _ _ | exact chk12_ok _ h54 _ _ _ _ | exact chk13_ok _ hv3 k _ _ _ _ | exact chk14_ok _ h54 _ _ _ _ | exact chk15_ok _ hv3 k _ | exact chk16_ok _ h54 _ _ | fail "no")
      conv => { arg 2; pattern (Idealize.SL.Sem.wp _ _ _ _); arg 4; simp only [SparseCore.vectorLoadIdx_bind (c := thr d L)] }
      sl_exec (disch := first | sl_exact chk9_ok _ hv3 k _ _ _ _ | sl_exact chk10_ok _ h54 _ _ _ _ | sl_exact chk11_ok _ hv3 k _ _ _ _ | sl_exact chk12_ok _ h54 _ _ _ _ | sl_exact chk13_ok _ hv3 k _ _ _ _ | sl_exact chk14_ok _ h54 _ _ _ _ | sl_exact chk15_ok _ hv3 k _ | sl_exact chk16_ok _ h54 _ _ | exact chk9_ok _ hv3 k _ _ _ _ | exact chk10_ok _ h54 _ _ _ _ | exact chk11_ok _ hv3 k _ _ _ _ | exact chk12_ok _ h54 _ _ _ _ | exact chk13_ok _ hv3 k _ _ _ _ | exact chk14_ok _ h54 _ _ _ _ | exact chk15_ok _ hv3 k _ | exact chk16_ok _ h54 _ _ | fail "no")
      sl_step
      isplitl [H0]; · iexact H0
      isplitl [H4]; · iexact H4
      isplitl [H6]; · iexact H6
      ipureintro
      sl_unfold_run_names
      exact hAS1 k j a0 a1 a2 a3 _ _ _ _ _ _ _ _ hacc
    iintro %acc HI
    obtain ⟨w0, w1, w2, w3⟩ := acc
    unfold invD1
    icases HI with ⟨H0, H4, H6, %hacc⟩
    have e16 : Scf.trips k0_t4_loop.lb k0_t4_loop.ub k0_t4_loop.st = 16 := by decide
    rw [e16] at hacc
    sl_exec
    sl_step
    isplitl [H0]; · iexact H0
    isplitl [H1]; · iexact H1
    isplitl [H4]; · iexact H4
    isplitl [H6]; · iexact H6
    iexists _; isplitr
    · ipureintro; exact hOS1 k f2 w0 w1 w2 w3 hout hacc
    · iexact H2
  iintro %acc HI
  unfold invG1
  icases HI with ⟨H0, H1, H4, H6, %f2, %hout, H2⟩
  have e8 : Scf.trips k0_t3_loop.lb k0_t3_loop.ub k0_t3_loop.st = 8 := by decide
  rw [e8] at hout
  clear e8
  sl_exec

  -- column block 2
  ihave H3 := (Entails.of_eq (congrArg (fun f => ((s3).view.loc (thr d L) ↦{fullShare} f : sProp 𝕄)) (View.write_whole_univ _ _ _))) $$ H3
  ihave H5 := (Entails.of_eq (congrArg (fun f => ((s5).view.loc (thr d L) ↦{fullShare} f : sProp 𝕄)) (View.write_whole_univ _ _ _))) $$ H5
  try sl_rw [Prog.bind_assoc]
  try sl_rw [Prog.bind_assoc]
  sl_for (invG0 d L H I T B (fun n f => OutP (16 + n) f) 2) $$ [H0 H1 H3 H5 H2]
  rotate_left
  · unfold invG0
    isplitl [H0]; · iexact H0
    isplitl [H1]; · iexact H1
    isplitl [H3]; · iexact H3
    isplitl [H5]; · iexact H5
    iexists _; isplitr
    · ipureintro; exact hout
    · iexact H2
  rotate_left
  case region =>
    intro k acc
    unfold invG0
    iintro ⟨H0, H1, H3, H5, %f2, %hout, H2⟩
    have h54 := v54_lt d L I hI (Rect.unit (s := S512) (k0_off7 k) S16.size (k0_off7_inb k)).toLoadRect
    sl_exec
    sl_for (invD0 d L H T B (AccP 2 k.val) 2) $$ [H0 H3 H5]
    rotate_left
    · unfold invD0
      isplitl [H0]; · iexact H0
      isplitl [H3]; · iexact H3
      isplitl [H5]; · iexact H5
      ipureintro; exact hAI2 k.val
    rotate_left
    case region =>
      intro j acc
      obtain ⟨a0, a1, a2, a3⟩ := acc
      unfold invD0
      iintro ⟨H0, H3, H5, %hacc⟩
      sl_exec (disch := first | sl_exact chk17_ok _ hv3 k _ _ _ _ | sl_exact chk18_ok _ h54 _ _ _ _ | sl_exact chk19_ok _ hv3 k _ _ _ _ | sl_exact chk20_ok _ h54 _ _ _ _ | sl_exact chk21_ok _ hv3 k _ _ _ _ | sl_exact chk22_ok _ h54 _ _ _ _ | sl_exact chk23_ok _ hv3 k _ | sl_exact chk24_ok _ h54 _ _ | exact chk17_ok _ hv3 k _ _ _ _ | exact chk18_ok _ h54 _ _ _ _ | exact chk19_ok _ hv3 k _ _ _ _ | exact chk20_ok _ h54 _ _ _ _ | exact chk21_ok _ hv3 k _ _ _ _ | exact chk22_ok _ h54 _ _ _ _ | exact chk23_ok _ hv3 k _ | exact chk24_ok _ h54 _ _ | fail "no")
      conv => { arg 2; pattern (Idealize.SL.Sem.wp _ _ _ _); arg 4; simp only [SparseCore.vectorLoadIdx_bind (c := thr d L)] }
      sl_exec (disch := first | sl_exact chk17_ok _ hv3 k _ _ _ _ | sl_exact chk18_ok _ h54 _ _ _ _ | sl_exact chk19_ok _ hv3 k _ _ _ _ | sl_exact chk20_ok _ h54 _ _ _ _ | sl_exact chk21_ok _ hv3 k _ _ _ _ | sl_exact chk22_ok _ h54 _ _ _ _ | sl_exact chk23_ok _ hv3 k _ | sl_exact chk24_ok _ h54 _ _ | exact chk17_ok _ hv3 k _ _ _ _ | exact chk18_ok _ h54 _ _ _ _ | exact chk19_ok _ hv3 k _ _ _ _ | exact chk20_ok _ h54 _ _ _ _ | exact chk21_ok _ hv3 k _ _ _ _ | exact chk22_ok _ h54 _ _ _ _ | exact chk23_ok _ hv3 k _ | exact chk24_ok _ h54 _ _ | fail "no")
      conv => { arg 2; pattern (Idealize.SL.Sem.wp _ _ _ _); arg 4; simp only [SparseCore.vectorLoadIdx_bind (c := thr d L)] }
      sl_exec (disch := first | sl_exact chk17_ok _ hv3 k _ _ _ _ | sl_exact chk18_ok _ h54 _ _ _ _ | sl_exact chk19_ok _ hv3 k _ _ _ _ | sl_exact chk20_ok _ h54 _ _ _ _ | sl_exact chk21_ok _ hv3 k _ _ _ _ | sl_exact chk22_ok _ h54 _ _ _ _ | sl_exact chk23_ok _ hv3 k _ | sl_exact chk24_ok _ h54 _ _ | exact chk17_ok _ hv3 k _ _ _ _ | exact chk18_ok _ h54 _ _ _ _ | exact chk19_ok _ hv3 k _ _ _ _ | exact chk20_ok _ h54 _ _ _ _ | exact chk21_ok _ hv3 k _ _ _ _ | exact chk22_ok _ h54 _ _ _ _ | exact chk23_ok _ hv3 k _ | exact chk24_ok _ h54 _ _ | fail "no")
      sl_step
      isplitl [H0]; · iexact H0
      isplitl [H3]; · iexact H3
      isplitl [H5]; · iexact H5
      ipureintro
      sl_unfold_run_names
      exact hAS2 k j a0 a1 a2 a3 _ _ _ _ _ _ _ _ hacc
    iintro %acc HI
    obtain ⟨w0, w1, w2, w3⟩ := acc
    unfold invD0
    icases HI with ⟨H0, H3, H5, %hacc⟩
    have e16 : Scf.trips k0_t6_loop.lb k0_t6_loop.ub k0_t6_loop.st = 16 := by decide
    rw [e16] at hacc
    sl_exec
    sl_step
    isplitl [H0]; · iexact H0
    isplitl [H1]; · iexact H1
    isplitl [H3]; · iexact H3
    isplitl [H5]; · iexact H5
    iexists _; isplitr
    · ipureintro; exact hOS2 k f2 w0 w1 w2 w3 hout hacc
    · iexact H2
  iintro %acc HI
  unfold invG0
  icases HI with ⟨H0, H1, H3, H5, %f2, %hout, H2⟩
  have e8 : Scf.trips k0_t5_loop.lb k0_t5_loop.ub k0_t5_loop.st = 8 := by decide
  rw [e8] at hout
  clear e8
  sl_exec

  -- column block 3
  ihave H4 := (Entails.of_eq (congrArg (fun f => ((s4).view.loc (thr d L) ↦{fullShare} f : sProp 𝕄)) (View.write_whole_univ _ _ _))) $$ H4
  ihave H6 := (Entails.of_eq (congrArg (fun f => ((s6).view.loc (thr d L) ↦{fullShare} f : sProp 𝕄)) (View.write_whole_univ _ _ _))) $$ H6
  try sl_rw [Prog.bind_assoc]
  try sl_rw [Prog.bind_assoc]
  sl_for (invG1 d L H I T B (fun n f => OutP (24 + n) f) 3) $$ [H0 H1 H4 H6 H2]
  rotate_left
  · unfold invG1
    isplitl [H0]; · iexact H0
    isplitl [H1]; · iexact H1
    isplitl [H4]; · iexact H4
    isplitl [H6]; · iexact H6
    iexists _; isplitr
    · ipureintro; exact hout
    · iexact H2
  rotate_left
  case region =>
    intro k acc
    unfold invG1
    iintro ⟨H0, H1, H4, H6, %f2, %hout, H2⟩
    have h54 := v54_lt d L I hI (Rect.unit (s := S512) (k0_off9 k) S16.size (k0_off9_inb k)).toLoadRect
    sl_exec
    sl_for (invD1 d L H T B (AccP 3 k.val) 3) $$ [H0 H4 H6]
    rotate_left
    · unfold invD1
      isplitl [H0]; · iexact H0
      isplitl [H4]; · iexact H4
      isplitl [H6]; · iexact H6
      ipureintro; exact hAI3 k.val
    rotate_left
    case region =>
      intro j acc
      obtain ⟨a0, a1, a2, a3⟩ := acc
      unfold invD1
      iintro ⟨H0, H4, H6, %hacc⟩
      sl_exec (disch := first | sl_exact chk25_ok _ hv3 k _ _ _ _ | sl_exact chk26_ok _ h54 _ _ _ _ | sl_exact chk27_ok _ hv3 k _ _ _ _ | sl_exact chk28_ok _ h54 _ _ _ _ | sl_exact chk29_ok _ hv3 k _ _ _ _ | sl_exact chk30_ok _ h54 _ _ _ _ | sl_exact chk31_ok _ hv3 k _ | sl_exact chk32_ok _ h54 _ _ | exact chk25_ok _ hv3 k _ _ _ _ | exact chk26_ok _ h54 _ _ _ _ | exact chk27_ok _ hv3 k _ _ _ _ | exact chk28_ok _ h54 _ _ _ _ | exact chk29_ok _ hv3 k _ _ _ _ | exact chk30_ok _ h54 _ _ _ _ | exact chk31_ok _ hv3 k _ | exact chk32_ok _ h54 _ _ | fail "no")
      conv => { arg 2; pattern (Idealize.SL.Sem.wp _ _ _ _); arg 4; simp only [SparseCore.vectorLoadIdx_bind (c := thr d L)] }
      sl_exec (disch := first | sl_exact chk25_ok _ hv3 k _ _ _ _ | sl_exact chk26_ok _ h54 _ _ _ _ | sl_exact chk27_ok _ hv3 k _ _ _ _ | sl_exact chk28_ok _ h54 _ _ _ _ | sl_exact chk29_ok _ hv3 k _ _ _ _ | sl_exact chk30_ok _ h54 _ _ _ _ | sl_exact chk31_ok _ hv3 k _ | sl_exact chk32_ok _ h54 _ _ | exact chk25_ok _ hv3 k _ _ _ _ | exact chk26_ok _ h54 _ _ _ _ | exact chk27_ok _ hv3 k _ _ _ _ | exact chk28_ok _ h54 _ _ _ _ | exact chk29_ok _ hv3 k _ _ _ _ | exact chk30_ok _ h54 _ _ _ _ | exact chk31_ok _ hv3 k _ | exact chk32_ok _ h54 _ _ | fail "no")
      conv => { arg 2; pattern (Idealize.SL.Sem.wp _ _ _ _); arg 4; simp only [SparseCore.vectorLoadIdx_bind (c := thr d L)] }
      sl_exec (disch := first | sl_exact chk25_ok _ hv3 k _ _ _ _ | sl_exact chk26_ok _ h54 _ _ _ _ | sl_exact chk27_ok _ hv3 k _ _ _ _ | sl_exact chk28_ok _ h54 _ _ _ _ | sl_exact chk29_ok _ hv3 k _ _ _ _ | sl_exact chk30_ok _ h54 _ _ _ _ | sl_exact chk31_ok _ hv3 k _ | sl_exact chk32_ok _ h54 _ _ | exact chk25_ok _ hv3 k _ _ _ _ | exact chk26_ok _ h54 _ _ _ _ | exact chk27_ok _ hv3 k _ _ _ _ | exact chk28_ok _ h54 _ _ _ _ | exact chk29_ok _ hv3 k _ _ _ _ | exact chk30_ok _ h54 _ _ _ _ | exact chk31_ok _ hv3 k _ | exact chk32_ok _ h54 _ _ | fail "no")
      sl_step
      isplitl [H0]; · iexact H0
      isplitl [H4]; · iexact H4
      isplitl [H6]; · iexact H6
      ipureintro
      sl_unfold_run_names
      exact hAS3 k j a0 a1 a2 a3 _ _ _ _ _ _ _ _ hacc
    iintro %acc HI
    obtain ⟨w0, w1, w2, w3⟩ := acc
    unfold invD1
    icases HI with ⟨H0, H4, H6, %hacc⟩
    have e16 : Scf.trips k0_t8_loop.lb k0_t8_loop.ub k0_t8_loop.st = 16 := by decide
    rw [e16] at hacc
    sl_exec
    sl_step
    isplitl [H0]; · iexact H0
    isplitl [H1]; · iexact H1
    isplitl [H4]; · iexact H4
    isplitl [H6]; · iexact H6
    iexists _; isplitr
    · ipureintro; exact hOS3 k f2 w0 w1 w2 w3 hout hacc
    · iexact H2
  iintro %acc HI
  unfold invG1
  icases HI with ⟨H0, H1, H4, H6, %f2, %hout, H2⟩
  have e8 : Scf.trips k0_t7_loop.lb k0_t7_loop.ub k0_t7_loop.st = 8 := by decide
  rw [e8] at hout
  clear e8
  sl_exec

  rw [wp_ret]; imodintro
  unfold tdRes
  isplitl [Hh0 Hh1 Hh2 Hh3 Hi Ht0 Ht1 Ht2 Ht3 Hb Ho]
  · isplitl [Hh0]; · iexact Hh0
    isplitl [Hh1]; · iexact Hh1
    isplitl [Hh2]; · iexact Hh2
    isplitl [Hh3]; · iexact Hh3
    isplitl [Hi]; · iexact Hi
    isplitl [Ht0]; · iexact Ht0
    isplitl [Ht1]; · iexact Ht1
    isplitl [Ht2]; · iexact Ht2
    isplitl [Ht3]; · iexact Ht3
    isplitl [Hb]; · iexact Hb
    iexists _; isplitr
    · ipureintro; sl_unfold_run_names; exact hFin f2 hout
    · iexact Ho
  isplitl [H0 H1 H2 H3 H4 H5 H6 Hrb]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    iexact Hrb
  isplitl [S7 S8 S9 Sa Sb Hrs]
  · isplitl [S7]; · iexact S7
    isplitl [S8]; · iexact S8
    isplitl [S9]; · iexact S9
    isplitl [Sa]; · iexact Sa
    isplitl [Sb]; · iexact Sb
    iexact Hrs
  iexists _; isplitr
  rotate_left
  · iexact HO
  · ipureintro
    exact ins_ok _ (ins_ok _ (ins_ok _ (ins_ok _ (ins_ok _ (ins_ok _ (ins_ok _ (ins_ok _ (ins_ok _ (ins_ok _ (ins_ok _ (fun p hp => Or.inl hp)))))))))))

end Tile
end Cert.KernelIdeal.Hand
end
-- ==== Proof.SharedK.lean ====
/-
  Shared vocabulary of the kernel's proof: the thread a grid point names, the blocks of the HBM arrays it
  works on, and what its task is handed and hands back. Vector subcore (c, s) owns the 512 batch columns
  starting at 1024 s + 512 c: four [64,128] column blocks of the two transposed embeddings, the 512 relation
  words, a read share of the flattened table, and the 512 scores it writes.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic
import proofs.«205645_g18588618457683_cont_8to1_1834_20_alg».proof.Proof.Gen.Kernel
import proofs.«205645_g18588618457683_cont_8to1_1834_20_alg».proof.Proof.Gen.Kernel.Skeleton

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

scoped notation "hT" => (Memref.whole Cert.Kernel.main_v0_scv : Memref Cert.Kernel.sig Kind.scVector Space.hbm Cert.Kernel.S64x16384 EltTy.f32)
scoped notation "iX" => (Memref.whole Cert.Kernel.main_arg1_scv : Memref Cert.Kernel.sig Kind.scVector Space.hbm Cert.Kernel.S16384 EltTy.i32)
scoped notation "tT" => (Memref.whole Cert.Kernel.main_v1_scv : Memref Cert.Kernel.sig Kind.scVector Space.hbm Cert.Kernel.S64x16384 EltTy.f32)
scoped notation "tB" => (Memref.whole Cert.Kernel.main_v2_scv : Memref Cert.Kernel.sig Kind.scVector Space.hbm Cert.Kernel.S64000 EltTy.f32)
scoped notation "oU" => (Memref.whole Cert.Kernel.main_v3_scv : Memref Cert.Kernel.sig Kind.scVector Space.hbm Cert.Kernel.S16384 EltTy.f32)
scoped notation "s0" => (Memref.whole Cert.Kernel.cc0_scratch0 : Memref Cert.Kernel.sig Kind.scVector Space.vmem Cert.Kernel.S64000 EltTy.f32)
scoped notation "s1" => (Memref.whole Cert.Kernel.cc0_scratch1 : Memref Cert.Kernel.sig Kind.scVector Space.vmem Cert.Kernel.S512 EltTy.i32)
scoped notation "s2" => (Memref.whole Cert.Kernel.cc0_scratch2 : Memref Cert.Kernel.sig Kind.scVector Space.vmem Cert.Kernel.S512 EltTy.f32)
scoped notation "s3" => (Memref.whole Cert.Kernel.cc0_scratch3 : Memref Cert.Kernel.sig Kind.scVector Space.vmem Cert.Kernel.S64x128 EltTy.f32)
scoped notation "s4" => (Memref.whole Cert.Kernel.cc0_scratch4 : Memref Cert.Kernel.sig Kind.scVector Space.vmem Cert.Kernel.S64x128 EltTy.f32)
scoped notation "s5" => (Memref.whole Cert.Kernel.cc0_scratch5 : Memref Cert.Kernel.sig Kind.scVector Space.vmem Cert.Kernel.S64x128 EltTy.f32)
scoped notation "s6" => (Memref.whole Cert.Kernel.cc0_scratch6 : Memref Cert.Kernel.sig Kind.scVector Space.vmem Cert.Kernel.S64x128 EltTy.f32)

/-- The grid point of SparseCore `c`, vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0
/-- The thread that runs grid point `L`'s task on device `d`. -/
abbrev thr (d : Dev nD) (L : grid0.Coords) : Thread nD τ := V d (cV L) (jV L)

/-- Column block `r` (of four) of grid point `L` in the transposed head and tail embeddings; its 512 relation words; its 512 scores. -/
abbrev hSl (L : grid0.Coords) (r : Fin 4) : Memref sig .scVector .hbm S64x128 .f32 := (hT).slice (Rect.unit (s := S64x16384) (k0_off2 L (BitVec.ofNat 32 (128 * r.val))) S64x128.size (k0_off2_inb L r)) (fun _ => rfl)
abbrev tSl (L : grid0.Coords) (r : Fin 4) : Memref sig .scVector .hbm S64x128 .f32 := (tT).slice (Rect.unit (s := S64x16384) (k0_off2 L (BitVec.ofNat 32 (128 * r.val))) S64x128.size (k0_off2_inb L r)) (fun _ => rfl)
abbrev iSl (L : grid0.Coords) : Memref sig .scVector .hbm S512 .i32 := (iX).slice (Rect.unit (s := S16384) (k0_off1 L) S512.size (k0_off1_inb L)) (fun _ => rfl)
abbrev oSl (L : grid0.Coords) : Memref sig .scVector .hbm S512 .f32 := (oU).slice (Rect.unit (s := S16384) (k0_off1 L) S512.size (k0_off1_inb L)) (fun _ => rfl)

/-- The five HBM arrays of the call, as locations of device `d`. -/
abbrev hLoc (d : Dev nD) : Loc nD τ sig := (SparseCore.T d).loc main_v0
abbrev tLoc (d : Dev nD) : Loc nD τ sig := (SparseCore.T d).loc main_v1
abbrev iLoc (d : Dev nD) : Loc nD τ sig := (SparseCore.T d).loc main_arg1
abbrev bLoc (d : Dev nD) : Loc nD τ sig := (SparseCore.T d).loc main_v2
abbrev oLoc (d : Dev nD) : Loc nD τ sig := (SparseCore.T d).loc main_v3

/-- The number of grid point `L` among the 32 vector subcores: the index of its read share of the table. -/
def tileIx (L : grid0.Coords) : Fin 32 := ⟨2 * (L 1).val + (L 0).val, by
  have h0 : (L 0).val < 2 := (L 0).isLt
  have h1 : (L 1).val < 16 := (L 1).isLt
  omega⟩

/-- What grid point `L`'s task is handed: its column blocks of the two embeddings (contents `H`, `T`), its relation
    words (`I`), a read share of the table (`B`), its block of the result (`O₀`). -/
def goRes (d : Dev nD) (L : grid0.Coords) (H : Buf (Elt F) (hLoc d)) (I : Buf (Elt F) (iLoc d)) (T : Buf (Elt F) (tLoc d))
    (B : Buf (Elt F) (bLoc d)) (O₀ : Buf (Elt F) (oLoc d)) : sProp 𝕄 :=
  iprop(((hSl L 0).view.loc (thr d L) ↦[(hSl L 0).view.set]{fullShare} H) ∗ ((hSl L 1).view.loc (thr d L) ↦[(hSl L 1).view.set]{fullShare} H)
    ∗ ((hSl L 2).view.loc (thr d L) ↦[(hSl L 2).view.set]{fullShare} H) ∗ ((hSl L 3).view.loc (thr d L) ↦[(hSl L 3).view.set]{fullShare} H)
    ∗ ((iSl L).view.loc (thr d L) ↦[(iSl L).view.set]{fullShare} I)
    ∗ ((tSl L 0).view.loc (thr d L) ↦[(tSl L 0).view.set]{fullShare} T) ∗ ((tSl L 1).view.loc (thr d L) ↦[(tSl L 1).view.set]{fullShare} T)
    ∗ ((tSl L 2).view.loc (thr d L) ↦[(tSl L 2).view.set]{fullShare} T) ∗ ((tSl L 3).view.loc (thr d L) ↦[(tSl L 3).view.set]{fullShare} T)
    ∗ ((tB).view.loc (thr d L) ↦{Transfers.shareTok fullShare 32 (tileIx L)} B)
    ∗ ((oSl L).view.loc (thr d L) ↦[(oSl L).view.set]{fullShare} O₀))

/-- What it hands back: the same, its block of the result at contents of which `TileV` holds. -/
def tdRes (TileV : (d : Dev nD) → grid0.Coords → Buf (Elt F) (hLoc d) → Buf (Elt F) (iLoc d) → Buf (Elt F) (tLoc d) → Buf (Elt F) (bLoc d) → Buf (Elt F) (oLoc d) → Prop)
    (d : Dev nD) (L : grid0.Coords) (H : Buf (Elt F) (hLoc d)) (I : Buf (Elt F) (iLoc d)) (T : Buf (Elt F) (tLoc d))
    (B : Buf (Elt F) (bLoc d)) : sProp 𝕄 :=
  iprop(((hSl L 0).view.loc (thr d L) ↦[(hSl L 0).view.set]{fullShare} H) ∗ ((hSl L 1).view.loc (thr d L) ↦[(hSl L 1).view.set]{fullShare} H)
    ∗ ((hSl L 2).view.loc (thr d L) ↦[(hSl L 2).view.set]{fullShare} H) ∗ ((hSl L 3).view.loc (thr d L) ↦[(hSl L 3).view.set]{fullShare} H)
    ∗ ((iSl L).view.loc (thr d L) ↦[(iSl L).view.set]{fullShare} I)
    ∗ ((tSl L 0).view.loc (thr d L) ↦[(tSl L 0).view.set]{fullShare} T) ∗ ((tSl L 1).view.loc (thr d L) ↦[(tSl L 1).view.set]{fullShare} T)
    ∗ ((tSl L 2).view.loc (thr d L) ↦[(tSl L 2).view.set]{fullShare} T) ∗ ((tSl L 3).view.loc (thr d L) ↦[(tSl L 3).view.set]{fullShare} T)
    ∗ ((tB).view.loc (thr d L) ↦{Transfers.shareTok fullShare 32 (tileIx L)} B)
    ∗ ∃ f : Buf (Elt F) (oLoc d), ⌜TileV d L H I T B f⌝ ∗ ((oSl L).view.loc (thr d L) ↦[(oSl L).view.set]{fullShare} f))

/-- The statement of one task's run, as the launch consumes it: from what the task is handed, its scoped buffers and
    semaphores and what it owes, to what it hands back. -/
def TileRun [FloatOps F] (TileV : (d : Dev nD) → grid0.Coords → Buf (Elt F) (hLoc d) → Buf (Elt F) (iLoc d) → Buf (Elt F) (tLoc d) → Buf (Elt F) (bLoc d) → Buf (Elt F) (oLoc d) → Prop)
    (Hc : (d : Dev nD) → Buf (Elt F) (hLoc d)) (Ic : (d : Dev nD) → Buf (Elt F) (iLoc d)) (Tc : (d : Dev nD) → Buf (Elt F) (tLoc d))
    (Bc : (d : Dev nD) → Buf (Elt F) (bLoc d)) (Oc : (d : Dev nD) → Buf (Elt F) (oLoc d)) : Prop :=
  ∀ (d : Dev nD) (L : grid0.Coords) (O : CellTallies nD τ sig (HIx 1)) (W : Waits sig (HIx 1)), (∀ g, O g none = 0) →
    iprop(levAts (K (F := F)).L (K (F := F)).lev ∗ emp ∗ goRes d L (Hc d) (Ic d) (Tc d) (Bc d) (Oc d)
        ∗ scopedBufs (thr d L) ∗ scopedSems0 (thr d L) ∗ owes (thr d L) O W)
      ⊢ wp frame (wpE (defs₀ (F := F)) 𝒱₀ (thr d L) none) Set.univ
          (cc0__sc_body L hT (Memref.isWhole_whole _) iX (Memref.isWhole_whole _) tT (Memref.isWhole_whole _) tB (Memref.isWhole_whole _) oU (Memref.isWhole_whole _)
            s0 (Memref.isWhole_whole _) s1 (Memref.isWhole_whole _) s2 (Memref.isWhole_whole _) s3 (Memref.isWhole_whole _) s4 (Memref.isWhole_whole _)
            s5 (Memref.isWhole_whole _) s6 (Memref.isWhole_whole _) cc0_scratch7 cc0_scratch8 cc0_scratch9 cc0_scoped0 cc0_scoped1)
          fun _ => iprop(tdRes TileV d L (Hc d) (Ic d) (Tc d) (Bc d) ∗ scopedBufs (thr d L) ∗ scopedSems0 (thr d L)
            ∗ ∃ W', ⌜∀ p ∈ W', p ∈ W ∨ p.2 = none⌝ ∗ owes (thr d L) O W')

end Cert.Kernel.Hand

end
-- ==== Proof.LaunchPayK.lean ====
/-
  The launch of the vector-subcore call: the call's payloads (each task is handed its column blocks, its
  relation words, a read share of the table and its block of the result, and hands them back with the
  block written), the tasks' obligation from one task's run, the launch element of the ghost state, and
  @main on the TensorCore: two transposes and a reshape, the call, a reshape.
-/
import proofs.«205645_g18588618457683_cont_8to1_1834_20_alg».proof.Proof.SharedK

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type}

local notation "𝕄" => MT nD τ sig (HIx 1) (Elt F) ℕ UU ℕ

theorem nCore_zero : (K (F := F)).nCore 0 = grid0.bound 0 := rfl
theorem nSub_zero : (K (F := F)).nSub 0 = grid0.bound 1 := rfl

theorem kFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The call's payloads -/

section Payloads

variable (TileV : (d : Dev nD) → grid0.Coords → Buf (Elt F) (hLoc d) → Buf (Elt F) (iLoc d) → Buf (Elt F) (tLoc d) → Buf (Elt F) (bLoc d) → Buf (Elt F) (oLoc d) → Prop)
  (Hc : (d : Dev nD) → Buf (Elt F) (hLoc d)) (Ic : (d : Dev nD) → Buf (Elt F) (iLoc d)) (Tc : (d : Dev nD) → Buf (Elt F) (tLoc d))
  (Bc : (d : Dev nD) → Buf (Elt F) (bLoc d)) (Oc : (d : Dev nD) → Buf (Elt F) (oLoc d))

/-- What task (c, i) of device d is handed, and what it hands back. -/
abbrev goAt (d : Dev nD) (c : Fin (grid0.bound 0)) (i : Fin (grid0.bound 1)) : sProp 𝕄 :=
  goRes d (coordsV c i) (Hc d) (Ic d) (Tc d) (Bc d) (Oc d)
abbrev tdAt (d : Dev nD) (c : Fin (grid0.bound 0)) (i : Fin (grid0.bound 1)) : sProp 𝕄 :=
  tdRes TileV d (coordsV c i) (Hc d) (Ic d) (Tc d) (Bc d)

instance goRes_storable (d : Dev nD) (L : grid0.Coords) (H : Buf (Elt F) (hLoc d)) (I : Buf (Elt F) (iLoc d)) (T' : Buf (Elt F) (tLoc d))
    (B : Buf (Elt F) (bLoc d)) (O₀ : Buf (Elt F) (oLoc d)) : BI.Storable (upEmb : UEmb _ 𝕄) (goRes d L H I T' B O₀) := by
  unfold goRes; infer_instance
instance tdRes_storable (d : Dev nD) (L : grid0.Coords) (H : Buf (Elt F) (hLoc d)) (I : Buf (Elt F) (iLoc d)) (T' : Buf (Elt F) (tLoc d))
    (B : Buf (Elt F) (bLoc d)) : BI.Storable (upEmb : UEmb _ 𝕄) (tdRes TileV d L H I T' B) := by
  unfold tdRes; infer_instance

attribute [local irreducible] goRes tdRes

/-- The one call: each SparseCore takes its sixteen tasks' shares and brings them back, each task its own. -/
def P : (K (F := F)).Pay (nD := nD) (Val := Elt F) (Name := ℕ) (U := UU) where
  st := fun q d c => match q with
    | 0 => bigSep Finset.univ fun i : Fin ((K (F := F)).nSub 0) => goAt Hc Ic Tc Bc Oc d (Fin.cast nCore_zero c) (Fin.cast nSub_zero i)
  dn := fun q d c => match q with
    | 0 => bigSep Finset.univ fun i : Fin ((K (F := F)).nSub 0) => tdAt TileV Hc Ic Tc Bc d (Fin.cast nCore_zero c) (Fin.cast nSub_zero i)
  go := fun q d c i => match q with
    | 0 => goAt Hc Ic Tc Bc Oc d (Fin.cast nCore_zero c) (Fin.cast nSub_zero i)
  td := fun q d c i => match q with
    | 0 => tdAt TileV Hc Ic Tc Bc d (Fin.cast nCore_zero c) (Fin.cast nSub_zero i)
  x := fun _ _ => iprop(emp)

instance P_storable : (P (F := F) TileV Hc Ic Tc Bc Oc).IsStorable where
  st q d c := match q with
    | 0 => BI.Storable.bigSep (upEmb : UEmb _ 𝕄) Finset.univ
        (fun i : Fin ((K (F := F)).nSub 0) => goAt Hc Ic Tc Bc Oc d (Fin.cast nCore_zero c) (Fin.cast nSub_zero i))
  dn q d c := match q with
    | 0 => BI.Storable.bigSep (upEmb : UEmb _ 𝕄) Finset.univ
        (fun i : Fin ((K (F := F)).nSub 0) => tdAt TileV Hc Ic Tc Bc d (Fin.cast nCore_zero c) (Fin.cast nSub_zero i))
  go q d c i := match q with
    | 0 => (inferInstance : BI.Storable (upEmb : UEmb _ 𝕄) (goAt Hc Ic Tc Bc Oc d (Fin.cast nCore_zero c) (Fin.cast nSub_zero i)))
  td q d c i := match q with
    | 0 => (inferInstance : BI.Storable (upEmb : UEmb _ 𝕄) (tdAt TileV Hc Ic Tc Bc d (Fin.cast nCore_zero c) (Fin.cast nSub_zero i)))

theorem st_eq (d : Dev nD) (c : Fin ((K (F := F)).nCore 0)) :
    (P TileV Hc Ic Tc Bc Oc).st 0 d c
      = bigSep Finset.univ fun i : Fin ((K (F := F)).nSub 0) => goAt Hc Ic Tc Bc Oc d (Fin.cast nCore_zero c) (Fin.cast nSub_zero i) := rfl
theorem dn_eq (d : Dev nD) (c : Fin ((K (F := F)).nCore 0)) :
    (P TileV Hc Ic Tc Bc Oc).dn 0 d c
      = bigSep Finset.univ fun i : Fin ((K (F := F)).nSub 0) => tdAt TileV Hc Ic Tc Bc d (Fin.cast nCore_zero c) (Fin.cast nSub_zero i) := rfl
theorem go_eq (d : Dev nD) (c : Fin ((K (F := F)).nCore 0)) (i : Fin ((K (F := F)).nSub 0)) :
    (P TileV Hc Ic Tc Bc Oc).go 0 d c i = goAt Hc Ic Tc Bc Oc d (Fin.cast nCore_zero c) (Fin.cast nSub_zero i) := rfl
theorem td_eq (d : Dev nD) (c : Fin ((K (F := F)).nCore 0)) (i : Fin ((K (F := F)).nSub 0)) :
    (P TileV Hc Ic Tc Bc Oc).td 0 d c i = tdAt TileV Hc Ic Tc Bc d (Fin.cast nCore_zero c) (Fin.cast nSub_zero i) := rfl

/-! ## The tasks' obligation, from one task's run -/

variable [FloatOps F]

theorem defs₀_vector (c : Fin τ.nSC) (s : Fin τ.nSub) :
    defs₀ (F := F) (.scVector c s) 0 ()
      = SparseCore.onTile hcore0 hsub0 (fun c s => cc0__sc_body (coordsV c s)
          hT (Memref.isWhole_whole _) iX (Memref.isWhole_whole _) tT (Memref.isWhole_whole _) tB (Memref.isWhole_whole _) oU (Memref.isWhole_whole _)
          s0 (Memref.isWhole_whole _) s1 (Memref.isWhole_whole _) s2 (Memref.isWhole_whole _) s3 (Memref.isWhole_whole _) s4 (Memref.isWhole_whole _)
          s5 (Memref.isWhole_whole _) s6 (Memref.isWhole_whole _) cc0_scratch7 cc0_scratch8 cc0_scratch9 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hbody : TileRun TileV Hc Ic Tc Bc Oc) :
    (K (F := F)).TileObl (D (F := F)) 𝒱 (P TileV Hc Ic Tc Bc Oc) v₀ 0 := by
  intro d c i O W hO _ _
  simp only [show (P TileV Hc Ic Tc Bc Oc).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hbody d (coordsV ⟨_, hc.1⟩ ⟨_, hc.2⟩) O W hO).trans (wp_mono frame _ _ fun _ => obl_post)

omit [FloatOps F] in
theorem vecSplit : (K (F := F)).VecSplit' (P TileV Hc Ic Tc Bc Oc) 0 := by
  intro d c
  rw [st_eq, dn_eq]
  simp only [go_eq, td_eq]
  iintro H; imodintro
  isplitl [H]; · iexact H
  iintro H; iexact H

/-! ## The launch element: the handshakes' rounds beside the counters; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

omit [FloatOps F] in
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P TileV Hc Ic Tc Bc Oc).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Payloads

end Cert.Kernel.Hand

end
-- ==== Proof.PartsK.lean ====
/-
  How the arrays of the kernel in HBM split among the 32 vector subcores. Subcore i of SparseCore c
  (grid point (c, i)) owns the 512 batch columns from 1024 i + 512 c = 512 (2 i + c) and handles
  them in four chunks of 128. So the 32 blocks of 512 columns tile the 16384 columns of the relation
  words and of the result, and the 128 chunks of 128 columns, all 64 rows, tile the two transposed
  [64, 16384] inputs. The flattened table is read whole by every subcore: each gets one read token.
-/
import proofs.«205645_g18588618457683_cont_8to1_1834_20_alg».proof.Proof.SharedK

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

/-! ## The subcores' blocks as sets of indices -/

/-- The 512 columns of a subcore, as a rectangle of the [16384] arrays. -/
abbrev vecRect (L : grid0.Coords) : Rect S16384 := Rect.unit (s := S16384) (k0_off1 L) S512.size (k0_off1_inb L)
/-- Chunk r of a subcore's columns, all 64 rows, as a rectangle of the [64, 16384] arrays. -/
abbrev colRect (L : grid0.Coords) (r : Fin 4) : Rect S64x16384 :=
  Rect.unit (s := S64x16384) (k0_off2 L (BitVec.ofNat 32 (128 * r.val))) S64x128.size (k0_off2_inb L r)

def vecSet (p : Fin 2 × Fin 16) : Finset S16384.Idx := (vecRect (coordsV p.1 p.2)).set
def colSet (p : Fin 2 × Fin 16 × Fin 4) : Finset S64x16384.Idx := (colRect (coordsV p.1 p.2.1) p.2.2).set

omit [FloatOps F] in
theorem mem_vecSet (p : Fin 2 × Fin 16) (j : S16384.Idx) :
    j ∈ vecSet p ↔ 1024 * p.2.val + 512 * p.1.val ≤ (j 0).val ∧ (j 0).val < 1024 * p.2.val + 512 * p.1.val + 512 := by
  unfold vecSet
  rw [Rect.mem_set_unit, k0_off1_eq]
  constructor
  · intro h; exact h 0
  · intro h a
    match a with
    | ⟨0, _⟩ => exact h

omit [FloatOps F] in
theorem mem_colSet (p : Fin 2 × Fin 16 × Fin 4) (j : S64x16384.Idx) :
    j ∈ colSet p ↔ 1024 * p.2.1.val + 512 * p.1.val + 128 * p.2.2.val ≤ (j 1).val
      ∧ (j 1).val < 1024 * p.2.1.val + 512 * p.1.val + 128 * p.2.2.val + 128 := by
  unfold colSet
  rw [Rect.mem_set_unit, k0_off2_eq]
  constructor
  · intro h; exact h 1
  · intro h a
    match a with
    | ⟨0, _⟩ => exact ⟨Nat.zero_le _, by have h0 : (j 0).val < 64 := (j 0).isLt; show (j 0).val < 0 + 64; omega⟩
    | ⟨1, _⟩ => exact h

omit [FloatOps F] in
theorem vec_disjoint : ∀ p ∈ (Finset.univ : Finset (Fin 2 × Fin 16)), ∀ p' ∈ (Finset.univ : Finset (Fin 2 × Fin 16)), p ≠ p' →
    Disjoint (vecSet p) (vecSet p') := by
  intro p _ p' _ hne
  rw [Finset.disjoint_left]
  intro j hj hj'
  rw [mem_vecSet] at hj hj'
  apply hne
  have h1 := p.1.isLt; have h2 := p'.1.isLt
  exact Prod.ext (Fin.ext (by omega)) (Fin.ext (by omega))

omit [FloatOps F] in
theorem vec_cover : (Finset.univ : Finset (Fin 2 × Fin 16)).biUnion vecSet = Finset.univ := by
  ext j
  simp only [Finset.mem_biUnion, Finset.mem_univ, true_and, iff_true]
  have hj : (j 0).val < 16384 := (j 0).isLt
  refine ⟨(⟨(j 0).val / 512 % 2, by omega⟩, ⟨(j 0).val / 1024, by omega⟩), (mem_vecSet _ _).2 ?_⟩
  constructor <;> dsimp only <;> omega

omit [FloatOps F] in
theorem col_disjoint : ∀ p ∈ (Finset.univ : Finset (Fin 2 × Fin 16 × Fin 4)), ∀ p' ∈ (Finset.univ : Finset (Fin 2 × Fin 16 × Fin 4)), p ≠ p' →
    Disjoint (colSet p) (colSet p') := by
  intro p _ p' _ hne
  rw [Finset.disjoint_left]
  intro j hj hj'
  rw [mem_colSet] at hj hj'
  apply hne
  have h1 := p.1.isLt; have h2 := p'.1.isLt
  have h3 := p.2.2.isLt; have h4 := p'.2.2.isLt
  exact Prod.ext (Fin.ext (by omega)) (Prod.ext (Fin.ext (by omega)) (Fin.ext (by omega)))

omit [FloatOps F] in
theorem col_cover : (Finset.univ : Finset (Fin 2 × Fin 16 × Fin 4)).biUnion colSet = Finset.univ := by
  ext j
  simp only [Finset.mem_biUnion, Finset.mem_univ, true_and, iff_true]
  have hj : (j 1).val < 16384 := (j 1).isLt
  refine ⟨(⟨(j 1).val / 512 % 2, by omega⟩, ⟨(j 1).val / 1024, by omega⟩, ⟨(j 1).val / 128 % 4, by omega⟩), (mem_colSet _ _).2 ?_⟩
  constructor <;> dsimp only <;> omega

omit [FloatOps F] in
theorem set_iSl (L : grid0.Coords) : (iSl L).view.set = (vecRect L).set := View.set_slice_whole _ _
omit [FloatOps F] in
theorem set_oSl (L : grid0.Coords) : (oSl L).view.set = (vecRect L).set := View.set_slice_whole _ _
omit [FloatOps F] in
theorem set_hSl (L : grid0.Coords) (r : Fin 4) : (hSl L r).view.set = (colRect L r).set := View.set_slice_whole _ _
omit [FloatOps F] in
theorem set_tSl (L : grid0.Coords) (r : Fin 4) : (tSl L r).view.set = (colRect L r).set := View.set_slice_whole _ _

/-! ## The arrays split among the subcores -/

omit [FloatOps F] in
theorem pts_iSl (d : Dev nD) (c : Fin 2) (i : Fin 16) (f : Buf (Elt F) (iLoc d)) :
    ((iSl (coordsV c i)).view.loc (thr d (coordsV c i)) ↦[(iSl (coordsV c i)).view.set]{fullShare} f : sProp 𝕄)
      = iLoc d ↦[vecSet (c, i)]{fullShare} f := by
  rw [set_iSl]; rfl
omit [FloatOps F] in
theorem pts_oSl (d : Dev nD) (c : Fin 2) (i : Fin 16) (f : Buf (Elt F) (oLoc d)) :
    ((oSl (coordsV c i)).view.loc (thr d (coordsV c i)) ↦[(oSl (coordsV c i)).view.set]{fullShare} f : sProp 𝕄)
      = oLoc d ↦[vecSet (c, i)]{fullShare} f := by
  rw [set_oSl]; rfl
omit [FloatOps F] in
theorem pts_hSl (d : Dev nD) (c : Fin 2) (i : Fin 16) (r : Fin 4) (f : Buf (Elt F) (hLoc d)) :
    ((hSl (coordsV c i) r).view.loc (thr d (coordsV c i)) ↦[(hSl (coordsV c i) r).view.set]{fullShare} f : sProp 𝕄)
      = hLoc d ↦[colSet (c, i, r)]{fullShare} f := by
  rw [set_hSl]; rfl
omit [FloatOps F] in
theorem pts_tSl (d : Dev nD) (c : Fin 2) (i : Fin 16) (r : Fin 4) (f : Buf (Elt F) (tLoc d)) :
    ((tSl (coordsV c i) r).view.loc (thr d (coordsV c i)) ↦[(tSl (coordsV c i) r).view.set]{fullShare} f : sProp 𝕄)
      = tLoc d ↦[colSet (c, i, r)]{fullShare} f := by
  rw [set_tSl]; rfl

omit [FloatOps F] in
theorem i_split (d : Dev nD) (f : Buf (Elt F) (iLoc d)) :
    (iLoc d ↦{fullShare} f : sProp 𝕄) = bigSep Finset.univ fun c : Fin 2 => bigSep Finset.univ fun i : Fin 16 =>
      (iSl (coordsV c i)).view.loc (thr d (coordsV c i)) ↦[(iSl (coordsV c i)).view.set]{fullShare} f := by
  have e : (bigSep Finset.univ fun c : Fin 2 => bigSep Finset.univ fun i : Fin 16 =>
      ((iSl (coordsV c i)).view.loc (thr d (coordsV c i)) ↦[(iSl (coordsV c i)).view.set]{fullShare} f : sProp 𝕄))
      = bigSep Finset.univ fun p : Fin 2 × Fin 16 => (iLoc d ↦[vecSet p]{fullShare} f : sProp 𝕄) := by
    rw [bigSep_univ_prod]
    exact bigSep_congr fun c _ => bigSep_congr fun i _ => pts_iSl d c i f
  rw [e, ← pointsTo_biUnion Finset.univ (ℓ := iLoc d) vecSet vec_disjoint, vec_cover]

omit [FloatOps F] in
theorem o_split (d : Dev nD) (f : Buf (Elt F) (oLoc d)) :
    (oLoc d ↦{fullShare} f : sProp 𝕄) = bigSep Finset.univ fun c : Fin 2 => bigSep Finset.univ fun i : Fin 16 =>
      (oSl (coordsV c i)).view.loc (thr d (coordsV c i)) ↦[(oSl (coordsV c i)).view.set]{fullShare} f := by
  have e : (bigSep Finset.univ fun c : Fin 2 => bigSep Finset.univ fun i : Fin 16 =>
      ((oSl (coordsV c i)).view.loc (thr d (coordsV c i)) ↦[(oSl (coordsV c i)).view.set]{fullShare} f : sProp 𝕄))
      = bigSep Finset.univ fun p : Fin 2 × Fin 16 => (oLoc d ↦[vecSet p]{fullShare} f : sProp 𝕄) := by
    rw [bigSep_univ_prod]
    exact bigSep_congr fun c _ => bigSep_congr fun i _ => pts_oSl d c i f
  rw [e, ← pointsTo_biUnion Finset.univ (ℓ := oLoc d) vecSet vec_disjoint, vec_cover]

omit [FloatOps F] in
theorem h_split (d : Dev nD) (f : Buf (Elt F) (hLoc d)) :
    (hLoc d ↦{fullShare} f : sProp 𝕄) = bigSep Finset.univ fun c : Fin 2 => bigSep Finset.univ fun i : Fin 16 =>
      bigSep Finset.univ fun r : Fin 4 =>
        (hSl (coordsV c i) r).view.loc (thr d (coordsV c i)) ↦[(hSl (coordsV c i) r).view.set]{fullShare} f := by
  have e : (bigSep Finset.univ fun c : Fin 2 => bigSep Finset.univ fun i : Fin 16 => bigSep Finset.univ fun r : Fin 4 =>
      ((hSl (coordsV c i) r).view.loc (thr d (coordsV c i)) ↦[(hSl (coordsV c i) r).view.set]{fullShare} f : sProp 𝕄))
      = bigSep Finset.univ fun p : Fin 2 × Fin 16 × Fin 4 => (hLoc d ↦[colSet p]{fullShare} f : sProp 𝕄) := by
    rw [bigSep_univ_prod]
    refine bigSep_congr fun c _ => ?_
    rw [bigSep_univ_prod]
    exact bigSep_congr fun i _ => bigSep_congr fun r _ => pts_hSl d c i r f
  rw [e, ← pointsTo_biUnion Finset.univ (ℓ := hLoc d) colSet col_disjoint, col_cover]

omit [FloatOps F] in
theorem t_split (d : Dev nD) (f : Buf (Elt F) (tLoc d)) :
    (tLoc d ↦{fullShare} f : sProp 𝕄) = bigSep Finset.univ fun c : Fin 2 => bigSep Finset.univ fun i : Fin 16 =>
      bigSep Finset.univ fun r : Fin 4 =>
        (tSl (coordsV c i) r).view.loc (thr d (coordsV c i)) ↦[(tSl (coordsV c i) r).view.set]{fullShare} f := by
  have e : (bigSep Finset.univ fun c : Fin 2 => bigSep Finset.univ fun i : Fin 16 => bigSep Finset.univ fun r : Fin 4 =>
      ((tSl (coordsV c i) r).view.loc (thr d (coordsV c i)) ↦[(tSl (coordsV c i) r).view.set]{fullShare} f : sProp 𝕄))
      = bigSep Finset.univ fun p : Fin 2 × Fin 16 × Fin 4 => (tLoc d ↦[colSet p]{fullShare} f : sProp 𝕄) := by
    rw [bigSep_univ_prod]
    refine bigSep_congr fun c _ => ?_
    rw [bigSep_univ_prod]
    exact bigSep_congr fun i _ => bigSep_congr fun r _ => pts_tSl d c i r f
  rw [e, ← pointsTo_biUnion Finset.univ (ℓ := tLoc d) colSet col_disjoint, col_cover]

/-- The subcores' blocks of the result, each at whatever it holds, are the whole result at some contents. -/
theorem o_join (d : Dev nD) :
    (bigSep Finset.univ fun c : Fin 2 => bigSep Finset.univ fun i : Fin 16 =>
      iprop(∃ f, (oSl (coordsV c i)).view.loc (thr d (coordsV c i)) ↦[(oSl (coordsV c i)).view.set]{fullShare} f))
      ⊢ (iprop(∃ f, oLoc d ↦{fullShare} f) : sProp 𝕄) := by
  have e : (bigSep Finset.univ fun c : Fin 2 => bigSep Finset.univ fun i : Fin 16 =>
      (iprop(∃ f, (oSl (coordsV c i)).view.loc (thr d (coordsV c i)) ↦[(oSl (coordsV c i)).view.set]{fullShare} f) : sProp 𝕄))
      = bigSep Finset.univ fun p : Fin 2 × Fin 16 => (iprop(∃ f : Buf (Elt F) (oLoc d), oLoc d ↦[vecSet p]{fullShare} f) : sProp 𝕄) := by
    rw [bigSep_univ_prod]
    refine bigSep_congr fun c _ => bigSep_congr fun i _ => ?_
    exact congrArg (fun P : Buf (Elt F) (oLoc d) → sProp 𝕄 => (iprop(∃ f, P f) : sProp 𝕄)) (funext fun f => pts_oSl d c i f)
  rw [e]
  refine (bigSep_exists_pi Finset.univ (fun p (f : Buf (Elt F) (oLoc d)) => (oLoc d ↦[vecSet p]{fullShare} f : sProp 𝕄))).trans ?_
  iintro ⟨%fs, H⟩
  ihave H' := (pointsTo_biUnion_join Finset.univ vecSet fs (fs (0, 0)) vec_disjoint) $$ H
  icases H' with ⟨%g, -, Hg⟩
  rw [vec_cover]
  iexists g; iexact Hg

/-! ## The table, read whole by all 32 subcores: one read token each -/

omit [FloatOps F] in
theorem b_split (d : Dev nD) (f : Buf (Elt F) (bLoc d)) :
    (bLoc d ↦{fullShare} f : sProp 𝕄) ⊣⊢ iprop((bLoc d ↦{Transfers.shareDrop fullShare 32} f)
      ∗ bigSep Finset.univ fun w : Fin 32 => bLoc d ↦{Transfers.shareTok fullShare 32 w} f) :=
  Transfers.pointsTo_toks fullShare 32

/-- Numbering the 32 subcores: grid point (c, i) is number 2 i + c. -/
def tileEquiv : Fin (grid0.bound 0) × Fin (grid0.bound 1) ≃ Fin 32 where
  toFun p := tileIx (coordsV p.1 p.2)
  invFun w := (⟨w.val % 2, Nat.mod_lt _ (by decide)⟩, ⟨w.val / 2, by have := w.isLt; show w.val / 2 < 16; omega⟩)
  left_inv p := by
    have h1 : p.1.val < 2 := p.1.isLt
    exact Prod.ext (Fin.ext (by show (2 * p.2.val + p.1.val) % 2 = p.1.val; omega))
      (Fin.ext (by show (2 * p.2.val + p.1.val) / 2 = p.2.val; omega))
  right_inv w := Fin.ext (by show 2 * (w.val / 2) + w.val % 2 = w.val; omega)

omit [FloatOps F] in
/-- A product over the 32 subcores by number is the product over the grid points. -/
theorem bigSep_tileIx (Φ : Fin 32 → sProp 𝕄) :
    bigSep Finset.univ (fun w : Fin 32 => Φ w)
      = bigSep Finset.univ fun c : Fin (grid0.bound 0) => bigSep Finset.univ fun i : Fin (grid0.bound 1) => Φ (tileIx (coordsV c i)) := by
  rw [← bigSep_univ_prod (fun p : Fin (grid0.bound 0) × Fin (grid0.bound 1) => Φ (tileIx (coordsV p.1 p.2))),
    ← Finset.map_univ_equiv tileEquiv, bigSep_map]
  rfl

omit [FloatOps F] in
/-- The same with the grid's bounds written as the numbers they are. -/
theorem bigSep_tileIx' (Φ : Fin 32 → sProp 𝕄) :
    bigSep Finset.univ (fun w : Fin 32 => Φ w)
      = bigSep Finset.univ fun c : Fin 2 => bigSep Finset.univ fun i : Fin 16 => Φ (tileIx (coordsV c i)) :=
  bigSep_tileIx Φ

end Cert.Kernel.Hand

end
-- ==== Proof.LaunchK.lean ====
/-
  @main on the TensorCore around the vector-subcore call: two transposes and a reshape make the call's
  operands, the call hands every task its blocks and takes them back with the result's blocks written,
  a reshape makes the program's result. The launch theorem then gives the program's run.
-/
import proofs.«205645_g18588618457683_cont_8to1_1834_20_alg».proof.Proof.LaunchPayK
import proofs.«205645_g18588618457683_cont_8to1_1834_20_alg».proof.Proof.PartsK

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type}

local notation "𝕄" => MT nD τ sig (HIx 1) (Elt F) ℕ UU ℕ

/-! ## A task's share, grouped by array -/

theorem bigSep_univ_four (Φ : Fin 4 → sProp 𝕄) : bigSep Finset.univ Φ = iprop(Φ 0 ∗ Φ 1 ∗ Φ 2 ∗ Φ 3) := by
  rw [show (Finset.univ : Finset (Fin 4)) = {0, 1, 2, 3} from by decide, SparseCore.bigSep_insert' (by decide),
    SparseCore.bigSep_insert' (by decide), SparseCore.bigSep_insert' (by decide), bigSep_singleton]

theorem goRes_eq (d : Dev nD) (L : grid0.Coords) (H : Buf (Elt F) (hLoc d)) (I : Buf (Elt F) (iLoc d)) (T' : Buf (Elt F) (tLoc d))
    (B : Buf (Elt F) (bLoc d)) (O₀ : Buf (Elt F) (oLoc d)) :
    (goRes d L H I T' B O₀ : sProp 𝕄)
      = iprop((bigSep Finset.univ fun r : Fin 4 => (hSl L r).view.loc (thr d L) ↦[(hSl L r).view.set]{fullShare} H)
        ∗ ((iSl L).view.loc (thr d L) ↦[(iSl L).view.set]{fullShare} I)
        ∗ (bigSep Finset.univ fun r : Fin 4 => (tSl L r).view.loc (thr d L) ↦[(tSl L r).view.set]{fullShare} T')
        ∗ ((tB).view.loc (thr d L) ↦{Transfers.shareTok fullShare 32 (tileIx L)} B)
        ∗ ((oSl L).view.loc (thr d L) ↦[(oSl L).view.set]{fullShare} O₀)) := by
  rw [bigSep_univ_four, bigSep_univ_four]
  unfold goRes
  refine BI.equiv_iff.mp ⟨show (_ : sProp 𝕄) ⊢ _ from ?_, show (_ : sProp 𝕄) ⊢ _ from ?_⟩
  · iintro ⟨H0, H1, H2, H3, Hi, T0, T1, T2, T3, Hb, Ho⟩
    isplitl [H0 H1 H2 H3]
    · isplitl [H0]; · iexact H0
      isplitl [H1]; · iexact H1
      isplitl [H2]; · iexact H2
      iexact H3
    isplitl [Hi]; · iexact Hi
    isplitl [T0 T1 T2 T3]
    · isplitl [T0]; · iexact T0
      isplitl [T1]; · iexact T1
      isplitl [T2]; · iexact T2
      iexact T3
    isplitl [Hb]; · iexact Hb
    iexact Ho
  · iintro ⟨⟨H0, H1, H2, H3⟩, Hi, ⟨T0, T1, T2, T3⟩, Hb, Ho⟩
    isplitl [H0]; · iexact H0
    isplitl [H1]; · iexact H1
    isplitl [H2]; · iexact H2
    isplitl [H3]; · iexact H3
    isplitl [Hi]; · iexact Hi
    isplitl [T0]; · iexact T0
    isplitl [T1]; · iexact T1
    isplitl [T2]; · iexact T2
    isplitl [T3]; · iexact T3
    isplitl [Hb]; · iexact Hb
    iexact Ho

theorem tdRes_eq (TileV : (d : Dev nD) → grid0.Coords → Buf (Elt F) (hLoc d) → Buf (Elt F) (iLoc d) → Buf (Elt F) (tLoc d) → Buf (Elt F) (bLoc d) → Buf (Elt F) (oLoc d) → Prop)
    (d : Dev nD) (L : grid0.Coords) (H : Buf (Elt F) (hLoc d)) (I : Buf (Elt F) (iLoc d)) (T' : Buf (Elt F) (tLoc d))
    (B : Buf (Elt F) (bLoc d)) :
    (tdRes TileV d L H I T' B : sProp 𝕄)
      = iprop((bigSep Finset.univ fun r : Fin 4 => (hSl L r).view.loc (thr d L) ↦[(hSl L r).view.set]{fullShare} H)
        ∗ ((iSl L).view.loc (thr d L) ↦[(iSl L).view.set]{fullShare} I)
        ∗ (bigSep Finset.univ fun r : Fin 4 => (tSl L r).view.loc (thr d L) ↦[(tSl L r).view.set]{fullShare} T')
        ∗ ((tB).view.loc (thr d L) ↦{Transfers.shareTok fullShare 32 (tileIx L)} B)
        ∗ (∃ f : Buf (Elt F) (oLoc d), ⌜TileV d L H I T' B f⌝ ∗ ((oSl L).view.loc (thr d L) ↦[(oSl L).view.set]{fullShare} f))) := by
  rw [bigSep_univ_four, bigSep_univ_four]
  unfold tdRes
  refine BI.equiv_iff.mp ⟨show (_ : sProp 𝕄) ⊢ _ from ?_, show (_ : sProp 𝕄) ⊢ _ from ?_⟩
  · iintro ⟨H0, H1, H2, H3, Hi, T0, T1, T2, T3, Hb, Ho⟩
    isplitl [H0 H1 H2 H3]
    · isplitl [H0]; · iexact H0
      isplitl [H1]; · iexact H1
      isplitl [H2]; · iexact H2
      iexact H3
    isplitl [Hi]; · iexact Hi
    isplitl [T0 T1 T2 T3]
    · isplitl [T0]; · iexact T0
      isplitl [T1]; · iexact T1
      isplitl [T2]; · iexact T2
      iexact T3
    isplitl [Hb]; · iexact Hb
    iexact Ho
  · iintro ⟨⟨H0, H1, H2, H3⟩, Hi, ⟨T0, T1, T2, T3⟩, Hb, Ho⟩
    isplitl [H0]; · iexact H0
    isplitl [H1]; · iexact H1
    isplitl [H2]; · iexact H2
    isplitl [H3]; · iexact H3
    isplitl [Hi]; · iexact Hi
    isplitl [T0]; · iexact T0
    isplitl [T1]; · iexact T1
    isplitl [T2]; · iexact T2
    isplitl [T3]; · iexact T3
    isplitl [Hb]; · iexact Hb
    iexact Ho

attribute [local irreducible] goRes tdRes

/-! ## The call's operands split among the tasks, and its results joined -/

section Split

variable (TileV : (d : Dev nD) → grid0.Coords → Buf (Elt F) (hLoc d) → Buf (Elt F) (iLoc d) → Buf (Elt F) (tLoc d) → Buf (Elt F) (bLoc d) → Buf (Elt F) (oLoc d) → Prop)
  (Hc : (d : Dev nD) → Buf (Elt F) (hLoc d)) (Ic : (d : Dev nD) → Buf (Elt F) (iLoc d)) (Tc : (d : Dev nD) → Buf (Elt F) (tLoc d))
  (Bc : (d : Dev nD) → Buf (Elt F) (bLoc d)) (Oc : (d : Dev nD) → Buf (Elt F) (oLoc d))

variable [FloatOps F]

/-- What the tasks leave of the result: contents g that agree, on each task's block, with contents of which the
    task's value fact holds. -/
def Agree (d : Dev nD) (g : Buf (Elt F) (oLoc d)) : Prop :=
  ∀ (c : Fin (grid0.bound 0)) (i : Fin (grid0.bound 1)), ∃ f : Buf (Elt F) (oLoc d),
    TileV d (coordsV c i) (Hc d) (Ic d) (Tc d) (Bc d) f ∧ ∀ j ∈ (oSl (coordsV c i)).view.set, g j = f j

theorem st0_eq (d : Dev nD) :
    (bigSep Finset.univ fun c : Fin ((K (F := F)).nCore 0) => (P TileV Hc Ic Tc Bc Oc).st 0 d c)
      = iprop((hLoc d ↦{fullShare} Hc d) ∗ (iLoc d ↦{fullShare} Ic d) ∗ (tLoc d ↦{fullShare} Tc d)
        ∗ (bigSep Finset.univ fun w : Fin 32 => bLoc d ↦{Transfers.shareTok fullShare 32 w} Bc d) ∗ (oLoc d ↦{fullShare} Oc d)) := by
  rw [h_split, i_split, t_split, o_split, bigSep_tileIx' (fun w => (bLoc d ↦{Transfers.shareTok fullShare 32 w} Bc d : sProp 𝕄))]
  simp only [st_eq]
  show (bigSep Finset.univ fun c : Fin 2 => bigSep Finset.univ fun i : Fin 16 => (goRes d (coordsV c i) (Hc d) (Ic d) (Tc d) (Bc d) (Oc d) : sProp 𝕄)) = _
  simp only [goRes_eq, bigSep_sep']

theorem o_joinV (d : Dev nD) :
    (bigSep Finset.univ fun c : Fin 2 => bigSep Finset.univ fun i : Fin 16 =>
      iprop(∃ f : Buf (Elt F) (oLoc d), ⌜TileV d (coordsV c i) (Hc d) (Ic d) (Tc d) (Bc d) f⌝
        ∗ ((oSl (coordsV c i)).view.loc (thr d (coordsV c i)) ↦[(oSl (coordsV c i)).view.set]{fullShare} f)))
      ⊢ (iprop(∃ g, ⌜Agree TileV Hc Ic Tc Bc d g⌝ ∗ oLoc d ↦{fullShare} g) : sProp 𝕄) := by
  have e : (bigSep Finset.univ fun c : Fin 2 => bigSep Finset.univ fun i : Fin 16 =>
      (iprop(∃ f : Buf (Elt F) (oLoc d), ⌜TileV d (coordsV c i) (Hc d) (Ic d) (Tc d) (Bc d) f⌝
        ∗ ((oSl (coordsV c i)).view.loc (thr d (coordsV c i)) ↦[(oSl (coordsV c i)).view.set]{fullShare} f)) : sProp 𝕄))
      = bigSep Finset.univ fun p : Fin 2 × Fin 16 => (iprop(∃ f : Buf (Elt F) (oLoc d),
          ⌜TileV d (coordsV p.1 p.2) (Hc d) (Ic d) (Tc d) (Bc d) f⌝ ∗ (oLoc d ↦[vecSet p]{fullShare} f)) : sProp 𝕄) := by
    rw [bigSep_univ_prod]
    refine bigSep_congr fun c _ => bigSep_congr fun i _ => ?_
    exact congrArg (fun Pf : Buf (Elt F) (oLoc d) → sProp 𝕄 => (iprop(∃ f, Pf f) : sProp 𝕄)) (funext fun f => by rw [pts_oSl])
  rw [e]
  refine (bigSep_exists_pi Finset.univ (fun p (f : Buf (Elt F) (oLoc d)) =>
    (iprop(⌜TileV d (coordsV p.1 p.2) (Hc d) (Ic d) (Tc d) (Bc d) f⌝ ∗ (oLoc d ↦[vecSet p]{fullShare} f)) : sProp 𝕄))).trans ?_
  iintro ⟨%fs, H⟩
  ihave H1 := (bigSep_pure_sep Finset.univ (fun p : Fin 2 × Fin 16 => TileV d (coordsV p.1 p.2) (Hc d) (Ic d) (Tc d) (Bc d) (fs p))
    (fun p => (oLoc d ↦[vecSet p]{fullShare} fs p : sProp 𝕄))) $$ H
  icases H1 with ⟨%hV, H⟩
  ihave H' := (pointsTo_biUnion_join Finset.univ vecSet fs (fs (0, 0)) vec_disjoint) $$ H
  icases H' with ⟨%g, %hg, Hg⟩
  rw [vec_cover]
  iexists g; isplitr
  · ipureintro; intro c i
    exact ⟨fs (c, i), hV (c, i) (Finset.mem_univ _), fun j hj => hg (c, i) (Finset.mem_univ _) j (by rw [set_oSl] at hj; exact hj)⟩
  · iexact Hg

theorem dn0_split (d : Dev nD) :
    (bigSep Finset.univ fun c : Fin ((K (F := F)).nCore 0) => (P TileV Hc Ic Tc Bc Oc).dn 0 d c)
      ⊢ iprop((hLoc d ↦{fullShare} Hc d) ∗ (iLoc d ↦{fullShare} Ic d) ∗ (tLoc d ↦{fullShare} Tc d)
        ∗ (bigSep Finset.univ fun w : Fin 32 => bLoc d ↦{Transfers.shareTok fullShare 32 w} Bc d)
        ∗ ∃ g, ⌜Agree TileV Hc Ic Tc Bc d g⌝ ∗ oLoc d ↦{fullShare} g) := by
  simp only [dn_eq]
  show (bigSep Finset.univ fun c : Fin 2 => bigSep Finset.univ fun i : Fin 16 => (tdRes TileV d (coordsV c i) (Hc d) (Ic d) (Tc d) (Bc d) : sProp 𝕄)) ⊢ _
  simp only [tdRes_eq, bigSep_sep']
  iintro ⟨Hh, Hi, Ht, Hb, Ho⟩
  ihave Hh' := (Entails.of_eq (h_split (F := F) d (Hc d)).symm) $$ Hh
  ihave Hi' := (Entails.of_eq (i_split (F := F) d (Ic d)).symm) $$ Hi
  ihave Ht' := (Entails.of_eq (t_split (F := F) d (Tc d)).symm) $$ Ht
  ihave Hb' := (Entails.of_eq (bigSep_tileIx' (F := F) (fun w => (bLoc d ↦{Transfers.shareTok fullShare 32 w} Bc d : sProp 𝕄))).symm) $$ Hb
  isplitl [Hh']; · iexact Hh'
  isplitl [Hi']; · iexact Hi'
  isplitl [Ht']; · iexact Ht'
  isplitl [Hb']; · iexact Hb'
  iapply (o_joinV TileV Hc Ic Tc Bc d); iexact Ho

end Split

/-! ## The TensorCore's arrays and @main's four host operations -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)

abbrev a0Loc (d : Dev nD) : Loc nD τ sig := (SparseCore.T d).loc main_arg0
abbrev a2Loc (d : Dev nD) : Loc nD τ sig := (SparseCore.T d).loc main_arg2
abbrev a3Loc (d : Dev nD) : Loc nD τ sig := (SparseCore.T d).loc main_arg3
abbrev rLoc (d : Dev nD) : Loc nD τ sig := (SparseCore.T d).loc main_v4

/-- The nine arrays of @main, all unscoped. -/
abbrev S9 : Finset (DevRef τ sig) := {a0', a1', a2', a3', v0', v1', v2', v3', v4'}

theorem held_S9 (d : Dev nD) (W : Valuation τ sig (Elt F)) :
    (held (T d) S9 W : sProp 𝕄) = iprop((a0Loc d ↦{fullShare} W a0') ∗ (iLoc d ↦{fullShare} W a1') ∗ (a2Loc d ↦{fullShare} W a2')
      ∗ (a3Loc d ↦{fullShare} W a3') ∗ (hLoc d ↦{fullShare} W v0') ∗ (tLoc d ↦{fullShare} W v1') ∗ (bLoc d ↦{fullShare} W v2')
      ∗ (oLoc d ↦{fullShare} W v3') ∗ (rLoc d ↦{fullShare} W v4')) := by
  unfold held S9
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop((a0Loc d ↦{fullShare} W main_arg0) ∗ (iLoc d ↦{fullShare} W main_arg1) ∗ (a2Loc d ↦{fullShare} W main_arg2)
      ∗ (a3Loc d ↦{fullShare} W main_arg3) ∗ (hLoc d ↦{fullShare} W main_v0) ∗ (tLoc d ↦{fullShare} W main_v1) ∗ (bLoc d ↦{fullShare} W main_v2)
      ∗ (oLoc d ↦{fullShare} W main_v3) ∗ (rLoc d ↦{fullShare} W main_v4)) := by
  unfold unscopedBufs
  rw [show (Finset.univ.filter fun b : Ref sig .tc => ¬ b.isScoped) = {main_arg0, main_arg1, main_arg2, main_arg3, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

section Host

variable [FloatOps F]

abbrev opH : HloOp τ sig (Elt F) :=
  StableHlo.unary main_arg0 main_v0 ((transpose S64x16384 [1, 0] · Facts₀.transposes_S16384x64_S64x16384_1_0) : (⟨S16384x64, .f32⟩ : BufTy).Contents (Elt F) → (⟨S64x16384, .f32⟩ : BufTy).Contents (Elt F))
abbrev opT : HloOp τ sig (Elt F) :=
  StableHlo.unary main_arg2 main_v1 ((transpose S64x16384 [1, 0] · Facts₀.transposes_S16384x64_S64x16384_1_0) : (⟨S16384x64, .f32⟩ : BufTy).Contents (Elt F) → (⟨S64x16384, .f32⟩ : BufTy).Contents (Elt F))
abbrev opB : HloOp τ sig (Elt F) := StableHlo.reshape main_arg3 main_v2 rfl Facts₀.shapeCasts_S1000x64_S64000
abbrev opR : HloOp τ sig (Elt F) := StableHlo.reshape main_v3 main_v4 rfl Facts₀.shapeCasts_S16384_S1x16384

theorem subH : (opH (F := F)).bufs ⊆ S9 := show ({a0', v0'} : Finset (DevRef τ sig)) ⊆ S9 by decide
theorem subT : (opT (F := F)).bufs ⊆ S9 := show ({a2', v1'} : Finset (DevRef τ sig)) ⊆ S9 by decide
theorem subB : (opB (F := F)).bufs ⊆ S9 := show ({a3', v2'} : Finset (DevRef τ sig)) ⊆ S9 by decide
theorem subR : (opR (F := F)).bufs ⊆ S9 := show ({v3', v4'} : Finset (DevRef τ sig)) ⊆ S9 by decide

variable (m : (ℓ : Loc nD τ sig) → Buf (Elt F) ℓ)

/-- The launch valuation, and the valuations after each of the three operations before the call. -/
def V0 (d : Dev nD) : Valuation τ sig (Elt F) := fun b => m (d, b)
abbrev V1 (d : Dev nD) : Valuation τ sig (Elt F) := (opH (F := F)).result (V0 m d)
abbrev V2 (d : Dev nD) : Valuation τ sig (Elt F) := (opT (F := F)).result (V1 m d)
abbrev V3 (d : Dev nD) : Valuation τ sig (Elt F) := (opB (F := F)).result (V2 m d)

theorem unscoped_held (d : Dev nD) : (unscopedBufs d (fun b => m ((SparseCore.T d).loc b)) : sProp 𝕄) = held (T d) S9 (V0 m d) := by
  rw [unscopedBufs_eq, held_S9]; rfl

/-- What the call's operands hold when the call starts. -/
abbrev Hc (d : Dev nD) : Buf (Elt F) (hLoc d) := V3 m d v0'
abbrev Ic (d : Dev nD) : Buf (Elt F) (iLoc d) := V3 m d a1'
abbrev Tc (d : Dev nD) : Buf (Elt F) (tLoc d) := V3 m d v1'
abbrev Bc (d : Dev nD) : Buf (Elt F) (bLoc d) := V3 m d v2'
abbrev Oc (d : Dev nD) : Buf (Elt F) (oLoc d) := V3 m d v3'

theorem V3_ne {r : Ref sig .tc} (h0 : r ≠ main_v0) (h1 : r ≠ main_v1) (h2 : r ≠ main_v2) (d : Dev nD) :
    V3 m d (Proc.devRef .tc r) = m (d, Proc.devRef .tc r) := by
  unfold V3 V2 V1
  rw [StableHlo.reshape_result_ne _ _ _ _ _ _ _ h2, StableHlo.unary_result_ne _ _ _ _ _ _ h1, StableHlo.unary_result_ne _ _ _ _ _ _ h0]
  rfl

theorem V3_a0 (d : Dev nD) : V3 m d a0' = m (a0Loc d) := V3_ne m (by decide) (by decide) (by decide) d
theorem V3_a1 (d : Dev nD) : V3 m d a1' = m (iLoc d) := V3_ne m (by decide) (by decide) (by decide) d
theorem V3_a2 (d : Dev nD) : V3 m d a2' = m (a2Loc d) := V3_ne m (by decide) (by decide) (by decide) d
theorem V3_a3 (d : Dev nD) : V3 m d a3' = m (a3Loc d) := V3_ne m (by decide) (by decide) (by decide) d

/-- The operands as functions of the arguments: the two transposes, the relation words, the flattened table. -/
theorem Hc_eq (d : Dev nD) : Hc m d = transpose S64x16384 [1, 0] (m (a0Loc d)) Facts₀.transposes_S16384x64_S64x16384_1_0 := by
  show V3 m d v0' = _
  unfold V3 V2
  rw [StableHlo.reshape_result_ne _ _ _ _ _ _ _ (show main_v0 ≠ main_v2 by decide), StableHlo.unary_result_ne _ _ _ _ _ _ (show main_v0 ≠ main_v1 by decide)]
  unfold V1
  rw [StableHlo.unary_result]; rfl
theorem Tc_eq (d : Dev nD) : Tc m d = transpose S64x16384 [1, 0] (m (a2Loc d)) Facts₀.transposes_S16384x64_S64x16384_1_0 := by
  show V3 m d v1' = _
  unfold V3 V2
  rw [StableHlo.reshape_result_ne _ _ _ _ _ _ _ (show main_v1 ≠ main_v2 by decide), StableHlo.unary_result]
  unfold V1
  rw [StableHlo.unary_result_ne _ _ _ _ _ _ (show main_arg2 ≠ main_v0 by decide)]; rfl
theorem Bc_eq (d : Dev nD) : Bc m d = fun i => shapeCast S64000 (m (a3Loc d)) Facts₀.shapeCasts_S1000x64_S64000 i := by
  show V3 m d v2' = _
  unfold V3
  rw [StableHlo.reshape_result]
  unfold V2 V1
  rw [StableHlo.unary_result_ne _ _ _ _ _ _ (show main_arg3 ≠ main_v1 by decide), StableHlo.unary_result_ne _ _ _ _ _ _ (show main_arg3 ≠ main_v0 by decide)]
  rfl

/-- The valuation after the call: the result array at what the tasks left. -/
def V4 (d : Dev nD) (g : Buf (Elt F) (oLoc d)) : Valuation τ sig (Elt F) := Function.update (V3 m d) v3' g

theorem V4_v3 (d : Dev nD) (g : Buf (Elt F) (oLoc d)) : V4 m d g v3' = g := Function.update_self _ _ _
theorem V4_ne (d : Dev nD) (g : Buf (Elt F) (oLoc d)) {b : DevRef τ sig} (h : b ≠ v3') : V4 m d g b = V3 m d b := Function.update_of_ne h _ _

/-- The program's result: the reshape of what the tasks left. -/
theorem res_eq (d : Dev nD) (g : Buf (Elt F) (oLoc d)) :
    (opR (F := F)).result (V4 m d g) v4' = fun i => shapeCast S1x16384 g Facts₀.shapeCasts_S16384_S1x16384 i := by
  rw [StableHlo.reshape_result, V4_v3]; rfl

theorem resR_ne (d : Dev nD) (g : Buf (Elt F) (oLoc d)) {r : Ref sig .tc} (h : r ≠ main_v4) (h3 : r ≠ main_v3) :
    (opR (F := F)).result (V4 m d g) (Proc.devRef .tc r) = V3 m d (Proc.devRef .tc r) := by
  rw [StableHlo.reshape_result_ne _ _ _ _ _ _ _ h, V4_ne m d g (fun e => h3 (Proc.devRef_injective _ e))]

end Host

/-! ## @main on the TensorCore -/

section Main

variable [FloatOps F]
variable (TileV : (d : Dev nD) → grid0.Coords → Buf (Elt F) (hLoc d) → Buf (Elt F) (iLoc d) → Buf (Elt F) (tLoc d) → Buf (Elt F) (bLoc d) → Buf (Elt F) (oLoc d) → Prop)
  (ResV : (d : Dev nD) → Buf (Elt F) (a0Loc d) → Buf (Elt F) (iLoc d) → Buf (Elt F) (a2Loc d) → Buf (Elt F) (a3Loc d) → Buf (Elt F) (rLoc d) → Prop)
  (m : (ℓ : Loc nD τ sig) → Buf (Elt F) ℓ) (ρ : Dev nD → PrngReg)

/-- The call's payloads at the operands' contents when the call starts. -/
abbrev PP : (K (F := F)).Pay (nD := nD) (Val := Elt F) (Name := ℕ) (U := UU) := P TileV (Hc m) (Ic m) (Tc m) (Bc m) (Oc m)

/-- What the launch asks of the value facts: if the tasks' blocks of the result hold contents of which the tasks'
    facts hold, the reshaped result has the program's fact. -/
def ResOK : Prop :=
  ∀ (d : Dev nD) (g : Buf (Elt F) (oLoc d)), Agree TileV (Hc m) (Ic m) (Tc m) (Bc m) d g →
    ResV d (m (a0Loc d)) (m (iLoc d)) (m (a2Loc d)) (m (a3Loc d)) ((opR (F := F)).result (V4 m d g) v4')

/-- What @main leaves the claim: the four arguments at their launch contents, the result at contents of which the
    program's fact holds. -/
def FIN (d : Dev nD) : sProp 𝕄 :=
  iprop((a0Loc d ↦{fullShare} m (a0Loc d)) ∗ (iLoc d ↦{fullShare} m (iLoc d)) ∗ (a2Loc d ↦{fullShare} m (a2Loc d))
    ∗ (a3Loc d ↦{fullShare} m (a3Loc d))
    ∗ ∃ r : Buf (Elt F) (rLoc d), ⌜ResV d (m (a0Loc d)) (m (iLoc d)) (m (a2Loc d)) (m (a3Loc d)) r⌝ ∗ rLoc d ↦{fullShare} r)

theorem fin_a0 (d : Dev nD) (g : Buf (Elt F) (oLoc d)) : (opR (F := F)).result (V4 m d g) a0' = m (a0Loc d) :=
  (resR_ne m d g (show main_arg0 ≠ main_v4 by decide) (by decide)).trans (V3_a0 m d)
theorem fin_a1 (d : Dev nD) (g : Buf (Elt F) (oLoc d)) : (opR (F := F)).result (V4 m d g) a1' = m (iLoc d) :=
  (resR_ne m d g (show main_arg1 ≠ main_v4 by decide) (by decide)).trans (V3_a1 m d)
theorem fin_a2 (d : Dev nD) (g : Buf (Elt F) (oLoc d)) : (opR (F := F)).result (V4 m d g) a2' = m (a2Loc d) :=
  (resR_ne m d g (show main_arg2 ≠ main_v4 by decide) (by decide)).trans (V3_a2 m d)
theorem fin_a3 (d : Dev nD) (g : Buf (Elt F) (oLoc d)) : (opR (F := F)).result (V4 m d g) a3' = m (a3Loc d) :=
  (resR_ne m d g (show main_arg3 ≠ main_v4 by decide) (by decide)).trans (V3_a3 m d)

theorem held_V4 (d : Dev nD) (g : Buf (Elt F) (oLoc d)) :
    (held (T d) S9 (V4 m d g) : sProp 𝕄) = iprop((a0Loc d ↦{fullShare} V3 m d a0') ∗ (iLoc d ↦{fullShare} V3 m d a1') ∗ (a2Loc d ↦{fullShare} V3 m d a2')
      ∗ (a3Loc d ↦{fullShare} V3 m d a3') ∗ (hLoc d ↦{fullShare} V3 m d v0') ∗ (tLoc d ↦{fullShare} V3 m d v1') ∗ (bLoc d ↦{fullShare} V3 m d v2')
      ∗ (oLoc d ↦{fullShare} g) ∗ (rLoc d ↦{fullShare} V3 m d v4')) := by
  rw [held_S9, V4_v3, V4_ne m d g (show a0' ≠ v3' by decide), V4_ne m d g (show a1' ≠ v3' by decide), V4_ne m d g (show a2' ≠ v3' by decide),
    V4_ne m d g (show a3' ≠ v3' by decide), V4_ne m d g (show v0' ≠ v3' by decide), V4_ne m d g (show v1' ≠ v3' by decide),
    V4_ne m d g (show v2' ≠ v3' by decide), V4_ne m d g (show v4' ≠ v3' by decide)]

theorem held_fin (d : Dev nD) (g : Buf (Elt F) (oLoc d)) :
    (held (T d) S9 ((opR (F := F)).result (V4 m d g)) : sProp 𝕄)
      ⊢ iprop((a0Loc d ↦{fullShare} m (a0Loc d)) ∗ (iLoc d ↦{fullShare} m (iLoc d)) ∗ (a2Loc d ↦{fullShare} m (a2Loc d))
        ∗ (a3Loc d ↦{fullShare} m (a3Loc d)) ∗ (rLoc d ↦{fullShare} (opR (F := F)).result (V4 m d g) v4')) := by
  rw [held_S9, fin_a0, fin_a1, fin_a2, fin_a3]
  iintro ⟨Ha0, Ha1, Ha2, Ha3, -, -, -, -, Hv4⟩
  isplitl [Ha0]; · iexact Ha0
  isplitl [Ha1]; · iexact Ha1
  isplitl [Ha2]; · iexact Ha2
  isplitl [Ha3]; · iexact Ha3
  iexact Hv4

/-- @main on device d's TensorCore: the two transposes and the reshape, the call (the operands split among the 32 tasks,
    a read share of the table each; the pieces back, the result's blocks joined), the final reshape. -/
theorem hmain (hres : ResOK TileV ResV m) (κ : GSem nD τ sig → ℕ) (d : Dev nD) :
    iprop((K (F := F)).ctx EH (PP TileV m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN ResV m d) := by
  unfold SparseCore.Cfg.tcRes
  rw [unscoped_held]
  simp only [main, wp_bind, wp_pure]
  iintro ⟨#Hctx, Hst, ⟨Hb, Hheld, -, -⟩, -⟩
  -- the two transposes and the reshape
  iapply (wp_hlo_within 𝒱 (SparseCore.T d) none Set.univ (op := opH) (S := S9) subH (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opT) (S := S9) subT (V := V1 m d)) $$ [Hb Hheld]
  · isplitl [Hb]; · iexact Hb
    iexact Hheld
  iintro ⟨Hb, Hheld⟩
  rw [wp_ret]; imodintro
  iapply (wp_hlo_within 𝒱 (SparseCore.T d) none Set.univ (op := opB) (S := S9) subB (V := V2 m d)) $$ [Hb Hheld]
  · isplitl [Hb]; · iexact Hb
    iexact Hheld
  iintro ⟨Hb, Hheld⟩
  rw [wp_ret]; imodintro
  ihave Hh := (Entails.of_eq (held_S9 (F := F) d (V3 m d))) $$ Hheld
  icases Hh with ⟨Ha0, Ha1, Ha2, Ha3, Hv0, Hv1, Hv2, Hv3, Hv4⟩
  ihave Hbs := (b_split (F := F) d (V3 m d v2')).1 $$ Hv2
  icases Hbs with ⟨Hdrop, Htoks⟩
  -- the call
  iapply ((K (F := F)).wp_run (D (F := F)) 𝒱 (EH := EH) (P := PP TileV m) κ d 0) $$ [Hst Ha1 Hv0 Hv1 Htoks Hv3 Hb Ha0 Ha2 Ha3 Hv4 Hdrop]
  isplitr; · iexact Hctx
  isplitl [Hst]; · iexact Hst
  isplitl [Ha1 Hv0 Hv1 Htoks Hv3]
  · rw [st0_eq]
    isplitl [Hv0]; · iexact Hv0
    isplitl [Ha1]; · iexact Ha1
    isplitl [Hv1]; · iexact Hv1
    isplitl [Htoks]; · iexact Htoks
    iexact Hv3
  iintro ⟨Hst, Hdn⟩
  ihave Hdn' := (dn0_split TileV (Hc m) (Ic m) (Tc m) (Bc m) (Oc m) d) $$ Hdn
  icases Hdn' with ⟨Hv0, Ha1, Hv1, Htoks, %g, %hg, Hv3⟩
  ihave Hv2 := (b_split (F := F) d (V3 m d v2')).2 $$ [Hdrop Htoks]
  · isplitl [Hdrop]; · iexact Hdrop
    iexact Htoks
  -- the final reshape
  iapply (wp_hlo_within 𝒱 (SparseCore.T d) none Set.univ (op := opR) (S := S9) subR (V := V4 m d g)) $$ [Hb Ha0 Ha1 Ha2 Ha3 Hv0 Hv1 Hv2 Hv3 Hv4]
  · isplitl [Hb]; · iexact Hb
    rw [held_V4]
    isplitl [Ha0]; · iexact Ha0
    isplitl [Ha1]; · iexact Ha1
    isplitl [Ha2]; · iexact Ha2
    isplitl [Ha3]; · iexact Ha3
    isplitl [Hv0]; · iexact Hv0
    isplitl [Hv1]; · iexact Hv1
    isplitl [Hv2]; · iexact Hv2
    isplitl [Hv3]; · iexact Hv3
    iexact Hv4
  iintro ⟨Hb, Hheld⟩
  ihave Hf := (held_fin m d g) $$ Hheld
  icases Hf with ⟨Ha0, Ha1, Ha2, Ha3, Hv4⟩
  rw [wp_ret]; imodintro; imodintro
  isplitl [Hst]; · iexact Hst
  unfold FIN
  isplitl [Ha0]; · iexact Ha0
  isplitl [Ha1]; · iexact Ha1
  isplitl [Ha2]; · iexact Ha2
  isplitl [Ha3]; · iexact Ha3
  iexists _; isplitr
  · ipureintro; exact hres d g hg
  · iexact Hv4

def fq (d : Dev nD) (s' : Phys nD τ sig (Elt F)) : Prop :=
  ResV d (m (a0Loc d)) (m (iLoc d)) (m (a2Loc d)) (m (a3Loc d)) (s'.mem.mem (rLoc d))
    ∧ s'.mem.mem (a0Loc d) = m (a0Loc d) ∧ s'.mem.mem (iLoc d) = m (iLoc d)
    ∧ s'.mem.mem (a2Loc d) = m (a2Loc d) ∧ s'.mem.mem (a3Loc d) = m (a3Loc d)

theorem hfin (d : Dev nD) (s' : Phys nD τ sig (Elt F)) : iprop(FIN ResV m d ∗ SI s') ⊢ (⌜fq ResV m d s'⌝ : sProp 𝕄) := by
  unfold FIN
  iintro ⟨⟨Ha0, Ha1, Ha2, Ha3, %r, %hr, Hr⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h0, HSI, -⟩
  ihave H := (persistent_entails_right (SI_pointsTo_agree (st := s') (ℓ := iLoc d) (I := Finset.univ) (q := fullShare) (f := m (iLoc d)))) $$ [HSI Ha1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI Ha2]
  · isplitl [HSI] <;> iassumption
  icases H with ⟨%h2, HSI, -⟩
  ihave H := (persistent_entails_right (SI_pointsTo_agree (st := s') (ℓ := a3Loc d) (I := Finset.univ) (q := fullShare) (f := m (a3Loc d)))) $$ [HSI Ha3]
  · isplitl [HSI] <;> iassumption
  icases H with ⟨%h3, HSI, -⟩
  ihave H := (SI_pointsTo_agree (st := s') (ℓ := rLoc d) (I := Finset.univ) (q := fullShare) (f := r)) $$ [HSI Hr]
  · isplitl [HSI] <;> iassumption
  icases H with %h4
  ipureintro
  have e4 : s'.mem.mem (rLoc d) = r := funext fun i => h4 i (Finset.mem_univ i)
  exact ⟨e4 ▸ hr, funext fun i => h0 i (Finset.mem_univ i), funext fun i => h1 i (Finset.mem_univ i),
    funext fun i => h2 i (Finset.mem_univ i), funext fun i => h3 i (Finset.mem_univ i)⟩

/-! ## The program's run -/

def QC : PUnit × MemSt nD τ sig (Elt F) → Prop := fun r => ∀ c : Dev nD,
  ResV c (m (a0Loc c)) (m (iLoc c)) (m (a2Loc c)) (m (a3Loc c)) (r.2.mem (rLoc c))
    ∧ r.2.mem (a0Loc c) = m (a0Loc c) ∧ r.2.mem (iLoc c) = m (iLoc c)
    ∧ r.2.mem (a2Loc c) = m (a2Loc c) ∧ r.2.mem (a3Loc c) = m (a3Loc c)

/-- From one task's run and the passage from the tasks' facts to the program's: every weakly fair execution of the
    device's threads terminates, the result has the program's fact, the arguments are unchanged. -/
theorem run_main [∀ e, Nonempty (Elt F e)] (hbody : TileRun TileV (Hc m) (Ic m) (Tc m) (Bc m) (Oc m)) (hres : ResOK TileV ResV m) :
    θ_run (Cert.Kernel.defs (F := F)) (Cert.Kernel.threads (F := F)) ⟨m, fun _ => 0, ρ⟩ (QC ResV m) :=
  SparseCore.Cfg.θ_run_sc (K := K (F := F)) (D := D (F := F)) (𝒱 := 𝒱) (EH := EH) (P := PP TileV m) kFacts v₀
    (fun q hq => match q with | 0 => nomatch hq)
    (fun q _ => match q with | 0 => tileObl TileV (Hc m) (Ic m) (Tc m) (Bc m) (Oc m) hbody)
    (fun q _ => match q with | 0 => SparseCore.Cfg.VecSplit.of_plain (vecSplit TileV (Hc m) (Ic m) (Tc m) (Bc m) (Oc m)))
    m ρ main (fun _ => iprop(emp)) (FIN ResV m) (u₀ (F := F)) (sep_elim_left.trans (hu₀ TileV (Hc m) (Ic m) (Tc m) (Bc m) (Oc m)))
    (hmain TileV ResV m ρ hres) (fq ResV m) (hfin ResV m) (QC ResV m) (fun _ h => h)

/-- The same with the claim's post written out over each device's TensorCore locations. -/
theorem run_main' [∀ e, Nonempty (Elt F e)] (hbody : TileRun TileV (Hc m) (Ic m) (Tc m) (Bc m) (Oc m)) (hres : ResOK TileV ResV m) :
    θ_run (Cert.Kernel.defs (F := F)) (Cert.Kernel.threads (F := F)) ⟨m, fun _ => 0, ρ⟩ (fun r => ∀ c : Dev nD,
      ResV c (m ((c.tc : Thread nD τ).loc main_arg0)) (m ((c.tc : Thread nD τ).loc main_arg1)) (m ((c.tc : Thread nD τ).loc main_arg2))
          (m ((c.tc : Thread nD τ).loc main_arg3)) (r.2.mem ((c.tc : Thread nD τ).loc main_v4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (Cert.Kernel.defs (F := F)) _ _).mono (fun _ h c => h c) (run_main TileV ResV m ρ hbody hres)

end Main

end Cert.Kernel.Hand

end
-- ==== Proof.ContentsK.lean ====
/-
  What a task's scratch buffers hold once its copies have landed: the whole flattened table, the task's 512 relation
  words, and column block r of the two transposed embeddings — each the source array read through the copy's source view.
-/
import proofs.«205645_g18588618457683_cont_8to1_1834_20_alg».proof.Proof.SharedK

noncomputable section

namespace Cert.Kernel.Hand

open Cert.Kernel Cert.Kernel.Gen
open Idealize.ShloMosaic
open Idealize.ShloMosaic.SparseCore (S V T)

variable {F : FTy → Type}

def cTab (d : Dev nD) (L : grid0.Coords) (B : Buf (Elt F) (bLoc d)) : Buf (Elt F) ((s0).view.loc (thr d L)) := ReadAs.same.apply ((tB).view.read (Elt F) B)
def cIdx (d : Dev nD) (L : grid0.Coords) (I : Buf (Elt F) (iLoc d)) : Buf (Elt F) ((s1).view.loc (thr d L)) := ReadAs.same.apply ((iSl L).view.read (Elt F) I)
def cH (d : Dev nD) (L : grid0.Coords) (H : Buf (Elt F) (hLoc d)) (r : Fin 4) : S64x128.Idx → Elt F .f32 := ReadAs.same.apply ((hSl L r).view.read (Elt F) H)
def cT (d : Dev nD) (L : grid0.Coords) (T : Buf (Elt F) (tLoc d)) (r : Fin 4) : S64x128.Idx → Elt F .f32 := ReadAs.same.apply ((tSl L r).view.read (Elt F) T)

end Cert.Kernel.Hand

end
-- ==== Proof.IdxFactsK.lean ====
/-
  Index arithmetic of the kernel's gathers: a lane's embedding coordinate (l + 4k + q) mod 64 is below 64, its
  batch column 16 g + l is below 128, and the flattened table position 64 · rel + coordinate is below 64000 when the
  relation word is below 1000. These are the side conditions the body assumes before each indexed load.
-/
import proofs.«205645_g18588618457683_cont_8to1_1834_20_alg».proof.Proof.Gen.Kernel
import proofs.«205645_g18588618457683_cont_8to1_1834_20_alg».proof.Proof.Gen.Kernel.Skeleton
noncomputable section
namespace Cert.Kernel.Hand
open Cert.Kernel Cert.Kernel.Gen Idealize.ShloMosaic
variable {F : FTy → Type} [FloatOps F]

theorem and63_lt (a : BitVec 32) : (IntOp.andi a 63#32).toNat < 64 := by
  show (a &&& 63#32).toNat < 64
  rw [BitVec.toNat_and]
  exact Nat.lt_succ_of_le Nat.and_le_right

theorem rela_lt (w a : BitVec 32) (hw : w.toNat < 1000) (ha : a.toNat < 64) : (IntOp.addi (IntOp.muli w 64#32) a).toNat < 64000 := by
  show (w * 64#32 + a).toNat < 64000
  rw [BitVec.toNat_add, BitVec.toNat_mul]
  have : (64#32 : BitVec 32).toNat = 64 := rfl
  rw [this]
  omega

/-- The lane number is below 16. -/
theorem iota_lt (x : S16.Idx) : ((iota .scVector S16 32 [0] iota_S16_d0_w32_scVector : IVec S16 32) x).toNat < 16 := by
  show (BitVec.ofNat 32 (0 * 16 + (x 0).val)).toNat < 16
  rw [Nat.zero_mul, Nat.zero_add, BitVec.toNat_ofNat]
  have := (x 0).isLt
  exact lt_of_le_of_lt (Nat.mod_le _ _) this

theorem blane_lt (k : Nat) (hk : k < 8) (a : BitVec 32) (ha : a.toNat < 16) : (IntOp.addi (Scalar.muli (Scf.iv 0#32 1#32 k) 16#32) a).toNat < 128 := by
  have h16 : (Scalar.muli (Scf.iv 0#32 1#32 k) 16#32).toNat = 16 * k := by
    have h : ∀ k : Fin 8, (Scalar.muli (Scf.iv 0#32 1#32 k.val) 16#32).toNat = 16 * k.val := by decide +kernel
    exact h ⟨k, hk⟩
  show (Scalar.muli (Scf.iv 0#32 1#32 k) 16#32 + a).toNat < 128
  rw [BitVec.toNat_add, h16]
  omega

/-! ### Column block 0 -/
theorem trips_k0_t1 : k0_t1_loop.trips = 8 := by decide
theorem trips_k0_t2 : k0_t2_loop.trips = 16 := by decide

theorem v50_lt_0 (k : Fin k0_t1_loop.trips) (x : S16.Idx) : ((k0_pay35 k) x).toNat < 128 :=
  blane_lt k.val (Nat.lt_of_lt_of_le k.isLt (Nat.le_of_eq trips_k0_t1)) _ (iota_lt x)
theorem dv0_lt_0 (v3 : IVec S16 32) (c0 c1 : BitVec 32) (j : Fin k0_t2_loop.trips) (x : S16.Idx) : (k0_pay7 v3 c0 c1 j x).toNat < 64 := and63_lt _
theorem dv1_lt_0 (v3 : IVec S16 32) (c0 c1 : BitVec 32) (j : Fin k0_t2_loop.trips) (x : S16.Idx) : (k0_pay9 v3 c0 c1 j x).toNat < 64 := and63_lt _
theorem dv2_lt_0 (v3 : IVec S16 32) (c0 c1 : BitVec 32) (j : Fin k0_t2_loop.trips) (x : S16.Idx) : (k0_pay11 v3 c0 c1 j x).toNat < 64 := and63_lt _
theorem dv3_lt_0 (v115 : IVec S16 32) (x : S16.Idx) : ((k0_pay38 v115) x).toNat < 64 := and63_lt _
theorem chk1_ok (k : Fin k0_t1_loop.trips) (v3' : IVec S16 32) (c0 c1 : BitVec 32) (j : Fin k0_t2_loop.trips) : k0_chk1 (k0_pay35 k) (k0_pay7 v3' c0 c1 j) := by
  have h : ∀ a x, ((![k0_pay7 v3' c0 c1 j, k0_pay35 k] : Fin 2 → IVec S16 32) a x).toNat < S64x128.size a := by
    intro a x
    match a with
    | ⟨0, _⟩ => exact dv0_lt_0 v3' c0 c1 j x
    | ⟨1, _⟩ => exact v50_lt_0 k x
  exact ⟨h, h⟩
theorem chk2_ok (v54 : Vec F S16 .i32) (h54 : ∀ x, (v54 x).toNat < 1000) (v3' : IVec S16 32) (c0 c1 : BitVec 32) (j : Fin k0_t2_loop.trips) : k0_chk2 (addi (k0_pay36 v54) (k0_pay7 v3' c0 c1 j)) := by
  intro a x
  match a with
  | ⟨0, _⟩ => exact rela_lt _ _ (h54 x) (dv0_lt_0 v3' c0 c1 j x)
theorem chk3_ok (k : Fin k0_t1_loop.trips) (v3' : IVec S16 32) (c0 c1 : BitVec 32) (j : Fin k0_t2_loop.trips) : k0_chk3 (k0_pay35 k) (k0_pay9 v3' c0 c1 j) := by
  have h : ∀ a x, ((![k0_pay9 v3' c0 c1 j, k0_pay35 k] : Fin 2 → IVec S16 32) a x).toNat < S64x128.size a := by
    intro a x
    match a with
    | ⟨0, _⟩ => exact dv1_lt_0 v3' c0 c1 j x
    | ⟨1, _⟩ => exact v50_lt_0 k x
  exact ⟨h, h⟩
theorem chk4_ok (v54 : Vec F S16 .i32) (h54 : ∀ x, (v54 x).toNat < 1000) (v3' : IVec S16 32) (c0 c1 : BitVec 32) (j : Fin k0_t2_loop.trips) : k0_chk4 (addi (k0_pay36 v54) (k0_pay9 v3' c0 c1 j)) := by
  intro a x
  match a with
  | ⟨0, _⟩ => exact rela_lt _ _ (h54 x) (dv1_lt_0 v3' c0 c1 j x)
theorem chk5_ok (k : Fin k0_t1_loop.trips) (v3' : IVec S16 32) (c0 c1 : BitVec 32) (j : Fin k0_t2_loop.trips) : k0_chk5 (k0_pay35 k) (k0_pay11 v3' c0 c1 j) := by
  have h : ∀ a x, ((![k0_pay11 v3' c0 c1 j, k0_pay35 k] : Fin 2 → IVec S16 32) a x).toNat < S64x128.size a := by
    intro a x
    match a with
    | ⟨0, _⟩ => exact dv2_lt_0 v3' c0 c1 j x
    | ⟨1, _⟩ => exact v50_lt_0 k x
  exact ⟨h, h⟩
theorem chk6_ok (v54 : Vec F S16 .i32) (h54 : ∀ x, (v54 x).toNat < 1000) (v3' : IVec S16 32) (c0 c1 : BitVec 32) (j : Fin k0_t2_loop.trips) : k0_chk6 (addi (k0_pay36 v54) (k0_pay11 v3' c0 c1 j)) := by
  intro a x
  match a with
  | ⟨0, _⟩ => exact rela_lt _ _ (h54 x) (dv2_lt_0 v3' c0 c1 j x)
theorem chk7_ok (k : Fin k0_t1_loop.trips) (v115 : IVec S16 32) : k0_chk7 (k0_pay35 k) (k0_pay38 v115) := by
  have h : ∀ a x, ((![k0_pay38 v115, k0_pay35 k] : Fin 2 → IVec S16 32) a x).toNat < S64x128.size a := by
    intro a x
    match a with
    | ⟨0, _⟩ => exact dv3_lt_0 v115 x
    | ⟨1, _⟩ => exact v50_lt_0 k x
  exact ⟨h, h⟩
theorem chk8_ok (v54 : Vec F S16 .i32) (h54 : ∀ x, (v54 x).toNat < 1000) (v115 : IVec S16 32) : k0_chk8 (addi (k0_pay36 v54) (k0_pay38 v115)) := by
  intro a x
  match a with
  | ⟨0, _⟩ => exact rela_lt _ _ (h54 x) (dv3_lt_0 v115 x)

/-! ### Column block 1 -/
theorem trips_k0_t3 : k0_t3_loop.trips = 8 := by decide
theorem trips_k0_t4 : k0_t4_loop.trips = 16 := by decide

theorem v50_lt_1 (v3 : IVec S16 32) (hv3 : ∀ x, (v3 x).toNat < 16) (k : Fin k0_t3_loop.trips) (x : S16.Idx) : ((k0_pay41 v3 k) x).toNat < 128 :=
  blane_lt k.val (Nat.lt_of_lt_of_le k.isLt (Nat.le_of_eq trips_k0_t3)) _ (hv3 x)
theorem dv0_lt_1 (v3 : IVec S16 32) (c0 c1 : BitVec 32) (j : Fin k0_t4_loop.trips) (x : S16.Idx) : (k0_pay14 v3 c0 c1 j x).toNat < 64 := and63_lt _
theorem dv1_lt_1 (v3 : IVec S16 32) (c0 c1 : BitVec 32) (j : Fin k0_t4_loop.trips) (x : S16.Idx) : (k0_pay16 v3 c0 c1 j x).toNat < 64 := and63_lt _
theorem dv2_lt_1 (v3 : IVec S16 32) (c0 c1 : BitVec 32) (j : Fin k0_t4_loop.trips) (x : S16.Idx) : (k0_pay18 v3 c0 c1 j x).toNat < 64 := and63_lt _
theorem dv3_lt_1 (v3 : IVec S16 32) (v115 : IVec S16 32) (x : S16.Idx) : ((k0_pay44 v3 v115) x).toNat < 64 := and63_lt _
theorem chk9_ok (v3 : IVec S16 32) (hv3 : ∀ x, (v3 x).toNat < 16) (k : Fin k0_t3_loop.trips) (v3' : IVec S16 32) (c0 c1 : BitVec 32) (j : Fin k0_t4_loop.trips) : k0_chk9 (k0_pay41 v3 k) (k0_pay14 v3' c0 c1 j) := by
  have h : ∀ a x, ((![k0_pay14 v3' c0 c1 j, k0_pay41 v3 k] : Fin 2 → IVec S16 32) a x).toNat < S64x128.size a := by
    intro a x
    match a with
    | ⟨0, _⟩ => exact dv0_lt_1 v3' c0 c1 j x
    | ⟨1, _⟩ => exact v50_lt_1 v3 hv3 k x
  exact ⟨h, h⟩
theorem chk10_ok (v54 : Vec F S16 .i32) (h54 : ∀ x, (v54 x).toNat < 1000) (v3' : IVec S16 32) (c0 c1 : BitVec 32) (j : Fin k0_t4_loop.trips) : k0_chk10 (addi (k0_pay42 v54) (k0_pay14 v3' c0 c1 j)) := by
  intro a x
  match a with
  | ⟨0, _⟩ => exact rela_lt _ _ (h54 x) (dv0_lt_1 v3' c0 c1 j x)
theorem chk11_ok (v3 : IVec S16 32) (hv3 : ∀ x, (v3 x).toNat < 16) (k : Fin k0_t3_loop.trips) (v3' : IVec S16 32) (c0 c1 : BitVec 32) (j : Fin k0_t4_loop.trips) : k0_chk11 (k0_pay41 v3 k) (k0_pay16 v3' c0 c1 j) := by
  have h : ∀ a x, ((![k0_pay16 v3' c0 c1 j, k0_pay41 v3 k] : Fin 2 → IVec S16 32) a x).toNat < S64x128.size a := by
    intro a x
    match a with
    | ⟨0, _⟩ => exact dv1_lt_1 v3' c0 c1 j x
    | ⟨1, _⟩ => exact v50_lt_1 v3 hv3 k x
  exact ⟨h, h⟩
theorem chk12_ok (v54 : Vec F S16 .i32) (h54 : ∀ x, (v54 x).toNat < 1000) (v3' : IVec S16 32) (c0 c1 : BitVec 32) (j : Fin k0_t4_loop.trips) : k0_chk12 (addi (k0_pay42 v54) (k0_pay16 v3' c0 c1 j)) := by
  intro a x
  match a with
  | ⟨0, _⟩ => exact rela_lt _ _ (h54 x) (dv1_lt_1 v3' c0 c1 j x)
theorem chk13_ok (v3 : IVec S16 32) (hv3 : ∀ x, (v3 x).toNat < 16) (k : Fin k0_t3_loop.trips) (v3' : IVec S16 32) (c0 c1 : BitVec 32) (j : Fin k0_t4_loop.trips) : k0_chk13 (k0_pay41 v3 k) (k0_pay18 v3' c0 c1 j) := by
  have h : ∀ a x, ((![k0_pay18 v3' c0 c1 j, k0_pay41 v3 k] : Fin 2 → IVec S16 32) a x).toNat < S64x128.size a := by
    intro a x
    match a with
    | ⟨0, _⟩ => exact dv2_lt_1 v3' c0 c1 j x
    | ⟨1, _⟩ => exact v50_lt_1 v3 hv3 k x
  exact ⟨h, h⟩
theorem chk14_ok (v54 : Vec F S16 .i32) (h54 : ∀ x, (v54 x).toNat < 1000) (v3' : IVec S16 32) (c0 c1 : BitVec 32) (j : Fin k0_t4_loop.trips) : k0_chk14 (addi (k0_pay42 v54) (k0_pay18 v3' c0 c1 j)) := by
  intro a x
  match a with
  | ⟨0, _⟩ => exact rela_lt _ _ (h54 x) (dv2_lt_1 v3' c0 c1 j x)
theorem chk15_ok (v3 : IVec S16 32) (hv3 : ∀ x, (v3 x).toNat < 16) (k : Fin k0_t3_loop.trips) (v115 : IVec S16 32) : k0_chk15 (k0_pay41 v3 k) (k0_pay44 v3 v115) := by
  have h : ∀ a x, ((![k0_pay44 v3 v115, k0_pay41 v3 k] : Fin 2 → IVec S16 32) a x).toNat < S64x128.size a := by
    intro a x
    match a with
    | ⟨0, _⟩ => exact dv3_lt_1 v3 v115 x
    | ⟨1, _⟩ => exact v50_lt_1 v3 hv3 k x
  exact ⟨h, h⟩
theorem chk16_ok (v54 : Vec F S16 .i32) (h54 : ∀ x, (v54 x).toNat < 1000) (v3 : IVec S16 32) (v115 : IVec S16 32) : k0_chk16 (addi (k0_pay42 v54) (k0_pay44 v3 v115)) := by
  intro a x
  match a with
  | ⟨0, _⟩ => exact rela_lt _ _ (h54 x) (dv3_lt_1 v3 v115 x)

/-! ### Column block 2 -/
theorem trips_k0_t5 : k0_t5_loop.trips = 8 := by decide
theorem trips_k0_t6 : k0_t6_loop.trips = 16 := by decide

theorem v50_lt_2 (v3 : IVec S16 32) (hv3 : ∀ x, (v3 x).toNat < 16) (k : Fin k0_t5_loop.trips) (x : S16.Idx) : ((k0_pay47 v3 k) x).toNat < 128 :=
  blane_lt k.val (Nat.lt_of_lt_of_le k.isLt (Nat.le_of_eq trips_k0_t5)) _ (hv3 x)
theorem dv0_lt_2 (v3 : IVec S16 32) (c0 c1 : BitVec 32) (j : Fin k0_t6_loop.trips) (x : S16.Idx) : (k0_pay21 v3 c0 c1 j x).toNat < 64 := and63_lt _
theorem dv1_lt_2 (v3 : IVec S16 32) (c0 c1 : BitVec 32) (j : Fin k0_t6_loop.trips) (x : S16.Idx) : (k0_pay23 v3 c0 c1 j x).toNat < 64 := and63_lt _
theorem dv2_lt_2 (v3 : IVec S16 32) (c0 c1 : BitVec 32) (j : Fin k0_t6_loop.trips) (x : S16.Idx) : (k0_pay25 v3 c0 c1 j x).toNat < 64 := and63_lt _
theorem dv3_lt_2 (v3 : IVec S16 32) (v115 : IVec S16 32) (x : S16.Idx) : ((k0_pay50 v3 v115) x).toNat < 64 := and63_lt _
theorem chk17_ok (v3 : IVec S16 32) (hv3 : ∀ x, (v3 x).toNat < 16) (k : Fin k0_t5_loop.trips) (v3' : IVec S16 32) (c0 c1 : BitVec 32) (j : Fin k0_t6_loop.trips) : k0_chk17 (k0_pay47 v3 k) (k0_pay21 v3' c0 c1 j) := by
  have h : ∀ a x, ((![k0_pay21 v3' c0 c1 j, k0_pay47 v3 k] : Fin 2 → IVec S16 32) a x).toNat < S64x128.size a := by
    intro a x
    match a with
    | ⟨0, _⟩ => exact dv0_lt_2 v3' c0 c1 j x
    | ⟨1, _⟩ => exact v50_lt_2 v3 hv3 k x
  exact ⟨h, h⟩
theorem chk18_ok (v54 : Vec F S16 .i32) (h54 : ∀ x, (v54 x).toNat < 1000) (v3' : IVec S16 32) (c0 c1 : BitVec 32) (j : Fin k0_t6_loop.trips) : k0_chk18 (addi (k0_pay48 v54) (k0_pay21 v3' c0 c1 j)) := by
  intro a x
  match a with
  | ⟨0, _⟩ => exact rela_lt _ _ (h54 x) (dv0_lt_2 v3' c0 c1 j x)
theorem chk19_ok (v3 : IVec S16 32) (hv3 : ∀ x, (v3 x).toNat < 16) (k : Fin k0_t5_loop.trips) (v3' : IVec S16 32) (c0 c1 : BitVec 32) (j : Fin k0_t6_loop.trips) : k0_chk19 (k0_pay47 v3 k) (k0_pay23 v3' c0 c1 j) := by
  have h : ∀ a x, ((![k0_pay23 v3' c0 c1 j, k0_pay47 v3 k] : Fin 2 → IVec S16 32) a x).toNat < S64x128.size a := by
    intro a x
    match a with
    | ⟨0, _⟩ => exact dv1_lt_2 v3' c0 c1 j x
    | ⟨1, _⟩ => exact v50_lt_2 v3 hv3 k x
  exact ⟨h, h⟩
theorem chk20_ok (v54 : Vec F S16 .i32) (h54 : ∀ x, (v54 x).toNat < 1000) (v3' : IVec S16 32) (c0 c1 : BitVec 32) (j : Fin k0_t6_loop.trips) : k0_chk20 (addi (k0_pay48 v54) (k0_pay23 v3' c0 c1 j)) := by
  intro a x
  match a with
  | ⟨0, _⟩ => exact rela_lt _ _ (h54 x) (dv1_lt_2 v3' c0 c1 j x)
theorem chk21_ok (v3 : IVec S16 32) (hv3 : ∀ x, (v3 x).toNat < 16) (k : Fin k0_t5_loop.trips) (v3' : IVec S16 32) (c0 c1 : BitVec 32) (j : Fin k0_t6_loop.trips) : k0_chk21 (k0_pay47 v3 k) (k0_pay25 v3' c0 c1 j) := by
  have h : ∀ a x, ((![k0_pay25 v3' c0 c1 j, k0_pay47 v3 k] : Fin 2 → IVec S16 32) a x).toNat < S64x128.size a := by
    intro a x
    match a with
    | ⟨0, _⟩ => exact dv2_lt_2 v3' c0 c1 j x
    | ⟨1, _⟩ => exact v50_lt_2 v3 hv3 k x
  exact ⟨h, h⟩
theorem chk22_ok (v54 : Vec F S16 .i32) (h54 : ∀ x, (v54 x).toNat < 1000) (v3' : IVec S16 32) (c0 c1 : BitVec 32) (j : Fin k0_t6_loop.trips) : k0_chk22 (addi (k0_pay48 v54) (k0_pay25 v3' c0 c1 j)) := by
  intro a x
  match a with
  | ⟨0, _⟩ => exact rela_lt _ _ (h54 x) (dv2_lt_2 v3' c0 c1 j x)
theorem chk23_ok (v3 : IVec S16 32) (hv3 : ∀ x, (v3 x).toNat < 16) (k : Fin k0_t5_loop.trips) (v115 : IVec S16 32) : k0_chk23 (k0_pay47 v3 k) (k0_pay50 v3 v115) := by
  have h : ∀ a x, ((![k0_pay50 v3 v115, k0_pay47 v3 k] : Fin 2 → IVec S16 32) a x).toNat < S64x128.size a := by
    intro a x
    match a with
    | ⟨0, _⟩ => exact dv3_lt_2 v3 v115 x
    | ⟨1, _⟩ => exact v50_lt_2 v3 hv3 k x
  exact ⟨h, h⟩
theorem chk24_ok (v54 : Vec F S16 .i32) (h54 : ∀ x, (v54 x).toNat < 1000) (v3 : IVec S16 32) (v115 : IVec S16 32) : k0_chk24 (addi (k0_pay48 v54) (k0_pay50 v3 v115)) := by
  intro a x
  match a with
  | ⟨0, _⟩ => exact rela_lt _ _ (h54 x) (dv3_lt_2 v3 v115 x)

/-! ### Column block 3 -/
theorem trips_k0_t7 : k0_t7_loop.trips = 8 := by decide
theorem trips_k0_t8 : k0_t8_loop.trips = 16 := by decide

theorem v50_lt_3 (v3 : IVec S16 32) (hv3 : ∀ x, (v3 x).toNat < 16) (k : Fin k0_t7_loop.trips) (x : S16.Idx) : ((k0_pay1 v3 k) x).toNat < 128 :=
  blane_lt k.val (Nat.lt_of_lt_of_le k.isLt (Nat.le_of_eq trips_k0_t7)) _ (hv3 x)
theorem dv0_lt_3 (v3 : IVec S16 32) (c0 c1 : BitVec 32) (j : Fin k0_t8_loop.trips) (x : S16.Idx) : (k0_pay28 v3 c0 c1 j x).toNat < 64 := and63_lt _
theorem dv1_lt_3 (v3 : IVec S16 32) (c0 c1 : BitVec 32) (j : Fin k0_t8_loop.trips) (x : S16.Idx) : (k0_pay30 v3 c0 c1 j x).toNat < 64 := and63_lt _
theorem dv2_lt_3 (v3 : IVec S16 32) (c0 c1 : BitVec 32) (j : Fin k0_t8_loop.trips) (x : S16.Idx) : (k0_pay32 v3 c0 c1 j x).toNat < 64 := and63_lt _
theorem dv3_lt_3 (v3 : IVec S16 32) (v115 : IVec S16 32) (x : S16.Idx) : ((k0_pay4 v3 v115) x).toNat < 64 := and63_lt _
theorem chk25_ok (v3 : IVec S16 32) (hv3 : ∀ x, (v3 x).toNat < 16) (k : Fin k0_t7_loop.trips) (v3' : IVec S16 32) (c0 c1 : BitVec 32) (j : Fin k0_t8_loop.trips) : k0_chk25 (k0_pay1 v3 k) (k0_pay28 v3' c0 c1 j) := by
  have h : ∀ a x, ((![k0_pay28 v3' c0 c1 j, k0_pay1 v3 k] : Fin 2 → IVec S16 32) a x).toNat < S64x128.size a := by
    intro a x
    match a with
    | ⟨0, _⟩ => exact dv0_lt_3 v3' c0 c1 j x
    | ⟨1, _⟩ => exact v50_lt_3 v3 hv3 k x
  exact ⟨h, h⟩
theorem chk26_ok (v54 : Vec F S16 .i32) (h54 : ∀ x, (v54 x).toNat < 1000) (v3' : IVec S16 32) (c0 c1 : BitVec 32) (j : Fin k0_t8_loop.trips) : k0_chk26 (addi (k0_pay2 v54) (k0_pay28 v3' c0 c1 j)) := by
  intro a x
  match a with
  | ⟨0, _⟩ => exact rela_lt _ _ (h54 x) (dv0_lt_3 v3' c0 c1 j x)
theorem chk27_ok (v3 : IVec S16 32) (hv3 : ∀ x, (v3 x).toNat < 16) (k : Fin k0_t7_loop.trips) (v3' : IVec S16 32) (c0 c1 : BitVec 32) (j : Fin k0_t8_loop.trips) : k0_chk27 (k0_pay1 v3 k) (k0_pay30 v3' c0 c1 j) := by
  have h : ∀ a x, ((![k0_pay30 v3' c0 c1 j, k0_pay1 v3 k] : Fin 2 → IVec S16 32) a x).toNat < S64x128.size a := by
    intro a x
    match a with
    | ⟨0, _⟩ => exact dv1_lt_3 v3' c0 c1 j x
    | ⟨1, _⟩ => exact v50_lt_3 v3 hv3 k x
  exact ⟨h, h⟩
theorem chk28_ok (v54 : Vec F S16 .i32) (h54 : ∀ x, (v54 x).toNat < 1000) (v3' : IVec S16 32) (c0 c1 : BitVec 32) (j : Fin k0_t8_loop.trips) : k0_chk28 (addi (k0_pay2 v54) (k0_pay30 v3' c0 c1 j)) := by
  intro a x
  match a with
  | ⟨0, _⟩ => exact rela_lt _ _ (h54 x) (dv1_lt_3 v3' c0 c1 j x)
theorem chk29_ok (v3 : IVec S16 32) (hv3 : ∀ x, (v3 x).toNat < 16) (k : Fin k0_t7_loop.trips) (v3' : IVec S16 32) (c0 c1 : BitVec 32) (j : Fin k0_t8_loop.trips) : k0_chk29 (k0_pay1 v3 k) (k0_pay32 v3' c0 c1 j) := by
  have h : ∀ a x, ((![k0_pay32 v3' c0 c1 j, k0_pay1 v3 k] : Fin 2 → IVec S16 32) a x).toNat < S64x128.size a := by
    intro a x
    match a with
    | ⟨0, _⟩ => exact dv2_lt_3 v3' c0 c1 j x
    | ⟨1, _⟩ => exact v50_lt_3 v3 hv3 k x
  exact ⟨h, h⟩
theorem chk30_ok (v54 : Vec F S16 .i32) (h54 : ∀ x, (v54 x).toNat < 1000) (v3' : IVec S16 32) (c0 c1 : BitVec 32) (j : Fin k0_t8_loop.trips) : k0_chk30 (addi (k0_pay2 v54) (k0_pay32 v3' c0 c1 j)) := by
  intro a x
  match a with
  | ⟨0, _⟩ => exact rela_lt _ _ (h54 x) (dv2_lt_3 v3' c0 c1 j x)
theorem chk31_ok (v3 : IVec S16 32) (hv3 : ∀ x, (v3 x).toNat < 16) (k : Fin k0_t7_loop.trips) (v115 : IVec S16 32) : k0_chk31 (k0_pay1 v3 k) (k0_pay4 v3 v115) := by
  have h : ∀ a x, ((![k0_pay4 v3 v115, k0_pay1 v3 k] : Fin 2 → IVec S16 32) a x).toNat < S64x128.size a := by
    intro a x
    match a with
    | ⟨0, _⟩ => exact dv3_lt_3 v3 v115 x
    | ⟨1, _⟩ => exact v50_lt_3 v3 hv3 k x
  exact ⟨h, h⟩
theorem chk32_ok (v54 : Vec F S16 .i32) (h54 : ∀ x, (v54 x).toNat < 1000) (v3 : IVec S16 32) (v115 : IVec S16 32) : k0_chk32 (addi (k0_pay2 v54) (k0_pay4 v3 v115)) := by
  intro a x
  match a with
  | ⟨0, _⟩ => exact rela_lt _ _ (h54 x) (dv3_lt_3 v3 v115 x)

end Cert.Kernel.Hand
end
-- ==== Proof.ScopedK.lean ====
/-
  A vector subcore's own buffers and semaphores, split into the ones the kernel names and the rest:
  the seven scratch buffers, each whole at some contents, and the five DMA semaphores, each at zero.
-/
import proofs.«205645_g18588618457683_cont_8to1_1834_20_alg».proof.Proof.SharedK

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The subcore's own buffers other than the seven scratch buffers, each whole at some contents. -/
def restBufs (d : Dev nD) (L : grid0.Coords) : sProp 𝕄 :=
  bigSep ((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6))
    fun b => iprop(∃ f, ((d, b) : Loc nD τ sig) ↦{fullShare} f)

/-- The subcore's own semaphores other than the five DMA semaphores, each at zero. -/
def restSems (d : Dev nD) (L : grid0.Coords) : sProp 𝕄 :=
  bigSep ((((((ownCells (thr d L)).erase ((thr d L, SemLoc.dma cc0_scratch7.sem) : GSem nD τ sig)).erase ((thr d L, SemLoc.dma cc0_scratch8.sem) : GSem nD τ sig)).erase ((thr d L, SemLoc.dma cc0_scratch9.sem) : GSem nD τ sig)).erase ((thr d L, SemLoc.dma cc0_scoped0.sem) : GSem nD τ sig)).erase ((thr d L, SemLoc.dma cc0_scoped1.sem) : GSem nD τ sig))
    fun g => semVal g 0

theorem ownSems0_V (d : Dev nD) (L : grid0.Coords) :
    (ownSems0 (thr d L) : sProp 𝕄)
      = iprop(semVal (thr d L, SemLoc.dma cc0_scratch7.sem) 0
          ∗ semVal (thr d L, SemLoc.dma cc0_scratch8.sem) 0
          ∗ semVal (thr d L, SemLoc.dma cc0_scratch9.sem) 0
          ∗ semVal (thr d L, SemLoc.dma cc0_scoped0.sem) 0
          ∗ semVal (thr d L, SemLoc.dma cc0_scoped1.sem) 0
          ∗ restSems d L) := by
  unfold SparseCore.Cfg.ownSems0 restSems
  rw [SparseCore.bigSep_erase' ((mem_ownCells (g := ((thr d L, SemLoc.dma cc0_scratch7.sem) : GSem nD τ sig))).mpr ⟨rfl, by show (SemLoc.dma cc0_scratch7.sem : SemLoc sig).isScoped .scVector = true; decide⟩),
    SparseCore.bigSep_erase' (Finset.mem_erase.mpr ⟨fun e => absurd (congrArg Prod.snd e) (show (SemLoc.dma cc0_scratch8.sem : SemLoc sig) ≠ SemLoc.dma cc0_scratch7.sem by decide), (mem_ownCells (g := ((thr d L, SemLoc.dma cc0_scratch8.sem) : GSem nD τ sig))).mpr ⟨rfl, by show (SemLoc.dma cc0_scratch8.sem : SemLoc sig).isScoped .scVector = true; decide⟩⟩),
    SparseCore.bigSep_erase' (Finset.mem_erase.mpr ⟨fun e => absurd (congrArg Prod.snd e) (show (SemLoc.dma cc0_scratch9.sem : SemLoc sig) ≠ SemLoc.dma cc0_scratch8.sem by decide), Finset.mem_erase.mpr ⟨fun e => absurd (congrArg Prod.snd e) (show (SemLoc.dma cc0_scratch9.sem : SemLoc sig) ≠ SemLoc.dma cc0_scratch7.sem by decide), (mem_ownCells (g := ((thr d L, SemLoc.dma cc0_scratch9.sem) : GSem nD τ sig))).mpr ⟨rfl, by show (SemLoc.dma cc0_scratch9.sem : SemLoc sig).isScoped .scVector = true; decide⟩⟩⟩),
    SparseCore.bigSep_erase' (Finset.mem_erase.mpr ⟨fun e => absurd (congrArg Prod.snd e) (show (SemLoc.dma cc0_scoped0.sem : SemLoc sig) ≠ SemLoc.dma cc0_scratch9.sem by decide), Finset.mem_erase.mpr ⟨fun e => absurd (congrArg Prod.snd e) (show (SemLoc.dma cc0_scoped0.sem : SemLoc sig) ≠ SemLoc.dma cc0_scratch8.sem by decide), Finset.mem_erase.mpr ⟨fun e => absurd (congrArg Prod.snd e) (show (SemLoc.dma cc0_scoped0.sem : SemLoc sig) ≠ SemLoc.dma cc0_scratch7.sem by decide), (mem_ownCells (g := ((thr d L, SemLoc.dma cc0_scoped0.sem) : GSem nD τ sig))).mpr ⟨rfl, by show (SemLoc.dma cc0_scoped0.sem : SemLoc sig).isScoped .scVector = true; decide⟩⟩⟩⟩),
    SparseCore.bigSep_erase' (Finset.mem_erase.mpr ⟨fun e => absurd (congrArg Prod.snd e) (show (SemLoc.dma cc0_scoped1.sem : SemLoc sig) ≠ SemLoc.dma cc0_scoped0.sem by decide), Finset.mem_erase.mpr ⟨fun e => absurd (congrArg Prod.snd e) (show (SemLoc.dma cc0_scoped1.sem : SemLoc sig) ≠ SemLoc.dma cc0_scratch9.sem by decide), Finset.mem_erase.mpr ⟨fun e => absurd (congrArg Prod.snd e) (show (SemLoc.dma cc0_scoped1.sem : SemLoc sig) ≠ SemLoc.dma cc0_scratch8.sem by decide), Finset.mem_erase.mpr ⟨fun e => absurd (congrArg Prod.snd e) (show (SemLoc.dma cc0_scoped1.sem : SemLoc sig) ≠ SemLoc.dma cc0_scratch7.sem by decide), (mem_ownCells (g := ((thr d L, SemLoc.dma cc0_scoped1.sem) : GSem nD τ sig))).mpr ⟨rfl, by show (SemLoc.dma cc0_scoped1.sem : SemLoc sig).isScoped .scVector = true; decide⟩⟩⟩⟩⟩)]

theorem ownBufs_V (d : Dev nD) (L : grid0.Coords) :
    (ownBufs (thr d L) : sProp 𝕄)
      = iprop((∃ f, (thr d L).loc cc0_scratch0 ↦{fullShare} f)
          ∗ (∃ f, (thr d L).loc cc0_scratch1 ↦{fullShare} f)
          ∗ (∃ f, (thr d L).loc cc0_scratch2 ↦{fullShare} f)
          ∗ (∃ f, (thr d L).loc cc0_scratch3 ↦{fullShare} f)
          ∗ (∃ f, (thr d L).loc cc0_scratch4 ↦{fullShare} f)
          ∗ (∃ f, (thr d L).loc cc0_scratch5 ↦{fullShare} f)
          ∗ (∃ f, (thr d L).loc cc0_scratch6 ↦{fullShare} f)
          ∗ restBufs d L) := by
  unfold SparseCore.Cfg.ownBufs restBufs
  refine (SparseCore.bigSep_erase' (SparseCore.Cfg.mem_ownRefs_of_owner (p := (Proc.scVector (cV L) (jV L))) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := (Proc.scVector (cV L) (jV L))) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := (Proc.scVector (cV L) (jV L))) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := (Proc.scVector (cV L) (jV L))) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := (Proc.scVector (cV L) (jV L))) (b := ((Proc.scVector (cV L) (jV L)).devRef cc0_scratch4)) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := (Proc.scVector (cV L) (jV L))) (b := ((Proc.scVector (cV L) (jV L)).devRef cc0_scratch5)) rfl⟩⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch1 by decide), Finset.mem_erase.mpr ⟨fun e => absurd (Proc.devRef_injective _ e) (show (cc0_scratch6 : Ref sig .scVector) ≠ cc0_scratch0 by decide), SparseCore.Cfg.mem_ownRefs_of_owner (p := (Proc.scVector (cV L) (jV L))) (b := ((Proc.scVector (cV L) (jV L)).devRef cc0_scratch6)) rfl⟩⟩⟩⟩⟩⟩)]

/-! A scratch buffer named through the whole-buffer view, as the program reads it, is the buffer. -/

theorem pts_s0 (d : Dev nD) (L : grid0.Coords) (f : Buf (Elt F) ((thr d L).loc cc0_scratch0)) :
    (((Memref.whole cc0_scratch0 : Memref sig .scVector .vmem S64000 .f32)).view.loc (thr d L) ↦{fullShare} f : sProp 𝕄)
      = ((thr d L).loc cc0_scratch0 ↦{fullShare} f) := rfl
theorem pts_s1 (d : Dev nD) (L : grid0.Coords) (f : Buf (Elt F) ((thr d L).loc cc0_scratch1)) :
    (((Memref.whole cc0_scratch1 : Memref sig .scVector .vmem S512 .i32)).view.loc (thr d L) ↦{fullShare} f : sProp 𝕄)
      = ((thr d L).loc cc0_scratch1 ↦{fullShare} f) := rfl
theorem pts_s2 (d : Dev nD) (L : grid0.Coords) (f : Buf (Elt F) ((thr d L).loc cc0_scratch2)) :
    (((Memref.whole cc0_scratch2 : Memref sig .scVector .vmem S512 .f32)).view.loc (thr d L) ↦{fullShare} f : sProp 𝕄)
      = ((thr d L).loc cc0_scratch2 ↦{fullShare} f) := rfl
theorem pts_s3 (d : Dev nD) (L : grid0.Coords) (f : Buf (Elt F) ((thr d L).loc cc0_scratch3)) :
    (((Memref.whole cc0_scratch3 : Memref sig .scVector .vmem S64x128 .f32)).view.loc (thr d L) ↦{fullShare} f : sProp 𝕄)
      = ((thr d L).loc cc0_scratch3 ↦{fullShare} f) := rfl
theorem pts_s4 (d : Dev nD) (L : grid0.Coords) (f : Buf (Elt F) ((thr d L).loc cc0_scratch4)) :
    (((Memref.whole cc0_scratch4 : Memref sig .scVector .vmem S64x128 .f32)).view.loc (thr d L) ↦{fullShare} f : sProp 𝕄)
      = ((thr d L).loc cc0_scratch4 ↦{fullShare} f) := rfl
theorem pts_s5 (d : Dev nD) (L : grid0.Coords) (f : Buf (Elt F) ((thr d L).loc cc0_scratch5)) :
    (((Memref.whole cc0_scratch5 : Memref sig .scVector .vmem S64x128 .f32)).view.loc (thr d L) ↦{fullShare} f : sProp 𝕄)
      = ((thr d L).loc cc0_scratch5 ↦{fullShare} f) := rfl
theorem pts_s6 (d : Dev nD) (L : grid0.Coords) (f : Buf (Elt F) ((thr d L).loc cc0_scratch6)) :
    (((Memref.whole cc0_scratch6 : Memref sig .scVector .vmem S64x128 .f32)).view.loc (thr d L) ↦{fullShare} f : sProp 𝕄)
      = ((thr d L).loc cc0_scratch6 ↦{fullShare} f) := rfl

end Cert.Kernel.Hand

end
-- ==== Proof.ClosureK.lean ====
/-
  The value facts the body's loops need, stated once for both float instances: how one trip of a group's coordinate
  loop changes the four running sums of a group (the three gathers of each slot: the head block and the tail block at
  (coordinate, column), the table at 64 · relation + coordinate), and how a finished group's scores enter the score
  buffer. A run of the body carries a predicate on the running sums and one on the score buffer through its loops;
  these propositions say the predicates are kept.
-/
import proofs.«205645_g18588618457683_cont_8to1_1834_20_alg».proof.Proof.SharedK
import proofs.«205645_g18588618457683_cont_8to1_1834_20_alg».proof.Proof.ContentsK

noncomputable section

namespace Cert.Kernel.Hand

open Cert.Kernel Cert.Kernel.Gen
open Idealize.ShloMosaic
open Idealize.ShloMosaic.SparseCore (S V T)

variable {F : FTy → Type} [FloatOps F]

abbrev Acc4 (F : FTy → Type) : Type := FVec F S16 .f32 × FVec F S16 .f32 × FVec F S16 .f32 × FVec F S16 .f32

section
variable (d : Dev nD) (L : grid0.Coords)
variable (H : Buf (Elt F) (hLoc d)) (I : Buf (Elt F) (iLoc d)) (T : Buf (Elt F) (tLoc d)) (B : Buf (Elt F) (bLoc d))
variable (AccP : Fin 4 → Nat → Nat → Acc4 F → Prop) (OutP : Nat → Buf (Elt F) ((s2).view.loc (thr d L)) → Prop)

/-- Column block 0: the running sums start at zero; -/
def AccInit0 : Prop := ∀ k : Nat, AccP 0 k 0 (k0_pay37 (F := F), k0_pay37 (F := F), k0_pay37 (F := F), k0_pay37 (F := F))
/-- one trip adds to each of the four sums its slot's term; -/
def AccStep0 : Prop := ∀ (k : Fin k0_t1_loop.trips) (j : Fin k0_t2_loop.trips) (a0 a1 a2 a3 : FVec F S16 .f32) (hA0 : ∀ a x, ((![k0_pay7 (iota .scVector S16 32 [0] iota_S16_d0_w32_scVector) 0#32 1#32 j, k0_pay35 k] : Fin 2 → IVec S16 32) a x).toNat < S64x128.size a) (hT0 : ∀ a x, ((![addi (k0_pay36 ((s1).view.readAt (Elt F) (Rect.unit (s := S512) (k0_off3 k) S16.size (k0_off3_inb k)).toLoadRect (cIdx d L I))) (k0_pay7 (iota .scVector S16 32 [0] iota_S16_d0_w32_scVector) 0#32 1#32 j)] : Fin 1 → IVec S16 32) a x).toNat < S64000.size a) (hA1 : ∀ a x, ((![k0_pay9 (iota .scVector S16 32 [0] iota_S16_d0_w32_scVector) 0#32 1#32 j, k0_pay35 k] : Fin 2 → IVec S16 32) a x).toNat < S64x128.size a) (hT1 : ∀ a x, ((![addi (k0_pay36 ((s1).view.readAt (Elt F) (Rect.unit (s := S512) (k0_off3 k) S16.size (k0_off3_inb k)).toLoadRect (cIdx d L I))) (k0_pay9 (iota .scVector S16 32 [0] iota_S16_d0_w32_scVector) 0#32 1#32 j)] : Fin 1 → IVec S16 32) a x).toNat < S64000.size a) (hA2 : ∀ a x, ((![k0_pay11 (iota .scVector S16 32 [0] iota_S16_d0_w32_scVector) 0#32 1#32 j, k0_pay35 k] : Fin 2 → IVec S16 32) a x).toNat < S64x128.size a) (hT2 : ∀ a x, ((![addi (k0_pay36 ((s1).view.readAt (Elt F) (Rect.unit (s := S512) (k0_off3 k) S16.size (k0_off3_inb k)).toLoadRect (cIdx d L I))) (k0_pay11 (iota .scVector S16 32 [0] iota_S16_d0_w32_scVector) 0#32 1#32 j)] : Fin 1 → IVec S16 32) a x).toNat < S64000.size a) (hA3 : ∀ a x, ((![k0_pay38 (k0_pay13 0#32 1#32 j), k0_pay35 k] : Fin 2 → IVec S16 32) a x).toNat < S64x128.size a) (hT3 : ∀ a x, ((![addi (k0_pay36 ((s1).view.readAt (Elt F) (Rect.unit (s := S512) (k0_off3 k) S16.size (k0_off3_inb k)).toLoadRect (cIdx d L I))) (k0_pay38 (k0_pay13 0#32 1#32 j))] : Fin 1 → IVec S16 32) a x).toNat < S64000.size a),
    AccP 0 k.val j.val (a0, a1, a2, a3) → AccP 0 k.val (j.val + 1) (k0_pay8 a0 (loadIdx ((s3).view.readAt (Elt F) (LoadRect.whole S64x128) (cH d L H 0)) ![k0_pay7 (iota .scVector S16 32 [0] iota_S16_d0_w32_scVector) 0#32 1#32 j, k0_pay35 k] hA0) (loadIdx ((s5).view.readAt (Elt F) (LoadRect.whole S64x128) (cT d L T 0)) ![k0_pay7 (iota .scVector S16 32 [0] iota_S16_d0_w32_scVector) 0#32 1#32 j, k0_pay35 k] hA0) (loadIdx ((s0).view.readAt (Elt F) (LoadRect.whole S64000) (cTab d L B)) ![addi (k0_pay36 ((s1).view.readAt (Elt F) (Rect.unit (s := S512) (k0_off3 k) S16.size (k0_off3_inb k)).toLoadRect (cIdx d L I))) (k0_pay7 (iota .scVector S16 32 [0] iota_S16_d0_w32_scVector) 0#32 1#32 j)] hT0),
      k0_pay10 a1 (loadIdx ((s3).view.readAt (Elt F) (LoadRect.whole S64x128) (cH d L H 0)) ![k0_pay9 (iota .scVector S16 32 [0] iota_S16_d0_w32_scVector) 0#32 1#32 j, k0_pay35 k] hA1) (loadIdx ((s5).view.readAt (Elt F) (LoadRect.whole S64x128) (cT d L T 0)) ![k0_pay9 (iota .scVector S16 32 [0] iota_S16_d0_w32_scVector) 0#32 1#32 j, k0_pay35 k] hA1) (loadIdx ((s0).view.readAt (Elt F) (LoadRect.whole S64000) (cTab d L B)) ![addi (k0_pay36 ((s1).view.readAt (Elt F) (Rect.unit (s := S512) (k0_off3 k) S16.size (k0_off3_inb k)).toLoadRect (cIdx d L I))) (k0_pay9 (iota .scVector S16 32 [0] iota_S16_d0_w32_scVector) 0#32 1#32 j)] hT1),
      k0_pay12 a2 (loadIdx ((s3).view.readAt (Elt F) (LoadRect.whole S64x128) (cH d L H 0)) ![k0_pay11 (iota .scVector S16 32 [0] iota_S16_d0_w32_scVector) 0#32 1#32 j, k0_pay35 k] hA2) (loadIdx ((s5).view.readAt (Elt F) (LoadRect.whole S64x128) (cT d L T 0)) ![k0_pay11 (iota .scVector S16 32 [0] iota_S16_d0_w32_scVector) 0#32 1#32 j, k0_pay35 k] hA2) (loadIdx ((s0).view.readAt (Elt F) (LoadRect.whole S64000) (cTab d L B)) ![addi (k0_pay36 ((s1).view.readAt (Elt F) (Rect.unit (s := S512) (k0_off3 k) S16.size (k0_off3_inb k)).toLoadRect (cIdx d L I))) (k0_pay11 (iota .scVector S16 32 [0] iota_S16_d0_w32_scVector) 0#32 1#32 j)] hT2),
      k0_pay39 a3 (loadIdx ((s3).view.readAt (Elt F) (LoadRect.whole S64x128) (cH d L H 0)) ![k0_pay38 (k0_pay13 0#32 1#32 j), k0_pay35 k] hA3) (loadIdx ((s5).view.readAt (Elt F) (LoadRect.whole S64x128) (cT d L T 0)) ![k0_pay38 (k0_pay13 0#32 1#32 j), k0_pay35 k] hA3) (loadIdx ((s0).view.readAt (Elt F) (LoadRect.whole S64000) (cTab d L B)) ![addi (k0_pay36 ((s1).view.readAt (Elt F) (Rect.unit (s := S512) (k0_off3 k) S16.size (k0_off3_inb k)).toLoadRect (cIdx d L I))) (k0_pay38 (k0_pay13 0#32 1#32 j))] hT3))
/-- and a finished group's sixteen scores are stored at the group's place in the score buffer. -/
def OutStep0 : Prop := ∀ (k : Fin k0_t1_loop.trips) (f2 : Buf (Elt F) ((s2).view.loc (thr d L))) (w0 w1 w2 w3 : FVec F S16 .f32),
    OutP (0 + k.val) f2 → AccP 0 k.val 16 (w0, w1, w2, w3) →
    OutP (0 + k.val + 1) ((s2).view.writes (Elt F) f2 [⟨Rect.unit (s := S512) (k0_off4 k) S16.size (k0_off4_inb k), k0_pay40 w0 w1 w2 w3⟩])

/-- Column block 1: the running sums start at zero; -/
def AccInit1 : Prop := ∀ k : Nat, AccP 1 k 0 (k0_pay43 (F := F), k0_pay43 (F := F), k0_pay43 (F := F), k0_pay43 (F := F))
/-- one trip adds to each of the four sums its slot's term; -/
def AccStep1 : Prop := ∀ (k : Fin k0_t3_loop.trips) (j : Fin k0_t4_loop.trips) (a0 a1 a2 a3 : FVec F S16 .f32) (hA0 : ∀ a x, ((![k0_pay14 (iota .scVector S16 32 [0] iota_S16_d0_w32_scVector) 0#32 1#32 j, k0_pay41 (iota .scVector S16 32 [0] iota_S16_d0_w32_scVector) k] : Fin 2 → IVec S16 32) a x).toNat < S64x128.size a) (hT0 : ∀ a x, ((![addi (k0_pay42 ((s1).view.readAt (Elt F) (Rect.unit (s := S512) (k0_off5 k) S16.size (k0_off5_inb k)).toLoadRect (cIdx d L I))) (k0_pay14 (iota .scVector S16 32 [0] iota_S16_d0_w32_scVector) 0#32 1#32 j)] : Fin 1 → IVec S16 32) a x).toNat < S64000.size a) (hA1 : ∀ a x, ((![k0_pay16 (iota .scVector S16 32 [0] iota_S16_d0_w32_scVector) 0#32 1#32 j, k0_pay41 (iota .scVector S16 32 [0] iota_S16_d0_w32_scVector) k] : Fin 2 → IVec S16 32) a x).toNat < S64x128.size a) (hT1 : ∀ a x, ((![addi (k0_pay42 ((s1).view.readAt (Elt F) (Rect.unit (s := S512) (k0_off5 k) S16.size (k0_off5_inb k)).toLoadRect (cIdx d L I))) (k0_pay16 (iota .scVector S16 32 [0] iota_S16_d0_w32_scVector) 0#32 1#32 j)] : Fin 1 → IVec S16 32) a x).toNat < S64000.size a) (hA2 : ∀ a x, ((![k0_pay18 (iota .scVector S16 32 [0] iota_S16_d0_w32_scVector) 0#32 1#32 j, k0_pay41 (iota .scVector S16 32 [0] iota_S16_d0_w32_scVector) k] : Fin 2 → IVec S16 32) a x).toNat < S64x128.size a) (hT2 : ∀ a x, ((![addi (k0_pay42 ((s1).view.readAt (Elt F) (Rect.unit (s := S512) (k0_off5 k) S16.size (k0_off5_inb k)).toLoadRect (cIdx d L I))) (k0_pay18 (iota .scVector S16 32 [0] iota_S16_d0_w32_scVector) 0#32 1#32 j)] : Fin 1 → IVec S16 32) a x).toNat < S64000.size a) (hA3 : ∀ a x, ((![k0_pay44 (iota .scVector S16 32 [0] iota_S16_d0_w32_scVector) (k0_pay20 0#32 1#32 j), k0_pay41 (iota .scVector S16 32 [0] iota_S16_d0_w32_scVector) k] : Fin 2 → IVec S16 32) a x).toNat < S64x128.size a) (hT3 : ∀ a x, ((![addi (k0_pay42 ((s1).view.readAt (Elt F) (Rect.unit (s := S512) (k0_off5 k) S16.size (k0_off5_inb k)).toLoadRect (cIdx d L I))) (k0_pay44 (iota .scVector S16 32 [0] iota_S16_d0_w32_scVector) (k0_pay20 0#32 1#32 j))] : Fin 1 → IVec S16 32) a x).toNat < S64000.size a),
    AccP 1 k.val j.val (a0, a1, a2, a3) → AccP 1 k.val (j.val + 1) (k0_pay15 a0 (loadIdx ((s4).view.readAt (Elt F) (LoadRect.whole S64x128) (cH d L H 1)) ![k0_pay14 (iota .scVector S16 32 [0] iota_S16_d0_w32_scVector) 0#32 1#32 j, k0_pay41 (iota .scVector S16 32 [0] iota_S16_d0_w32_scVector) k] hA0) (loadIdx ((s6).view.readAt (Elt F) (LoadRect.whole S64x128) (cT d L T 1)) ![k0_pay14 (iota .scVector S16 32 [0] iota_S16_d0_w32_scVector) 0#32 1#32 j, k0_pay41 (iota .scVector S16 32 [0] iota_S16_d0_w32_scVector) k] hA0) (loadIdx ((s0).view.readAt (Elt F) (LoadRect.whole S64000) (cTab d L B)) ![addi (k0_pay42 ((s1).view.readAt (Elt F) (Rect.unit (s := S512) (k0_off5 k) S16.size (k0_off5_inb k)).toLoadRect (cIdx d L I))) (k0_pay14 (iota .scVector S16 32 [0] iota_S16_d0_w32_scVector) 0#32 1#32 j)] hT0),
      k0_pay17 a1 (loadIdx ((s4).view.readAt (Elt F) (LoadRect.whole S64x128) (cH d L H 1)) ![k0_pay16 (iota .scVector S16 32 [0] iota_S16_d0_w32_scVector) 0#32 1#32 j, k0_pay41 (iota .scVector S16 32 [0] iota_S16_d0_w32_scVector) k] hA1) (loadIdx ((s6).view.readAt (Elt F) (LoadRect.whole S64x128) (cT d L T 1)) ![k0_pay16 (iota .scVector S16 32 [0] iota_S16_d0_w32_scVector) 0#32 1#32 j, k0_pay41 (iota .scVector S16 32 [0] iota_S16_d0_w32_scVector) k] hA1) (loadIdx ((s0).view.readAt (Elt F) (LoadRect.whole S64000) (cTab d L B)) ![addi (k0_pay42 ((s1).view.readAt (Elt F) (Rect.unit (s := S512) (k0_off5 k) S16.size (k0_off5_inb k)).toLoadRect (cIdx d L I))) (k0_pay16 (iota .scVector S16 32 [0] iota_S16_d0_w32_scVector) 0#32 1#32 j)] hT1),
      k0_pay19 a2 (loadIdx ((s4).view.readAt (Elt F) (LoadRect.whole S64x128) (cH d L H 1)) ![k0_pay18 (iota .scVector S16 32 [0] iota_S16_d0_w32_scVector) 0#32 1#32 j, k0_pay41 (iota .scVector S16 32 [0] iota_S16_d0_w32_scVector) k] hA2) (loadIdx ((s6).view.readAt (Elt F) (LoadRect.whole S64x128) (cT d L T 1)) ![k0_pay18 (iota .scVector S16 32 [0] iota_S16_d0_w32_scVector) 0#32 1#32 j, k0_pay41 (iota .scVector S16 32 [0] iota_S16_d0_w32_scVector) k] hA2) (loadIdx ((s0).view.readAt (Elt F) (LoadRect.whole S64000) (cTab d L B)) ![addi (k0_pay42 ((s1).view.readAt (Elt F) (Rect.unit (s := S512) (k0_off5 k) S16.size (k0_off5_inb k)).toLoadRect (cIdx d L I))) (k0_pay18 (iota .scVector S16 32 [0] iota_S16_d0_w32_scVector) 0#32 1#32 j)] hT2),
      k0_pay45 a3 (loadIdx ((s4).view.readAt (Elt F) (LoadRect.whole S64x128) (cH d L H 1)) ![k0_pay44 (iota .scVector S16 32 [0] iota_S16_d0_w32_scVector) (k0_pay20 0#32 1#32 j), k0_pay41 (iota .scVector S16 32 [0] iota_S16_d0_w32_scVector) k] hA3) (loadIdx ((s6).view.readAt (Elt F) (LoadRect.whole S64x128) (cT d L T 1)) ![k0_pay44 (iota .scVector S16 32 [0] iota_S16_d0_w32_scVector) (k0_pay20 0#32 1#32 j), k0_pay41 (iota .scVector S16 32 [0] iota_S16_d0_w32_scVector) k] hA3) (loadIdx ((s0).view.readAt (Elt F) (LoadRect.whole S64000) (cTab d L B)) ![addi (k0_pay42 ((s1).view.readAt (Elt F) (Rect.unit (s := S512) (k0_off5 k) S16.size (k0_off5_inb k)).toLoadRect (cIdx d L I))) (k0_pay44 (iota .scVector S16 32 [0] iota_S16_d0_w32_scVector) (k0_pay20 0#32 1#32 j))] hT3))
/-- and a finished group's sixteen scores are stored at the group's place in the score buffer. -/
def OutStep1 : Prop := ∀ (k : Fin k0_t3_loop.trips) (f2 : Buf (Elt F) ((s2).view.loc (thr d L))) (w0 w1 w2 w3 : FVec F S16 .f32),
    OutP (8 + k.val) f2 → AccP 1 k.val 16 (w0, w1, w2, w3) →
    OutP (8 + k.val + 1) ((s2).view.writes (Elt F) f2 [⟨Rect.unit (s := S512) (k0_off6 k) S16.size (k0_off6_inb k), k0_pay46 w0 w1 w2 w3⟩])

/-- Column block 2: the running sums start at zero; -/
def AccInit2 : Prop := ∀ k : Nat, AccP 2 k 0 (k0_pay49 (F := F), k0_pay49 (F := F), k0_pay49 (F := F), k0_pay49 (F := F))
/-- one trip adds to each of the four sums its slot's term; -/
def AccStep2 : Prop := ∀ (k : Fin k0_t5_loop.trips) (j : Fin k0_t6_loop.trips) (a0 a1 a2 a3 : FVec F S16 .f32) (hA0 : ∀ a x, ((![k0_pay21 (iota .scVector S16 32 [0] iota_S16_d0_w32_scVector) 0#32 1#32 j, k0_pay47 (iota .scVector S16 32 [0] iota_S16_d0_w32_scVector) k] : Fin 2 → IVec S16 32) a x).toNat < S64x128.size a) (hT0 : ∀ a x, ((![addi (k0_pay48 ((s1).view.readAt (Elt F) (Rect.unit (s := S512) (k0_off7 k) S16.size (k0_off7_inb k)).toLoadRect (cIdx d L I))) (k0_pay21 (iota .scVector S16 32 [0] iota_S16_d0_w32_scVector) 0#32 1#32 j)] : Fin 1 → IVec S16 32) a x).toNat < S64000.size a) (hA1 : ∀ a x, ((![k0_pay23 (iota .scVector S16 32 [0] iota_S16_d0_w32_scVector) 0#32 1#32 j, k0_pay47 (iota .scVector S16 32 [0] iota_S16_d0_w32_scVector) k] : Fin 2 → IVec S16 32) a x).toNat < S64x128.size a) (hT1 : ∀ a x, ((![addi (k0_pay48 ((s1).view.readAt (Elt F) (Rect.unit (s := S512) (k0_off7 k) S16.size (k0_off7_inb k)).toLoadRect (cIdx d L I))) (k0_pay23 (iota .scVector S16 32 [0] iota_S16_d0_w32_scVector) 0#32 1#32 j)] : Fin 1 → IVec S16 32) a x).toNat < S64000.size a) (hA2 : ∀ a x, ((![k0_pay25 (iota .scVector S16 32 [0] iota_S16_d0_w32_scVector) 0#32 1#32 j, k0_pay47 (iota .scVector S16 32 [0] iota_S16_d0_w32_scVector) k] : Fin 2 → IVec S16 32) a x).toNat < S64x128.size a) (hT2 : ∀ a x, ((![addi (k0_pay48 ((s1).view.readAt (Elt F) (Rect.unit (s := S512) (k0_off7 k) S16.size (k0_off7_inb k)).toLoadRect (cIdx d L I))) (k0_pay25 (iota .scVector S16 32 [0] iota_S16_d0_w32_scVector) 0#32 1#32 j)] : Fin 1 → IVec S16 32) a x).toNat < S64000.size a) (hA3 : ∀ a x, ((![k0_pay50 (iota .scVector S16 32 [0] iota_S16_d0_w32_scVector) (k0_pay27 0#32 1#32 j), k0_pay47 (iota .scVector S16 32 [0] iota_S16_d0_w32_scVector) k] : Fin 2 → IVec S16 32) a x).toNat < S64x128.size a) (hT3 : ∀ a x, ((![addi (k0_pay48 ((s1).view.readAt (Elt F) (Rect.unit (s := S512) (k0_off7 k) S16.size (k0_off7_inb k)).toLoadRect (cIdx d L I))) (k0_pay50 (iota .scVector S16 32 [0] iota_S16_d0_w32_scVector) (k0_pay27 0#32 1#32 j))] : Fin 1 → IVec S16 32) a x).toNat < S64000.size a),
    AccP 2 k.val j.val (a0, a1, a2, a3) → AccP 2 k.val (j.val + 1) (k0_pay22 a0 (loadIdx ((s3).view.readAt (Elt F) (LoadRect.whole S64x128) (cH d L H 2)) ![k0_pay21 (iota .scVector S16 32 [0] iota_S16_d0_w32_scVector) 0#32 1#32 j, k0_pay47 (iota .scVector S16 32 [0] iota_S16_d0_w32_scVector) k] hA0) (loadIdx ((s5).view.readAt (Elt F) (LoadRect.whole S64x128) (cT d L T 2)) ![k0_pay21 (iota .scVector S16 32 [0] iota_S16_d0_w32_scVector) 0#32 1#32 j, k0_pay47 (iota .scVector S16 32 [0] iota_S16_d0_w32_scVector) k] hA0) (loadIdx ((s0).view.readAt (Elt F) (LoadRect.whole S64000) (cTab d L B)) ![addi (k0_pay48 ((s1).view.readAt (Elt F) (Rect.unit (s := S512) (k0_off7 k) S16.size (k0_off7_inb k)).toLoadRect (cIdx d L I))) (k0_pay21 (iota .scVector S16 32 [0] iota_S16_d0_w32_scVector) 0#32 1#32 j)] hT0),
      k0_pay24 a1 (loadIdx ((s3).view.readAt (Elt F) (LoadRect.whole S64x128) (cH d L H 2)) ![k0_pay23 (iota .scVector S16 32 [0] iota_S16_d0_w32_scVector) 0#32 1#32 j, k0_pay47 (iota .scVector S16 32 [0] iota_S16_d0_w32_scVector) k] hA1) (loadIdx ((s5).view.readAt (Elt F) (LoadRect.whole S64x128) (cT d L T 2)) ![k0_pay23 (iota .scVector S16 32 [0] iota_S16_d0_w32_scVector) 0#32 1#32 j, k0_pay47 (iota .scVector S16 32 [0] iota_S16_d0_w32_scVector) k] hA1) (loadIdx ((s0).view.readAt (Elt F) (LoadRect.whole S64000) (cTab d L B)) ![addi (k0_pay48 ((s1).view.readAt (Elt F) (Rect.unit (s := S512) (k0_off7 k) S16.size (k0_off7_inb k)).toLoadRect (cIdx d L I))) (k0_pay23 (iota .scVector S16 32 [0] iota_S16_d0_w32_scVector) 0#32 1#32 j)] hT1),
      k0_pay26 a2 (loadIdx ((s3).view.readAt (Elt F) (LoadRect.whole S64x128) (cH d L H 2)) ![k0_pay25 (iota .scVector S16 32 [0] iota_S16_d0_w32_scVector) 0#32 1#32 j, k0_pay47 (iota .scVector S16 32 [0] iota_S16_d0_w32_scVector) k] hA2) (loadIdx ((s5).view.readAt (Elt F) (LoadRect.whole S64x128) (cT d L T 2)) ![k0_pay25 (iota .scVector S16 32 [0] iota_S16_d0_w32_scVector) 0#32 1#32 j, k0_pay47 (iota .scVector S16 32 [0] iota_S16_d0_w32_scVector) k] hA2) (loadIdx ((s0).view.readAt (Elt F) (LoadRect.whole S64000) (cTab d L B)) ![addi (k0_pay48 ((s1).view.readAt (Elt F) (Rect.unit (s := S512) (k0_off7 k) S16.size (k0_off7_inb k)).toLoadRect (cIdx d L I))) (k0_pay25 (iota .scVector S16 32 [0] iota_S16_d0_w32_scVector) 0#32 1#32 j)] hT2),
      k0_pay51 a3 (loadIdx ((s3).view.readAt (Elt F) (LoadRect.whole S64x128) (cH d L H 2)) ![k0_pay50 (iota .scVector S16 32 [0] iota_S16_d0_w32_scVector) (k0_pay27 0#32 1#32 j), k0_pay47 (iota .scVector S16 32 [0] iota_S16_d0_w32_scVector) k] hA3) (loadIdx ((s5).view.readAt (Elt F) (LoadRect.whole S64x128) (cT d L T 2)) ![k0_pay50 (iota .scVector S16 32 [0] iota_S16_d0_w32_scVector) (k0_pay27 0#32 1#32 j), k0_pay47 (iota .scVector S16 32 [0] iota_S16_d0_w32_scVector) k] hA3) (loadIdx ((s0).view.readAt (Elt F) (LoadRect.whole S64000) (cTab d L B)) ![addi (k0_pay48 ((s1).view.readAt (Elt F) (Rect.unit (s := S512) (k0_off7 k) S16.size (k0_off7_inb k)).toLoadRect (cIdx d L I))) (k0_pay50 (iota .scVector S16 32 [0] iota_S16_d0_w32_scVector) (k0_pay27 0#32 1#32 j))] hT3))
/-- and a finished group's sixteen scores are stored at the group's place in the score buffer. -/
def OutStep2 : Prop := ∀ (k : Fin k0_t5_loop.trips) (f2 : Buf (Elt F) ((s2).view.loc (thr d L))) (w0 w1 w2 w3 : FVec F S16 .f32),
    OutP (16 + k.val) f2 → AccP 2 k.val 16 (w0, w1, w2, w3) →
    OutP (16 + k.val + 1) ((s2).view.writes (Elt F) f2 [⟨Rect.unit (s := S512) (k0_off8 k) S16.size (k0_off8_inb k), k0_pay52 w0 w1 w2 w3⟩])

/-- Column block 3: the running sums start at zero; -/
def AccInit3 : Prop := ∀ k : Nat, AccP 3 k 0 (k0_pay3 (F := F), k0_pay3 (F := F), k0_pay3 (F := F), k0_pay3 (F := F))
/-- one trip adds to each of the four sums its slot's term; -/
def AccStep3 : Prop := ∀ (k : Fin k0_t7_loop.trips) (j : Fin k0_t8_loop.trips) (a0 a1 a2 a3 : FVec F S16 .f32) (hA0 : ∀ a x, ((![k0_pay28 (iota .scVector S16 32 [0] iota_S16_d0_w32_scVector) 0#32 1#32 j, k0_pay1 (iota .scVector S16 32 [0] iota_S16_d0_w32_scVector) k] : Fin 2 → IVec S16 32) a x).toNat < S64x128.size a) (hT0 : ∀ a x, ((![addi (k0_pay2 ((s1).view.readAt (Elt F) (Rect.unit (s := S512) (k0_off9 k) S16.size (k0_off9_inb k)).toLoadRect (cIdx d L I))) (k0_pay28 (iota .scVector S16 32 [0] iota_S16_d0_w32_scVector) 0#32 1#32 j)] : Fin 1 → IVec S16 32) a x).toNat < S64000.size a) (hA1 : ∀ a x, ((![k0_pay30 (iota .scVector S16 32 [0] iota_S16_d0_w32_scVector) 0#32 1#32 j, k0_pay1 (iota .scVector S16 32 [0] iota_S16_d0_w32_scVector) k] : Fin 2 → IVec S16 32) a x).toNat < S64x128.size a) (hT1 : ∀ a x, ((![addi (k0_pay2 ((s1).view.readAt (Elt F) (Rect.unit (s := S512) (k0_off9 k) S16.size (k0_off9_inb k)).toLoadRect (cIdx d L I))) (k0_pay30 (iota .scVector S16 32 [0] iota_S16_d0_w32_scVector) 0#32 1#32 j)] : Fin 1 → IVec S16 32) a x).toNat < S64000.size a) (hA2 : ∀ a x, ((![k0_pay32 (iota .scVector S16 32 [0] iota_S16_d0_w32_scVector) 0#32 1#32 j, k0_pay1 (iota .scVector S16 32 [0] iota_S16_d0_w32_scVector) k] : Fin 2 → IVec S16 32) a x).toNat < S64x128.size a) (hT2 : ∀ a x, ((![addi (k0_pay2 ((s1).view.readAt (Elt F) (Rect.unit (s := S512) (k0_off9 k) S16.size (k0_off9_inb k)).toLoadRect (cIdx d L I))) (k0_pay32 (iota .scVector S16 32 [0] iota_S16_d0_w32_scVector) 0#32 1#32 j)] : Fin 1 → IVec S16 32) a x).toNat < S64000.size a) (hA3 : ∀ a x, ((![k0_pay4 (iota .scVector S16 32 [0] iota_S16_d0_w32_scVector) (k0_pay34 0#32 1#32 j), k0_pay1 (iota .scVector S16 32 [0] iota_S16_d0_w32_scVector) k] : Fin 2 → IVec S16 32) a x).toNat < S64x128.size a) (hT3 : ∀ a x, ((![addi (k0_pay2 ((s1).view.readAt (Elt F) (Rect.unit (s := S512) (k0_off9 k) S16.size (k0_off9_inb k)).toLoadRect (cIdx d L I))) (k0_pay4 (iota .scVector S16 32 [0] iota_S16_d0_w32_scVector) (k0_pay34 0#32 1#32 j))] : Fin 1 → IVec S16 32) a x).toNat < S64000.size a),
    AccP 3 k.val j.val (a0, a1, a2, a3) → AccP 3 k.val (j.val + 1) (k0_pay29 a0 (loadIdx ((s4).view.readAt (Elt F) (LoadRect.whole S64x128) (cH d L H 3)) ![k0_pay28 (iota .scVector S16 32 [0] iota_S16_d0_w32_scVector) 0#32 1#32 j, k0_pay1 (iota .scVector S16 32 [0] iota_S16_d0_w32_scVector) k] hA0) (loadIdx ((s6).view.readAt (Elt F) (LoadRect.whole S64x128) (cT d L T 3)) ![k0_pay28 (iota .scVector S16 32 [0] iota_S16_d0_w32_scVector) 0#32 1#32 j, k0_pay1 (iota .scVector S16 32 [0] iota_S16_d0_w32_scVector) k] hA0) (loadIdx ((s0).view.readAt (Elt F) (LoadRect.whole S64000) (cTab d L B)) ![addi (k0_pay2 ((s1).view.readAt (Elt F) (Rect.unit (s := S512) (k0_off9 k) S16.size (k0_off9_inb k)).toLoadRect (cIdx d L I))) (k0_pay28 (iota .scVector S16 32 [0] iota_S16_d0_w32_scVector) 0#32 1#32 j)] hT0),
      k0_pay31 a1 (loadIdx ((s4).view.readAt (Elt F) (LoadRect.whole S64x128) (cH d L H 3)) ![k0_pay30 (iota .scVector S16 32 [0] iota_S16_d0_w32_scVector) 0#32 1#32 j, k0_pay1 (iota .scVector S16 32 [0] iota_S16_d0_w32_scVector) k] hA1) (loadIdx ((s6).view.readAt (Elt F) (LoadRect.whole S64x128) (cT d L T 3)) ![k0_pay30 (iota .scVector S16 32 [0] iota_S16_d0_w32_scVector) 0#32 1#32 j, k0_pay1 (iota .scVector S16 32 [0] iota_S16_d0_w32_scVector) k] hA1) (loadIdx ((s0).view.readAt (Elt F) (LoadRect.whole S64000) (cTab d L B)) ![addi (k0_pay2 ((s1).view.readAt (Elt F) (Rect.unit (s := S512) (k0_off9 k) S16.size (k0_off9_inb k)).toLoadRect (cIdx d L I))) (k0_pay30 (iota .scVector S16 32 [0] iota_S16_d0_w32_scVector) 0#32 1#32 j)] hT1),
      k0_pay33 a2 (loadIdx ((s4).view.readAt (Elt F) (LoadRect.whole S64x128) (cH d L H 3)) ![k0_pay32 (iota .scVector S16 32 [0] iota_S16_d0_w32_scVector) 0#32 1#32 j, k0_pay1 (iota .scVector S16 32 [0] iota_S16_d0_w32_scVector) k] hA2) (loadIdx ((s6).view.readAt (Elt F) (LoadRect.whole S64x128) (cT d L T 3)) ![k0_pay32 (iota .scVector S16 32 [0] iota_S16_d0_w32_scVector) 0#32 1#32 j, k0_pay1 (iota .scVector S16 32 [0] iota_S16_d0_w32_scVector) k] hA2) (loadIdx ((s0).view.readAt (Elt F) (LoadRect.whole S64000) (cTab d L B)) ![addi (k0_pay2 ((s1).view.readAt (Elt F) (Rect.unit (s := S512) (k0_off9 k) S16.size (k0_off9_inb k)).toLoadRect (cIdx d L I))) (k0_pay32 (iota .scVector S16 32 [0] iota_S16_d0_w32_scVector) 0#32 1#32 j)] hT2),
      k0_pay5 a3 (loadIdx ((s4).view.readAt (Elt F) (LoadRect.whole S64x128) (cH d L H 3)) ![k0_pay4 (iota .scVector S16 32 [0] iota_S16_d0_w32_scVector) (k0_pay34 0#32 1#32 j), k0_pay1 (iota .scVector S16 32 [0] iota_S16_d0_w32_scVector) k] hA3) (loadIdx ((s6).view.readAt (Elt F) (LoadRect.whole S64x128) (cT d L T 3)) ![k0_pay4 (iota .scVector S16 32 [0] iota_S16_d0_w32_scVector) (k0_pay34 0#32 1#32 j), k0_pay1 (iota .scVector S16 32 [0] iota_S16_d0_w32_scVector) k] hA3) (loadIdx ((s0).view.readAt (Elt F) (LoadRect.whole S64000) (cTab d L B)) ![addi (k0_pay2 ((s1).view.readAt (Elt F) (Rect.unit (s := S512) (k0_off9 k) S16.size (k0_off9_inb k)).toLoadRect (cIdx d L I))) (k0_pay4 (iota .scVector S16 32 [0] iota_S16_d0_w32_scVector) (k0_pay34 0#32 1#32 j))] hT3))
/-- and a finished group's sixteen scores are stored at the group's place in the score buffer. -/
def OutStep3 : Prop := ∀ (k : Fin k0_t7_loop.trips) (f2 : Buf (Elt F) ((s2).view.loc (thr d L))) (w0 w1 w2 w3 : FVec F S16 .f32),
    OutP (24 + k.val) f2 → AccP 3 k.val 16 (w0, w1, w2, w3) →
    OutP (24 + k.val + 1) ((s2).view.writes (Elt F) f2 [⟨Rect.unit (s := S512) (k0_off10 k) S16.size (k0_off10_inb k), k0_pay6 w0 w1 w2 w3⟩])

/-- The finished score buffer, copied out whole over the task's block of the result, is what the task promises. -/
def OutFinal (O₀ : Buf (Elt F) (oLoc d))
    (TileV : (d : Dev nD) → grid0.Coords → Buf (Elt F) (hLoc d) → Buf (Elt F) (iLoc d) → Buf (Elt F) (tLoc d) → Buf (Elt F) (bLoc d) → Buf (Elt F) (oLoc d) → Prop) : Prop :=
  ∀ f2 : Buf (Elt F) ((s2).view.loc (thr d L)), OutP 32 f2 →
    TileV d L H I T B ((oSl L).view.writes (Elt F) O₀ [⟨Rect.whole S512, ReadAs.same.apply ((s2).view.read (Elt F) f2)⟩])

/-- Everything the body's run asks of the two predicates. -/
def Closed (O₀ : Buf (Elt F) (oLoc d))
    (TileV : (d : Dev nD) → grid0.Coords → Buf (Elt F) (hLoc d) → Buf (Elt F) (iLoc d) → Buf (Elt F) (tLoc d) → Buf (Elt F) (bLoc d) → Buf (Elt F) (oLoc d) → Prop) : Prop :=
  (AccInit0 AccP ∧ AccStep0 d L H I T B AccP ∧ OutStep0 d L AccP OutP)
  ∧ (AccInit1 AccP ∧ AccStep1 d L H I T B AccP ∧ OutStep1 d L AccP OutP)
  ∧ (AccInit2 AccP ∧ AccStep2 d L H I T B AccP ∧ OutStep2 d L AccP OutP)
  ∧ (AccInit3 AccP ∧ AccStep3 d L H I T B AccP ∧ OutStep3 d L AccP OutP)
  ∧ (∀ g, OutP 0 g) ∧ OutFinal d L H I T B OutP O₀ TileV

end

end Cert.Kernel.Hand

end
-- ==== Proof.BodyK.lean ====
/-
  The body of one vector subcore's task, run once at a symbolic grid point: the table and the relation words copied
  in, then for each of the four 128-column blocks the two embedding blocks copied in (the next block's copies started
  before the current block is read, on the other pair of buffers and the other semaphore), eight groups of sixteen
  lanes, each group a loop of sixteen trips that gathers four coordinates per trip from the three buffers into four
  running sums, the group's scores stored; at the end the 512 scores copied out.
-/
import proofs.«205645_g18588618457683_cont_8to1_1834_20_alg».proof.Proof.SharedK
import proofs.«205645_g18588618457683_cont_8to1_1834_20_alg».proof.Proof.ContentsK
import proofs.«205645_g18588618457683_cont_8to1_1834_20_alg».proof.Proof.IdxFactsK
import proofs.«205645_g18588618457683_cont_8to1_1834_20_alg».proof.Proof.ScopedK
import proofs.«205645_g18588618457683_cont_8to1_1834_20_alg».proof.Proof.ClosureK

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile
variable (d : Dev nD) (L : grid0.Coords)
variable (H : Buf (Elt F) (hLoc d)) (I : Buf (Elt F) (iLoc d)) (T : Buf (Elt F) (tLoc d)) (B : Buf (Elt F) (bLoc d))

/-- Every relation word the task copied is below 1000 when every word of the array is. -/
theorem cIdx_lt (hI : ∀ y : S16384.Idx, (I y).toNat < 1000) (y : S512.Idx) : ((cIdx d L I) y).toNat < 1000 := by
  show ((iSl L).view.read (Elt F) I y).toNat < 1000
  rw [View.read_apply]
  exact hI _

theorem v54_lt (hI : ∀ y : S16384.Idx, (I y).toNat < 1000) (r : LoadRect S512) (x : r.shape.Idx) :
    ((s1).view.readAt (Elt F) r (cIdx d L I) x).toNat < 1000 := by
  simp only [View.readAt_apply, Memref.view_whole, View.read_whole]
  exact cIdx_lt d L I hI _

omit [FloatOps F] in
/-- A wait recorded at no call's index keeps the recorded waits within what the launch allows. -/
theorem ins_ok {W W' : Waits sig (HIx 1)} (a : SemLoc sig) (h : ∀ p ∈ W', p ∈ W ∨ p.2 = none) :
    ∀ p ∈ insert (a, (default : HIx 1)) W', p ∈ W ∨ p.2 = none := by
  intro p hp
  rcases Finset.mem_insert.mp hp with rfl | hp
  · exact .inr rfl
  · exact h p hp

/-- Between two trips of a group's coordinate loop (buffer pair 0): the table and the two column blocks as landed, the running sums as `AccP` says. -/
def invD0 (AccP : Nat → Acc4 F → Prop) (r : Fin 4) (j : Nat) (acc : Acc4 F) : sProp 𝕄 :=
  iprop(((s0).view.loc (thr d L) ↦{fullShare} cTab d L B) ∗ ((s3).view.loc (thr d L) ↦{fullShare} cH d L H r) ∗ ((s5).view.loc (thr d L) ↦{fullShare} cT d L T r) ∗ ⌜AccP j acc⌝)

/-- Between two groups of a column block (buffer pair 0): the table, the relation words and the two column blocks as landed, the scores written so far as `OutP` says. -/
def invG0 (OutP : Nat → Buf (Elt F) ((s2).view.loc (thr d L)) → Prop) (r : Fin 4) (k : Nat) (_ : BitVec 32) : sProp 𝕄 :=
  iprop(((s0).view.loc (thr d L) ↦{fullShare} cTab d L B) ∗ ((s1).view.loc (thr d L) ↦{fullShare} cIdx d L I)
    ∗ ((s3).view.loc (thr d L) ↦{fullShare} cH d L H r) ∗ ((s5).view.loc (thr d L) ↦{fullShare} cT d L T r) ∗ ∃ f, ⌜OutP k f⌝ ∗ (s2).view.loc (thr d L) ↦{fullShare} f)

/-- Between two trips of a group's coordinate loop (buffer pair 1): the table and the two column blocks as landed, the running sums as `AccP` says. -/
def invD1 (AccP : Nat → Acc4 F → Prop) (r : Fin 4) (j : Nat) (acc : Acc4 F) : sProp 𝕄 :=
  iprop(((s0).view.loc (thr d L) ↦{fullShare} cTab d L B) ∗ ((s4).view.loc (thr d L) ↦{fullShare} cH d L H r) ∗ ((s6).view.loc (thr d L) ↦{fullShare} cT d L T r) ∗ ⌜AccP j acc⌝)

/-- Between two groups of a column block (buffer pair 1): the table, the relation words and the two column blocks as landed, the scores written so far as `OutP` says. -/
def invG1 (OutP : Nat → Buf (Elt F) ((s2).view.loc (thr d L)) → Prop) (r : Fin 4) (k : Nat) (_ : BitVec 32) : sProp 𝕄 :=
  iprop(((s0).view.loc (thr d L) ↦{fullShare} cTab d L B) ∗ ((s1).view.loc (thr d L) ↦{fullShare} cIdx d L I)
    ∗ ((s4).view.loc (thr d L) ↦{fullShare} cH d L H r) ∗ ((s6).view.loc (thr d L) ↦{fullShare} cT d L T r) ∗ ∃ f, ⌜OutP k f⌝ ∗ (s2).view.loc (thr d L) ↦{fullShare} f)

set_option maxHeartbeats 8000000 in
/-- One task's run: the copies in, the four column blocks' groups with their coordinate loops, the copy out. The index
    side conditions hold because every relation word is below 1000; the values are carried by the two predicates. -/
theorem tile_run [∀ e, Nonempty (Elt F e)] (hF : (K (F := F)).Facts)
    (TileV : (d : Dev nD) → grid0.Coords → Buf (Elt F) (hLoc d) → Buf (Elt F) (iLoc d) → Buf (Elt F) (tLoc d) → Buf (Elt F) (bLoc d) → Buf (Elt F) (oLoc d) → Prop)
    (Hc : (d : Dev nD) → Buf (Elt F) (hLoc d)) (Ic : (d : Dev nD) → Buf (Elt F) (iLoc d)) (Tc : (d : Dev nD) → Buf (Elt F) (tLoc d))
    (Bc : (d : Dev nD) → Buf (Elt F) (bLoc d)) (Oc : (d : Dev nD) → Buf (Elt F) (oLoc d))
    (hIc : ∀ (d : Dev nD) (y : S16384.Idx), (Ic d y).toNat < 1000)
    (AccPc : (d : Dev nD) → (L : grid0.Coords) → Fin 4 → Nat → Nat → Acc4 F → Prop)
    (OutPc : (d : Dev nD) → (L : grid0.Coords) → Nat → Buf (Elt F) ((s2).view.loc (thr d L)) → Prop)
    (hcl : ∀ (d : Dev nD) (L : grid0.Coords), Closed d L (Hc d) (Ic d) (Tc d) (Bc d) (AccPc d L) (OutPc d L) (Oc d) TileV) :
    TileRun TileV Hc Ic Tc Bc Oc := by
  intro d L O W hO
  obtain ⟨⟨hAI0, hAS0, hOS0⟩, ⟨hAI1, hAS1, hOS1⟩, ⟨hAI2, hAS2, hOS2⟩, ⟨hAI3, hAS3, hOS3⟩, hO0, hFin⟩ := hcl d L
  have hI := hIc d
  generalize Hc d = H at *
  generalize Ic d = I at *
  generalize Tc d = T at *
  generalize Bc d = B at *
  generalize Oc d = O₀ at *
  generalize AccPc d L = AccP at *
  generalize OutPc d L = OutP at *
  rw [(K (F := F)).scopedBufs_V hF d (cV L) (jV L), SparseCore.Cfg.scopedSems0_V (Val := Elt F) d (cV L) (jV L), ownSems0_V, ownBufs_V]
  unfold goRes
  iintro ⟨#Hlv, -, ⟨Hh0, Hh1, Hh2, Hh3, Hi, Ht0, Ht1, Ht2, Ht3, Hb, Ho⟩, ⟨⟨%g0, H0⟩, ⟨%g1, H1⟩, ⟨%g2, H2⟩, ⟨%g3, H3⟩, ⟨%g4, H4⟩, ⟨%g5, H5⟩, ⟨%g6, H6⟩, Hrb⟩, ⟨S7, S8, S9, Sa, Sb, Hrs⟩, HO⟩
  ihave Hmw := ((K (F := F)).mayWaits_none (thr := thr d L) hO) $$ Hlv
  ihave H0 := (Entails.of_eq (pts_s0 (F := F) d L g0).symm) $$ H0
  ihave H1 := (Entails.of_eq (pts_s1 (F := F) d L g1).symm) $$ H1
  ihave H2 := (Entails.of_eq (pts_s2 (F := F) d L g2).symm) $$ H2
  ihave H3 := (Entails.of_eq (pts_s3 (F := F) d L g3).symm) $$ H3
  ihave H4 := (Entails.of_eq (pts_s4 (F := F) d L g4).symm) $$ H4
  ihave H5 := (Entails.of_eq (pts_s5 (F := F) d L g5).symm) $$ H5
  ihave H6 := (Entails.of_eq (pts_s6 (F := F) d L g6).symm) $$ H6
  rw [cc0__sc_body_eq_skeleton]; unfold cc0__sc_body_skel
  rw [k0_part5_eq_skeleton]; unfold k0_part5_skel
  rw [k0_part6_eq_skeleton]; unfold k0_part6_skel
  have _p7 : Transfers.BatchOf (thr d L) (SemLoc.dma cc0_scratch7.sem) 2 := trivial
  have _p8 : Transfers.BatchOf (thr d L) (SemLoc.dma cc0_scratch8.sem) 2 := trivial
  sl_exec
  have hv3 : ∀ x, ((tile_run.sl.v3 : IVec S16 32) x).toNat < 16 := iota_lt
  ihave H0 := (Entails.of_eq (congrArg (fun f => ((s0).view.loc (thr d L) ↦{fullShare} f : sProp 𝕄)) (View.write_whole_univ _ _ _))) $$ H0
  ihave H1 := (Entails.of_eq (congrArg (fun f => ((s1).view.loc (thr d L) ↦{fullShare} f : sProp 𝕄)) (View.write_whole_univ _ _ _))) $$ H1
  have hout : OutP (0 + 0) g2 := hO0 g2
  have f2 := g2
  -- column block 0
  ihave H3 := (Entails.of_eq (congrArg (fun f => ((s3).view.loc (thr d L) ↦{fullShare} f : sProp 𝕄)) (View.write_whole_univ _ _ _))) $$ H3
  ihave H5 := (Entails.of_eq (congrArg (fun f => ((s5).view.loc (thr d L) ↦{fullShare} f : sProp 𝕄)) (View.write_whole_univ _ _ _))) $$ H5
  try sl_rw [Prog.bind_assoc]
  try sl_rw [Prog.bind_assoc]
  sl_for (invG0 d L H I T B (fun n f => OutP (0 + n) f) 0) $$ [H0 H1 H3 H5 H2]
  rotate_left
  · unfold invG0
    isplitl [H0]; · iexact H0
    isplitl [H1]; · iexact H1
    isplitl [H3]; · iexact H3
    isplitl [H5]; · iexact H5
    iexists g2; isplitr
    · ipureintro; exact hout
    · iexact H2
  rotate_left
  case region =>
    intro k acc
    unfold invG0
    iintro ⟨H0, H1, H3, H5, %f2, %hout, H2⟩
    have h54 := v54_lt d L I hI (Rect.unit (s := S512) (k0_off3 k) S16.size (k0_off3_inb k)).toLoadRect
    sl_exec
    sl_for (invD0 d L H T B (AccP 0 k.val) 0) $$ [H0 H3 H5]
    rotate_left
    · unfold invD0
      isplitl [H0]; · iexact H0
      isplitl [H3]; · iexact H3
      isplitl [H5]; · iexact H5
      ipureintro; exact hAI0 k.val
    rotate_left
    case region =>
      intro j acc
      obtain ⟨a0, a1, a2, a3⟩ := acc
      unfold invD0
      iintro ⟨H0, H3, H5, %hacc⟩
      sl_exec (disch := first | sl_exact chk1_ok k _ _ _ _ | sl_exact chk2_ok _ h54 _ _ _ _ | sl_exact chk3_ok k _ _ _ _ | sl_exact chk4_ok _ h54 _ _ _ _ | sl_exact chk5_ok k _ _ _ _ | sl_exact chk6_ok _ h54 _ _ _ _ | sl_exact chk7_ok k _ | sl_exact chk8_ok _ h54 _ | exact chk1_ok k _ _ _ _ | exact chk2_ok _ h54 _ _ _ _ | exact chk3_ok k _ _ _ _ | exact chk4_ok _ h54 _ _ _ _ | exact chk5_ok k _ _ _ _ | exact chk6_ok _ h54 _ _ _ _ | exact chk7_ok k _ | exact chk8_ok _ h54 _ | fail "no")
      conv => { arg 2; pattern (Idealize.SL.Sem.wp _ _ _ _); arg 4; simp only [SparseCore.vectorLoadIdx_bind (c := thr d L)] }
      sl_exec (disch := first | sl_exact chk1_ok k _ _ _ _ | sl_exact chk2_ok _ h54 _ _ _ _ | sl_exact chk3_ok k _ _ _ _ | sl_exact chk4_ok _ h54 _ _ _ _ | sl_exact chk5_ok k _ _ _ _ | sl_exact chk6_ok _ h54 _ _ _ _ | sl_exact chk7_ok k _ | sl_exact chk8_ok _ h54 _ | exact chk1_ok k _ _ _ _ | exact chk2_ok _ h54 _ _ _ _ | exact chk3_ok k _ _ _ _ | exact chk4_ok _ h54 _ _ _ _ | exact chk5_ok k _ _ _ _ | exact chk6_ok _ h54 _ _ _ _ | exact chk7_ok k _ | exact chk8_ok _ h54 _ | fail "no")
      conv => { arg 2; pattern (Idealize.SL.Sem.wp _ _ _ _); arg 4; simp only [SparseCore.vectorLoadIdx_bind (c := thr d L)] }
      sl_exec (disch := first | sl_exact chk1_ok k _ _ _ _ | sl_exact chk2_ok _ h54 _ _ _ _ | sl_exact chk3_ok k _ _ _ _ | sl_exact chk4_ok _ h54 _ _ _ _ | sl_exact chk5_ok k _ _ _ _ | sl_exact chk6_ok _ h54 _ _ _ _ | sl_exact chk7_ok k _ | sl_exact chk8_ok _ h54 _ | exact chk1_ok k _ _ _ _ | exact chk2_ok _ h54 _ _ _ _ | exact chk3_ok k _ _ _ _ | exact chk4_ok _ h54 _ _ _ _ | exact chk5_ok k _ _ _ _ | exact chk6_ok _ h54 _ _ _ _ | exact chk7_ok k _ | exact chk8_ok _ h54 _ | fail "no")
      sl_step
      isplitl [H0]; · iexact H0
      isplitl [H3]; · iexact H3
      isplitl [H5]; · iexact H5
      ipureintro
      sl_unfold_run_names
      exact hAS0 k j a0 a1 a2 a3 _ _ _ _ _ _ _ _ hacc
    iintro %acc HI
    obtain ⟨w0, w1, w2, w3⟩ := acc
    unfold invD0
    icases HI with ⟨H0, H3, H5, %hacc⟩
    have e16 : Scf.trips k0_t2_loop.lb k0_t2_loop.ub k0_t2_loop.st = 16 := by decide
    rw [e16] at hacc
    sl_exec
    sl_step
    isplitl [H0]; · iexact H0
    isplitl [H1]; · iexact H1
    isplitl [H3]; · iexact H3
    isplitl [H5]; · iexact H5
    iexists _; isplitr
    · ipureintro; exact hOS0 k f2 w0 w1 w2 w3 hout hacc
    · iexact H2
  iintro %acc HI
  unfold invG0
  icases HI with ⟨H0, H1, H3, H5, %f2, %hout, H2⟩
  have e8 : Scf.trips k0_t1_loop.lb k0_t1_loop.ub k0_t1_loop.st = 8 := by decide
  rw [e8] at hout
  clear e8
  sl_exec

  -- column block 1
  ihave H4 := (Entails.of_eq (congrArg (fun f => ((s4).view.loc (thr d L) ↦{fullShare} f : sProp 𝕄)) (View.write_whole_univ _ _ _))) $$ H4
  ihave H6 := (Entails.of_eq (congrArg (fun f => ((s6).view.loc (thr d L) ↦{fullShare} f : sProp 𝕄)) (View.write_whole_univ _ _ _))) $$ H6
  try sl_rw [Prog.bind_assoc]
  try sl_rw [Prog.bind_assoc]
  sl_for (invG1 d L H I T B (fun n f => OutP (8 + n) f) 1) $$ [H0 H1 H4 H6 H2]
  rotate_left
  · unfold invG1
    isplitl [H0]; · iexact H0
    isplitl [H1]; · iexact H1
    isplitl [H4]; · iexact H4
    isplitl [H6]; · iexact H6
    iexists _; isplitr
    · ipureintro; exact hout
    · iexact H2
  rotate_left
  case region =>
    intro k acc
    unfold invG1
    iintro ⟨H0, H1, H4, H6, %f2, %hout, H2⟩
    have h54 := v54_lt d L I hI (Rect.unit (s := S512) (k0_off5 k) S16.size (k0_off5_inb k)).toLoadRect
    sl_exec
    sl_for (invD1 d L H T B (AccP 1 k.val) 1) $$ [H0 H4 H6]
    rotate_left
    · unfold invD1
      isplitl [H0]; · iexact H0
      isplitl [H4]; · iexact H4
      isplitl [H6]; · iexact H6
      ipureintro; exact hAI1 k.val
    rotate_left
    case region =>
      intro j acc
      obtain ⟨a0, a1, a2, a3⟩ := acc
      unfold invD1
      iintro ⟨H0, H4, H6, %hacc⟩
      sl_exec (disch := first | sl_exact chk9_ok _ hv3 k _ _ _ _ | sl_exact chk10_ok _ h54 _ _ _ _ | sl_exact chk11_ok _ hv3 k _ _ _ _ | sl_exact chk12_ok _ h54 _ _ _ _ | sl_exact chk13_ok _ hv3 k _ _ _ _ | sl_exact chk14_ok _ h54 _ _ _ _ | sl_exact chk15_ok _ hv3 k _ | sl_exact chk16_ok _ h54 _ _ | exact chk9_ok _ hv3 k _ _ _ _ | exact chk10_ok _ h54 _ _ _ _ | exact chk11_ok _ hv3 k _ _ _ _ | exact chk12_ok _ h54 _ _ _ _ | exact chk13_ok _ hv3 k _ _ _ _ | exact chk14_ok _ h54 _ _ _ _ | exact chk15_ok _ hv3 k _ | exact chk16_ok _ h54 _ _ | fail "no")
      conv => { arg 2; pattern (Idealize.SL.Sem.wp _ _ _ _); arg 4; simp only [SparseCore.vectorLoadIdx_bind (c := thr d L)] }
      sl_exec (disch := first | sl_exact chk9_ok _ hv3 k _ _ _ _ | sl_exact chk10_ok _ h54 _ _ _ _ | sl_exact chk11_ok _ hv3 k _ _ _ _ | sl_exact chk12_ok _ h54 _ _ _ _ | sl_exact chk13_ok _ hv3 k _ _ _ _ | sl_exact chk14_ok _ h54 _ _ _ _ | sl_exact chk15_ok _ hv3 k _ | sl_exact chk16_ok _ h54 _ _ | exact chk9_ok _ hv3 k _ _ _ _ | exact chk10_ok _ h54 _ _ _ _ | exact chk11_ok _ hv3 k _ _ _ _ | exact chk12_ok _ h54 _ _ _ _ | exact chk13_ok _ hv3 k _ _ _ _ | exact chk14_ok _ h54 _ _ _ _ | exact chk15_ok _ hv3 k _ | exact chk16_ok _ h54 _ _ | fail "no")
      conv => { arg 2; pattern (Idealize.SL.Sem.wp _ _ _ _); arg 4; simp only [SparseCore.vectorLoadIdx_bind (c := thr d L)] }
      sl_exec (disch := first | sl_exact chk9_ok _ hv3 k _ _ _ _ | sl_exact chk10_ok _ h54 _ _ _ _ | sl_exact chk11_ok _ hv3 k _ _ _ _ | sl_exact chk12_ok _ h54 _ _ _ _ | sl_exact chk13_ok _ hv3 k _ _ _ _ | sl_exact chk14_ok _ h54 _ _ _ _ | sl_exact chk15_ok _ hv3 k _ | sl_exact chk16_ok _ h54 _ _ | exact chk9_ok _ hv3 k _ _ _ _ | exact chk10_ok _ h54 _ _ _ _ | exact chk11_ok _ hv3 k _ _ _ _ | exact chk12_ok _ h54 _ _ _ _ | exact chk13_ok _ hv3 k _ _ _ _ | exact chk14_ok _ h54 _ _ _ _ | exact chk15_ok _ hv3 k _ | exact chk16_ok _ h54 _ _ | fail "no")
      sl_step
      isplitl [H0]; · iexact H0
      isplitl [H4]; · iexact H4
      isplitl [H6]; · iexact H6
      ipureintro
      sl_unfold_run_names
      exact hAS1 k j a0 a1 a2 a3 _ _ _ _ _ _ _ _ hacc
    iintro %acc HI
    obtain ⟨w0, w1, w2, w3⟩ := acc
    unfold invD1
    icases HI with ⟨H0, H4, H6, %hacc⟩
    have e16 : Scf.trips k0_t4_loop.lb k0_t4_loop.ub k0_t4_loop.st = 16 := by decide
    rw [e16] at hacc
    sl_exec
    sl_step
    isplitl [H0]; · iexact H0
    isplitl [H1]; · iexact H1
    isplitl [H4]; · iexact H4
    isplitl [H6]; · iexact H6
    iexists _; isplitr
    · ipureintro; exact hOS1 k f2 w0 w1 w2 w3 hout hacc
    · iexact H2
  iintro %acc HI
  unfold invG1
  icases HI with ⟨H0, H1, H4, H6, %f2, %hout, H2⟩
  have e8 : Scf.trips k0_t3_loop.lb k0_t3_loop.ub k0_t3_loop.st = 8 := by decide
  rw [e8] at hout
  clear e8
  sl_exec

  -- column block 2
  ihave H3 := (Entails.of_eq (congrArg (fun f => ((s3).view.loc (thr d L) ↦{fullShare} f : sProp 𝕄)) (View.write_whole_univ _ _ _))) $$ H3
  ihave H5 := (Entails.of_eq (congrArg (fun f => ((s5).view.loc (thr d L) ↦{fullShare} f : sProp 𝕄)) (View.write_whole_univ _ _ _))) $$ H5
  try sl_rw [Prog.bind_assoc]
  try sl_rw [Prog.bind_assoc]
  sl_for (invG0 d L H I T B (fun n f => OutP (16 + n) f) 2) $$ [H0 H1 H3 H5 H2]
  rotate_left
  · unfold invG0
    isplitl [H0]; · iexact H0
    isplitl [H1]; · iexact H1
    isplitl [H3]; · iexact H3
    isplitl [H5]; · iexact H5
    iexists _; isplitr
    · ipureintro; exact hout
    · iexact H2
  rotate_left
  case region =>
    intro k acc
    unfold invG0
    iintro ⟨H0, H1, H3, H5, %f2, %hout, H2⟩
    have h54 := v54_lt d L I hI (Rect.unit (s := S512) (k0_off7 k) S16.size (k0_off7_inb k)).toLoadRect
    sl_exec
    sl_for (invD0 d L H T B (AccP 2 k.val) 2) $$ [H0 H3 H5]
    rotate_left
    · unfold invD0
      isplitl [H0]; · iexact H0
      isplitl [H3]; · iexact H3
      isplitl [H5]; · iexact H5
      ipureintro; exact hAI2 k.val
    rotate_left
    case region =>
      intro j acc
      obtain ⟨a0, a1, a2, a3⟩ := acc
      unfold invD0
      iintro ⟨H0, H3, H5, %hacc⟩
      sl_exec (disch := first | sl_exact chk17_ok _ hv3 k _ _ _ _ | sl_exact chk18_ok _ h54 _ _ _ _ | sl_exact chk19_ok _ hv3 k _ _ _ _ | sl_exact chk20_ok _ h54 _ _ _ _ | sl_exact chk21_ok _ hv3 k _ _ _ _ | sl_exact chk22_ok _ h54 _ _ _ _ | sl_exact chk23_ok _ hv3 k _ | sl_exact chk24_ok _ h54 _ _ | exact chk17_ok _ hv3 k _ _ _ _ | exact chk18_ok _ h54 _ _ _ _ | exact chk19_ok _ hv3 k _ _ _ _ | exact chk20_ok _ h54 _ _ _ _ | exact chk21_ok _ hv3 k _ _ _ _ | exact chk22_ok _ h54 _ _ _ _ | exact chk23_ok _ hv3 k _ | exact chk24_ok _ h54 _ _ | fail "no")
      conv => { arg 2; pattern (Idealize.SL.Sem.wp _ _ _ _); arg 4; simp only [SparseCore.vectorLoadIdx_bind (c := thr d L)] }
      sl_exec (disch := first | sl_exact chk17_ok _ hv3 k _ _ _ _ | sl_exact chk18_ok _ h54 _ _ _ _ | sl_exact chk19_ok _ hv3 k _ _ _ _ | sl_exact chk20_ok _ h54 _ _ _ _ | sl_exact chk21_ok _ hv3 k _ _ _ _ | sl_exact chk22_ok _ h54 _ _ _ _ | sl_exact chk23_ok _ hv3 k _ | sl_exact chk24_ok _ h54 _ _ | exact chk17_ok _ hv3 k _ _ _ _ | exact chk18_ok _ h54 _ _ _ _ | exact chk19_ok _ hv3 k _ _ _ _ | exact chk20_ok _ h54 _ _ _ _ | exact chk21_ok _ hv3 k _ _ _ _ | exact chk22_ok _ h54 _ _ _ _ | exact chk23_ok _ hv3 k _ | exact chk24_ok _ h54 _ _ | fail "no")
      conv => { arg 2; pattern (Idealize.SL.Sem.wp _ _ _ _); arg 4; simp only [SparseCore.vectorLoadIdx_bind (c := thr d L)] }
      sl_exec (disch := first | sl_exact chk17_ok _ hv3 k _ _ _ _ | sl_exact chk18_ok _ h54 _ _ _ _ | sl_exact chk19_ok _ hv3 k _ _ _ _ | sl_exact chk20_ok _ h54 _ _ _ _ | sl_exact chk21_ok _ hv3 k _ _ _ _ | sl_exact chk22_ok _ h54 _ _ _ _ | sl_exact chk23_ok _ hv3 k _ | sl_exact chk24_ok _ h54 _ _ | exact chk17_ok _ hv3 k _ _ _ _ | exact chk18_ok _ h54 _ _ _ _ | exact chk19_ok _ hv3 k _ _ _ _ | exact chk20_ok _ h54 _ _ _ _ | exact chk21_ok _ hv3 k _ _ _ _ | exact chk22_ok _ h54 _ _ _ _ | exact chk23_ok _ hv3 k _ | exact chk24_ok _ h54 _ _ | fail "no")
      sl_step
      isplitl [H0]; · iexact H0
      isplitl [H3]; · iexact H3
      isplitl [H5]; · iexact H5
      ipureintro
      sl_unfold_run_names
      exact hAS2 k j a0 a1 a2 a3 _ _ _ _ _ _ _ _ hacc
    iintro %acc HI
    obtain ⟨w0, w1, w2, w3⟩ := acc
    unfold invD0
    icases HI with ⟨H0, H3, H5, %hacc⟩
    have e16 : Scf.trips k0_t6_loop.lb k0_t6_loop.ub k0_t6_loop.st = 16 := by decide
    rw [e16] at hacc
    sl_exec
    sl_step
    isplitl [H0]; · iexact H0
    isplitl [H1]; · iexact H1
    isplitl [H3]; · iexact H3
    isplitl [H5]; · iexact H5
    iexists _; isplitr
    · ipureintro; exact hOS2 k f2 w0 w1 w2 w3 hout hacc
    · iexact H2
  iintro %acc HI
  unfold invG0
  icases HI with ⟨H0, H1, H3, H5, %f2, %hout, H2⟩
  have e8 : Scf.trips k0_t5_loop.lb k0_t5_loop.ub k0_t5_loop.st = 8 := by decide
  rw [e8] at hout
  clear e8
  sl_exec

  -- column block 3
  ihave H4 := (Entails.of_eq (congrArg (fun f => ((s4).view.loc (thr d L) ↦{fullShare} f : sProp 𝕄)) (View.write_whole_univ _ _ _))) $$ H4
  ihave H6 := (Entails.of_eq (congrArg (fun f => ((s6).view.loc (thr d L) ↦{fullShare} f : sProp 𝕄)) (View.write_whole_univ _ _ _))) $$ H6
  try sl_rw [Prog.bind_assoc]
  try sl_rw [Prog.bind_assoc]
  sl_for (invG1 d L H I T B (fun n f => OutP (24 + n) f) 3) $$ [H0 H1 H4 H6 H2]
  rotate_left
  · unfold invG1
    isplitl [H0]; · iexact H0
    isplitl [H1]; · iexact H1
    isplitl [H4]; · iexact H4
    isplitl [H6]; · iexact H6
    iexists _; isplitr
    · ipureintro; exact hout
    · iexact H2
  rotate_left
  case region =>
    intro k acc
    unfold invG1
    iintro ⟨H0, H1, H4, H6, %f2, %hout, H2⟩
    have h54 := v54_lt d L I hI (Rect.unit (s := S512) (k0_off9 k) S16.size (k0_off9_inb k)).toLoadRect
    sl_exec
    sl_for (invD1 d L H T B (AccP 3 k.val) 3) $$ [H0 H4 H6]
    rotate_left
    · unfold invD1
      isplitl [H0]; · iexact H0
      isplitl [H4]; · iexact H4
      isplitl [H6]; · iexact H6
      ipureintro; exact hAI3 k.val
    rotate_left
    case region =>
      intro j acc
      obtain ⟨a0, a1, a2, a3⟩ := acc
      unfold invD1
      iintro ⟨H0, H4, H6, %hacc⟩
      sl_exec (disch := first | sl_exact chk25_ok _ hv3 k _ _ _ _ | sl_exact chk26_ok _ h54 _ _ _ _ | sl_exact chk27_ok _ hv3 k _ _ _ _ | sl_exact chk28_ok _ h54 _ _ _ _ | sl_exact chk29_ok _ hv3 k _ _ _ _ | sl_exact chk30_ok _ h54 _ _ _ _ | sl_exact chk31_ok _ hv3 k _ | sl_exact chk32_ok _ h54 _ _ | exact chk25_ok _ hv3 k _ _ _ _ | exact chk26_ok _ h54 _ _ _ _ | exact chk27_ok _ hv3 k _ _ _ _ | exact chk28_ok _ h54 _ _ _ _ | exact chk29_ok _ hv3 k _ _ _ _ | exact chk30_ok _ h54 _ _ _ _ | exact chk31_ok _ hv3 k _ | exact chk32_ok _ h54 _ _ | fail "no")
      conv => { arg 2; pattern (Idealize.SL.Sem.wp _ _ _ _); arg 4; simp only [SparseCore.vectorLoadIdx_bind (c := thr d L)] }
      sl_exec (disch := first | sl_exact chk25_ok _ hv3 k _ _ _ _ | sl_exact chk26_ok _ h54 _ _ _ _ | sl_exact chk27_ok _ hv3 k _ _ _ _ | sl_exact chk28_ok _ h54 _ _ _ _ | sl_exact chk29_ok _ hv3 k _ _ _ _ | sl_exact chk30_ok _ h54 _ _ _ _ | sl_exact chk31_ok _ hv3 k _ | sl_exact chk32_ok _ h54 _ _ | exact chk25_ok _ hv3 k _ _ _ _ | exact chk26_ok _ h54 _ _ _ _ | exact chk27_ok _ hv3 k _ _ _ _ | exact chk28_ok _ h54 _ _ _ _ | exact chk29_ok _ hv3 k _ _ _ _ | exact chk30_ok _ h54 _ _ _ _ | exact chk31_ok _ hv3 k _ | exact chk32_ok _ h54 _ _ | fail "no")
      conv => { arg 2; pattern (Idealize.SL.Sem.wp _ _ _ _); arg 4; simp only [SparseCore.vectorLoadIdx_bind (c := thr d L)] }
      sl_exec (disch := first | sl_exact chk25_ok _ hv3 k _ _ _ _ | sl_exact chk26_ok _ h54 _ _ _ _ | sl_exact chk27_ok _ hv3 k _ _ _ _ | sl_exact chk28_ok _ h54 _ _ _ _ | sl_exact chk29_ok _ hv3 k _ _ _ _ | sl_exact chk30_ok _ h54 _ _ _ _ | sl_exact chk31_ok _ hv3 k _ | sl_exact chk32_ok _ h54 _ _ | exact chk25_ok _ hv3 k _ _ _ _ | exact chk26_ok _ h54 _ _ _ _ | exact chk27_ok _ hv3 k _ _ _ _ | exact chk28_ok _ h54 _ _ _ _ | exact chk29_ok _ hv3 k _ _ _ _ | exact chk30_ok _ h54 _ _ _ _ | exact chk31_ok _ hv3 k _ | exact chk32_ok _ h54 _ _ | fail "no")
      sl_step
      isplitl [H0]; · iexact H0
      isplitl [H4]; · iexact H4
      isplitl [H6]; · iexact H6
      ipureintro
      sl_unfold_run_names
      exact hAS3 k j a0 a1 a2 a3 _ _ _ _ _ _ _ _ hacc
    iintro %acc HI
    obtain ⟨w0, w1, w2, w3⟩ := acc
    unfold invD1
    icases HI with ⟨H0, H4, H6, %hacc⟩
    have e16 : Scf.trips k0_t8_loop.lb k0_t8_loop.ub k0_t8_loop.st = 16 := by decide
    rw [e16] at hacc
    sl_exec
    sl_step
    isplitl [H0]; · iexact H0
    isplitl [H1]; · iexact H1
    isplitl [H4]; · iexact H4
    isplitl [H6]; · iexact H6
    iexists _; isplitr
    · ipureintro; exact hOS3 k f2 w0 w1 w2 w3 hout hacc
    · iexact H2
  iintro %acc HI
  unfold invG1
  icases HI with ⟨H0, H1, H4, H6, %f2, %hout, H2⟩
  have e8 : Scf.trips k0_t7_loop.lb k0_t7_loop.ub k0_t7_loop.st = 8 := by decide
  rw [e8] at hout
  clear e8
  sl_exec

  rw [wp_ret]; imodintro
  unfold tdRes
  isplitl [Hh0 Hh1 Hh2 Hh3 Hi Ht0 Ht1 Ht2 Ht3 Hb Ho]
  · isplitl [Hh0]; · iexact Hh0
    isplitl [Hh1]; · iexact Hh1
    isplitl [Hh2]; · iexact Hh2
    isplitl [Hh3]; · iexact Hh3
    isplitl [Hi]; · iexact Hi
    isplitl [Ht0]; · iexact Ht0
    isplitl [Ht1]; · iexact Ht1
    isplitl [Ht2]; · iexact Ht2
    isplitl [Ht3]; · iexact Ht3
    isplitl [Hb]; · iexact Hb
    iexists _; isplitr
    · ipureintro; sl_unfold_run_names; exact hFin f2 hout
    · iexact Ho
  isplitl [H0 H1 H2 H3 H4 H5 H6 Hrb]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    iexact Hrb
  isplitl [S7 S8 S9 Sa Sb Hrs]
  · isplitl [S7]; · iexact S7
    isplitl [S8]; · iexact S8
    isplitl [S9]; · iexact S9
    isplitl [Sa]; · iexact Sa
    isplitl [Sb]; · iexact Sb
    iexact Hrs
  iexists _; isplitr
  rotate_left
  · iexact HO
  · ipureintro
    exact ins_ok _ (ins_ok _ (ins_ok _ (ins_ok _ (ins_ok _ (ins_ok _ (ins_ok _ (ins_ok _ (ins_ok _ (ins_ok _ (ins_ok _ (fun p hp => Or.inl hp)))))))))))

end Tile
end Cert.Kernel.Hand
end
-- ==== Proof.Spec.lean ====
/-
  The function both programs compute. For batch element b the score is the logistic function of
  the triple product Σ_d head[b,d] · table[rel[b],d] · tail[b,d] over the 64 embedding coordinates;
  the result is the row vector of the 16384 scores. The relation word is read modulo 1000 so that
  the function is total; under the precondition every word is already below 1000.
-/
import Idealize.ShloMosaic.PureOps.Ideal
import Idealize.ShloMosaic.Lib.ValueIdx

noncomputable section

namespace Cert.Spec

open Idealize.ShloMosaic Idealize.ShloMosaic.ValueIdx

/-- The table row a relation word names. -/
def relRow (w : BitVec 32) : Fin 1000 := ⟨w.toNat % 1000, Nat.mod_lt _ (by decide)⟩

theorem relRow_of_lt {w : BitVec 32} (h : w.toNat < 1000) : (relRow w).val = w.toNat := Nat.mod_eq_of_lt h

/-- One summand of the triple product of batch element `b`: coordinate `d`. -/
def term (h : (⟨2, ![16384, 64]⟩ : Shape).Idx → EReal) (rel : (⟨1, ![16384]⟩ : Shape).Idx → BitVec 32)
    (t : (⟨2, ![16384, 64]⟩ : Shape).Idx → EReal) (tab : (⟨2, ![1000, 64]⟩ : Shape).Idx → EReal) (b : Fin 16384) (d : Fin 64) : EReal :=
  h (ix2 b d) * tab (ix2 (relRow (rel (ix1 b))) d) * t (ix2 b d)

/-- The triple product of batch element `b`. -/
def dot (h : (⟨2, ![16384, 64]⟩ : Shape).Idx → EReal) (rel : (⟨1, ![16384]⟩ : Shape).Idx → BitVec 32)
    (t : (⟨2, ![16384, 64]⟩ : Shape).Idx → EReal) (tab : (⟨2, ![1000, 64]⟩ : Shape).Idx → EReal) (b : Fin 16384) : EReal :=
  ∑ d : Fin 64, term h rel t tab b d

/-- The logistic function as both programs spell it: 1 / (1 + exp (−x)), the two ones the f32 word of 1. -/
def sigm (x : EReal) : EReal :=
  Ideal.div (Ideal.ofBits .f32 0x3F800000#32) (Ideal.ofBits .f32 0x3F800000#32 + Ideal.exp (-x))

/-- The scores as the [1, 16384] result. -/
def G (h : (⟨2, ![16384, 64]⟩ : Shape).Idx → EReal) (rel : (⟨1, ![16384]⟩ : Shape).Idx → BitVec 32)
    (t : (⟨2, ![16384, 64]⟩ : Shape).Idx → EReal) (tab : (⟨2, ![1000, 64]⟩ : Shape).Idx → EReal) :
    (⟨2, ![1, 16384]⟩ : Shape).Idx → EReal :=
  fun j => sigm (dot h rel t tab ⟨(j 1).val, idx2_lt1 j⟩)

theorem G_ix2 (h : (⟨2, ![16384, 64]⟩ : Shape).Idx → EReal) (rel : (⟨1, ![16384]⟩ : Shape).Idx → BitVec 32)
    (t : (⟨2, ![16384, 64]⟩ : Shape).Idx → EReal) (tab : (⟨2, ![1000, 64]⟩ : Shape).Idx → EReal) (z : Fin 1) (b : Fin 16384) :
    G h rel t tab (ix2 z b) = sigm (dot h rel t tab b) := rfl

end Cert.Spec

end
-- ==== Proof.IdealDefs.lean ====
/-
  The value of one task at the ideal instance. With H and T the transposed head and tail embeddings [64, 16384], I the
  relation words and B the flattened table [64000] as the kernel call finds them, the term of batch position b at
  coordinate dd is H[dd, b] · B[64 · I[b] + dd] · T[dd, b]; a task's block of the result holds, at each of its 512
  positions, the logistic function of the sum of the 64 terms of its batch position.
-/
import proofs.«205645_g18588618457683_cont_8to1_1834_20_alg».proof.Proof.Shared
import proofs.«205645_g18588618457683_cont_8to1_1834_20_alg».proof.Proof.Spec
import Idealize.ShloMosaic.PureOps.Ideal
import Idealize.ShloMosaic.Lib.ValueIdx

noncomputable section

namespace Cert.KernelIdeal.Hand

open Cert.KernelIdeal Cert.KernelIdeal.Gen
open Idealize.ShloMosaic Idealize.ShloMosaic.ValueIdx
open Idealize.ShloMosaic.SparseCore (S V T)

/-- The first batch column of grid point `L`. -/
def baseOf (L : grid0.Coords) : Nat := 1024 * (L 1).val + 512 * (L 0).val

theorem baseOf_add_lt (L : grid0.Coords) (p : Fin 512) : baseOf L + p.val < 16384 := by
  have h0 : (L 0).val < 2 := (L 0).isLt
  have h1 : (L 1).val < 16 := (L 1).isLt
  have := p.isLt
  unfold baseOf; omega

/-- The term of batch position `b` at coordinate `dd` (positions and coordinates out of range read modulo the extents). -/
def termI (H : S64x16384.Idx → EReal) (I : S16384.Idx → BitVec 32) (T : S64x16384.Idx → EReal) (B : S64000.Idx → EReal) (b dd : Nat) : EReal :=
  H (ix2 (⟨dd % 64, Nat.mod_lt _ (by decide)⟩ : Fin 64) (⟨b % 16384, Nat.mod_lt _ (by decide)⟩ : Fin 16384))
    * B (ix1 (⟨(64 * (I (ix1 (⟨b % 16384, Nat.mod_lt _ (by decide)⟩ : Fin 16384))).toNat + dd % 64) % 64000, Nat.mod_lt _ (by decide)⟩ : Fin 64000))
    * T (ix2 (⟨dd % 64, Nat.mod_lt _ (by decide)⟩ : Fin 64) (⟨b % 16384, Nat.mod_lt _ (by decide)⟩ : Fin 16384))

/-- The score of batch position `b`. -/
def scoreI (H : S64x16384.Idx → EReal) (I : S16384.Idx → BitVec 32) (T : S64x16384.Idx → EReal) (B : S64000.Idx → EReal) (b : Nat) : EReal :=
  Cert.Spec.sigm (∑ dd : Fin 64, termI H I T B b dd.val)

/-- What grid point `L`'s task leaves in its block of the result. -/
def TileVI (d : Dev nD) (L : grid0.Coords) (H : Buf (Elt Ideal) (hLoc d)) (I : Buf (Elt Ideal) (iLoc d)) (T : Buf (Elt Ideal) (tLoc d)) (B : Buf (Elt Ideal) (bLoc d))
    (f : Buf (Elt Ideal) (oLoc d)) : Prop :=
  ∀ p : Fin 512, (show S16384.Idx → EReal from f) (ix1 (⟨baseOf L + p.val, baseOf_add_lt L p⟩ : Fin 16384)) = scoreI H I T B (baseOf L + p.val)

end Cert.KernelIdeal.Hand

end
-- ==== Proof.HostIx.lean ====
/-
  The host program's layout operations read at an index. They only move elements, so the statements
  hold for every float instance. The two [16384, 64] inputs are transposed to [64, 16384]; the
  [1000, 64] table is flattened row by row to [64000]; the [16384] result is viewed as [1, 16384].
-/
import Idealize.ShloMosaic.Lib.ValueLayout
import Idealize.ShloMosaic.Lib.ValueIdx
import proofs.«205645_g18588618457683_cont_8to1_1834_20_alg».proof.KernelIdeal

namespace Cert.KernelIdeal.HostIx

open Idealize.ShloMosaic Idealize.ShloMosaic.ValueIdx Cert.KernelIdeal Cert.KernelIdeal.Facts₀

variable {F : FTy → Type} [FloatOps F] [Cert.KernelIdeal.Facts]

/-- The transposed input at (d, b) is the input at (b, d). -/
theorem transpose_at (x : FVec F S16384x64 .f32) (d : Fin 64) (b : Fin 16384) :
    (transpose S64x16384 [1, 0] x transposes_S16384x64_S64x16384_1_0) (ix2 d b) = x (ix2 b d) :=
  transpose_ix2_apply x transposes_S16384x64_S64x16384_1_0 d b

/-- The flattened table at position 64 r + d is the table at (r, d). -/
theorem table_at (x : FVec F S1000x64 .f32) (r : Fin 1000) (d : Fin 64) :
    shapeCast S64000 x shapeCasts_S1000x64_S64000
        (ix1 (⟨r.val * 64 + d.val, by have := r.isLt; have := d.isLt; omega⟩ : Fin 64000)) = x (ix2 r d) :=
  shapeCast_apply x shapeCasts_S1000x64_S64000 _ _ (by
    rw [Shape.rowMajor_val_two, Shape.rowMajor_val_one]; rfl)

/-- The result viewed as one row: at (z, b) it is the vector at b. -/
theorem out_at (y : FVec F S16384 .f32) (z : Fin 1) (b : Fin 16384) :
    shapeCast S1x16384 y shapeCasts_S16384_S1x16384 (ix2 z b) = y (ix1 b) :=
  shapeCast_apply y shapeCasts_S16384_S1x16384 _ _ (by
    have hz : z.val = 0 := by omega
    rw [Shape.rowMajor_val_one, Shape.rowMajor_val_two]
    show b.val = z.val * 16384 + b.val
    rw [hz, Nat.zero_mul, Nat.zero_add])

/-! The same facts stated of the buffers the four host operations leave, for any contents `V` before them. -/

open TcCoe

/-- After the first transpose, buffer 0 at (d, b) is the first input at (b, d). -/
theorem v0_result_at (V : Valuation τ sig (Elt F)) (d : Fin 64) (b : Fin 16384) :
    (StableHlo.unary main_arg0 main_v0 ((transpose S64x16384 [1, 0] · transposes_S16384x64_S64x16384_1_0) : (⟨S16384x64, .f32⟩ : BufTy).Contents (Elt F) → (⟨S64x16384, .f32⟩ : BufTy).Contents (Elt F)) : HloOp τ sig (Elt F)).result V main_v0 (ix2 d b)
      = V main_arg0 (ix2 b d) := by
  rw [StableHlo.unary_result]
  exact transpose_at (F := F) (V main_arg0) d b

/-- After the second transpose, buffer 1 at (d, b) is the third input at (b, d). -/
theorem v1_result_at (V : Valuation τ sig (Elt F)) (d : Fin 64) (b : Fin 16384) :
    (StableHlo.unary main_arg2 main_v1 ((transpose S64x16384 [1, 0] · transposes_S16384x64_S64x16384_1_0) : (⟨S16384x64, .f32⟩ : BufTy).Contents (Elt F) → (⟨S64x16384, .f32⟩ : BufTy).Contents (Elt F)) : HloOp τ sig (Elt F)).result V main_v1 (ix2 d b)
      = V main_arg2 (ix2 b d) := by
  rw [StableHlo.unary_result]
  exact transpose_at (F := F) (V main_arg2) d b

/-- After the first reshape, buffer 2 at position 64 r + d is the table at (r, d). -/
theorem v2_result_at (V : Valuation τ sig (Elt F)) (r : Fin 1000) (d : Fin 64) :
    (StableHlo.reshape main_arg3 main_v2 rfl shapeCasts_S1000x64_S64000 : HloOp τ sig (Elt F)).result V main_v2
        (ix1 (⟨r.val * 64 + d.val, by have := r.isLt; have := d.isLt; omega⟩ : Fin 64000))
      = V main_arg3 (ix2 r d) := by
  rw [StableHlo.reshape_result]
  exact table_at (F := F) (V main_arg3) r d

/-- After the second reshape, buffer 4 at (z, b) is buffer 3 at b. -/
theorem v4_result_at (V : Valuation τ sig (Elt F)) (z : Fin 1) (b : Fin 16384) :
    (StableHlo.reshape main_v3 main_v4 rfl shapeCasts_S16384_S1x16384 : HloOp τ sig (Elt F)).result V main_v4 (ix2 z b)
      = V main_v3 (ix1 b) := by
  rw [StableHlo.reshape_result]
  exact out_at (F := F) (V main_v3) z b

end Cert.KernelIdeal.HostIx
-- ==== Proof.IdealRes.lean ====
/-
  The result at the ideal instance. Each task promises, at each of its 512 batch positions, the logistic
  function of the sum of the 64 terms of that position; the 32 blocks tile the 16384 positions, so the
  contents the tasks leave are that score everywhere. Read through the host operations (the two
  transposes, the flattened table, the final view as one row) the score of position b is the
  specification's: the term at coordinate dd is head[b, dd] · table[rel[b], dd] · tail[b, dd].
-/
import proofs.«205645_g18588618457683_cont_8to1_1834_20_alg».proof.Proof.Launch
import proofs.«205645_g18588618457683_cont_8to1_1834_20_alg».proof.Proof.IdealDefs
import proofs.«205645_g18588618457683_cont_8to1_1834_20_alg».proof.Proof.HostIx
import proofs.«205645_g18588618457683_cont_8to1_1834_20_alg».proof.Proof.Spec

noncomputable section

namespace Cert.KernelIdeal.Hand

open Cert.KernelIdeal Cert.KernelIdeal.Gen
open Idealize.ShloMosaic Idealize.ShloMosaic.ValueIdx
open Idealize.ShloMosaic.SparseCore (S V T)
open Idealize.SL.Sem
open scoped BigOperators

/-- The program's value fact at the ideal instance: the result is the specification's function of the four arguments. -/
def ResVI : (d : Dev nD) → Buf (Elt Ideal) (a0Loc d) → Buf (Elt Ideal) (iLoc d) → Buf (Elt Ideal) (a2Loc d) → Buf (Elt Ideal) (a3Loc d)
    → Buf (Elt Ideal) (rLoc d) → Prop :=
  fun d a0 a1 a2 a3 r => r = Cert.Spec.G a0 a1 a2 a3

/-- One term: with the operands read back through the host operations, the kernel's term at (b, dd) is the
    specification's. -/
theorem term_eq (H : S64x16384.Idx → EReal) (I : S16384.Idx → BitVec 32) (T' : S64x16384.Idx → EReal) (B : S64000.Idx → EReal)
    (h : S16384x64.Idx → EReal) (rel : S16384.Idx → BitVec 32) (t : S16384x64.Idx → EReal) (tab : S1000x64.Idx → EReal)
    (b : Fin 16384) (dd : Fin 64)
    (eH : H (ix2 dd b) = h (ix2 b dd)) (eT : T' (ix2 dd b) = t (ix2 b dd)) (hIrel : I (ix1 b) = rel (ix1 b))
    (hlt : (rel (ix1 b)).toNat < 1000)
    (hB : ∀ r : Fin 1000, B (ix1 (⟨r.val * 64 + dd.val, by have := r.isLt; have := dd.isLt; omega⟩ : Fin 64000)) = tab (ix2 r dd)) :
    termI H I T' B b.val dd.val = Cert.Spec.term h rel t tab b dd := by
  unfold termI Cert.Spec.term
  have hd : (⟨dd.val % 64, Nat.mod_lt _ (by decide)⟩ : Fin 64) = dd := Fin.ext (Nat.mod_eq_of_lt dd.isLt)
  have hb : (⟨b.val % 16384, Nat.mod_lt _ (by decide)⟩ : Fin 16384) = b := Fin.ext (Nat.mod_eq_of_lt b.isLt)
  refine congrArg₂ (· * ·) (congrArg₂ (· * ·) ?_ ?_) ?_
  · rw [hd, hb]; exact eH
  · have hidx : (⟨(64 * (I (ix1 (⟨b.val % 16384, Nat.mod_lt _ (by decide)⟩ : Fin 16384))).toNat + dd.val % 64) % 64000,
          Nat.mod_lt _ (by decide)⟩ : Fin 64000)
        = ⟨(Cert.Spec.relRow (rel (ix1 b))).val * 64 + dd.val, by
            have := (Cert.Spec.relRow (rel (ix1 b))).isLt; have := dd.isLt; omega⟩ :=
      Fin.ext (by
        show (64 * (I (ix1 (⟨b.val % 16384, Nat.mod_lt _ (by decide)⟩ : Fin 16384))).toNat + dd.val % 64) % 64000
          = (Cert.Spec.relRow (rel (ix1 b))).val * 64 + dd.val
        rw [hb, hIrel, Cert.Spec.relRow_of_lt hlt]
        have := dd.isLt
        omega)
    exact (congrArg (fun k : Fin 64000 => B (ix1 k)) hidx).trans (hB _)
  · rw [hd, hb]; exact eT

/-- What the tasks leave at batch position b: the specification's score. -/
theorem g_at (m : (ℓ : Loc nD τ sig) → Buf (Elt Ideal) ℓ) (hI : ∀ (d : Dev nD) (y : S16384.Idx), (m (iLoc d) y).toNat < 1000)
    (d : Dev nD) (g : Buf (Elt Ideal) (oLoc d)) (hg : Agree TileVI (Hc m) (Ic m) (Tc m) (Bc m) d g) (b : Fin 16384) :
    (show S16384.Idx → EReal from g) (ix1 b)
      = Cert.Spec.sigm (Cert.Spec.dot (m (a0Loc d)) (m (iLoc d)) (m (a2Loc d)) (m (a3Loc d)) b) := by
  have hbl : b.val < 16384 := b.isLt
  -- the block that holds position b, and b's place in it
  let c : Fin 2 := ⟨b.val / 512 % 2, Nat.mod_lt _ (by decide)⟩
  let i : Fin 16 := ⟨b.val / 1024, by omega⟩
  let p : Fin 512 := ⟨b.val % 512, Nat.mod_lt _ (by decide)⟩
  obtain ⟨f, hf, hgf⟩ := hg c i
  have hbase : baseOf (coordsV c i) + p.val = b.val := by
    show 1024 * (b.val / 1024) + 512 * (b.val / 512 % 2) + b.val % 512 = b.val
    omega
  have hmem : ix1 b ∈ (oSl (coordsV c i)).view.set := by
    rw [set_oSl]
    exact (mem_vecSet (c, i) (ix1 b)).2
      ⟨by show 1024 * (b.val / 1024) + 512 * (b.val / 512 % 2) ≤ b.val; omega,
       by show b.val < 1024 * (b.val / 1024) + 512 * (b.val / 512 % 2) + 512; omega⟩
  have e : (⟨baseOf (coordsV c i) + p.val, baseOf_add_lt (coordsV c i) p⟩ : Fin 16384) = b := Fin.ext hbase
  have h1 := hf p
  rw [e, hbase] at h1
  refine (hgf (ix1 b) hmem).trans (h1.trans ?_)
  unfold scoreI Cert.Spec.dot
  refine congrArg Cert.Spec.sigm (Finset.sum_congr rfl fun dd _ => ?_)
  exact term_eq (Hc m d) (Ic m d) (Tc m d) (Bc m d) (m (a0Loc d)) (m (iLoc d)) (m (a2Loc d)) (m (a3Loc d)) b dd
    ((congrFun (Hc_eq m d) (ix2 dd b)).trans (HostIx.transpose_at (F := Ideal) (m (a0Loc d)) dd b))
    ((congrFun (Tc_eq m d) (ix2 dd b)).trans (HostIx.transpose_at (F := Ideal) (m (a2Loc d)) dd b))
    (congrFun (V3_a1 m d) (ix1 b))
    (hI d (ix1 b))
    (fun r => (congrFun (Bc_eq m d) _).trans (HostIx.table_at (F := Ideal) (m (a3Loc d)) r dd))

/-- From every task's promise to the reference's function. -/
theorem resOK (m : (ℓ : Loc nD τ sig) → Buf (Elt Ideal) ℓ) (hI : ∀ (d : Dev nD) (y : S16384.Idx), (m (iLoc d) y).toNat < 1000) :
    ResOK TileVI ResVI m := by
  intro d g hg
  show (opR (F := Ideal)).result (V4 m d g) v4' = Cert.Spec.G (m (a0Loc d)) (m (iLoc d)) (m (a2Loc d)) (m (a3Loc d))
  rw [res_eq]
  funext j
  obtain ⟨z, b, rfl⟩ : ∃ (z : Fin 1) (b : Fin 16384), j = ix2 z b := ⟨j 0, j 1, eq_ix2 j⟩
  rw [Cert.Spec.G_ix2]
  exact (HostIx.out_at (F := Ideal) g z b).trans (g_at m hI d g hg b)

/-- The ideal run: from one task's run at the ideal values, every weakly fair execution terminates with the result
    at the specification's function of the four arguments' launch contents, the arguments unchanged. -/
theorem run_ideal (m : (ℓ : Loc nD τ sig) → Buf (Elt Ideal) ℓ) (ρ : Dev nD → PrngReg)
    (hI : ∀ (d : Dev nD) (y : S16384.Idx), (m (iLoc d) y).toNat < 1000)
    (hbody : TileRun TileVI (Hc m) (Ic m) (Tc m) (Bc m) (Oc m)) :
    θ_run (Cert.KernelIdeal.defs (F := Ideal)) (Cert.KernelIdeal.threads (F := Ideal)) ⟨m, fun _ => 0, ρ⟩ (fun r => ∀ c : Dev nD,
      r.2.mem ((c.tc : Thread nD τ).loc main_v4) = Cert.Spec.G (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_main' TileVI ResVI m ρ hbody (resOK m hI)

end Cert.KernelIdeal.Hand

end
-- ==== Proof.RefRun.lean ====
/-
  The reference program as a straight line of its thirty-seven host operations (the outlined
  functions' bodies listed at their calls, over the call's own buffers), and its run: every weakly
  fair execution terminates with each buffer at the fold of the operations over the launch contents.
  The result buffer's fold is then the operations' composed term of the four arguments (refOut).
-/
import proofs.«205645_g18588618457683_cont_8to1_1834_20_alg».proof.ReferenceIdeal
import Idealize.ShloMosaic.Lib.StableHlo.Run

noncomputable section

namespace Cert.RefSide

open Cert.ReferenceIdeal Idealize.ShloMosaic Idealize.ShloMosaic.TcCoe Idealize.SL.Sem Idealize.ShloMosaic.StableHlo

variable {F : FTy → Type} [FloatOps F] [Cert.ReferenceIdeal.Facts]
open Cert.ReferenceIdeal.Facts₀ Cert.ReferenceIdeal.Facts

/-- @main's operations in order, the calls unfolded: the index wrap (compare with 0, add 1000, select),
    the bounds mask (0 ≤ i, i ≤ 999, their conjunction reduced over the unit axis), the gather of rows,
    the select against the fill, then the two products, the row sum, and the logistic function's four
    steps with the final reshaping broadcast. -/
abbrev ops : List (HloOp τ sig (Elt F)) :=
  [ TRef.nullary main_call0.c (constantI S_ 32 0#32),
    TRef.unary main_call0.c main_call0.v0 (broadcastInDim S16384 ![] bcast_S_S16384),
    TRef.binary (.of main_arg1) main_call0.v0 main_call0.v1 (cmpi .slt),
    TRef.nullary main_call0.c_0 (constantI S_ 32 1000#32),
    TRef.unary main_call0.c_0 main_call0.v2 (broadcastInDim S16384 ![] bcast_S_S16384),
    TRef.binary (.of main_arg1) main_call0.v2 main_call0.v3 addi,
    TRef.ternary main_call0.v1 main_call0.v3 (.of main_arg1) main_call0.call0.v0 select,
    TRef.unary main_call0.call0.v0 main_call0.v5 (broadcastInDim S16384x1 ![0] bcast_S16384_S16384x1_0),
    TRef.nullary main_call0.c_1 (constantI S1 32 999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg3) main_call0.v5 main_call0.v13 (fun x i => Host.gather gather_S1000x64_S16384x1_S16384x64_1_0_n_n_0_1_164 x i),
    TRef.unary main_call0.v12 main_call0.v14 (broadcastInDim S16384x64 ![0] bcast_S16384_S16384x64_0),
    TRef.nullary main_call0.cst (constant S_ .f32 0x7FC00000#32),
    TRef.unary main_call0.cst main_call0.v15 (broadcastInDim S16384x64 ![] bcast_S_S16384x64),
    TRef.ternary main_call0.v14 main_call0.v13 main_call0.v15 main_call0.v16 select,
    binary main_arg0 main_v0 main_v1 (mulf : (⟨S16384x64, .f32⟩ : BufTy).Contents (Elt F) → (⟨S16384x64, .f32⟩ : BufTy).Contents (Elt F) → (⟨S16384x64, .f32⟩ : BufTy).Contents (Elt F)),
    binary main_v1 main_arg2 main_v2 (mulf : (⟨S16384x64, .f32⟩ : BufTy).Contents (Elt F) → (⟨S16384x64, .f32⟩ : BufTy).Contents (Elt F) → (⟨S16384x64, .f32⟩ : BufTy).Contents (Elt F)),
    nullary main_cst (constant S_ .f32 0x00000000#32),
    binary main_v2 main_cst main_v3 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    unary main_v3 main_v4 (Host.negf : (⟨S16384, .f32⟩ : BufTy).Contents (Elt F) → (⟨S16384, .f32⟩ : BufTy).Contents (Elt F)),
    unary main_v4 main_v5 (Host.exp : (⟨S16384, .f32⟩ : BufTy).Contents (Elt F) → (⟨S16384, .f32⟩ : BufTy).Contents (Elt F)),
    nullary main_cst_0 (constant S_ .f32 0x3F800000#32),
    unary main_cst_0 main_v6 (broadcastInDim S16384 ![] bcast_S_S16384 : (⟨S_, .f32⟩ : BufTy).Contents (Elt F) → (⟨S16384, .f32⟩ : BufTy).Contents (Elt F)),
    binary main_v6 main_v5 main_v7 (addf : (⟨S16384, .f32⟩ : BufTy).Contents (Elt F) → (⟨S16384, .f32⟩ : BufTy).Contents (Elt F) → (⟨S16384, .f32⟩ : BufTy).Contents (Elt F)),
    nullary main_cst_1 (constant S_ .f32 0x3F800000#32),
    unary main_cst_1 main_v8 (broadcastInDim S16384 ![] bcast_S_S16384 : (⟨S_, .f32⟩ : BufTy).Contents (Elt F) → (⟨S16384, .f32⟩ : BufTy).Contents (Elt F)),
    binary main_v8 main_v7 main_v9 (Host.divf : (⟨S16384, .f32⟩ : BufTy).Contents (Elt F) → (⟨S16384, .f32⟩ : BufTy).Contents (Elt F) → (⟨S16384, .f32⟩ : BufTy).Contents (Elt F)),
    unary main_v9 main_v10 (broadcastInDim S1x16384 ![1] bcast_S16384_S1x16384_1 : (⟨S16384, .f32⟩ : BufTy).Contents (Elt F) → (⟨S1x16384, .f32⟩ : BufTy).Contents (Elt F)) ]

-- thirty-seven binds re-associated
set_option maxRecDepth 2048 in
/-- @main is that straight line: the functions' definitions unfolded at their calls, both sides are one
    chain of steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    binary_bufs_sub .., binary_bufs_sub .., nullary_bufs_sub .., binary_bufs_sub .., unary_bufs_sub .., unary_bufs_sub ..,
    nullary_bufs_sub .., unary_bufs_sub .., binary_bufs_sub .., nullary_bufs_sub .., unary_bufs_sub .., binary_bufs_sub ..,
    unary_bufs_sub ..⟩

/-- From any memory with zero counters every weakly fair execution of @main terminates, and every final
    state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The result as the operations' composed term -/

/-- The relation words after the wrap of negative ones: i + 1000 where i < 0, else i. -/
def wrapIdx (rel : (⟨S16384, .i32⟩ : BufTy).Contents (Elt F)) : (⟨S16384, .i32⟩ : BufTy).Contents (Elt F) :=
  select (cmpi .slt rel (broadcastInDim S16384 ![] bcast_S_S16384 (constantI S_ 32 0#32)))
    (addi rel (broadcastInDim S16384 ![] bcast_S_S16384 (constantI S_ 32 1000#32))) rel

/-- The wrapped words as the column of start indices. -/
def idxCol (rel : (⟨S16384, .i32⟩ : BufTy).Contents (Elt F)) : (⟨S16384x1, .i32⟩ : BufTy).Contents (Elt F) :=
  broadcastInDim S16384x1 ![0] bcast_S16384_S16384x1_0 (wrapIdx (F := F) rel)

/-- The bounds mask: 0 ≤ i and i ≤ 999, reduced by conjunction over the unit axis. -/
def inBounds (rel : (⟨S16384, .i32⟩ : BufTy).Contents (Elt F)) : (⟨S16384, .i1⟩ : BufTy).Contents (Elt F) :=
  Host.reduce IntOp.andi
    (andi (cmpi .sge (idxCol (F := F) rel) (broadcastInDim S16384x1 ![] bcast_S_S16384x1 (constantI S_ 32 0#32)))
      (cmpi .sle (idxCol (F := F) rel)
        (broadcastInDim S16384x1 ![0, 1] bcast_S1x1_S16384x1_0_1 (broadcastInDim S1x1 ![1] bcast_S1_S1x1_1 (constantI S1 32 999#32)))))
    (constantI S_ 1 1#1) reducesTo_S16384x1_S16384_d1 h_S_

/-- The rows taken from the table: the gathered row where the index is in bounds, the fill elsewhere. -/
def taken (tab : (⟨S1000x64, .f32⟩ : BufTy).Contents (Elt F)) (rel : (⟨S16384, .i32⟩ : BufTy).Contents (Elt F)) :
    (⟨S16384x64, .f32⟩ : BufTy).Contents (Elt F) :=
  select (broadcastInDim S16384x64 ![0] bcast_S16384_S16384x64_0 (inBounds (F := F) rel))
    (Host.gather gather_S1000x64_S16384x1_S16384x64_1_0_n_n_0_1_164 tab (idxCol (F := F) rel))
    (broadcastInDim S16384x64 ![] bcast_S_S16384x64 (constant S_ .f32 0x7FC00000#32))

/-- The row sums of the triple product, from the zero constant. -/
def rowSum (h : (⟨S16384x64, .f32⟩ : BufTy).Contents (Elt F)) (rel : (⟨S16384, .i32⟩ : BufTy).Contents (Elt F))
    (t : (⟨S16384x64, .f32⟩ : BufTy).Contents (Elt F)) (tab : (⟨S1000x64, .f32⟩ : BufTy).Contents (Elt F)) :
    (⟨S16384, .f32⟩ : BufTy).Contents (Elt F) :=
  Host.reduceAdd (mulf (mulf h (taken tab rel)) t) (constant S_ .f32 0x00000000#32) reducesTo_S16384x64_S16384_d1 h_S_

/-- The logistic function of a vector as the program spells it, then the reshaping broadcast. -/
def logistic (x : (⟨S16384, .f32⟩ : BufTy).Contents (Elt F)) : (⟨S1x16384, .f32⟩ : BufTy).Contents (Elt F) :=
  broadcastInDim S1x16384 ![1] bcast_S16384_S1x16384_1
    (Host.divf (broadcastInDim S16384 ![] bcast_S_S16384 (constant S_ .f32 0x3F800000#32))
      (addf (broadcastInDim S16384 ![] bcast_S_S16384 (constant S_ .f32 0x3F800000#32)) (Host.exp (Host.negf x))))

/-- The reference's result as a function of its four arguments. -/
def refOut (h : (⟨S16384x64, .f32⟩ : BufTy).Contents (Elt F)) (rel : (⟨S16384, .i32⟩ : BufTy).Contents (Elt F))
    (t : (⟨S16384x64, .f32⟩ : BufTy).Contents (Elt F)) (tab : (⟨S1000x64, .f32⟩ : BufTy).Contents (Elt F)) :
    (⟨S1x16384, .f32⟩ : BufTy).Contents (Elt F) :=
  logistic (rowSum h rel t tab)

attribute [local irreducible] Host.reduce Host.gather Host.reduceAdd in
set_option maxRecDepth 8192 in
/-- The fold at the result buffer is that term: the fold unrolled, each operation's result at the buffer it
    writes, the typed references' casts the identity at these literal references. -/
theorem out_eq (V : Valuation τ sig (Elt F)) :
    after ops V (main_v10 : DevRef τ sig)
      = refOut (V (main_arg0 : DevRef τ sig)) (V (main_arg1 : DevRef τ sig)) (V (main_arg2 : DevRef τ sig))
          (V (main_arg3 : DevRef τ sig)) := by
  after_results_simp
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

/-- The run with the result read back: the result buffer at the composed term of the four arguments' launch
    contents, the arguments unchanged. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v10)
          = refOut (F := F) (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v10).trans (out_eq _),
      (h c main_arg0).trans (arg0_eq _), (h c main_arg1).trans (arg1_eq _),
      (h c main_arg2).trans (arg2_eq _), (h c main_arg3).trans (arg3_eq _)⟩)
    (run_main m ρ)

end Cert.RefSide

end
-- ==== Proof.RefValue.lean ====
/-
  The reference's composed term is the specification's function: with every relation word below 1000
  the wrap of negative indices is the identity and the bounds mask is true, so the taken row is the
  table's row at the word; the row sum from zero is the triple product, and the last four operations
  are the logistic function as the specification spells it.
-/
import proofs.«205645_g18588618457683_cont_8to1_1834_20_alg».proof.Proof.RefRun
import proofs.«205645_g18588618457683_cont_8to1_1834_20_alg».proof.Proof.Spec
import Idealize.ShloMosaic.Lib.IdealHost
import Idealize.ShloMosaic.Lib.Pipeline.Value
import Idealize.ShloMosaic.Lib.Affine
import Idealize.ShloMosaic.PureOps.Reduce

noncomputable section

namespace Cert.RefSide

open Cert.ReferenceIdeal Idealize.ShloMosaic Idealize.ShloMosaic.ValueIdx Idealize.ShloMosaic.TcCoe Idealize.SL.Sem
open scoped BigOperators

section Lemmas

variable [Cert.ReferenceIdeal.Facts]
open Cert.ReferenceIdeal.Facts₀ Cert.ReferenceIdeal.Facts

/-! ## Words below 1000 -/

theorem toInt_of_lt {r : BitVec 32} (h : r.toNat < 1000) : r.toInt = (r.toNat : Int) := by
  rw [BitVec.toInt_eq_toNat_cond]; split
  · rfl
  · omega

/-- A word below 1000 is not negative: the wrap leaves it. -/
theorem wrap_word {r : BitVec 32} (h : r.toNat < 1000) :
    Scalar.select (IntOp.cmpi .slt r 0#32) (IntOp.addi r 1000#32) r = r := by
  have hc : IntOp.cmpi .slt r 0#32 = 0#1 := eq_zero_of_ne_one fun e => by
    have := IntOp.cmpi_slt.mp e
    rw [toInt_of_lt h] at this
    have h0 : (0#32 : BitVec 32).toInt = 0 := by decide
    omega
  rw [hc, select_zero]

theorem ge_word {r : BitVec 32} (h : r.toNat < 1000) : IntOp.cmpi .sge r 0#32 = 1#1 :=
  IntOp.cmpi_sge.mpr (by
    rw [toInt_of_lt h]
    have h0 : (0#32 : BitVec 32).toInt = 0 := by decide
    omega)

theorem le_word {r : BitVec 32} (h : r.toNat < 1000) : IntOp.cmpi .sle r 999#32 = 1#1 :=
  IntOp.cmpi_sle.mpr (by
    rw [toInt_of_lt h]
    have h0 : (999#32 : BitVec 32).toInt = 999 := by decide
    omega)

/-- A fold of conjunction from 1 over words that are all 1 is 1. -/
theorem fold_andi_one {ι : Type} [DecidableEq ι] (S : Finset ι) (f : ι → BitVec 1) (hf : ∀ i, f i = 1#1) :
    S.fold IntOp.andi 1#1 f = 1#1 := by
  induction S using Finset.induction_on with
  | empty => rfl
  | insert a s ha ih => rw [Finset.fold_insert ha, ih, hf a]; rfl

/-! ## The index side read at an index -/

section Index

variable (rel : (⟨S16384, .i32⟩ : BufTy).Contents (Elt Ideal)) (hrel : ∀ i : S16384.Idx, (rel i).toNat < 1000)
include hrel

/-- The wrap is the identity on these words. -/
theorem wrapIdx_apply (k : S16384.Idx) : wrapIdx (F := Ideal) rel k = rel k :=
  wrap_word (hrel k)

/-- Every start index is one of the relation words, hence below 1000. -/
theorem idxCol_lt (i : S16384x1.Idx) : (idxCol (F := Ideal) rel i).toNat < 1000 := by
  show (wrapIdx (F := Ideal) rel _).toNat < 1000
  rw [wrapIdx_apply rel hrel]; exact hrel _

/-- The start index of batch element b is its relation word. -/
theorem idxCol_apply (b : Fin 16384) (z : Fin 1) : idxCol (F := Ideal) rel (ix2 b z) = rel (ix1 b) :=
  (broadcastInDim_apply _ _ _ _ (ix1 b) (fun a => match a with | ⟨0, _⟩ => rfl)).trans (wrapIdx_apply rel hrel _)

/-- The bounds mask is true everywhere. -/
theorem inBounds_apply (j : S16384.Idx) : inBounds (F := Ideal) rel j = 1#1 := by
  unfold inBounds
  rw [Host.reduce_eq_fold_single IntOp.andi _ _ reducesTo_S16384x1_S16384_d1 (by decide : S16384x1.Reduces [1] S16384) h_S_ j]
  refine fold_andi_one _ _ fun k => ?_
  show IntOp.andi (IntOp.cmpi .sge (idxCol (F := Ideal) rel _) 0#32) (IntOp.cmpi .sle (idxCol (F := Ideal) rel _) 999#32) = 1#1
  rw [ge_word (idxCol_lt rel hrel _), le_word (idxCol_lt rel hrel _)]
  rfl

end Index

/-! ## The gather read at an index -/

/-- The gather of table rows at (b, d): the table at the start index of b, read signed and clamped into
    [0, 999], and column d. -/
theorem gather_row_apply {α : Type} (tab : S1000x64.Idx → α) (idx : IVec S16384x1 32) (b : Fin 16384) (d : Fin 64) :
    Host.gather gather_S1000x64_S16384x1_S16384x64_1_0_n_n_0_1_164 tab idx (ix2 b d)
      = tab (ix2 (⟨min (idx (ix2 b 0)).toInt.toNat 999, by omega⟩ : Fin 1000) d) := by
  unfold Host.gather
  refine congrArg tab (funext fun a => Fin.ext ?_)
  match a with
  | ⟨0, _⟩ =>
    show gather_S1000x64_S16384x1_S16384x64_1_0_n_n_0_1_164.start (ix2 b d) idx 0
        + gather_S1000x64_S16384x1_S16384x64_1_0_n_n_0_1_164.batchCoord (ix2 b d) 0
        + gather_S1000x64_S16384x1_S16384x64_1_0_n_n_0_1_164.offCoord (ix2 b d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1000x64_S16384x1_S16384x64_1_0_n_n_0_1_164.startIndexMap from List.mem_singleton.mpr rfl)]
    have hsi : gather_S1000x64_S16384x1_S16384x64_1_0_n_n_0_1_164.siIdx (ix2 b d)
        ⟨List.idxOf (0 : Fin 2) gather_S1000x64_S16384x1_S16384x64_1_0_n_n_0_1_164.startIndexMap,
          List.idxOf_lt_length_iff.2 (List.mem_singleton.mpr rfl)⟩ = ix2 b 0 := by
      funext c; refine Fin.ext ?_
      match c with
      | ⟨0, _⟩ => rfl
      | ⟨1, _⟩ => rfl
    rw [hsi]
    rfl
  | ⟨1, _⟩ =>
    show gather_S1000x64_S16384x1_S16384x64_1_0_n_n_0_1_164.start (ix2 b d) idx 1
        + gather_S1000x64_S16384x1_S16384x64_1_0_n_n_0_1_164.batchCoord (ix2 b d) 1
        + gather_S1000x64_S16384x1_S16384x64_1_0_n_n_0_1_164.offCoord (ix2 b d) 1 = d.val
    rw [GatherDims.batchCoord_eq_zero _ _ _ List.not_mem_nil]
    have hs : gather_S1000x64_S16384x1_S16384x64_1_0_n_n_0_1_164.start (ix2 b d) idx 1 = 0 := by
      unfold GatherDims.start
      rw [dif_neg (show (1 : Fin 2) ∉ gather_S1000x64_S16384x1_S16384x64_1_0_n_n_0_1_164.startIndexMap from
        fun h => absurd (List.mem_singleton.mp h) (by decide))]
    have ho : gather_S1000x64_S16384x1_S16384x64_1_0_n_n_0_1_164.offCoord (ix2 b d) 1 = d.val := rfl
    rw [hs, ho]
    omega

/-! ## The values -/

section Values

variable (h : (⟨S16384x64, .f32⟩ : BufTy).Contents (Elt Ideal)) (rel : (⟨S16384, .i32⟩ : BufTy).Contents (Elt Ideal))
  (t : (⟨S16384x64, .f32⟩ : BufTy).Contents (Elt Ideal)) (tab : (⟨S1000x64, .f32⟩ : BufTy).Contents (Elt Ideal))
  (hrel : ∀ i : S16384.Idx, (rel i).toNat < 1000)
include hrel

/-- The taken row of batch element b is the table's row at its relation word. -/
theorem taken_apply (b : Fin 16384) (d : Fin 64) :
    taken (F := Ideal) tab rel (ix2 b d) = tab (ix2 (Cert.Spec.relRow (rel (ix1 b))) d) := by
  have hm : broadcastInDim S16384x64 ![0] bcast_S16384_S16384x64_0 (inBounds (F := Ideal) rel) (ix2 b d) = 1#1 :=
    (broadcastInDim_apply _ _ _ _ (ix1 b) (fun a => match a with | ⟨0, _⟩ => rfl)).trans (inBounds_apply rel hrel _)
  unfold taken
  rw [select_apply, hm, select_one, gather_row_apply]
  refine congrArg (fun r : Fin 1000 => tab (ix2 r d)) (Fin.ext ?_)
  show min (idxCol (F := Ideal) rel (ix2 b 0)).toInt.toNat 999 = (rel (ix1 b)).toNat % 1000
  rw [idxCol_apply rel hrel b 0, toInt_of_lt (hrel _), Int.toNat_natCast, Nat.mod_eq_of_lt (hrel _)]
  have := hrel (ix1 b)
  omega

/-- The row sum of batch element b is the triple product. -/
theorem rowSum_apply (b : Fin 16384) :
    rowSum (F := Ideal) h rel t tab (ix1 b) = Cert.Spec.dot h rel t tab b := by
  unfold rowSum
  refine (hostReduceAdd_apply _ _ _ _ _).trans ?_
  refine (Ideal.hostReduceAdd_single reducesTo_S16384x64_S16384_d1 (by decide : S16384x64.Reduces [1] S16384) _ _ (ix1 b)).trans ?_
  show Ideal.ofBits .f32 0x00000000#32 + ∑ k : Fin 64, _ = ∑ d : Fin 64, Cert.Spec.term h rel t tab b d
  rw [Ideal.ofBits_zero_f32, zero_add]
  refine Finset.sum_congr rfl fun k _ => ?_
  have hl : (by decide : S16384x64.Reduces [1] S16384).lift (ix1 b) k = ix2 b k := by
    funext c; refine Fin.ext ?_
    match c with
    | ⟨0, _⟩ => rfl
    | ⟨1, _⟩ => rfl
  rw [hl]
  show h (ix2 b k) * taken (F := Ideal) tab rel (ix2 b k) * t (ix2 b k) = _
  rw [taken_apply rel tab hrel b k]
  rfl

omit hrel in
/-- The last operations at (z, b): the logistic function of the vector's entry b. -/
theorem logistic_apply (x : (⟨S16384, .f32⟩ : BufTy).Contents (Elt Ideal)) (z : Fin 1) (b : Fin 16384) :
    logistic (F := Ideal) x (ix2 z b) = Cert.Spec.sigm (x (ix1 b)) :=
  broadcastInDim_apply _ _ _ _ (ix1 b) (fun a => match a with | ⟨0, _⟩ => rfl)

/-- The reference's composed term is the specification's function. -/
theorem refOut_eq : refOut (F := Ideal) h rel t tab = Cert.Spec.G h rel t tab := by
  funext j
  obtain ⟨z, b, rfl⟩ : ∃ (z : Fin 1) (b : Fin 16384), j = ix2 z b := ⟨j 0, j 1, eq_ix2 j⟩
  rw [Cert.Spec.G_ix2]
  unfold refOut
  rw [logistic_apply, rowSum_apply h rel t tab hrel b]

end Values

end Lemmas

/-- The reference's run against the specification: from any memory with zero counters whose relation words
    are all below 1000, every weakly fair execution of @main terminates with the result buffer at the
    specification's scores of the four arguments' launch contents, and the arguments unchanged. -/
theorem run [Cert.ReferenceIdeal.Facts] (m : (l : Loc nD τ sig) → Buf (Elt Ideal) l) (g : Dev nD → PrngReg)
    (hrel : ∀ (c : Dev nD) (i : S16384.Idx), (m ((c.tc : Thread nD τ).loc main_arg1) i).toNat < 1000) :
    θ_run (defs (F := Ideal)) (onTc (τ := τ) (main (F := Ideal))) ⟨m, fun _ => 0, g⟩ (fun r => ∀ c : Dev nD,
      r.2.mem ((c.tc : Thread nD τ).loc main_v10) = Cert.Spec.G (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := Ideal)) _ _).mono
    (fun _ h c => ⟨(h c).1.trans (refOut_eq _ _ _ _ (hrel c)), (h c).2⟩)
    (run_out (F := Ideal) m g)

end Cert.RefSide

end
-- ==== Proof.PreFacts.lean ====
/-
  What the precondition says of the relation words: each of them, read unsigned, is below 1000.
  The precondition is the conjunction of four tests; the fourth is that every word w has
  0 ≤ w and w ≤ 999 as signed numbers. A word that is nonnegative as a signed number reads the same
  unsigned, so it is at most 999.
-/
import Idealize.ShloMosaic.Lib.ReduceAll
import Idealize.ShloMosaic.Lib.ValueIdx
import proofs.«205645_g18588618457683_cont_8to1_1834_20_alg».proof.Pre_input_domain

namespace Cert.PreFacts

open Idealize.ShloMosaic Cert.Pre_input_domain

instance : Subsingleton S_.Idx := ⟨fun a b => funext fun d => d.elim0⟩

/-- A 32-bit word between 0 and 999 as a signed number is below 1000 as an unsigned one. -/
theorem word_lt {w : BitVec 32} (h0 : (0#32 : BitVec 32).toInt ≤ w.toInt) (h1 : w.toInt ≤ (999#32 : BitVec 32).toInt) :
    w.toNat < 1000 := by
  rw [show (0#32 : BitVec 32).toInt = 0 from by decide] at h0
  rw [show (999#32 : BitVec 32).toInt = 999 from by decide] at h1
  have hlt := w.isLt
  rw [BitVec.toInt_eq_toNat_cond] at h0 h1
  split at h0 <;> omega

theorem rel_lt {F : FTy → Type} [FloatOps F] [Cert.Pre_input_domain.Facts] (a0 : FVec F S16384x64 .f32) (a1 : IVec S16384 32)
    (a2 : FVec F S16384x64 .f32) (a3 : FVec F S1000x64 .f32)
    (h : Cert.Pre_input_domain.fn (F := F) a0 a1 a2 a3 = fun _ => 1#1) : ∀ i : S16384.Idx, (a1 i).toNat < 1000 := by
  intro i
  have h' := congrFun h ValueIdx.ix0
  dsimp only [fn, fn_part1] at h'
  obtain ⟨-, h4⟩ := IntOp.andi_eq_one.1 (show IntOp.andi _ _ = 1#1 from h')
  have hi := Host.reduce_andi_all _ _ _ _ _ h4 i
  obtain ⟨hge, hle⟩ := IntOp.andi_eq_one.1 (show IntOp.andi _ _ = 1#1 from hi)
  exact word_lt (IntOp.cmpi_sge.1 hge) (IntOp.cmpi_sle.1 hle)

end Cert.PreFacts
-- ==== Proof.Claims.lean ====
/-
  The five claims from the parts. The two kernel programs' frames: with the trivial value predicates the
  task's run asks nothing of the data, and every relation word is below 1000 by the precondition, so the
  launch gives termination and the arguments unchanged. The reference's frame is its run with the value
  dropped. The idealization rewrote nothing. The algebraic claim: the kernel's ideal run leaves the
  specification's scores of its arguments, the reference's run the same scores of its own, and the two
  memories agree on the arguments.
-/
import proofs.«205645_g18588618457683_cont_8to1_1834_20_alg».proof.Defs
import proofs.«205645_g18588618457683_cont_8to1_1834_20_alg».proof.Proof.Launch
import proofs.«205645_g18588618457683_cont_8to1_1834_20_alg».proof.Proof.Body
import proofs.«205645_g18588618457683_cont_8to1_1834_20_alg».proof.Proof.LaunchK
import proofs.«205645_g18588618457683_cont_8to1_1834_20_alg».proof.Proof.BodyK
import proofs.«205645_g18588618457683_cont_8to1_1834_20_alg».proof.Proof.IdealRes
import proofs.«205645_g18588618457683_cont_8to1_1834_20_alg».proof.Proof.RefValue
import proofs.«205645_g18588618457683_cont_8to1_1834_20_alg».proof.Proof.PreFacts
import proofs.«205645_g18588618457683_cont_8to1_1834_20_alg».proof.Proof.Gen.ReferenceIdeal
import proofs.«205645_g18588618457683_cont_8to1_1834_20_alg».proof.Proof.Gen.Pre_input_domain

noncomputable section

namespace Cert.KernelIdeal.Hand

open Cert.KernelIdeal Cert.KernelIdeal.Gen
open Idealize.ShloMosaic
open Idealize.ShloMosaic.SparseCore (S V T)
open Idealize.SL.Sem

variable {F : FTy → Type} [FloatOps F]

/-- With the trivial predicates every condition the task's run asks is met. -/
theorem closed_true (d : Dev nD) (L : grid0.Coords) (H : Buf (Elt F) (hLoc d)) (I : Buf (Elt F) (iLoc d)) (T' : Buf (Elt F) (tLoc d))
    (B : Buf (Elt F) (bLoc d)) (O₀ : Buf (Elt F) (oLoc d)) :
    Closed (F := F) d L H I T' B (fun _ _ _ _ => True) (fun _ _ => True) O₀ (fun _ _ _ _ _ _ _ => True) := by
  unfold Closed AccInit0 AccStep0 OutStep0 AccInit1 AccStep1 OutStep1 AccInit2 AccStep2 OutStep2 AccInit3 AccStep3 OutStep3 OutFinal
  refine ⟨⟨?_, ?_, ?_⟩, ⟨?_, ?_, ?_⟩, ⟨?_, ?_, ?_⟩, ⟨?_, ?_, ?_⟩, ?_, ?_⟩ <;> intros <;> trivial

/-- The frame: when every relation word is below 1000 the program runs to its end and leaves its four arguments
    as they were. -/
theorem frame_run [∀ e, Nonempty (Elt F e)] (m : (ℓ : Loc nD τ sig) → Buf (Elt F) ℓ) (ρ : Dev nD → PrngReg)
    (hI : ∀ (d : Dev nD) (y : S16384.Idx), (m (iLoc d) y).toNat < 1000) :
    θ_run (Cert.KernelIdeal.defs (F := F)) (Cert.KernelIdeal.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (Cert.KernelIdeal.defs (F := F)) _ _).mono (fun _ h c => (h c).2)
    (run_main' (fun _ _ _ _ _ _ _ => True) (fun _ _ _ _ _ _ => True) m ρ
      (tile_run kFacts (fun _ _ _ _ _ _ _ => True) (Hc m) (Ic m) (Tc m) (Bc m) (Oc m)
        (fun d y => by rw [show Ic m d y = m (iLoc d) y from congrFun (V3_a1 m d) y]; exact hI d y)
        (fun _ _ _ _ _ _ => True) (fun _ _ _ _ => True)
        (fun d L => closed_true d L (Hc m d) (Ic m d) (Tc m d) (Bc m d) (Oc m d)))
      (fun _ _ _ => trivial))

end Cert.KernelIdeal.Hand

namespace Cert.Kernel.Hand

open Cert.Kernel Cert.Kernel.Gen
open Idealize.ShloMosaic
open Idealize.ShloMosaic.SparseCore (S V T)
open Idealize.SL.Sem

variable {F : FTy → Type} [FloatOps F]

/-- With the trivial predicates every condition the task's run asks is met. -/
theorem closed_true (d : Dev nD) (L : grid0.Coords) (H : Buf (Elt F) (hLoc d)) (I : Buf (Elt F) (iLoc d)) (T' : Buf (Elt F) (tLoc d))
    (B : Buf (Elt F) (bLoc d)) (O₀ : Buf (Elt F) (oLoc d)) :
    Closed (F := F) d L H I T' B (fun _ _ _ _ => True) (fun _ _ => True) O₀ (fun _ _ _ _ _ _ _ => True) := by
  unfold Closed AccInit0 AccStep0 OutStep0 AccInit1 AccStep1 OutStep1 AccInit2 AccStep2 OutStep2 AccInit3 AccStep3 OutStep3 OutFinal
  refine ⟨⟨?_, ?_, ?_⟩, ⟨?_, ?_, ?_⟩, ⟨?_, ?_, ?_⟩, ⟨?_, ?_, ?_⟩, ?_, ?_⟩ <;> intros <;> trivial

/-- The frame: when every relation word is below 1000 the program runs to its end and leaves its four arguments
    as they were. -/
theorem frame_run [∀ e, Nonempty (Elt F e)] (m : (ℓ : Loc nD τ sig) → Buf (Elt F) ℓ) (ρ : Dev nD → PrngReg)
    (hI : ∀ (d : Dev nD) (y : S16384.Idx), (m (iLoc d) y).toNat < 1000) :
    θ_run (Cert.Kernel.defs (F := F)) (Cert.Kernel.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (Cert.Kernel.defs (F := F)) _ _).mono (fun _ h c => (h c).2)
    (run_main' (fun _ _ _ _ _ _ _ => True) (fun _ _ _ _ _ _ => True) m ρ
      (tile_run kFacts (fun _ _ _ _ _ _ _ => True) (Hc m) (Ic m) (Tc m) (Bc m) (Oc m)
        (fun d y => by rw [show Ic m d y = m (iLoc d) y from congrFun (V3_a1 m d) y]; exact hI d y)
        (fun _ _ _ _ _ _ => True) (fun _ _ _ _ => True)
        (fun d L => closed_true d L (Hc m d) (Ic m d) (Tc m d) (Bc m d) (Oc m d)))
      (fun _ _ _ => trivial))

end Cert.Kernel.Hand

namespace Cert.Proof

open Idealize.ShloMosaic Idealize.SL.Sem

theorem frame_Kernel : Cert.frame_Kernel (hKernel := Cert.Kernel.Gen.facts) (hPre_input_domain := Cert.Pre_input_domain.Gen.facts) :=
  fun m g hpre => Cert.Kernel.Hand.frame_run (F := Bits) m g (fun d y => Cert.PreFacts.rel_lt _ _ _ _ (hpre d) y)

theorem frame_KernelIdeal :
    Cert.frame_KernelIdeal (hKernelIdeal := Cert.KernelIdeal.Gen.facts) (hPre_input_domain := Cert.Pre_input_domain.Gen.facts) :=
  fun m g hpre => Cert.KernelIdeal.Hand.frame_run (F := Ideal) m g (fun d y => Cert.PreFacts.rel_lt _ _ _ _ (hpre d) y)

theorem frame_ReferenceIdeal :
    Cert.frame_ReferenceIdeal (hReferenceIdeal := Cert.ReferenceIdeal.Gen.facts) (hPre_input_domain := Cert.Pre_input_domain.Gen.facts) :=
  fun m g _ => (θ_run (Cert.ReferenceIdeal.defs (F := Ideal)) _ _).mono (fun _ h c => (h c).2) (Cert.RefSide.run_out (F := Ideal) m g)

theorem preserves : Cert.preserves_Kernel_KernelIdeal := trivial

open Cert.KernelIdeal.Hand in
/-- The algebraic claim, from the conditions of one task's run at the ideal values (for some pair of predicates). -/
theorem algebraic_of
    (hclosed : ∀ (m : (ℓ : Loc Cert.KernelIdeal.nD Cert.KernelIdeal.τ Cert.KernelIdeal.sig) → Buf (Elt Ideal) ℓ),
      (∀ (d : Dev Cert.KernelIdeal.nD) (y : Cert.KernelIdeal.S16384.Idx), (Ic m d y).toNat < 1000) →
      ∃ (AccPc : (d : Dev Cert.KernelIdeal.nD) → (L : Cert.KernelIdeal.grid0.Coords) → Fin 4 → Nat → Nat → Acc4 Ideal → Prop)
        (OutPc : (d : Dev Cert.KernelIdeal.nD) → (L : Cert.KernelIdeal.grid0.Coords) → Nat → Buf (Elt Ideal) ((s2).view.loc (thr d L)) → Prop),
        ∀ (d : Dev Cert.KernelIdeal.nD) (L : Cert.KernelIdeal.grid0.Coords),
          Closed d L (Hc m d) (Ic m d) (Tc m d) (Bc m d) (AccPc d L) (OutPc d L) (Oc m d) TileVI) :
    Cert.algebraic_KernelIdeal_ReferenceIdeal (hKernelIdeal := Cert.KernelIdeal.Gen.facts) (hReferenceIdeal := Cert.ReferenceIdeal.Gen.facts)
      (hPre_input_domain := Cert.Pre_input_domain.Gen.facts) := by
  intro m g m' g' hpre hagree
  have hI : ∀ (d : Dev Cert.KernelIdeal.nD) (y : Cert.KernelIdeal.S16384.Idx), (m (iLoc d) y).toNat < 1000 :=
    fun d y => Cert.PreFacts.rel_lt _ _ _ _ (hpre d) y
  have hIc : ∀ (d : Dev Cert.KernelIdeal.nD) (y : Cert.KernelIdeal.S16384.Idx), (Ic m d y).toNat < 1000 :=
    fun d y => by rw [show Ic m d y = m (iLoc d) y from congrFun (V3_a1 m d) y]; exact hI d y
  obtain ⟨AccPc, OutPc, hcl⟩ := hclosed m hIc
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact run_ideal m g hI (tile_run kFacts TileVI (Hc m) (Ic m) (Tc m) (Bc m) (Oc m) hIc AccPc OutPc hcl)
  · have hrel' : ∀ (c : Dev Cert.ReferenceIdeal.nD) (i : Cert.ReferenceIdeal.S16384.Idx),
        (m' ((c.tc : Thread Cert.ReferenceIdeal.nD Cert.ReferenceIdeal.τ).loc Cert.ReferenceIdeal.main_arg1) i).toNat < 1000 :=
      fun c i => by rw [(hagree c).2.1]; exact hI c i
    refine (θ_run (Cert.ReferenceIdeal.defs (F := Ideal)) _ _).mono (fun _ h c => ⟨(h c).1.trans ?_, (h c).2⟩) (Cert.RefSide.run m' g' hrel')
    rw [(hagree c).1, (hagree c).2.1, (hagree c).2.2.1, (hagree c).2.2.2]

end Cert.Proof

end
-- ==== Proof.IdxVals.lean ====
/-
  The values of the kernel's index vectors and of its landed scratch contents. Lane l of group k
  of a column block works on column 16 k + l of the block; at trip j its four running sums take
  the coordinates (l + (4 j + q)) mod 64, q = 0..3; the flattened table is read at 64 · rel + coordinate.
  All numbers are small, so the 32-bit arithmetic does not wrap. The scratch buffers hold the source
  arrays read through the copies' source windows.
-/
import proofs.«205645_g18588618457683_cont_8to1_1834_20_alg».proof.Proof.IdxFacts
import proofs.«205645_g18588618457683_cont_8to1_1834_20_alg».proof.Proof.Contents
import Idealize.ShloMosaic.Lib.ValueIdx

noncomputable section

namespace Cert.KernelIdeal.Hand

open Cert.KernelIdeal Cert.KernelIdeal.Gen
open Idealize.ShloMosaic
open Idealize.ShloMosaic.SparseCore (S V T)
open Idealize.ShloMosaic.ValueIdx (ix1 ix2)

variable {F : FTy → Type} [FloatOps F]

/-! ## The arithmetic, on 32-bit words -/

/-- The induction variable of a loop from 0 by 1 at trip k is k. -/
theorem iv01_toNat (k : Nat) (hk : k < 2 ^ 32) : (Scf.iv 0#32 1#32 k).toNat = k := by
  show (0#32 + BitVec.ofNat 32 k * 1#32).toNat = k
  rw [BitVec.zero_add, BitVec.mul_one, BitVec.toNat_ofNat]
  exact Nat.mod_eq_of_lt hk

/-- Column 16 k + l. -/
theorem col_val (k l : Nat) (hk : k < 8) (hl : l < 16) (a : BitVec 32) (ha : a = BitVec.ofNat 32 l) :
    (IntOp.addi (Scalar.muli (Scf.iv 0#32 1#32 k) 16#32) a).toNat = 16 * k + l := by
  subst ha
  show (Scf.iv 0#32 1#32 k * 16#32 + BitVec.ofNat 32 l).toNat = _
  rw [BitVec.toNat_add, BitVec.toNat_mul, iv01_toNat k (by omega), BitVec.toNat_ofNat, BitVec.toNat_ofNat]
  omega

/-- The scalar 4 j + q. -/
theorem slot_val (j q : Nat) (hj : j < 16) (hq : q < 4) :
    (Scalar.addi (Scalar.muli (Scf.iv 0#32 1#32 j) 4#32) (BitVec.ofNat 32 q)).toNat = 4 * j + q := by
  show (Scf.iv 0#32 1#32 j * 4#32 + BitVec.ofNat 32 q).toNat = _
  rw [BitVec.toNat_add, BitVec.toNat_mul, iv01_toNat j (by omega), BitVec.toNat_ofNat, BitVec.toNat_ofNat]
  omega

/-- Coordinate (l + s) mod 64 of a lane l < 16 and a scalar s < 2 ^ 31. -/
theorem coord_val (l : Nat) (hl : l < 16) (a s : BitVec 32) (ha : a = BitVec.ofNat 32 l) (hs : s.toNat < 2 ^ 31) :
    (IntOp.andi (IntOp.addi a s) 63#32).toNat = (l + s.toNat) % 64 := by
  subst ha
  show ((BitVec.ofNat 32 l + s) &&& 63#32).toNat = _
  rw [BitVec.toNat_and, BitVec.toNat_add, BitVec.toNat_ofNat]
  have h63 : (63#32 : BitVec 32).toNat = 2 ^ 6 - 1 := rfl
  rw [h63, Nat.and_two_pow_sub_one_eq_mod]
  omega

/-- Table position 64 · rel + coordinate. -/
theorem rela_val (w a : BitVec 32) (hw : w.toNat < 1000) (ha : a.toNat < 64) :
    (IntOp.addi (IntOp.muli w 64#32) a).toNat = 64 * w.toNat + a.toNat := by
  show (w * 64#32 + a).toNat = _
  rw [BitVec.toNat_add, BitVec.toNat_mul]
  have : (64#32 : BitVec 32).toNat = 64 := rfl
  rw [this]
  omega

/-- The lane iota at lane x is x. -/
theorem iota_val (x : S16.Idx) : (iota .scVector S16 32 [0] iota_S16_d0_w32_scVector : IVec S16 32) x = BitVec.ofNat 32 (x 0).val := by
  show BitVec.ofNat 32 (0 * 16 + (x 0).val) = _
  rw [Nat.zero_mul, Nat.zero_add]

theorem lane_lt (x : S16.Idx) : (x 0).val < 16 := (x 0).isLt

/-! ## Column block 0 -/

theorem col_0 (k : Fin k0_t1_loop.trips) (x : S16.Idx) : ((k0_pay35 k) x).toNat = 16 * k.val + (x 0).val :=
  col_val k.val (x 0).val (Nat.lt_of_lt_of_le k.isLt (Nat.le_of_eq trips_k0_t1)) (lane_lt x) _ (iota_val x)
theorem dv0_val_0 (v3 : IVec S16 32) (hv3 : ∀ x, v3 x = BitVec.ofNat 32 (x 0).val) (j : Fin k0_t2_loop.trips) (x : S16.Idx) :
    (k0_pay7 v3 0#32 1#32 j x).toNat = ((x 0).val + (4 * j.val + 0)) % 64 := by
  have hj : j.val < 16 := Nat.lt_of_lt_of_le j.isLt (Nat.le_of_eq trips_k0_t2)
  have hs := slot_val j.val 0 hj (by decide)
  rw [← hs]
  exact coord_val (x 0).val (lane_lt x) _ _ (hv3 x) (lt_of_eq_of_lt hs (by omega))
theorem dv1_val_0 (v3 : IVec S16 32) (hv3 : ∀ x, v3 x = BitVec.ofNat 32 (x 0).val) (j : Fin k0_t2_loop.trips) (x : S16.Idx) :
    (k0_pay9 v3 0#32 1#32 j x).toNat = ((x 0).val + (4 * j.val + 1)) % 64 := by
  have hj : j.val < 16 := Nat.lt_of_lt_of_le j.isLt (Nat.le_of_eq trips_k0_t2)
  have hs := slot_val j.val 1 hj (by decide)
  rw [← hs]
  exact coord_val (x 0).val (lane_lt x) _ _ (hv3 x) (lt_of_eq_of_lt hs (by omega))
theorem dv2_val_0 (v3 : IVec S16 32) (hv3 : ∀ x, v3 x = BitVec.ofNat 32 (x 0).val) (j : Fin k0_t2_loop.trips) (x : S16.Idx) :
    (k0_pay11 v3 0#32 1#32 j x).toNat = ((x 0).val + (4 * j.val + 2)) % 64 := by
  have hj : j.val < 16 := Nat.lt_of_lt_of_le j.isLt (Nat.le_of_eq trips_k0_t2)
  have hs := slot_val j.val 2 hj (by decide)
  rw [← hs]
  exact coord_val (x 0).val (lane_lt x) _ _ (hv3 x) (lt_of_eq_of_lt hs (by omega))
theorem dv3_val_0 (j : Fin k0_t2_loop.trips) (x : S16.Idx) :
    (k0_pay38 (k0_pay13 0#32 1#32 j) x).toNat = ((x 0).val + (4 * j.val + 3)) % 64 := by
  have hj : j.val < 16 := Nat.lt_of_lt_of_le j.isLt (Nat.le_of_eq trips_k0_t2)
  have hs := slot_val j.val 3 hj (by decide)
  rw [← hs]
  exact coord_val (x 0).val (lane_lt x) _ _ (iota_val x) (lt_of_eq_of_lt hs (by omega))
theorem tabOff_0 (v54 : Vec F S16 .i32) (dv : IVec S16 32) (x : S16.Idx) (hw : (v54 x).toNat < 1000) (hd : (dv x).toNat < 64) :
    ((addi (k0_pay36 v54) dv) x).toNat = 64 * (v54 x).toNat + (dv x).toNat :=
  rela_val _ _ hw hd

/-! ## Column block 1 -/

theorem col_1 (v3 : IVec S16 32) (hv3 : ∀ x, v3 x = BitVec.ofNat 32 (x 0).val) (k : Fin k0_t3_loop.trips) (x : S16.Idx) :
    ((k0_pay41 v3 k) x).toNat = 16 * k.val + (x 0).val :=
  col_val k.val (x 0).val (Nat.lt_of_lt_of_le k.isLt (Nat.le_of_eq trips_k0_t3)) (lane_lt x) _ (hv3 x)
theorem dv0_val_1 (v3 : IVec S16 32) (hv3 : ∀ x, v3 x = BitVec.ofNat 32 (x 0).val) (j : Fin k0_t4_loop.trips) (x : S16.Idx) :
    (k0_pay14 v3 0#32 1#32 j x).toNat = ((x 0).val + (4 * j.val + 0)) % 64 := by
  have hj : j.val < 16 := Nat.lt_of_lt_of_le j.isLt (Nat.le_of_eq trips_k0_t4)
  have hs := slot_val j.val 0 hj (by decide)
  rw [← hs]
  exact coord_val (x 0).val (lane_lt x) _ _ (hv3 x) (lt_of_eq_of_lt hs (by omega))
theorem dv1_val_1 (v3 : IVec S16 32) (hv3 : ∀ x, v3 x = BitVec.ofNat 32 (x 0).val) (j : Fin k0_t4_loop.trips) (x : S16.Idx) :
    (k0_pay16 v3 0#32 1#32 j x).toNat = ((x 0).val + (4 * j.val + 1)) % 64 := by
  have hj : j.val < 16 := Nat.lt_of_lt_of_le j.isLt (Nat.le_of_eq trips_k0_t4)
  have hs := slot_val j.val 1 hj (by decide)
  rw [← hs]
  exact coord_val (x 0).val (lane_lt x) _ _ (hv3 x) (lt_of_eq_of_lt hs (by omega))
theorem dv2_val_1 (v3 : IVec S16 32) (hv3 : ∀ x, v3 x = BitVec.ofNat 32 (x 0).val) (j : Fin k0_t4_loop.trips) (x : S16.Idx) :
    (k0_pay18 v3 0#32 1#32 j x).toNat = ((x 0).val + (4 * j.val + 2)) % 64 := by
  have hj : j.val < 16 := Nat.lt_of_lt_of_le j.isLt (Nat.le_of_eq trips_k0_t4)
  have hs := slot_val j.val 2 hj (by decide)
  rw [← hs]
  exact coord_val (x 0).val (lane_lt x) _ _ (hv3 x) (lt_of_eq_of_lt hs (by omega))
theorem dv3_val_1 (v3 : IVec S16 32) (hv3 : ∀ x, v3 x = BitVec.ofNat 32 (x 0).val) (j : Fin k0_t4_loop.trips) (x : S16.Idx) :
    (k0_pay44 v3 (k0_pay20 0#32 1#32 j) x).toNat = ((x 0).val + (4 * j.val + 3)) % 64 := by
  have hj : j.val < 16 := Nat.lt_of_lt_of_le j.isLt (Nat.le_of_eq trips_k0_t4)
  have hs := slot_val j.val 3 hj (by decide)
  rw [← hs]
  exact coord_val (x 0).val (lane_lt x) _ _ (hv3 x) (lt_of_eq_of_lt hs (by omega))
theorem tabOff_1 (v54 : Vec F S16 .i32) (dv : IVec S16 32) (x : S16.Idx) (hw : (v54 x).toNat < 1000) (hd : (dv x).toNat < 64) :
    ((addi (k0_pay42 v54) dv) x).toNat = 64 * (v54 x).toNat + (dv x).toNat :=
  rela_val _ _ hw hd

/-! ## Column block 2 -/

theorem col_2 (v3 : IVec S16 32) (hv3 : ∀ x, v3 x = BitVec.ofNat 32 (x 0).val) (k : Fin k0_t5_loop.trips) (x : S16.Idx) :
    ((k0_pay47 v3 k) x).toNat = 16 * k.val + (x 0).val :=
  col_val k.val (x 0).val (Nat.lt_of_lt_of_le k.isLt (Nat.le_of_eq trips_k0_t5)) (lane_lt x) _ (hv3 x)
theorem dv0_val_2 (v3 : IVec S16 32) (hv3 : ∀ x, v3 x = BitVec.ofNat 32 (x 0).val) (j : Fin k0_t6_loop.trips) (x : S16.Idx) :
    (k0_pay21 v3 0#32 1#32 j x).toNat = ((x 0).val + (4 * j.val + 0)) % 64 := by
  have hj : j.val < 16 := Nat.lt_of_lt_of_le j.isLt (Nat.le_of_eq trips_k0_t6)
  have hs := slot_val j.val 0 hj (by decide)
  rw [← hs]
  exact coord_val (x 0).val (lane_lt x) _ _ (hv3 x) (lt_of_eq_of_lt hs (by omega))
theorem dv1_val_2 (v3 : IVec S16 32) (hv3 : ∀ x, v3 x = BitVec.ofNat 32 (x 0).val) (j : Fin k0_t6_loop.trips) (x : S16.Idx) :
    (k0_pay23 v3 0#32 1#32 j x).toNat = ((x 0).val + (4 * j.val + 1)) % 64 := by
  have hj : j.val < 16 := Nat.lt_of_lt_of_le j.isLt (Nat.le_of_eq trips_k0_t6)
  have hs := slot_val j.val 1 hj (by decide)
  rw [← hs]
  exact coord_val (x 0).val (lane_lt x) _ _ (hv3 x) (lt_of_eq_of_lt hs (by omega))
theorem dv2_val_2 (v3 : IVec S16 32) (hv3 : ∀ x, v3 x = BitVec.ofNat 32 (x 0).val) (j : Fin k0_t6_loop.trips) (x : S16.Idx) :
    (k0_pay25 v3 0#32 1#32 j x).toNat = ((x 0).val + (4 * j.val + 2)) % 64 := by
  have hj : j.val < 16 := Nat.lt_of_lt_of_le j.isLt (Nat.le_of_eq trips_k0_t6)
  have hs := slot_val j.val 2 hj (by decide)
  rw [← hs]
  exact coord_val (x 0).val (lane_lt x) _ _ (hv3 x) (lt_of_eq_of_lt hs (by omega))
theorem dv3_val_2 (v3 : IVec S16 32) (hv3 : ∀ x, v3 x = BitVec.ofNat 32 (x 0).val) (j : Fin k0_t6_loop.trips) (x : S16.Idx) :
    (k0_pay50 v3 (k0_pay27 0#32 1#32 j) x).toNat = ((x 0).val + (4 * j.val + 3)) % 64 := by
  have hj : j.val < 16 := Nat.lt_of_lt_of_le j.isLt (Nat.le_of_eq trips_k0_t6)
  have hs := slot_val j.val 3 hj (by decide)
  rw [← hs]
  exact coord_val (x 0).val (lane_lt x) _ _ (hv3 x) (lt_of_eq_of_lt hs (by omega))
theorem tabOff_2 (v54 : Vec F S16 .i32) (dv : IVec S16 32) (x : S16.Idx) (hw : (v54 x).toNat < 1000) (hd : (dv x).toNat < 64) :
    ((addi (k0_pay48 v54) dv) x).toNat = 64 * (v54 x).toNat + (dv x).toNat :=
  rela_val _ _ hw hd

/-! ## Column block 3 -/

theorem col_3 (v3 : IVec S16 32) (hv3 : ∀ x, v3 x = BitVec.ofNat 32 (x 0).val) (k : Fin k0_t7_loop.trips) (x : S16.Idx) :
    ((k0_pay1 v3 k) x).toNat = 16 * k.val + (x 0).val :=
  col_val k.val (x 0).val (Nat.lt_of_lt_of_le k.isLt (Nat.le_of_eq trips_k0_t7)) (lane_lt x) _ (hv3 x)
theorem dv0_val_3 (v3 : IVec S16 32) (hv3 : ∀ x, v3 x = BitVec.ofNat 32 (x 0).val) (j : Fin k0_t8_loop.trips) (x : S16.Idx) :
    (k0_pay28 v3 0#32 1#32 j x).toNat = ((x 0).val + (4 * j.val + 0)) % 64 := by
  have hj : j.val < 16 := Nat.lt_of_lt_of_le j.isLt (Nat.le_of_eq trips_k0_t8)
  have hs := slot_val j.val 0 hj (by decide)
  rw [← hs]
  exact coord_val (x 0).val (lane_lt x) _ _ (hv3 x) (lt_of_eq_of_lt hs (by omega))
theorem dv1_val_3 (v3 : IVec S16 32) (hv3 : ∀ x, v3 x = BitVec.ofNat 32 (x 0).val) (j : Fin k0_t8_loop.trips) (x : S16.Idx) :
    (k0_pay30 v3 0#32 1#32 j x).toNat = ((x 0).val + (4 * j.val + 1)) % 64 := by
  have hj : j.val < 16 := Nat.lt_of_lt_of_le j.isLt (Nat.le_of_eq trips_k0_t8)
  have hs := slot_val j.val 1 hj (by decide)
  rw [← hs]
  exact coord_val (x 0).val (lane_lt x) _ _ (hv3 x) (lt_of_eq_of_lt hs (by omega))
theorem dv2_val_3 (v3 : IVec S16 32) (hv3 : ∀ x, v3 x = BitVec.ofNat 32 (x 0).val) (j : Fin k0_t8_loop.trips) (x : S16.Idx) :
    (k0_pay32 v3 0#32 1#32 j x).toNat = ((x 0).val + (4 * j.val + 2)) % 64 := by
  have hj : j.val < 16 := Nat.lt_of_lt_of_le j.isLt (Nat.le_of_eq trips_k0_t8)
  have hs := slot_val j.val 2 hj (by decide)
  rw [← hs]
  exact coord_val (x 0).val (lane_lt x) _ _ (hv3 x) (lt_of_eq_of_lt hs (by omega))
theorem dv3_val_3 (v3 : IVec S16 32) (hv3 : ∀ x, v3 x = BitVec.ofNat 32 (x 0).val) (j : Fin k0_t8_loop.trips) (x : S16.Idx) :
    (k0_pay4 v3 (k0_pay34 0#32 1#32 j) x).toNat = ((x 0).val + (4 * j.val + 3)) % 64 := by
  have hj : j.val < 16 := Nat.lt_of_lt_of_le j.isLt (Nat.le_of_eq trips_k0_t8)
  have hs := slot_val j.val 3 hj (by decide)
  rw [← hs]
  exact coord_val (x 0).val (lane_lt x) _ _ (hv3 x) (lt_of_eq_of_lt hs (by omega))
theorem tabOff_3 (v54 : Vec F S16 .i32) (dv : IVec S16 32) (x : S16.Idx) (hw : (v54 x).toNat < 1000) (hd : (dv x).toNat < 64) :
    ((addi (k0_pay2 v54) dv) x).toNat = 64 * (v54 x).toNat + (dv x).toNat :=
  rela_val _ _ hw hd

/-! ## What the scratch buffers hold, at an index -/

theorem cTab_apply (d : Dev nD) (L : grid0.Coords) (B : Buf (Elt F) (bLoc d)) (z : Fin 64000) :
    cTab d L B (ix1 z) = B (ix1 z) := rfl

theorem cIdx_apply (d : Dev nD) (L : grid0.Coords) (I : Buf (Elt F) (iLoc d)) (p : Fin 512) :
    cIdx d L I (ix1 p) = I (ix1 (⟨1024 * (L 1).val + 512 * (L 0).val + p.val, by
      have h0 : (L 0).val < 2 := (L 0).isLt
      have h1 : (L 1).val < 16 := (L 1).isLt
      have := p.isLt; omega⟩ : Fin 16384)) := by
  unfold cIdx
  show I ((iSl L).view.emb (ix1 p)) = _
  refine congrArg I (funext fun a => Fin.ext ?_)
  match a with
  | ⟨0, _⟩ =>
    show (k0_off1 L) 0 + 1 * p.val = 1024 * (L 1).val + 512 * (L 0).val + p.val
    rw [k0_off1_eq]
    show 1024 * (L 1).val + 512 * (L 0).val + 1 * p.val = _
    omega

theorem cH_apply (d : Dev nD) (L : grid0.Coords) (H : Buf (Elt F) (hLoc d)) (r : Fin 4) (dd : Fin 64) (col : Fin 128) :
    cH d L H r (ix2 dd col) = H (ix2 dd (⟨1024 * (L 1).val + 512 * (L 0).val + 128 * r.val + col.val, by
      have h0 : (L 0).val < 2 := (L 0).isLt
      have h1 : (L 1).val < 16 := (L 1).isLt
      have := r.isLt; have := col.isLt; omega⟩ : Fin 16384)) := by
  unfold cH
  show H ((hSl L r).view.emb (ix2 dd col)) = _
  refine congrArg H (funext fun a => Fin.ext ?_)
  match a with
  | ⟨0, _⟩ =>
    show (k0_off2 L (BitVec.ofNat 32 (128 * r.val))) 0 + 1 * dd.val = dd.val
    rw [k0_off2_eq]
    show 0 + 1 * dd.val = _
    omega
  | ⟨1, _⟩ =>
    show (k0_off2 L (BitVec.ofNat 32 (128 * r.val))) 1 + 1 * col.val = 1024 * (L 1).val + 512 * (L 0).val + 128 * r.val + col.val
    rw [k0_off2_eq]
    show 1024 * (L 1).val + 512 * (L 0).val + 128 * r.val + 1 * col.val = _
    omega

theorem cT_apply (d : Dev nD) (L : grid0.Coords) (T : Buf (Elt F) (tLoc d)) (r : Fin 4) (dd : Fin 64) (col : Fin 128) :
    cT d L T r (ix2 dd col) = T (ix2 dd (⟨1024 * (L 1).val + 512 * (L 0).val + 128 * r.val + col.val, by
      have h0 : (L 0).val < 2 := (L 0).isLt
      have h1 : (L 1).val < 16 := (L 1).isLt
      have := r.isLt; have := col.isLt; omega⟩ : Fin 16384)) := by
  unfold cT
  show T ((tSl L r).view.emb (ix2 dd col)) = _
  refine congrArg T (funext fun a => Fin.ext ?_)
  match a with
  | ⟨0, _⟩ =>
    show (k0_off2 L (BitVec.ofNat 32 (128 * r.val))) 0 + 1 * dd.val = dd.val
    rw [k0_off2_eq]
    show 0 + 1 * dd.val = _
    omega
  | ⟨1, _⟩ =>
    show (k0_off2 L (BitVec.ofNat 32 (128 * r.val))) 1 + 1 * col.val = 1024 * (L 1).val + 512 * (L 0).val + 128 * r.val + col.val
    rw [k0_off2_eq]
    show 1024 * (L 1).val + 512 * (L 0).val + 128 * r.val + 1 * col.val = _
    omega

end Cert.KernelIdeal.Hand

end
-- ==== Proof.SumOrder.lean ====
/-
  The order in which the kernel adds the 64 products of one batch element, and its spelling of the
  logistic function. Each of 16 lanes keeps four running sums; trip k adds to sum q the term at
  coordinate (l + (4k + q)) mod 64, and the four sums are added at the end. Addition in the extended
  reals is commutative and associative, and j ↦ (l + j) mod 64 permutes the 64 coordinates, so the
  total is the plain sum over the coordinates.
-/
import Mathlib.Algebra.BigOperators.Fin
import Idealize.ShloMosaic.PureOps.Ideal.Laws
import proofs.«205645_g18588618457683_cont_8to1_1834_20_alg».proof.Proof.Spec

noncomputable section

namespace Cert.Spec

open Idealize.ShloMosaic

/-- Running sum number `q` of lane `l` after `k` trips. -/
def accK (f : Nat → EReal) (l q : Nat) : Nat → EReal
  | 0 => 0
  | k + 1 => accK f l q k + f ((l + (4 * k + q)) % 64)

theorem accK_eq_sum (f : Nat → EReal) (l q n : Nat) :
    accK f l q n = ∑ k ∈ Finset.range n, f ((l + (4 * k + q)) % 64) := by
  induction n with
  | zero => simp [accK]
  | succ n ih => rw [accK, ih, Finset.sum_range_succ]

/-- A sum over 4n consecutive indices, grouped in fours. -/
theorem sum_range_four (g : Nat → EReal) (n : Nat) :
    ∑ k ∈ Finset.range n, (g (4 * k + 0) + g (4 * k + 1) + g (4 * k + 2) + g (4 * k + 3))
      = ∑ j ∈ Finset.range (4 * n), g j := by
  induction n with
  | zero => simp
  | succ n ih =>
    rw [Finset.sum_range_succ, ih, show 4 * (n + 1) = 4 * n + 1 + 1 + 1 + 1 from by ring,
      Finset.sum_range_succ, Finset.sum_range_succ, Finset.sum_range_succ, Finset.sum_range_succ]
    simp only [Nat.add_zero, add_assoc]

/-- Rotating the 64 coordinates by `l` does not change the sum. -/
theorem sum_rotate (f : Nat → EReal) (l : Nat) :
    ∑ j ∈ Finset.range 64, f ((l + j) % 64) = ∑ d : Fin 64, f d.val := by
  rw [← Fin.sum_univ_eq_sum_range (fun j => f ((l + j) % 64)) 64,
    ← Equiv.sum_comp (Equiv.addLeft (⟨l % 64, Nat.mod_lt _ (by decide)⟩ : Fin 64)) (fun d : Fin 64 => f d.val)]
  refine Finset.sum_congr rfl fun j _ => ?_
  simp only [Equiv.coe_addLeft, Fin.val_add, Nat.mod_add_mod]

theorem acc_total (f : Nat → EReal) (l : Nat) :
    accK f l 0 16 + accK f l 1 16 + accK f l 2 16 + accK f l 3 16 = ∑ d : Fin 64, f d.val := by
  rw [accK_eq_sum, accK_eq_sum, accK_eq_sum, accK_eq_sum, ← Finset.sum_add_distrib,
    ← Finset.sum_add_distrib, ← Finset.sum_add_distrib,
    sum_range_four (fun j => f ((l + j) % 64)) 16]
  exact sum_rotate f l

/-- The kernel writes the logistic function with 0 − x for −x. -/
theorem sigm_of_sub (x : EReal) :
    Ideal.div (Ideal.ofBits .f32 0x3F800000#32)
      (Ideal.ofBits .f32 0x3F800000#32 + Ideal.exp (Ideal.ofBits .f32 0x00000000#32 - x)) = sigm x := by
  rw [Ideal.ofBits_zero_f32, zero_sub]
  rfl

end Cert.Spec

end
-- ==== Proof.IdealSteps.lean ====
/-
  The value content of the kernel's loops at the ideal instance. For batch position b and coordinate
  dd the term is head[dd, b] · table[64 · rel(b) + dd] · tail[dd, b], the arrays as the kernel call
  finds them (the embeddings transposed, the table flattened). In column block c, group k, lane l
  works on position b = base + 128 c + 16 k + l; after j trips its running sum q holds the terms at
  the coordinates (l + (4 i + q)) mod 64, i < j; a finished group's score is the logistic function
  of the sum of all 64 terms.
-/
import proofs.«205645_g18588618457683_cont_8to1_1834_20_alg».proof.Proof.Closure
import proofs.«205645_g18588618457683_cont_8to1_1834_20_alg».proof.Proof.IdealDefs
import proofs.«205645_g18588618457683_cont_8to1_1834_20_alg».proof.Proof.IdxVals
import proofs.«205645_g18588618457683_cont_8to1_1834_20_alg».proof.Proof.SumOrder
import Idealize.ShloMosaic.Lib.Writes
import Idealize.ShloMosaic.Lib.ValueIdx

noncomputable section

namespace Cert.KernelIdeal.Hand

open Cert.KernelIdeal Cert.KernelIdeal.Gen
open Idealize.ShloMosaic
open Idealize.ShloMosaic.SparseCore (S V T)
open Idealize.ShloMosaic.ValueIdx (ix1 ix2)

/-- In range, the term reads the arrays at the position and the coordinate themselves. -/
theorem termI_eq (Hf : S64x16384.Idx → EReal) (If : S16384.Idx → BitVec 32) (Tf : S64x16384.Idx → EReal) (Bf : S64000.Idx → EReal)
    (b dd : Nat) (hb : b < 16384) (hdd : dd < 64) (hr : 64 * (If (ix1 (⟨b, hb⟩ : Fin 16384))).toNat + dd < 64000) :
    termI Hf If Tf Bf b dd = Hf (ix2 (⟨dd, hdd⟩ : Fin 64) (⟨b, hb⟩ : Fin 16384))
      * Bf (ix1 (⟨64 * (If (ix1 (⟨b, hb⟩ : Fin 16384))).toNat + dd, hr⟩ : Fin 64000))
      * Tf (ix2 (⟨dd, hdd⟩ : Fin 64) (⟨b, hb⟩ : Fin 16384)) := by
  unfold termI
  have e1 : (⟨dd % 64, Nat.mod_lt _ (by decide)⟩ : Fin 64) = ⟨dd, hdd⟩ := Fin.ext (Nat.mod_eq_of_lt hdd)
  have e2 : (⟨b % 16384, Nat.mod_lt _ (by decide)⟩ : Fin 16384) = ⟨b, hb⟩ := Fin.ext (Nat.mod_eq_of_lt hb)
  refine congrArg₂ (· * ·) (congrArg₂ (· * ·) (congrArg Hf (congrArg₂ ix2 e1 e2)) (congrArg Bf (congrArg ix1 (Fin.ext ?_))))
    (congrArg Tf (congrArg₂ ix2 e1 e2))
  show (64 * (If (ix1 (⟨b % 16384, _⟩ : Fin 16384))).toNat + dd % 64) % 64000 = 64 * (If (ix1 (⟨b, hb⟩ : Fin 16384))).toNat + dd
  rw [e2, Nat.mod_eq_of_lt hdd, Nat.mod_eq_of_lt hr]

variable (d : Dev nD) (L : grid0.Coords)
variable (H : Buf (Elt Ideal) (hLoc d)) (I : Buf (Elt Ideal) (iLoc d)) (T : Buf (Elt Ideal) (tLoc d)) (B : Buf (Elt Ideal) (bLoc d))

theorem baseOf_le (L : grid0.Coords) : baseOf L ≤ 15872 := by
  have h0 : (L 0).val < 2 := (L 0).isLt
  have h1 : (L 1).val < 16 := (L 1).isLt
  unfold baseOf; omega

/-- The running sums of block c, group k after j trips. -/
def AccI (c : Fin 4) (k j : Nat) (a : Acc4 Ideal) : Prop :=
  k < 8 → ∀ x : S16.Idx,
    a.1 x = Cert.Spec.accK (fun dd => termI H I T B (baseOf L + 128 * c.val + 16 * k + (x 0).val) dd) (x 0).val 0 j
    ∧ a.2.1 x = Cert.Spec.accK (fun dd => termI H I T B (baseOf L + 128 * c.val + 16 * k + (x 0).val) dd) (x 0).val 1 j
    ∧ a.2.2.1 x = Cert.Spec.accK (fun dd => termI H I T B (baseOf L + 128 * c.val + 16 * k + (x 0).val) dd) (x 0).val 2 j
    ∧ a.2.2.2 x = Cert.Spec.accK (fun dd => termI H I T B (baseOf L + 128 * c.val + 16 * k + (x 0).val) dd) (x 0).val 3 j

/-- The score buffer after n groups: its first 16 n places hold the scores. -/
def OutI (n : Nat) (f2 : Buf (Elt Ideal) ((s2).view.loc (thr d L))) : Prop :=
  ∀ p : Fin 512, p.val < 16 * n → f2 (ix1 p) = scoreI H I T B (baseOf L + p.val)

theorem outInit (g2 : Buf (Elt Ideal) ((s2).view.loc (thr d L))) : OutI d L H I T B 0 g2 :=
  fun p hp => absurd hp (by omega)

/-- The zero vector. -/
theorem zero_vec (z : FVec Ideal S16 .f32) (hz : ∀ x, z x = Ideal.ofBits .f32 0x00000000#32) (c : Fin 4) (k : Nat) :
    AccI d L H I T B c k 0 (z, z, z, z) := by
  intro _ x
  have h0 : z x = 0 := (hz x).trans Ideal.ofBits_zero_f32
  exact ⟨h0, h0, h0, h0⟩

/-! ## One gather, one slot, one store: the common steps of the four column blocks -/

/-- Two index vectors name a (coordinate, column) pair of a [64, 128] block. -/
theorem idxAt2_eq (dv v50 : IVec S16 32) (hA : ∀ a x, ((![dv, v50] : Fin 2 → IVec S16 32) a x).toNat < S64x128.size a)
    (x : S16.Idx) (dd : Fin 64) (col : Fin 128) (h0 : (dv x).toNat = dd.val) (h1 : (v50 x).toNat = col.val) :
    idxAt (s := S64x128) ![dv, v50] hA x = ix2 dd col :=
  funext fun a => Fin.ext (match a with | ⟨0, _⟩ => h0 | ⟨1, _⟩ => h1)

/-- One index vector names a position of the flattened table. -/
theorem idxAt1_eq (w : IVec S16 32) (hTb : ∀ a x, ((![w] : Fin 1 → IVec S16 32) a x).toNat < S64000.size a)
    (x : S16.Idx) (z : Fin 64000) (h0 : (w x).toNat = z.val) : idxAt (s := S64000) ![w] hTb x = ix1 z :=
  funext fun a => Fin.ext (match a with | ⟨0, _⟩ => h0)

/-- The sixteen relation words a group loads: lane x gets the word of its batch position. -/
theorem v54_val (off : Fin 1 → Nat) (inb : ∀ a, off a + S16.size a ≤ S512.size a) (x : S16.Idx) (n b : Nat)
    (hoff : off 0 = n) (hb : b < 16384) (hbn : b = baseOf L + n + (x 0).val) :
    ((s1).view.readAt (Elt Ideal) (Rect.unit (s := S512) off S16.size inb).toLoadRect (cIdx d L I)) x
      = I (ix1 (⟨b, hb⟩ : Fin 16384)) := by
  have hx : (x 0).val < 16 := lane_lt x
  have hn : n + 16 ≤ 512 := by have h := inb 0; rw [hoff] at h; exact h
  show cIdx d L I ((Rect.unit (s := S512) off S16.size inb).toLoadRect.idx x) = _
  have e : (Rect.unit (s := S512) off S16.size inb).toLoadRect.idx x = ix1 (⟨n + (x 0).val, by omega⟩ : Fin 512) :=
    funext fun a => Fin.ext (match a with
      | ⟨0, _⟩ => by show off 0 + 1 * (x 0).val = n + (x 0).val; rw [hoff, Nat.one_mul])
  rw [e, cIdx_apply]
  exact congrArg I (congrArg ix1 (Fin.ext (by show 1024 * (L 1).val + 512 * (L 0).val + (n + (x 0).val) = b; rw [hbn]; unfold baseOf; omega)))

/-- One slot of one trip: the three gathers multiply to the term at the slot's coordinate, and the
    running sum takes one more step. -/
theorem slot_step (c : Fin 4) (k : Nat) (hk : k < 8) (x : S16.Idx) (q j : Nat)
    (dv v50 w V54 : IVec S16 32)
    (hA : ∀ a x, ((![dv, v50] : Fin 2 → IVec S16 32) a x).toNat < S64x128.size a)
    (hTb : ∀ a x, ((![w] : Fin 1 → IVec S16 32) a x).toNat < S64000.size a)
    (hdv : (dv x).toNat = ((x 0).val + (4 * j + q)) % 64)
    (hcol : (v50 x).toNat = 16 * k + (x 0).val)
    (hb : baseOf L + 128 * c.val + 16 * k + (x 0).val < 16384)
    (hV : V54 x = I (ix1 (⟨baseOf L + 128 * c.val + 16 * k + (x 0).val, hb⟩ : Fin 16384)))
    (hw : (w x).toNat = 64 * (V54 x).toNat + (dv x).toNat)
    (fH fT : Vec Ideal S64x128 .f32) (fB : Vec Ideal S64000 .f32)
    (hfH : fH = cH d L H c) (hfT : fT = cT d L T c) (hfB : fB = cTab d L B)
    (a : EReal)
    (ha : a = Cert.Spec.accK (fun dd => termI H I T B (baseOf L + 128 * c.val + 16 * k + (x 0).val) dd) (x 0).val q j) :
    a + (loadIdx fH ![dv, v50] hA x * loadIdx fB ![w] hTb x) * loadIdx fT ![dv, v50] hA x
      = Cert.Spec.accK (fun dd => termI H I T B (baseOf L + 128 * c.val + 16 * k + (x 0).val) dd) (x 0).val q (j + 1) := by
  subst hfH hfT hfB
  show a + (cH d L H c (idxAt ![dv, v50] hA x) * cTab d L B (idxAt ![w] hTb x)) * cT d L T c (idxAt ![dv, v50] hA x) = _
  have hx : (x 0).val < 16 := lane_lt x
  have hdd : ((x 0).val + (4 * j + q)) % 64 < 64 := Nat.mod_lt _ (by decide)
  have hc : c.val < 4 := c.isLt
  have hw64 : (w x).toNat < 64000 := hTb 0 x
  have hrelw : (w x).toNat = 64 * (I (ix1 (⟨baseOf L + 128 * c.val + 16 * k + (x 0).val, hb⟩ : Fin 16384))).toNat + ((x 0).val + (4 * j + q)) % 64 := by
    rw [hw, hdv, hV]
  have hr : 64 * (I (ix1 (⟨baseOf L + 128 * c.val + 16 * k + (x 0).val, hb⟩ : Fin 16384))).toNat + ((x 0).val + (4 * j + q)) % 64 < 64000 := by
    rw [← hrelw]; exact hw64
  rw [idxAt2_eq dv v50 hA x ⟨_, hdd⟩ ⟨16 * k + (x 0).val, by omega⟩ hdv hcol,
    idxAt1_eq w hTb x ⟨_, hr⟩ hrelw, cH_apply, cT_apply, cTab_apply, Cert.Spec.accK, ha,
    termI_eq H I T B _ _ hb hdd hr]
  have eb : (⟨1024 * (L 1).val + 512 * (L 0).val + 128 * c.val + (16 * k + (x 0).val), by
      have := baseOf_le L; unfold baseOf at this; omega⟩ : Fin 16384) = ⟨baseOf L + 128 * c.val + 16 * k + (x 0).val, hb⟩ :=
    Fin.ext (by
      show 1024 * (L 1).val + 512 * (L 0).val + 128 * c.val + (16 * k + (x 0).val) = baseOf L + 128 * c.val + 16 * k + (x 0).val
      unfold baseOf; omega)
  rw [eb]

/-- A finished group's store: sixteen scores enter the score buffer at the group's place. -/
theorem out_step (c : Fin 4) (k n : Nat) (hk : k < 8) (hn : 16 * n = 128 * c.val + 16 * k)
    (f2 : Buf (Elt Ideal) ((s2).view.loc (thr d L))) (w0 w1 w2 w3 res : FVec Ideal S16 .f32)
    (off : Fin 1 → Nat) (inb : ∀ a, off a + S16.size a ≤ S512.size a) (hoff : off 0 = 16 * n)
    (hres : ∀ x, res x = Ideal.div (Ideal.ofBits .f32 0x3F800000#32)
      (Ideal.ofBits .f32 0x3F800000#32 + Ideal.exp (Ideal.ofBits .f32 0x00000000#32 - (((w0 x + w1 x) + w2 x) + w3 x))))
    (hout : OutI d L H I T B n f2) (hacc : AccI d L H I T B c k 16 (w0, w1, w2, w3)) :
    OutI d L H I T B (n + 1) ((s2).view.writes (Elt Ideal) f2 [⟨Rect.unit (s := S512) off S16.size inb, res⟩]) := by
  intro p hp
  have h16 : off 0 + 16 ≤ 512 := inb 0
  by_cases hlt : p.val < 16 * n
  · rw [← hout p hlt]
    show View.read (Elt Ideal) (s2).view ((s2).view.writes (Elt Ideal) f2 [⟨Rect.unit (s := S512) off S16.size inb, res⟩]) (ix1 p)
      = View.read (Elt Ideal) (s2).view f2 (ix1 p)
    refine View.read_writes_apply_of_forall_not_mem (s2).view f2 (ix1 p) _ (fun pc hpc => ?_)
    rw [List.mem_singleton] at hpc
    subst hpc
    intro hm
    have hm' : (ix1 p : S512.Idx) ∈ (Rect.unit (s := S512) off S16.size inb).set := hm
    have h1 : off 0 ≤ p.val := ((Rect.mem_set_unit (inb := inb)).mp hm' 0).1
    omega
  · have hl : p.val - 16 * n < 16 := by omega
    have e : (ix1 p : S512.Idx) = (Rect.unit (s := S512) off S16.size inb).emb (ix1 (⟨p.val - 16 * n, hl⟩ : Fin 16)) :=
      funext fun a => Fin.ext (match a with
        | ⟨0, _⟩ => by show p.val = off 0 + 1 * (p.val - 16 * n); rw [hoff]; omega)
    rw [e]
    show View.read (Elt Ideal) (s2).view ((s2).view.writes (Elt Ideal) f2 [⟨Rect.unit (s := S512) off S16.size inb, res⟩])
      ((Rect.unit (s := S512) off S16.size inb).emb (ix1 (⟨p.val - 16 * n, hl⟩ : Fin 16))) = _
    refine (View.read_writes_cons_emb (s2).view f2 (Rect.unit (s := S512) off S16.size inb) res [] (ix1 (⟨p.val - 16 * n, hl⟩ : Fin 16))).trans ?_
    obtain ⟨e0, e1, e2, e3⟩ := hacc hk (ix1 (⟨p.val - 16 * n, hl⟩ : Fin 16))
    dsimp only at e0 e1 e2 e3
    rw [hres, Cert.Spec.sigm_of_sub]
    show Cert.Spec.sigm (((w0 _ + w1 _) + w2 _) + w3 _) = _
    rw [e0, e1, e2, e3, Cert.Spec.acc_total]
    unfold scoreI
    have eb : baseOf L + 128 * c.val + 16 * k + ((ix1 (⟨p.val - 16 * n, hl⟩ : Fin 16) : S16.Idx) 0).val = baseOf L + p.val := by
      show baseOf L + 128 * c.val + 16 * k + (p.val - 16 * n) = baseOf L + p.val
      omega
    rw [eb]

/-! One slot's update at the ideal instance: the sum plus (head · table) · tail, lane by lane; and a
    finished group's score. -/
theorem k0_pay8_apply (a vh vt vb : FVec Ideal S16 .f32) (x : S16.Idx) : k0_pay8 a vh vt vb x = a x + (vh x * vb x) * vt x := rfl
theorem k0_pay10_apply (a vh vt vb : FVec Ideal S16 .f32) (x : S16.Idx) : k0_pay10 a vh vt vb x = a x + (vh x * vb x) * vt x := rfl
theorem k0_pay12_apply (a vh vt vb : FVec Ideal S16 .f32) (x : S16.Idx) : k0_pay12 a vh vt vb x = a x + (vh x * vb x) * vt x := rfl
theorem k0_pay39_apply (a vh vt vb : FVec Ideal S16 .f32) (x : S16.Idx) : k0_pay39 a vh vt vb x = a x + (vh x * vb x) * vt x := rfl
theorem k0_pay15_apply (a vh vt vb : FVec Ideal S16 .f32) (x : S16.Idx) : k0_pay15 a vh vt vb x = a x + (vh x * vb x) * vt x := rfl
theorem k0_pay17_apply (a vh vt vb : FVec Ideal S16 .f32) (x : S16.Idx) : k0_pay17 a vh vt vb x = a x + (vh x * vb x) * vt x := rfl
theorem k0_pay19_apply (a vh vt vb : FVec Ideal S16 .f32) (x : S16.Idx) : k0_pay19 a vh vt vb x = a x + (vh x * vb x) * vt x := rfl
theorem k0_pay45_apply (a vh vt vb : FVec Ideal S16 .f32) (x : S16.Idx) : k0_pay45 a vh vt vb x = a x + (vh x * vb x) * vt x := rfl
theorem k0_pay22_apply (a vh vt vb : FVec Ideal S16 .f32) (x : S16.Idx) : k0_pay22 a vh vt vb x = a x + (vh x * vb x) * vt x := rfl
theorem k0_pay24_apply (a vh vt vb : FVec Ideal S16 .f32) (x : S16.Idx) : k0_pay24 a vh vt vb x = a x + (vh x * vb x) * vt x := rfl
theorem k0_pay26_apply (a vh vt vb : FVec Ideal S16 .f32) (x : S16.Idx) : k0_pay26 a vh vt vb x = a x + (vh x * vb x) * vt x := rfl
theorem k0_pay51_apply (a vh vt vb : FVec Ideal S16 .f32) (x : S16.Idx) : k0_pay51 a vh vt vb x = a x + (vh x * vb x) * vt x := rfl
theorem k0_pay29_apply (a vh vt vb : FVec Ideal S16 .f32) (x : S16.Idx) : k0_pay29 a vh vt vb x = a x + (vh x * vb x) * vt x := rfl
theorem k0_pay31_apply (a vh vt vb : FVec Ideal S16 .f32) (x : S16.Idx) : k0_pay31 a vh vt vb x = a x + (vh x * vb x) * vt x := rfl
theorem k0_pay33_apply (a vh vt vb : FVec Ideal S16 .f32) (x : S16.Idx) : k0_pay33 a vh vt vb x = a x + (vh x * vb x) * vt x := rfl
theorem k0_pay5_apply (a vh vt vb : FVec Ideal S16 .f32) (x : S16.Idx) : k0_pay5 a vh vt vb x = a x + (vh x * vb x) * vt x := rfl
theorem k0_pay40_apply (w0 w1 w2 w3 : FVec Ideal S16 .f32) (x : S16.Idx) :
    k0_pay40 w0 w1 w2 w3 x = Ideal.div (Ideal.ofBits .f32 0x3F800000#32)
      (Ideal.ofBits .f32 0x3F800000#32 + Ideal.exp (Ideal.ofBits .f32 0x00000000#32 - (((w0 x + w1 x) + w2 x) + w3 x))) := rfl
theorem k0_pay46_apply (w0 w1 w2 w3 : FVec Ideal S16 .f32) (x : S16.Idx) :
    k0_pay46 w0 w1 w2 w3 x = Ideal.div (Ideal.ofBits .f32 0x3F800000#32)
      (Ideal.ofBits .f32 0x3F800000#32 + Ideal.exp (Ideal.ofBits .f32 0x00000000#32 - (((w0 x + w1 x) + w2 x) + w3 x))) := rfl
theorem k0_pay52_apply (w0 w1 w2 w3 : FVec Ideal S16 .f32) (x : S16.Idx) :
    k0_pay52 w0 w1 w2 w3 x = Ideal.div (Ideal.ofBits .f32 0x3F800000#32)
      (Ideal.ofBits .f32 0x3F800000#32 + Ideal.exp (Ideal.ofBits .f32 0x00000000#32 - (((w0 x + w1 x) + w2 x) + w3 x))) := rfl
theorem k0_pay6_apply (w0 w1 w2 w3 : FVec Ideal S16 .f32) (x : S16.Idx) :
    k0_pay6 w0 w1 w2 w3 x = Ideal.div (Ideal.ofBits .f32 0x3F800000#32)
      (Ideal.ofBits .f32 0x3F800000#32 + Ideal.exp (Ideal.ofBits .f32 0x00000000#32 - (((w0 x + w1 x) + w2 x) + w3 x))) := rfl

/-! ## Column block 0 -/

theorem accInit0 : AccInit0 (F := Ideal) (AccI d L H I T B) := fun k => zero_vec d L H I T B _ (fun _ => rfl) 0 k

theorem accStep0 (hI : ∀ y : S16384.Idx, (I y).toNat < 1000) : AccStep0 (F := Ideal) d L H I T B (AccI d L H I T B) := by
  intro k j a0 a1 a2 a3 hA0 hT0 hA1 hT1 hA2 hT2 hA3 hT3 hacc hk8 x
  obtain ⟨e0, e1, e2, e3⟩ := hacc hk8 x
  have hx : (x 0).val < 16 := lane_lt x
  have hb : baseOf L + 128 * ((0 : Fin 4)).val + 16 * k.val + (x 0).val < 16384 := by
    have := baseOf_le L
    show baseOf L + 128 * 0 + 16 * k.val + (x 0).val < 16384
    omega
  have hV : ((s1).view.readAt (Elt Ideal) (Rect.unit (s := S512) (k0_off3 k) S16.size (k0_off3_inb k)).toLoadRect (cIdx d L I)) x = I (ix1 (⟨baseOf L + 128 * ((0 : Fin 4)).val + 16 * k.val + (x 0).val, hb⟩ : Fin 16384)) :=
    v54_val d L I (k0_off3 k) (k0_off3_inb k) x (16 * k.val + 0) _ (by rw [k0_off3_eq]; rfl) hb (by
      show baseOf L + 128 * 0 + 16 * k.val + (x 0).val = baseOf L + (16 * k.val + 0) + (x 0).val
      omega)
  have hrel : (((s1).view.readAt (Elt Ideal) (Rect.unit (s := S512) (k0_off3 k) S16.size (k0_off3_inb k)).toLoadRect (cIdx d L I)) x).toNat < 1000 := by
    rw [hV]; exact hI _
  have hcol : ((k0_pay35 k) x).toNat = 16 * k.val + (x 0).val := col_0 k x
  refine ⟨?_, ?_, ?_, ?_⟩
  · refine (k0_pay8_apply a0 _ _ _ x).trans ?_
    exact slot_step d L H I T B 0 k.val hk8 x 0 j.val (k0_pay7 (iota .scVector S16 32 [0] iota_S16_d0_w32_scVector) 0#32 1#32 j) (k0_pay35 k) (addi (k0_pay36 ((s1).view.readAt (Elt Ideal) (Rect.unit (s := S512) (k0_off3 k) S16.size (k0_off3_inb k)).toLoadRect (cIdx d L I))) (k0_pay7 (iota .scVector S16 32 [0] iota_S16_d0_w32_scVector) 0#32 1#32 j)) ((s1).view.readAt (Elt Ideal) (Rect.unit (s := S512) (k0_off3 k) S16.size (k0_off3_inb k)).toLoadRect (cIdx d L I)) hA0 hT0
      (dv0_val_0 (iota .scVector S16 32 [0] iota_S16_d0_w32_scVector) iota_val j x) hcol hb hV (tabOff_0 (F := Ideal) ((s1).view.readAt (Elt Ideal) (Rect.unit (s := S512) (k0_off3 k) S16.size (k0_off3_inb k)).toLoadRect (cIdx d L I)) (k0_pay7 (iota .scVector S16 32 [0] iota_S16_d0_w32_scVector) 0#32 1#32 j) x hrel (dv0_lt_0 (iota .scVector S16 32 [0] iota_S16_d0_w32_scVector) 0#32 1#32 j x))
      ((s3).view.readAt (Elt Ideal) (LoadRect.whole S64x128) (cH d L H 0)) ((s5).view.readAt (Elt Ideal) (LoadRect.whole S64x128) (cT d L T 0)) ((s0).view.readAt (Elt Ideal) (LoadRect.whole S64000) (cTab d L B))
      (Memref.readAt_whole (Elt Ideal) cc0_scratch3 (cH d L H 0)) (Memref.readAt_whole (Elt Ideal) cc0_scratch5 (cT d L T 0))
      (Memref.readAt_whole (Elt Ideal) cc0_scratch0 (cTab d L B)) (a0 x) e0
  · refine (k0_pay10_apply a1 _ _ _ x).trans ?_
    exact slot_step d L H I T B 0 k.val hk8 x 1 j.val (k0_pay9 (iota .scVector S16 32 [0] iota_S16_d0_w32_scVector) 0#32 1#32 j) (k0_pay35 k) (addi (k0_pay36 ((s1).view.readAt (Elt Ideal) (Rect.unit (s := S512) (k0_off3 k) S16.size (k0_off3_inb k)).toLoadRect (cIdx d L I))) (k0_pay9 (iota .scVector S16 32 [0] iota_S16_d0_w32_scVector) 0#32 1#32 j)) ((s1).view.readAt (Elt Ideal) (Rect.unit (s := S512) (k0_off3 k) S16.size (k0_off3_inb k)).toLoadRect (cIdx d L I)) hA1 hT1
      (dv1_val_0 (iota .scVector S16 32 [0] iota_S16_d0_w32_scVector) iota_val j x) hcol hb hV (tabOff_0 (F := Ideal) ((s1).view.readAt (Elt Ideal) (Rect.unit (s := S512) (k0_off3 k) S16.size (k0_off3_inb k)).toLoadRect (cIdx d L I)) (k0_pay9 (iota .scVector S16 32 [0] iota_S16_d0_w32_scVector) 0#32 1#32 j) x hrel (dv1_lt_0 (iota .scVector S16 32 [0] iota_S16_d0_w32_scVector) 0#32 1#32 j x))
      ((s3).view.readAt (Elt Ideal) (LoadRect.whole S64x128) (cH d L H 0)) ((s5).view.readAt (Elt Ideal) (LoadRect.whole S64x128) (cT d L T 0)) ((s0).view.readAt (Elt Ideal) (LoadRect.whole S64000) (cTab d L B))
      (Memref.readAt_whole (Elt Ideal) cc0_scratch3 (cH d L H 0)) (Memref.readAt_whole (Elt Ideal) cc0_scratch5 (cT d L T 0))
      (Memref.readAt_whole (Elt Ideal) cc0_scratch0 (cTab d L B)) (a1 x) e1
  · refine (k0_pay12_apply a2 _ _ _ x).trans ?_
    exact slot_step d L H I T B 0 k.val hk8 x 2 j.val (k0_pay11 (iota .scVector S16 32 [0] iota_S16_d0_w32_scVector) 0#32 1#32 j) (k0_pay35 k) (addi (k0_pay36 ((s1).view.readAt (Elt Ideal) (Rect.unit (s := S512) (k0_off3 k) S16.size (k0_off3_inb k)).toLoadRect (cIdx d L I))) (k0_pay11 (iota .scVector S16 32 [0] iota_S16_d0_w32_scVector) 0#32 1#32 j)) ((s1).view.readAt (Elt Ideal) (Rect.unit (s := S512) (k0_off3 k) S16.size (k0_off3_inb k)).toLoadRect (cIdx d L I)) hA2 hT2
      (dv2_val_0 (iota .scVector S16 32 [0] iota_S16_d0_w32_scVector) iota_val j x) hcol hb hV (tabOff_0 (F := Ideal) ((s1).view.readAt (Elt Ideal) (Rect.unit (s := S512) (k0_off3 k) S16.size (k0_off3_inb k)).toLoadRect (cIdx d L I)) (k0_pay11 (iota .scVector S16 32 [0] iota_S16_d0_w32_scVector) 0#32 1#32 j) x hrel (dv2_lt_0 (iota .scVector S16 32 [0] iota_S16_d0_w32_scVector) 0#32 1#32 j x))
      ((s3).view.readAt (Elt Ideal) (LoadRect.whole S64x128) (cH d L H 0)) ((s5).view.readAt (Elt Ideal) (LoadRect.whole S64x128) (cT d L T 0)) ((s0).view.readAt (Elt Ideal) (LoadRect.whole S64000) (cTab d L B))
      (Memref.readAt_whole (Elt Ideal) cc0_scratch3 (cH d L H 0)) (Memref.readAt_whole (Elt Ideal) cc0_scratch5 (cT d L T 0))
      (Memref.readAt_whole (Elt Ideal) cc0_scratch0 (cTab d L B)) (a2 x) e2
  · refine (k0_pay39_apply a3 _ _ _ x).trans ?_
    exact slot_step d L H I T B 0 k.val hk8 x 3 j.val (k0_pay38 (k0_pay13 0#32 1#32 j)) (k0_pay35 k) (addi (k0_pay36 ((s1).view.readAt (Elt Ideal) (Rect.unit (s := S512) (k0_off3 k) S16.size (k0_off3_inb k)).toLoadRect (cIdx d L I))) (k0_pay38 (k0_pay13 0#32 1#32 j))) ((s1).view.readAt (Elt Ideal) (Rect.unit (s := S512) (k0_off3 k) S16.size (k0_off3_inb k)).toLoadRect (cIdx d L I)) hA3 hT3
      (dv3_val_0 j x) hcol hb hV (tabOff_0 (F := Ideal) ((s1).view.readAt (Elt Ideal) (Rect.unit (s := S512) (k0_off3 k) S16.size (k0_off3_inb k)).toLoadRect (cIdx d L I)) (k0_pay38 (k0_pay13 0#32 1#32 j)) x hrel (dv3_lt_0 (k0_pay13 0#32 1#32 j) x))
      ((s3).view.readAt (Elt Ideal) (LoadRect.whole S64x128) (cH d L H 0)) ((s5).view.readAt (Elt Ideal) (LoadRect.whole S64x128) (cT d L T 0)) ((s0).view.readAt (Elt Ideal) (LoadRect.whole S64000) (cTab d L B))
      (Memref.readAt_whole (Elt Ideal) cc0_scratch3 (cH d L H 0)) (Memref.readAt_whole (Elt Ideal) cc0_scratch5 (cT d L T 0))
      (Memref.readAt_whole (Elt Ideal) cc0_scratch0 (cTab d L B)) (a3 x) e3

theorem outStep0 : OutStep0 (F := Ideal) d L (AccI d L H I T B) (OutI d L H I T B) := by
  intro k f2 w0 w1 w2 w3 hout hacc
  have hk8 : k.val < 8 := Nat.lt_of_lt_of_le k.isLt (Nat.le_of_eq trips_k0_t1)
  exact out_step d L H I T B 0 k.val (0 + k.val) hk8 (by show 16 * (0 + k.val) = 128 * 0 + 16 * k.val; omega)
    f2 w0 w1 w2 w3 (k0_pay40 w0 w1 w2 w3) (k0_off4 k) (k0_off4_inb k) (by rw [k0_off4_eq]; show 16 * k.val + 0 = 16 * (0 + k.val); omega)
    (k0_pay40_apply w0 w1 w2 w3) hout hacc

/-! ## Column block 1 -/

theorem accInit1 : AccInit1 (F := Ideal) (AccI d L H I T B) := fun k => zero_vec d L H I T B _ (fun _ => rfl) 1 k

theorem accStep1 (hI : ∀ y : S16384.Idx, (I y).toNat < 1000) : AccStep1 (F := Ideal) d L H I T B (AccI d L H I T B) := by
  intro k j a0 a1 a2 a3 hA0 hT0 hA1 hT1 hA2 hT2 hA3 hT3 hacc hk8 x
  obtain ⟨e0, e1, e2, e3⟩ := hacc hk8 x
  have hx : (x 0).val < 16 := lane_lt x
  have hb : baseOf L + 128 * ((1 : Fin 4)).val + 16 * k.val + (x 0).val < 16384 := by
    have := baseOf_le L
    show baseOf L + 128 * 1 + 16 * k.val + (x 0).val < 16384
    omega
  have hV : ((s1).view.readAt (Elt Ideal) (Rect.unit (s := S512) (k0_off5 k) S16.size (k0_off5_inb k)).toLoadRect (cIdx d L I)) x = I (ix1 (⟨baseOf L + 128 * ((1 : Fin 4)).val + 16 * k.val + (x 0).val, hb⟩ : Fin 16384)) :=
    v54_val d L I (k0_off5 k) (k0_off5_inb k) x (16 * k.val + 128) _ (by rw [k0_off5_eq]; rfl) hb (by
      show baseOf L + 128 * 1 + 16 * k.val + (x 0).val = baseOf L + (16 * k.val + 128) + (x 0).val
      omega)
  have hrel : (((s1).view.readAt (Elt Ideal) (Rect.unit (s := S512) (k0_off5 k) S16.size (k0_off5_inb k)).toLoadRect (cIdx d L I)) x).toNat < 1000 := by
    rw [hV]; exact hI _
  have hcol : ((k0_pay41 (iota .scVector S16 32 [0] iota_S16_d0_w32_scVector) k) x).toNat = 16 * k.val + (x 0).val := col_1 (iota .scVector S16 32 [0] iota_S16_d0_w32_scVector) iota_val k x
  refine ⟨?_, ?_, ?_, ?_⟩
  · refine (k0_pay15_apply a0 _ _ _ x).trans ?_
    exact slot_step d L H I T B 1 k.val hk8 x 0 j.val (k0_pay14 (iota .scVector S16 32 [0] iota_S16_d0_w32_scVector) 0#32 1#32 j) (k0_pay41 (iota .scVector S16 32 [0] iota_S16_d0_w32_scVector) k) (addi (k0_pay42 ((s1).view.readAt (Elt Ideal) (Rect.unit (s := S512) (k0_off5 k) S16.size (k0_off5_inb k)).toLoadRect (cIdx d L I))) (k0_pay14 (iota .scVector S16 32 [0] iota_S16_d0_w32_scVector) 0#32 1#32 j)) ((s1).view.readAt (Elt Ideal) (Rect.unit (s := S512) (k0_off5 k) S16.size (k0_off5_inb k)).toLoadRect (cIdx d L I)) hA0 hT0
      (dv0_val_1 (iota .scVector S16 32 [0] iota_S16_d0_w32_scVector) iota_val j x) hcol hb hV (tabOff_1 (F := Ideal) ((s1).view.readAt (Elt Ideal) (Rect.unit (s := S512) (k0_off5 k) S16.size (k0_off5_inb k)).toLoadRect (cIdx d L I)) (k0_pay14 (iota .scVector S16 32 [0] iota_S16_d0_w32_scVector) 0#32 1#32 j) x hrel (dv0_lt_1 (iota .scVector S16 32 [0] iota_S16_d0_w32_scVector) 0#32 1#32 j x))
      ((s4).view.readAt (Elt Ideal) (LoadRect.whole S64x128) (cH d L H 1)) ((s6).view.readAt (Elt Ideal) (LoadRect.whole S64x128) (cT d L T 1)) ((s0).view.readAt (Elt Ideal) (LoadRect.whole S64000) (cTab d L B))
      (Memref.readAt_whole (Elt Ideal) cc0_scratch4 (cH d L H 1)) (Memref.readAt_whole (Elt Ideal) cc0_scratch6 (cT d L T 1))
      (Memref.readAt_whole (Elt Ideal) cc0_scratch0 (cTab d L B)) (a0 x) e0
  · refine (k0_pay17_apply a1 _ _ _ x).trans ?_
    exact slot_step d L H I T B 1 k.val hk8 x 1 j.val (k0_pay16 (iota .scVector S16 32 [0] iota_S16_d0_w32_scVector) 0#32 1#32 j) (k0_pay41 (iota .scVector S16 32 [0] iota_S16_d0_w32_scVector) k) (addi (k0_pay42 ((s1).view.readAt (Elt Ideal) (Rect.unit (s := S512) (k0_off5 k) S16.size (k0_off5_inb k)).toLoadRect (cIdx d L I))) (k0_pay16 (iota .scVector S16 32 [0] iota_S16_d0_w32_scVector) 0#32 1#32 j)) ((s1).view.readAt (Elt Ideal) (Rect.unit (s := S512) (k0_off5 k) S16.size (k0_off5_inb k)).toLoadRect (cIdx d L I)) hA1 hT1
      (dv1_val_1 (iota .scVector S16 32 [0] iota_S16_d0_w32_scVector) iota_val j x) hcol hb hV (tabOff_1 (F := Ideal) ((s1).view.readAt (Elt Ideal) (Rect.unit (s := S512) (k0_off5 k) S16.size (k0_off5_inb k)).toLoadRect (cIdx d L I)) (k0_pay16 (iota .scVector S16 32 [0] iota_S16_d0_w32_scVector) 0#32 1#32 j) x hrel (dv1_lt_1 (iota .scVector S16 32 [0] iota_S16_d0_w32_scVector) 0#32 1#32 j x))
      ((s4).view.readAt (Elt Ideal) (LoadRect.whole S64x128) (cH d L H 1)) ((s6).view.readAt (Elt Ideal) (LoadRect.whole S64x128) (cT d L T 1)) ((s0).view.readAt (Elt Ideal) (LoadRect.whole S64000) (cTab d L B))
      (Memref.readAt_whole (Elt Ideal) cc0_scratch4 (cH d L H 1)) (Memref.readAt_whole (Elt Ideal) cc0_scratch6 (cT d L T 1))
      (Memref.readAt_whole (Elt Ideal) cc0_scratch0 (cTab d L B)) (a1 x) e1
  · refine (k0_pay19_apply a2 _ _ _ x).trans ?_
    exact slot_step d L H I T B 1 k.val hk8 x 2 j.val (k0_pay18 (iota .scVector S16 32 [0] iota_S16_d0_w32_scVector) 0#32 1#32 j) (k0_pay41 (iota .scVector S16 32 [0] iota_S16_d0_w32_scVector) k) (addi (k0_pay42 ((s1).view.readAt (Elt Ideal) (Rect.unit (s := S512) (k0_off5 k) S16.size (k0_off5_inb k)).toLoadRect (cIdx d L I))) (k0_pay18 (iota .scVector S16 32 [0] iota_S16_d0_w32_scVector) 0#32 1#32 j)) ((s1).view.readAt (Elt Ideal) (Rect.unit (s := S512) (k0_off5 k) S16.size (k0_off5_inb k)).toLoadRect (cIdx d L I)) hA2 hT2
      (dv2_val_1 (iota .scVector S16 32 [0] iota_S16_d0_w32_scVector) iota_val j x) hcol hb hV (tabOff_1 (F := Ideal) ((s1).view.readAt (Elt Ideal) (Rect.unit (s := S512) (k0_off5 k) S16.size (k0_off5_inb k)).toLoadRect (cIdx d L I)) (k0_pay18 (iota .scVector S16 32 [0] iota_S16_d0_w32_scVector) 0#32 1#32 j) x hrel (dv2_lt_1 (iota .scVector S16 32 [0] iota_S16_d0_w32_scVector) 0#32 1#32 j x))
      ((s4).view.readAt (Elt Ideal) (LoadRect.whole S64x128) (cH d L H 1)) ((s6).view.readAt (Elt Ideal) (LoadRect.whole S64x128) (cT d L T 1)) ((s0).view.readAt (Elt Ideal) (LoadRect.whole S64000) (cTab d L B))
      (Memref.readAt_whole (Elt Ideal) cc0_scratch4 (cH d L H 1)) (Memref.readAt_whole (Elt Ideal) cc0_scratch6 (cT d L T 1))
      (Memref.readAt_whole (Elt Ideal) cc0_scratch0 (cTab d L B)) (a2 x) e2
  · refine (k0_pay45_apply a3 _ _ _ x).trans ?_
    exact slot_step d L H I T B 1 k.val hk8 x 3 j.val (k0_pay44 (iota .scVector S16 32 [0] iota_S16_d0_w32_scVector) (k0_pay20 0#32 1#32 j)) (k0_pay41 (iota .scVector S16 32 [0] iota_S16_d0_w32_scVector) k) (addi (k0_pay42 ((s1).view.readAt (Elt Ideal) (Rect.unit (s := S512) (k0_off5 k) S16.size (k0_off5_inb k)).toLoadRect (cIdx d L I))) (k0_pay44 (iota .scVector S16 32 [0] iota_S16_d0_w32_scVector) (k0_pay20 0#32 1#32 j))) ((s1).view.readAt (Elt Ideal) (Rect.unit (s := S512) (k0_off5 k) S16.size (k0_off5_inb k)).toLoadRect (cIdx d L I)) hA3 hT3
      (dv3_val_1 (iota .scVector S16 32 [0] iota_S16_d0_w32_scVector) iota_val j x) hcol hb hV (tabOff_1 (F := Ideal) ((s1).view.readAt (Elt Ideal) (Rect.unit (s := S512) (k0_off5 k) S16.size (k0_off5_inb k)).toLoadRect (cIdx d L I)) (k0_pay44 (iota .scVector S16 32 [0] iota_S16_d0_w32_scVector) (k0_pay20 0#32 1#32 j)) x hrel (dv3_lt_1 (iota .scVector S16 32 [0] iota_S16_d0_w32_scVector) (k0_pay20 0#32 1#32 j) x))
      ((s4).view.readAt (Elt Ideal) (LoadRect.whole S64x128) (cH d L H 1)) ((s6).view.readAt (Elt Ideal) (LoadRect.whole S64x128) (cT d L T 1)) ((s0).view.readAt (Elt Ideal) (LoadRect.whole S64000) (cTab d L B))
      (Memref.readAt_whole (Elt Ideal) cc0_scratch4 (cH d L H 1)) (Memref.readAt_whole (Elt Ideal) cc0_scratch6 (cT d L T 1))
      (Memref.readAt_whole (Elt Ideal) cc0_scratch0 (cTab d L B)) (a3 x) e3

theorem outStep1 : OutStep1 (F := Ideal) d L (AccI d L H I T B) (OutI d L H I T B) := by
  intro k f2 w0 w1 w2 w3 hout hacc
  have hk8 : k.val < 8 := Nat.lt_of_lt_of_le k.isLt (Nat.le_of_eq trips_k0_t3)
  exact out_step d L H I T B 1 k.val (8 + k.val) hk8 (by show 16 * (8 + k.val) = 128 * 1 + 16 * k.val; omega)
    f2 w0 w1 w2 w3 (k0_pay46 w0 w1 w2 w3) (k0_off6 k) (k0_off6_inb k) (by rw [k0_off6_eq]; show 16 * k.val + 128 = 16 * (8 + k.val); omega)
    (k0_pay46_apply w0 w1 w2 w3) hout hacc

/-! ## Column block 2 -/

theorem accInit2 : AccInit2 (F := Ideal) (AccI d L H I T B) := fun k => zero_vec d L H I T B _ (fun _ => rfl) 2 k

theorem accStep2 (hI : ∀ y : S16384.Idx, (I y).toNat < 1000) : AccStep2 (F := Ideal) d L H I T B (AccI d L H I T B) := by
  intro k j a0 a1 a2 a3 hA0 hT0 hA1 hT1 hA2 hT2 hA3 hT3 hacc hk8 x
  obtain ⟨e0, e1, e2, e3⟩ := hacc hk8 x
  have hx : (x 0).val < 16 := lane_lt x
  have hb : baseOf L + 128 * ((2 : Fin 4)).val + 16 * k.val + (x 0).val < 16384 := by
    have := baseOf_le L
    show baseOf L + 128 * 2 + 16 * k.val + (x 0).val < 16384
    omega
  have hV : ((s1).view.readAt (Elt Ideal) (Rect.unit (s := S512) (k0_off7 k) S16.size (k0_off7_inb k)).toLoadRect (cIdx d L I)) x = I (ix1 (⟨baseOf L + 128 * ((2 : Fin 4)).val + 16 * k.val + (x 0).val, hb⟩ : Fin 16384)) :=
    v54_val d L I (k0_off7 k) (k0_off7_inb k) x (16 * k.val + 256) _ (by rw [k0_off7_eq]; rfl) hb (by
      show baseOf L + 128 * 2 + 16 * k.val + (x 0).val = baseOf L + (16 * k.val + 256) + (x 0).val
      omega)
  have hrel : (((s1).view.readAt (Elt Ideal) (Rect.unit (s := S512) (k0_off7 k) S16.size (k0_off7_inb k)).toLoadRect (cIdx d L I)) x).toNat < 1000 := by
    rw [hV]; exact hI _
  have hcol : ((k0_pay47 (iota .scVector S16 32 [0] iota_S16_d0_w32_scVector) k) x).toNat = 16 * k.val + (x 0).val := col_2 (iota .scVector S16 32 [0] iota_S16_d0_w32_scVector) iota_val k x
  refine ⟨?_, ?_, ?_, ?_⟩
  · refine (k0_pay22_apply a0 _ _ _ x).trans ?_
    exact slot_step d L H I T B 2 k.val hk8 x 0 j.val (k0_pay21 (iota .scVector S16 32 [0] iota_S16_d0_w32_scVector) 0#32 1#32 j) (k0_pay47 (iota .scVector S16 32 [0] iota_S16_d0_w32_scVector) k) (addi (k0_pay48 ((s1).view.readAt (Elt Ideal) (Rect.unit (s := S512) (k0_off7 k) S16.size (k0_off7_inb k)).toLoadRect (cIdx d L I))) (k0_pay21 (iota .scVector S16 32 [0] iota_S16_d0_w32_scVector) 0#32 1#32 j)) ((s1).view.readAt (Elt Ideal) (Rect.unit (s := S512) (k0_off7 k) S16.size (k0_off7_inb k)).toLoadRect (cIdx d L I)) hA0 hT0
      (dv0_val_2 (iota .scVector S16 32 [0] iota_S16_d0_w32_scVector) iota_val j x) hcol hb hV (tabOff_2 (F := Ideal) ((s1).view.readAt (Elt Ideal) (Rect.unit (s := S512) (k0_off7 k) S16.size (k0_off7_inb k)).toLoadRect (cIdx d L I)) (k0_pay21 (iota .scVector S16 32 [0] iota_S16_d0_w32_scVector) 0#32 1#32 j) x hrel (dv0_lt_2 (iota .scVector S16 32 [0] iota_S16_d0_w32_scVector) 0#32 1#32 j x))
      ((s3).view.readAt (Elt Ideal) (LoadRect.whole S64x128) (cH d L H 2)) ((s5).view.readAt (Elt Ideal) (LoadRect.whole S64x128) (cT d L T 2)) ((s0).view.readAt (Elt Ideal) (LoadRect.whole S64000) (cTab d L B))
      (Memref.readAt_whole (Elt Ideal) cc0_scratch3 (cH d L H 2)) (Memref.readAt_whole (Elt Ideal) cc0_scratch5 (cT d L T 2))
      (Memref.readAt_whole (Elt Ideal) cc0_scratch0 (cTab d L B)) (a0 x) e0
  · refine (k0_pay24_apply a1 _ _ _ x).trans ?_
    exact slot_step d L H I T B 2 k.val hk8 x 1 j.val (k0_pay23 (iota .scVector S16 32 [0] iota_S16_d0_w32_scVector) 0#32 1#32 j) (k0_pay47 (iota .scVector S16 32 [0] iota_S16_d0_w32_scVector) k) (addi (k0_pay48 ((s1).view.readAt (Elt Ideal) (Rect.unit (s := S512) (k0_off7 k) S16.size (k0_off7_inb k)).toLoadRect (cIdx d L I))) (k0_pay23 (iota .scVector S16 32 [0] iota_S16_d0_w32_scVector) 0#32 1#32 j)) ((s1).view.readAt (Elt Ideal) (Rect.unit (s := S512) (k0_off7 k) S16.size (k0_off7_inb k)).toLoadRect (cIdx d L I)) hA1 hT1
      (dv1_val_2 (iota .scVector S16 32 [0] iota_S16_d0_w32_scVector) iota_val j x) hcol hb hV (tabOff_2 (F := Ideal) ((s1).view.readAt (Elt Ideal) (Rect.unit (s := S512) (k0_off7 k) S16.size (k0_off7_inb k)).toLoadRect (cIdx d L I)) (k0_pay23 (iota .scVector S16 32 [0] iota_S16_d0_w32_scVector) 0#32 1#32 j) x hrel (dv1_lt_2 (iota .scVector S16 32 [0] iota_S16_d0_w32_scVector) 0#32 1#32 j x))
      ((s3).view.readAt (Elt Ideal) (LoadRect.whole S64x128) (cH d L H 2)) ((s5).view.readAt (Elt Ideal) (LoadRect.whole S64x128) (cT d L T 2)) ((s0).view.readAt (Elt Ideal) (LoadRect.whole S64000) (cTab d L B))
      (Memref.readAt_whole (Elt Ideal) cc0_scratch3 (cH d L H 2)) (Memref.readAt_whole (Elt Ideal) cc0_scratch5 (cT d L T 2))
      (Memref.readAt_whole (Elt Ideal) cc0_scratch0 (cTab d L B)) (a1 x) e1
  · refine (k0_pay26_apply a2 _ _ _ x).trans ?_
    exact slot_step d L H I T B 2 k.val hk8 x 2 j.val (k0_pay25 (iota .scVector S16 32 [0] iota_S16_d0_w32_scVector) 0#32 1#32 j) (k0_pay47 (iota .scVector S16 32 [0] iota_S16_d0_w32_scVector) k) (addi (k0_pay48 ((s1).view.readAt (Elt Ideal) (Rect.unit (s := S512) (k0_off7 k) S16.size (k0_off7_inb k)).toLoadRect (cIdx d L I))) (k0_pay25 (iota .scVector S16 32 [0] iota_S16_d0_w32_scVector) 0#32 1#32 j)) ((s1).view.readAt (Elt Ideal) (Rect.unit (s := S512) (k0_off7 k) S16.size (k0_off7_inb k)).toLoadRect (cIdx d L I)) hA2 hT2
      (dv2_val_2 (iota .scVector S16 32 [0] iota_S16_d0_w32_scVector) iota_val j x) hcol hb hV (tabOff_2 (F := Ideal) ((s1).view.readAt (Elt Ideal) (Rect.unit (s := S512) (k0_off7 k) S16.size (k0_off7_inb k)).toLoadRect (cIdx d L I)) (k0_pay25 (iota .scVector S16 32 [0] iota_S16_d0_w32_scVector) 0#32 1#32 j) x hrel (dv2_lt_2 (iota .scVector S16 32 [0] iota_S16_d0_w32_scVector) 0#32 1#32 j x))
      ((s3).view.readAt (Elt Ideal) (LoadRect.whole S64x128) (cH d L H 2)) ((s5).view.readAt (Elt Ideal) (LoadRect.whole S64x128) (cT d L T 2)) ((s0).view.readAt (Elt Ideal) (LoadRect.whole S64000) (cTab d L B))
      (Memref.readAt_whole (Elt Ideal) cc0_scratch3 (cH d L H 2)) (Memref.readAt_whole (Elt Ideal) cc0_scratch5 (cT d L T 2))
      (Memref.readAt_whole (Elt Ideal) cc0_scratch0 (cTab d L B)) (a2 x) e2
  · refine (k0_pay51_apply a3 _ _ _ x).trans ?_
    exact slot_step d L H I T B 2 k.val hk8 x 3 j.val (k0_pay50 (iota .scVector S16 32 [0] iota_S16_d0_w32_scVector) (k0_pay27 0#32 1#32 j)) (k0_pay47 (iota .scVector S16 32 [0] iota_S16_d0_w32_scVector) k) (addi (k0_pay48 ((s1).view.readAt (Elt Ideal) (Rect.unit (s := S512) (k0_off7 k) S16.size (k0_off7_inb k)).toLoadRect (cIdx d L I))) (k0_pay50 (iota .scVector S16 32 [0] iota_S16_d0_w32_scVector) (k0_pay27 0#32 1#32 j))) ((s1).view.readAt (Elt Ideal) (Rect.unit (s := S512) (k0_off7 k) S16.size (k0_off7_inb k)).toLoadRect (cIdx d L I)) hA3 hT3
      (dv3_val_2 (iota .scVector S16 32 [0] iota_S16_d0_w32_scVector) iota_val j x) hcol hb hV (tabOff_2 (F := Ideal) ((s1).view.readAt (Elt Ideal) (Rect.unit (s := S512) (k0_off7 k) S16.size (k0_off7_inb k)).toLoadRect (cIdx d L I)) (k0_pay50 (iota .scVector S16 32 [0] iota_S16_d0_w32_scVector) (k0_pay27 0#32 1#32 j)) x hrel (dv3_lt_2 (iota .scVector S16 32 [0] iota_S16_d0_w32_scVector) (k0_pay27 0#32 1#32 j) x))
      ((s3).view.readAt (Elt Ideal) (LoadRect.whole S64x128) (cH d L H 2)) ((s5).view.readAt (Elt Ideal) (LoadRect.whole S64x128) (cT d L T 2)) ((s0).view.readAt (Elt Ideal) (LoadRect.whole S64000) (cTab d L B))
      (Memref.readAt_whole (Elt Ideal) cc0_scratch3 (cH d L H 2)) (Memref.readAt_whole (Elt Ideal) cc0_scratch5 (cT d L T 2))
      (Memref.readAt_whole (Elt Ideal) cc0_scratch0 (cTab d L B)) (a3 x) e3

theorem outStep2 : OutStep2 (F := Ideal) d L (AccI d L H I T B) (OutI d L H I T B) := by
  intro k f2 w0 w1 w2 w3 hout hacc
  have hk8 : k.val < 8 := Nat.lt_of_lt_of_le k.isLt (Nat.le_of_eq trips_k0_t5)
  exact out_step d L H I T B 2 k.val (16 + k.val) hk8 (by show 16 * (16 + k.val) = 128 * 2 + 16 * k.val; omega)
    f2 w0 w1 w2 w3 (k0_pay52 w0 w1 w2 w3) (k0_off8 k) (k0_off8_inb k) (by rw [k0_off8_eq]; show 16 * k.val + 256 = 16 * (16 + k.val); omega)
    (k0_pay52_apply w0 w1 w2 w3) hout hacc

/-! ## Column block 3 -/

theorem accInit3 : AccInit3 (F := Ideal) (AccI d L H I T B) := fun k => zero_vec d L H I T B _ (fun _ => rfl) 3 k

theorem accStep3 (hI : ∀ y : S16384.Idx, (I y).toNat < 1000) : AccStep3 (F := Ideal) d L H I T B (AccI d L H I T B) := by
  intro k j a0 a1 a2 a3 hA0 hT0 hA1 hT1 hA2 hT2 hA3 hT3 hacc hk8 x
  obtain ⟨e0, e1, e2, e3⟩ := hacc hk8 x
  have hx : (x 0).val < 16 := lane_lt x
  have hb : baseOf L + 128 * ((3 : Fin 4)).val + 16 * k.val + (x 0).val < 16384 := by
    have := baseOf_le L
    show baseOf L + 128 * 3 + 16 * k.val + (x 0).val < 16384
    omega
  have hV : ((s1).view.readAt (Elt Ideal) (Rect.unit (s := S512) (k0_off9 k) S16.size (k0_off9_inb k)).toLoadRect (cIdx d L I)) x = I (ix1 (⟨baseOf L + 128 * ((3 : Fin 4)).val + 16 * k.val + (x 0).val, hb⟩ : Fin 16384)) :=
    v54_val d L I (k0_off9 k) (k0_off9_inb k) x (16 * k.val + 384) _ (by rw [k0_off9_eq]; rfl) hb (by
      show baseOf L + 128 * 3 + 16 * k.val + (x 0).val = baseOf L + (16 * k.val + 384) + (x 0).val
      omega)
  have hrel : (((s1).view.readAt (Elt Ideal) (Rect.unit (s := S512) (k0_off9 k) S16.size (k0_off9_inb k)).toLoadRect (cIdx d L I)) x).toNat < 1000 := by
    rw [hV]; exact hI _
  have hcol : ((k0_pay1 (iota .scVector S16 32 [0] iota_S16_d0_w32_scVector) k) x).toNat = 16 * k.val + (x 0).val := col_3 (iota .scVector S16 32 [0] iota_S16_d0_w32_scVector) iota_val k x
  refine ⟨?_, ?_, ?_, ?_⟩
  · refine (k0_pay29_apply a0 _ _ _ x).trans ?_
    exact slot_step d L H I T B 3 k.val hk8 x 0 j.val (k0_pay28 (iota .scVector S16 32 [0] iota_S16_d0_w32_scVector) 0#32 1#32 j) (k0_pay1 (iota .scVector S16 32 [0] iota_S16_d0_w32_scVector) k) (addi (k0_pay2 ((s1).view.readAt (Elt Ideal) (Rect.unit (s := S512) (k0_off9 k) S16.size (k0_off9_inb k)).toLoadRect (cIdx d L I))) (k0_pay28 (iota .scVector S16 32 [0] iota_S16_d0_w32_scVector) 0#32 1#32 j)) ((s1).view.readAt (Elt Ideal) (Rect.unit (s := S512) (k0_off9 k) S16.size (k0_off9_inb k)).toLoadRect (cIdx d L I)) hA0 hT0
      (dv0_val_3 (iota .scVector S16 32 [0] iota_S16_d0_w32_scVector) iota_val j x) hcol hb hV (tabOff_3 (F := Ideal) ((s1).view.readAt (Elt Ideal) (Rect.unit (s := S512) (k0_off9 k) S16.size (k0_off9_inb k)).toLoadRect (cIdx d L I)) (k0_pay28 (iota .scVector S16 32 [0] iota_S16_d0_w32_scVector) 0#32 1#32 j) x hrel (dv0_lt_3 (iota .scVector S16 32 [0] iota_S16_d0_w32_scVector) 0#32 1#32 j x))
      ((s4).view.readAt (Elt Ideal) (LoadRect.whole S64x128) (cH d L H 3)) ((s6).view.readAt (Elt Ideal) (LoadRect.whole S64x128) (cT d L T 3)) ((s0).view.readAt (Elt Ideal) (LoadRect.whole S64000) (cTab d L B))
      (Memref.readAt_whole (Elt Ideal) cc0_scratch4 (cH d L H 3)) (Memref.readAt_whole (Elt Ideal) cc0_scratch6 (cT d L T 3))
      (Memref.readAt_whole (Elt Ideal) cc0_scratch0 (cTab d L B)) (a0 x) e0
  · refine (k0_pay31_apply a1 _ _ _ x).trans ?_
    exact slot_step d L H I T B 3 k.val hk8 x 1 j.val (k0_pay30 (iota .scVector S16 32 [0] iota_S16_d0_w32_scVector) 0#32 1#32 j) (k0_pay1 (iota .scVector S16 32 [0] iota_S16_d0_w32_scVector) k) (addi (k0_pay2 ((s1).view.readAt (Elt Ideal) (Rect.unit (s := S512) (k0_off9 k) S16.size (k0_off9_inb k)).toLoadRect (cIdx d L I))) (k0_pay30 (iota .scVector S16 32 [0] iota_S16_d0_w32_scVector) 0#32 1#32 j)) ((s1).view.readAt (Elt Ideal) (Rect.unit (s := S512) (k0_off9 k) S16.size (k0_off9_inb k)).toLoadRect (cIdx d L I)) hA1 hT1
      (dv1_val_3 (iota .scVector S16 32 [0] iota_S16_d0_w32_scVector) iota_val j x) hcol hb hV (tabOff_3 (F := Ideal) ((s1).view.readAt (Elt Ideal) (Rect.unit (s := S512) (k0_off9 k) S16.size (k0_off9_inb k)).toLoadRect (cIdx d L I)) (k0_pay30 (iota .scVector S16 32 [0] iota_S16_d0_w32_scVector) 0#32 1#32 j) x hrel (dv1_lt_3 (iota .scVector S16 32 [0] iota_S16_d0_w32_scVector) 0#32 1#32 j x))
      ((s4).view.readAt (Elt Ideal) (LoadRect.whole S64x128) (cH d L H 3)) ((s6).view.readAt (Elt Ideal) (LoadRect.whole S64x128) (cT d L T 3)) ((s0).view.readAt (Elt Ideal) (LoadRect.whole S64000) (cTab d L B))
      (Memref.readAt_whole (Elt Ideal) cc0_scratch4 (cH d L H 3)) (Memref.readAt_whole (Elt Ideal) cc0_scratch6 (cT d L T 3))
      (Memref.readAt_whole (Elt Ideal) cc0_scratch0 (cTab d L B)) (a1 x) e1
  · refine (k0_pay33_apply a2 _ _ _ x).trans ?_
    exact slot_step d L H I T B 3 k.val hk8 x 2 j.val (k0_pay32 (iota .scVector S16 32 [0] iota_S16_d0_w32_scVector) 0#32 1#32 j) (k0_pay1 (iota .scVector S16 32 [0] iota_S16_d0_w32_scVector) k) (addi (k0_pay2 ((s1).view.readAt (Elt Ideal) (Rect.unit (s := S512) (k0_off9 k) S16.size (k0_off9_inb k)).toLoadRect (cIdx d L I))) (k0_pay32 (iota .scVector S16 32 [0] iota_S16_d0_w32_scVector) 0#32 1#32 j)) ((s1).view.readAt (Elt Ideal) (Rect.unit (s := S512) (k0_off9 k) S16.size (k0_off9_inb k)).toLoadRect (cIdx d L I)) hA2 hT2
      (dv2_val_3 (iota .scVector S16 32 [0] iota_S16_d0_w32_scVector) iota_val j x) hcol hb hV (tabOff_3 (F := Ideal) ((s1).view.readAt (Elt Ideal) (Rect.unit (s := S512) (k0_off9 k) S16.size (k0_off9_inb k)).toLoadRect (cIdx d L I)) (k0_pay32 (iota .scVector S16 32 [0] iota_S16_d0_w32_scVector) 0#32 1#32 j) x hrel (dv2_lt_3 (iota .scVector S16 32 [0] iota_S16_d0_w32_scVector) 0#32 1#32 j x))
      ((s4).view.readAt (Elt Ideal) (LoadRect.whole S64x128) (cH d L H 3)) ((s6).view.readAt (Elt Ideal) (LoadRect.whole S64x128) (cT d L T 3)) ((s0).view.readAt (Elt Ideal) (LoadRect.whole S64000) (cTab d L B))
      (Memref.readAt_whole (Elt Ideal) cc0_scratch4 (cH d L H 3)) (Memref.readAt_whole (Elt Ideal) cc0_scratch6 (cT d L T 3))
      (Memref.readAt_whole (Elt Ideal) cc0_scratch0 (cTab d L B)) (a2 x) e2
  · refine (k0_pay5_apply a3 _ _ _ x).trans ?_
    exact slot_step d L H I T B 3 k.val hk8 x 3 j.val (k0_pay4 (iota .scVector S16 32 [0] iota_S16_d0_w32_scVector) (k0_pay34 0#32 1#32 j)) (k0_pay1 (iota .scVector S16 32 [0] iota_S16_d0_w32_scVector) k) (addi (k0_pay2 ((s1).view.readAt (Elt Ideal) (Rect.unit (s := S512) (k0_off9 k) S16.size (k0_off9_inb k)).toLoadRect (cIdx d L I))) (k0_pay4 (iota .scVector S16 32 [0] iota_S16_d0_w32_scVector) (k0_pay34 0#32 1#32 j))) ((s1).view.readAt (Elt Ideal) (Rect.unit (s := S512) (k0_off9 k) S16.size (k0_off9_inb k)).toLoadRect (cIdx d L I)) hA3 hT3
      (dv3_val_3 (iota .scVector S16 32 [0] iota_S16_d0_w32_scVector) iota_val j x) hcol hb hV (tabOff_3 (F := Ideal) ((s1).view.readAt (Elt Ideal) (Rect.unit (s := S512) (k0_off9 k) S16.size (k0_off9_inb k)).toLoadRect (cIdx d L I)) (k0_pay4 (iota .scVector S16 32 [0] iota_S16_d0_w32_scVector) (k0_pay34 0#32 1#32 j)) x hrel (dv3_lt_3 (iota .scVector S16 32 [0] iota_S16_d0_w32_scVector) (k0_pay34 0#32 1#32 j) x))
      ((s4).view.readAt (Elt Ideal) (LoadRect.whole S64x128) (cH d L H 3)) ((s6).view.readAt (Elt Ideal) (LoadRect.whole S64x128) (cT d L T 3)) ((s0).view.readAt (Elt Ideal) (LoadRect.whole S64000) (cTab d L B))
      (Memref.readAt_whole (Elt Ideal) cc0_scratch4 (cH d L H 3)) (Memref.readAt_whole (Elt Ideal) cc0_scratch6 (cT d L T 3))
      (Memref.readAt_whole (Elt Ideal) cc0_scratch0 (cTab d L B)) (a3 x) e3

theorem outStep3 : OutStep3 (F := Ideal) d L (AccI d L H I T B) (OutI d L H I T B) := by
  intro k f2 w0 w1 w2 w3 hout hacc
  have hk8 : k.val < 8 := Nat.lt_of_lt_of_le k.isLt (Nat.le_of_eq trips_k0_t7)
  exact out_step d L H I T B 3 k.val (24 + k.val) hk8 (by show 16 * (24 + k.val) = 128 * 3 + 16 * k.val; omega)
    f2 w0 w1 w2 w3 (k0_pay6 w0 w1 w2 w3) (k0_off10 k) (k0_off10_inb k) (by rw [k0_off10_eq]; show 16 * k.val + 384 = 16 * (24 + k.val); omega)
    (k0_pay6_apply w0 w1 w2 w3) hout hacc

/-! ## The finished score buffer copied out, and everything together -/

theorem outFinal (O₀ : Buf (Elt Ideal) (oLoc d)) : OutFinal (F := Ideal) d L H I T B (OutI d L H I T B) O₀ TileVI := by
  intro f2 hout p
  have hp : p.val < 16 * 32 := by have := p.isLt; omega
  have e : (ix1 (⟨baseOf L + p.val, baseOf_add_lt L p⟩ : Fin 16384) : S16384.Idx) = (oSl L).view.emb (ix1 p) :=
    funext fun a => Fin.ext (match a with
      | ⟨0, _⟩ => by
        show baseOf L + p.val = (k0_off1 L) 0 + 1 * p.val
        rw [k0_off1_eq]
        show baseOf L + p.val = 1024 * (L 1).val + 512 * (L 0).val + 1 * p.val
        unfold baseOf; omega)
  have h1 := View.read_writes_cons_emb (oSl L).view O₀ (Rect.whole S512) (ReadAs.same.apply ((s2).view.read (Elt Ideal) f2)) [] (ix1 p)
  rw [Rect.emb_whole_apply] at h1
  rw [← hout p hp]
  show ((oSl L).view.writes (Elt Ideal) O₀ [⟨Rect.whole S512, ReadAs.same.apply ((s2).view.read (Elt Ideal) f2)⟩])
    (ix1 (⟨baseOf L + p.val, baseOf_add_lt L p⟩ : Fin 16384)) = f2 (ix1 p)
  rw [e]
  exact h1

/-- At the ideal instance the two predicates are kept by every step of the body. -/
theorem closedI (O₀ : Buf (Elt Ideal) (oLoc d)) (hI : ∀ y : S16384.Idx, (I y).toNat < 1000) :
    Closed (F := Ideal) d L H I T B (AccI d L H I T B) (OutI d L H I T B) O₀ TileVI :=
  ⟨⟨accInit0 d L H I T B, accStep0 d L H I T B hI, outStep0 d L H I T B⟩,
   ⟨accInit1 d L H I T B, accStep1 d L H I T B hI, outStep1 d L H I T B⟩,
   ⟨accInit2 d L H I T B, accStep2 d L H I T B hI, outStep2 d L H I T B⟩,
   ⟨accInit3 d L H I T B, accStep3 d L H I T B hI, outStep3 d L H I T B⟩,
   outInit d L H I T B, outFinal d L H I T B O₀⟩

end Cert.KernelIdeal.Hand

end
-- ==== Proof.lean ====
/-
  The certificate's claim from its five parts: the frames of the two kernel programs and of the
  reference, the idealization (which rewrote nothing), and the algebraic claim — at the ideal values
  the kernel program and the reference both end with the logistic scores of the triple products
  Σ_d head[b,d] · table[rel[b],d] · tail[b,d], their arguments unchanged. The algebraic claim takes the
  conditions of one task's run from the step lemmas at the ideal values.
-/
import proofs.«205645_g18588618457683_cont_8to1_1834_20_alg».proof.Defs
import proofs.«205645_g18588618457683_cont_8to1_1834_20_alg».proof.Proof.Claims
import proofs.«205645_g18588618457683_cont_8to1_1834_20_alg».proof.Proof.IdealSteps

noncomputable section

namespace Cert.Proof

open Idealize.ShloMosaic Idealize.SL.Sem

open Cert.KernelIdeal.Hand in
theorem algebraic :
    Cert.algebraic_KernelIdeal_ReferenceIdeal (hKernelIdeal := Cert.KernelIdeal.Gen.facts) (hReferenceIdeal := Cert.ReferenceIdeal.Gen.facts)
      (hPre_input_domain := Cert.Pre_input_domain.Gen.facts) :=
  algebraic_of fun m hIc =>
    ⟨fun d L => AccI d L (Hc m d) (Ic m d) (Tc m d) (Bc m d), fun d L => OutI d L (Hc m d) (Ic m d) (Tc m d) (Bc m d),
      fun d L => closedI d L (Hc m d) (Ic m d) (Tc m d) (Bc m d) (Oc m d) (hIc d)⟩

theorem claim : Cert.Claim :=
  ⟨Cert.Kernel.Gen.facts, Cert.KernelIdeal.Gen.facts, Cert.ReferenceIdeal.Gen.facts, Cert.Pre_input_domain.Gen.facts,
    frame_Kernel, frame_KernelIdeal, frame_ReferenceIdeal, preserves, algebraic⟩

end Cert.Proof

end
